-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S2x800000 : Shape := ⟨2, ![2, 800000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S129x64 : S_.BroadcastsInDim S129x64 (![] : Fin 0 → Fin S129x64.rank)
  reducesTo_S129x64_S_d0_1 : S129x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg15 : FVec F S64x64 .f32) (main_arg16 : FVec F S64 .f32) (main_arg17 : FVec F S64x1 .f32) (main_arg18 : FVec F S1 .f32) (main_v63 : IVec S_ 1) (main_v67 : IVec S_ 1) : IVec S_ 1 :=
  let main_v68 : IVec S_ 1 := andi main_v63 main_v67
  let main_v69 : FVec F S64x64 .f32 := Host.absf main_arg15
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x1 .f32 := Host.absf main_arg17
  let main_cst_30 : FVec F S_ .f32 := constant S_ .f32 0x7F800000#32
  let main_v80 : FVec F S64x1 .f32 := broadcastInDim S64x1 ![] bcast_S_S64x1 main_cst_30
  let main_v81 : IVec S64x1 1 := cmpf .olt main_v79 main_v80
  let main_c_31 : IVec S_ 1 := constantI S_ 1 1#1
  let main_v82 : IVec S_ 1 := (fun x v => Host.reduce IntOp.andi x v reducesTo_S64x1_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_v83 main_v84 main_cst_32

def fn_part3 {F : FTy → Type} [FloatOps F] (main_arg12 : FVec F S64 .f32) (main_arg13 : FVec F S64 .f32) (main_arg14 : FVec F S64 .f32) (main_arg15 : FVec F S64x64 .f32) (main_arg16 : FVec F S64 .f32) (main_arg17 : FVec F S64x1 .f32) (main_arg18 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_v63 main_v67

def fn_part2 {F : FTy → Type} [FloatOps F] (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64x1 .f32) (main_arg18 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_arg18 main_v48 main_v49 main_v50

def fn_part1 {F : FTy → Type} [FloatOps F] (main_arg5 : FVec F S64x64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64x1 .f32) (main_arg18 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x64 .f32) (main_arg1 : FVec F S50000x3 .f32) (main_arg2 : IVec S2x800000 32) (main_arg3 : FVec F S129x64 .f32) (main_arg4 : FVec F S64 .f32) (main_arg5 : FVec F S64x64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64x1 .f32) (main_arg18 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S129x64 .f32 := Host.absf main_arg3
  let main_cst_2 : FVec F S_ .f32 := constant S_ .f32 0x7F800000#32
  let main_v10 : FVec F S129x64 .f32 := broadcastInDim S129x64 ![] bcast_S_S129x64 main_cst_2
  let main_v11 : IVec S129x64 1 := cmpf .olt main_v9 main_v10
  let main_c_3 : IVec S_ 1 := constantI S_ 1 1#1
  let main_v12 : IVec S_ 1 := (fun x v => Host.reduce IntOp.andi x v reducesTo_S129x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x64 : Shape := ⟨2, ![50000, 64]⟩
abbrev S50000x3 : Shape := ⟨2, ![50000, 3]⟩
abbrev S2x800000 : Shape := ⟨2, ![2, 800000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x3 : Shape := ⟨2, ![800000, 3]⟩
abbrev S1x64 : Shape := ⟨2, ![1, 64]⟩
abbrev S1x1 : Shape := ⟨2, ![1, 1]⟩
abbrev S800000x67 : Shape := ⟨2, ![800000, 67]⟩
abbrev S50000x67 : Shape := ⟨2, ![50000, 67]⟩
abbrev S4000x64 : Shape := ⟨2, ![4000, 64]⟩
abbrev S4000x3 : Shape := ⟨2, ![4000, 3]⟩
abbrev S4000x67 : Shape := ⟨2, ![4000, 67]⟩
abbrev S4000 : Shape := ⟨1, ![4000]⟩
abbrev S4000x1 : Shape := ⟨2, ![4000, 1]⟩
abbrev S5000x64 : Shape := ⟨2, ![5000, 64]⟩
abbrev S5000 : Shape := ⟨1, ![5000]⟩
abbrev S5000x1 : Shape := ⟨2, ![5000, 1]⟩

abbrev nBuf : Space → Nat
  | .hbm => 105
  | .vmem => 32
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x800000, .i32⟩
  | .hbm, ⟨3, _⟩ => ⟨S129x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x1, .f32⟩
  | .hbm, ⟨18, _⟩ => ⟨S1, .f32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S1x800000, .i32⟩
  | .hbm, ⟨30, _⟩ => ⟨S800000, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S50000x64, .bf16⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x64, .bf16⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .bf16⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x3, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x3, .f32⟩
  | .hbm, ⟨76, _⟩ => ⟨S800000x3, .f32⟩
  | .hbm, ⟨77, _⟩ => ⟨S64x64, .f32⟩
  | .hbm, ⟨78, _⟩ => ⟨S64x64, .bf16⟩
  | .hbm, ⟨79, _⟩ => ⟨S64x64, .f32⟩
  | .hbm, ⟨80, _⟩ => ⟨S64x64, .bf16⟩
  | .hbm, ⟨81, _⟩ => ⟨S1x64, .f32⟩
  | .hbm, ⟨82, _⟩ => ⟨S1x64, .f32⟩
  | .hbm, ⟨83, _⟩ => ⟨S64x64, .bf16⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S64x64, .bf16⟩
  | .hbm, ⟨88, _⟩ => ⟨S1x64, .f32⟩
  | .hbm, ⟨89, _⟩ => ⟨S64x1, .bf16⟩
  | .hbm, ⟨90, _⟩ => ⟨S1x1, .f32⟩
  | .hbm, ⟨91, _⟩ => ⟨S800000x67, .f32⟩
  | .hbm, ⟨92, _⟩ => ⟨S_, .f32⟩
  | .hbm, ⟨93, _⟩ => ⟨S50000x67, .f32⟩
  | .hbm, ⟨94, _⟩ => ⟨S800000x1, .i32⟩
  | .hbm, ⟨95, _⟩ => ⟨S50000x67, .f32⟩
  | .hbm, ⟨96, _⟩ => ⟨S50000x64, .f32⟩
  | .hbm, ⟨97, _⟩ => ⟨S50000x3, .f32⟩
  | .hbm, ⟨98, _⟩ => ⟨S64x64, .bf16⟩
  | .hbm, ⟨99, _⟩ => ⟨S1x64, .f32⟩
  | .hbm, ⟨100, _⟩ => ⟨S64x64, .bf16⟩
  | .hbm, ⟨101, _⟩ => ⟨S1x64, .f32⟩
  | .hbm, ⟨102, _⟩ => ⟨S1x64, .f32⟩
  | .hbm, ⟨103, _⟩ => ⟨S1x64, .f32⟩
  | .hbm, ⟨104, _⟩ => ⟨S50000x64, .f32⟩
  | .local _ .vmem, ⟨0, _⟩ => ⟨S4000x64, .bf16⟩
  | .local _ .vmem, ⟨1, _⟩ => ⟨S4000x64, .bf16⟩
  | .local _ .vmem, ⟨2, _⟩ => ⟨S4000x64, .bf16⟩
  | .local _ .vmem, ⟨3, _⟩ => ⟨S4000x64, .bf16⟩
  | .local _ .vmem, ⟨4, _⟩ => ⟨S4000x3, .f32⟩
  | .local _ .vmem, ⟨5, _⟩ => ⟨S4000x3, .f32⟩
  | .local _ .vmem, ⟨6, _⟩ => ⟨S64x64, .bf16⟩
  | .local _ .vmem, ⟨7, _⟩ => ⟨S64x64, .bf16⟩
  | .local _ .vmem, ⟨8, _⟩ => ⟨S1x64, .f32⟩
  | .local _ .vmem, ⟨9, _⟩ => ⟨S1x64, .f32⟩
  | .local _ .vmem, ⟨10, _⟩ => ⟨S64x64, .bf16⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S64x64, .bf16⟩
  | .local _ .vmem, ⟨15, _⟩ => ⟨S1x64, .f32⟩
  | .local _ .vmem, ⟨16, _⟩ => ⟨S64x1, .bf16⟩
  | .local _ .vmem, ⟨17, _⟩ => ⟨S1x1, .f32⟩
  | .local _ .vmem, ⟨18, _⟩ => ⟨S4000x67, .f32⟩
  | .local _ .vmem, ⟨19, _⟩ => ⟨S4000x67, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .bf16⟩
  | .local _ .vmem, ⟨25, _⟩ => ⟨S1x64, .f32⟩
  | .local _ .vmem, ⟨26, _⟩ => ⟨S64x64, .bf16⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_call0_v1 : Ref sig .tc := ⟨.hbm, 20, rfl⟩
abbrev main_call0_c : Ref sig .tc := ⟨.hbm, 21, rfl⟩
abbrev main_call0_c_0 : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_c_2 : Ref sig .tc := ⟨.hbm, 32, rfl⟩
abbrev main_call0_call1_v0 : Ref sig .tc := ⟨.hbm, 33, rfl⟩
abbrev main_call0_call1_v1 : Ref sig .tc := ⟨.hbm, 34, rfl⟩
abbrev main_call0_call1_v2 : Ref sig .tc := ⟨.hbm, 35, rfl⟩
abbrev main_call0_call1_v3 : Ref sig .tc := ⟨.hbm, 36, rfl⟩
abbrev main_call0_call1_v4 : Ref sig .tc := ⟨.hbm, 37, rfl⟩
abbrev main_call0_v5 : Ref sig .tc := ⟨.hbm, 38, rfl⟩
abbrev main_call0_v6 : Ref sig .tc := ⟨.hbm, 39, rfl⟩
abbrev main_call0_c_3 : Ref sig .tc := ⟨.hbm, 40, rfl⟩
abbrev main_call0_v7 : Ref sig .tc := ⟨.hbm, 41, rfl⟩
abbrev main_call0_v8 : Ref sig .tc := ⟨.hbm, 42, rfl⟩
abbrev main_call0_c_4 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_c_5 : Ref sig .tc := ⟨.hbm, 49, rfl⟩
abbrev main_call0_v14 : Ref sig .tc := ⟨.hbm, 50, rfl⟩
abbrev main_call0_v15 : Ref sig .tc := ⟨.hbm, 51, rfl⟩
abbrev main_call0_c_6 : Ref sig .tc := ⟨.hbm, 52, rfl⟩
abbrev main_call0_v16 : Ref sig .tc := ⟨.hbm, 53, rfl⟩
abbrev main_call0_v17 : Ref sig .tc := ⟨.hbm, 54, rfl⟩
abbrev main_call0_v18 : Ref sig .tc := ⟨.hbm, 55, rfl⟩
abbrev main_call0_v19 : Ref sig .tc := ⟨.hbm, 56, rfl⟩
abbrev main_call0_v20 : Ref sig .tc := ⟨.hbm, 57, rfl⟩
abbrev main_call0_c_7 : Ref sig .tc := ⟨.hbm, 58, rfl⟩
abbrev main_call0_v21 : Ref sig .tc := ⟨.hbm, 59, rfl⟩
abbrev main_call0_v22 : Ref sig .tc := ⟨.hbm, 60, rfl⟩
abbrev main_call0_c_8 : Ref sig .tc := ⟨.hbm, 61, rfl⟩
abbrev main_call0_v23 : Ref sig .tc := ⟨.hbm, 62, rfl⟩
abbrev main_call0_v24 : Ref sig .tc := ⟨.hbm, 63, rfl⟩
abbrev main_call0_v25 : Ref sig .tc := ⟨.hbm, 64, rfl⟩
abbrev main_call0_v26 : Ref sig .tc := ⟨.hbm, 65, rfl⟩
abbrev main_call0_v27 : Ref sig .tc := ⟨.hbm, 66, rfl⟩
abbrev main_call0_c_9 : Ref sig .tc := ⟨.hbm, 67, rfl⟩
abbrev main_call0_v28 : Ref sig .tc := ⟨.hbm, 68, rfl⟩
abbrev main_call0_v29 : Ref sig .tc := ⟨.hbm, 69, rfl⟩
abbrev main_call0_c_10 : Ref sig .tc := ⟨.hbm, 70, rfl⟩
abbrev main_call0_v30 : Ref sig .tc := ⟨.hbm, 71, rfl⟩
abbrev main_call0_v31 : Ref sig .tc := ⟨.hbm, 72, rfl⟩
abbrev main_call0_v32 : Ref sig .tc := ⟨.hbm, 73, rfl⟩
abbrev main_call0_v33 : Ref sig .tc := ⟨.hbm, 74, rfl⟩
abbrev main_call0_v34 : Ref sig .tc := ⟨.hbm, 75, rfl⟩
abbrev main_call0_v35 : Ref sig .tc := ⟨.hbm, 76, rfl⟩
abbrev main_call0_v36 : Ref sig .tc := ⟨.hbm, 77, rfl⟩
abbrev main_call0_v37 : Ref sig .tc := ⟨.hbm, 78, rfl⟩
abbrev main_call0_v38 : Ref sig .tc := ⟨.hbm, 79, rfl⟩
abbrev main_call0_v39 : Ref sig .tc := ⟨.hbm, 80, rfl⟩
abbrev main_call0_v40 : Ref sig .tc := ⟨.hbm, 81, rfl⟩
abbrev main_call0_v41 : Ref sig .tc := ⟨.hbm, 82, rfl⟩
abbrev main_call0_v42 : Ref sig .tc := ⟨.hbm, 83, rfl⟩
abbrev main_call0_v43 : Ref sig .tc := ⟨.hbm, 84, rfl⟩
abbrev main_call0_v44 : Ref sig .tc := ⟨.hbm, 85, rfl⟩
abbrev main_call0_v45 : Ref sig .tc := ⟨.hbm, 86, rfl⟩
abbrev main_call0_v46 : Ref sig .tc := ⟨.hbm, 87, rfl⟩
abbrev main_call0_v47 : Ref sig .tc := ⟨.hbm, 88, rfl⟩
abbrev main_call0_v48 : Ref sig .tc := ⟨.hbm, 89, rfl⟩
abbrev main_call0_v49 : Ref sig .tc := ⟨.hbm, 90, rfl⟩
abbrev main_call0_v50 : Ref sig .tc := ⟨.hbm, 91, rfl⟩
abbrev main_call0_cst : Ref sig .tc := ⟨.hbm, 92, rfl⟩
abbrev main_call0_v51 : Ref sig .tc := ⟨.hbm, 93, rfl⟩
abbrev main_call0_v52 : Ref sig .tc := ⟨.hbm, 94, rfl⟩
abbrev main_call0_v53 : Ref sig .tc := ⟨.hbm, 95, rfl⟩
abbrev main_call0_v54 : Ref sig .tc := ⟨.hbm, 96, rfl⟩
abbrev main_v0_1 : Ref sig .tc := ⟨.hbm, 97, rfl⟩
abbrev main_call0_v56 : Ref sig .tc := ⟨.hbm, 98, rfl⟩
abbrev main_call0_v57 : Ref sig .tc := ⟨.hbm, 99, rfl⟩
abbrev main_call0_v58 : Ref sig .tc := ⟨.hbm, 100, rfl⟩
abbrev main_call0_v59 : Ref sig .tc := ⟨.hbm, 101, rfl⟩
abbrev main_call0_v60 : Ref sig .tc := ⟨.hbm, 102, rfl⟩
abbrev main_call0_v61 : Ref sig .tc := ⟨.hbm, 103, rfl⟩
abbrev main_v0_0 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg8_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem8_1 : DmaSem sig := 31

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4000x67 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  slices_S2x800000_S1x800000_1_0 : S2x800000.Slices ![1, 0] S1x800000
  bitsLt_bf16_f32 : FTy.bits .bf16 < FTy.bits .f32
  bcast_S800000_S800000x1_0 : S800000.BroadcastsInDim S800000x1 (![0] : Fin 1 → Fin S800000x1.rank)
  slices_S129x64_S64x64_0_0 : S129x64.Slices ![0, 0] S64x64
  slices_S129x64_S64x64_64_0 : S129x64.Slices ![64, 0] S64x64
  slices_S129x64_S1x64_128_0 : S129x64.Slices ![128, 0] S1x64
  shapeCasts_S64_S1x64 : S64.ShapeCasts S1x64
  shapeCasts_S1_S1x1 : S1.ShapeCasts S1x1
  bcast_S_S50000x67 : S_.BroadcastsInDim S50000x67 (![] : Fin 0 → Fin S50000x67.rank)
  slices_S50000x67_S50000x64_0_0 : S50000x67.Slices ![0, 0] S50000x64
  slices_S50000x67_S50000x3_0_64 : S50000x67.Slices ![0, 64] S50000x3
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  reduces_S4000x3_S4000 : S4000x3.Reduces [1] S4000
  shapeCasts_S4000_S4000x1 : S4000.ShapeCasts S4000x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S4000x1_S4000x64 : S4000x1.Broadcasts S4000x64
  broadcasts_S1x64_S4000x64 : S1x64.Broadcasts S4000x64
  reduces_S4000x64_S4000 : S4000x64.Reduces [1] S4000
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  broadcasts_S4000x1_S4000x3 : S4000x1.Broadcasts S4000x3
  inb_S4000x67_S4000x64_0_0 : ∀ a, (![0, 0] : Fin 2 → Nat) a + S4000x64.size a ≤ S4000x67.size a
  inb_S4000x67_S4000x3_0_64 : ∀ a, (![0, 64] : Fin 2 → Nat) a + S4000x3.size a ≤ S4000x67.size a
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  scatter_S50000x67_S800000x1_S800000x67_1_0_0_1_wf : ScatterDims.WF S50000x67 S800000x1 S800000x67 [1] [0] [0] 1
  dot_S4000x64_S64x64_S4000x64_1_0_0_1_n_n_wf : DotDims.WF S4000x64 S64x64 S4000x64 [1] [0] [0] [1] [] []
  dot_S4000x64_S64x1_S4000x1_1_0_0_1_n_n_wf : DotDims.WF S4000x64 S64x1 S4000x1 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .bf16 = 32 ∨ (Rect.block (s := S800000x64) S4000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .bf16 = 32 ∨ (Rect.block (s := S800000x64) S4000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S800000x3.size a
  hwx0_2 : ∀ i : grid0.Coords, EltTy.bits .f32 = 32 ∨ (Rect.block (s := S800000x3) S4000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .bf16 = 32 ∨ (Rect.block (s := S64x64) S64x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x1.size a ≤ S64x1.size a
  hwx0_13 : ∀ i : grid0.Coords, EltTy.bits .bf16 = 32 ∨ (Rect.block (s := S64x1) S64x1.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4000x67.size a ≤ S800000x67.size a
  hwx0_15 : ∀ i : grid0.Coords, EltTy.bits .f32 = 32 ∨ (Rect.block (s := S800000x67) S4000x67.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .bf16 = 32 ∨ (Rect.block (s := S64x64) S64x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S50000x64.size a
  hwx1_8 : ∀ i : grid1.Coords, EltTy.bits .f32 = 32 ∨ (Rect.block (s := S50000x64) S5000x64.size (cc1_transform_8 i) (hinb1_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S50000x67_S800000x1_S800000x67_1_0_0_1 : ScatterDims S50000x67 S800000x1 S800000x67 where
  updateWindowDims := [1]
  insertedWindowDims := [0]
  scatterDimsToOperandDims := [0]
  indexVectorDim := 1
  wf := scatter_S50000x67_S800000x1_S800000x67_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_call0_v13) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v20) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v35) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v37) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v39) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v40) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v41) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v42) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v43) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v44) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v45) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v46) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v47) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v48) S64x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_call0_v49) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_call0_v50) S4000x67.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v54) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v56) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v57) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v58) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v59) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v60) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v61) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v0_0) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S2x800000 : Shape := ⟨2, ![2, 800000]⟩
abbrev S129x64 : Shape := ⟨2, ![129, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x64 : Shape := ⟨2, ![800000, 64]⟩
abbrev S800000x129 : Shape := ⟨2, ![800000, 129]⟩
abbrev S1x64 : Shape := ⟨2, ![1, 64]⟩
abbrev S50000 : Shape := ⟨1, ![50000]⟩
abbrev S50000x1 : Shape := ⟨2, ![50000, 1]⟩
abbrev S1x1 : Shape := ⟨2, ![1, 1]⟩

abbrev nBuf : Space → Nat
  | .hbm => 236
  | .vmem => 0
  | .smem => 0
  | _ => 0

abbrev hbmTy0_0 (i : Nat) : BufTy := match i % 128 with
  | 0 => ⟨S50000x64, .f32⟩
  | 1 => ⟨S50000x3, .f32⟩
  | 2 => ⟨S2x800000, .i32⟩
  | 3 => ⟨S129x64, .f32⟩
  | 4 => ⟨S64, .f32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64x1, .f32⟩
  | 18 => ⟨S1, .f32⟩
  | 19 => ⟨S1x800000, .i32⟩
  | 20 => ⟨S800000, .i32⟩
  | 21 => ⟨S_, .i32⟩
  | 22 => ⟨S_, .i32⟩
  | 23 => ⟨S_, .i32⟩
  | 24 => ⟨S800000, .i32⟩
  | 25 => ⟨S800000, .i32⟩
  | 26 => ⟨S_, .i32⟩
  | 27 => ⟨S800000, .i32⟩
  | 28 => ⟨S800000, .i32⟩
  | 29 => ⟨S1x800000, .i32⟩
  | 30 => ⟨S800000, .i32⟩
  | 31 => ⟨S_, .i32⟩
  | 32 => ⟨S_, .i32⟩
  | 33 => ⟨S_, .i32⟩
  | 34 => ⟨S800000, .i32⟩
  | 35 => ⟨S800000, .i32⟩
  | 36 => ⟨S_, .i32⟩
  | 37 => ⟨S800000, .i32⟩
  | 38 => ⟨S800000, .i32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x3, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x3, .f32⟩
  | 57 => ⟨S800000x3, .f32⟩
  | 58 => ⟨S_, .f32⟩
  | 59 => ⟨S800000x3, .f32⟩
  | 60 => ⟨S800000x3, .f32⟩
  | 61 => ⟨S800000x3, .f32⟩
  | 62 => ⟨S_, .f32⟩
  | 63 => ⟨S800000, .f32⟩
  | 64 => ⟨S800000x1, .f32⟩
  | 65 => ⟨S800000x1, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x64, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x64, .f32⟩
  | 84 => ⟨S800000x129, .f32⟩
  | 85 => ⟨S800000x64, .f32⟩
  | 86 => ⟨S1x64, .f32⟩
  | 87 => ⟨S800000x64, .f32⟩
  | 88 => ⟨S800000x64, .f32⟩
  | 89 => ⟨S800000x64, .f32⟩
  | 90 => ⟨S800000x64, .f32⟩
  | 91 => ⟨S_, .f32⟩
  | 92 => ⟨S800000x64, .f32⟩
  | 93 => ⟨S800000x64, .f32⟩
  | 94 => ⟨S_, .f32⟩
  | 95 => ⟨S800000x64, .f32⟩
  | 96 => ⟨S800000x64, .f32⟩
  | 97 => ⟨S800000x64, .f32⟩
  | 98 => ⟨S800000x64, .f32⟩
  | 99 => ⟨S1x64, .f32⟩
  | 100 => ⟨S800000x64, .f32⟩
  | 101 => ⟨S800000x64, .f32⟩
  | 102 => ⟨S_, .f32⟩
  | 103 => ⟨S800000, .f32⟩
  | 104 => ⟨S800000x1, .f32⟩
  | 105 => ⟨S_, .f32⟩
  | 106 => ⟨S800000x1, .f32⟩
  | 107 => ⟨S800000x1, .f32⟩
  | 108 => ⟨S_, .i32⟩
  | 109 => ⟨S_, .f32⟩
  | 110 => ⟨S800000, .f32⟩
  | 111 => ⟨S800000x1, .f32⟩
  | 112 => ⟨S_, .f32⟩
  | 113 => ⟨S800000x1, .f32⟩
  | 114 => ⟨S800000x1, .f32⟩
  | 115 => ⟨S800000x64, .f32⟩
  | 116 => ⟨S800000x64, .f32⟩
  | 117 => ⟨S800000x64, .f32⟩
  | 118 => ⟨S_, .f32⟩
  | 119 => ⟨S_, .f32⟩
  | 120 => ⟨S_, .f32⟩
  | 121 => ⟨S_, .f32⟩
  | 122 => ⟨S800000, .f32⟩
  | 123 => ⟨S800000x1, .f32⟩
  | 124 => ⟨S800000x1, .f32⟩
  | 125 => ⟨S800000x1, .f32⟩
  | 126 => ⟨S_, .f32⟩
  | 127 => ⟨S_, .i1⟩
  | _ => ⟨S50000x64, .f32⟩

abbrev hbmTy0_1 (i : Nat) : BufTy := match i % 128 with
  | 0 => ⟨S_, .f32⟩
  | 1 => ⟨S_, .f32⟩
  | 2 => ⟨S800000x1, .f32⟩
  | 3 => ⟨S800000x1, .f32⟩
  | 4 => ⟨S800000x64, .f32⟩
  | 5 => ⟨S800000x64, .f32⟩
  | 6 => ⟨S_, .f32⟩
  | 7 => ⟨S800000x1, .f32⟩
  | 8 => ⟨S800000x1, .f32⟩
  | 9 => ⟨S800000x1, .f32⟩
  | 10 => ⟨S800000x64, .f32⟩
  | 11 => ⟨S800000x64, .f32⟩
  | 12 => ⟨S1x64, .f32⟩
  | 13 => ⟨S800000x64, .f32⟩
  | 14 => ⟨S800000x64, .f32⟩
  | 15 => ⟨S1x64, .f32⟩
  | 16 => ⟨S800000x64, .f32⟩
  | 17 => ⟨S800000x64, .f32⟩
  | 18 => ⟨S_, .f32⟩
  | 19 => ⟨S50000x64, .f32⟩
  | 20 => ⟨S800000x1, .i32⟩
  | 21 => ⟨S50000x64, .f32⟩
  | 22 => ⟨S50000x64, .f32⟩
  | 23 => ⟨S50000x64, .f32⟩
  | 24 => ⟨S1x64, .f32⟩
  | 25 => ⟨S50000x64, .f32⟩
  | 26 => ⟨S50000x64, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S_, .f32⟩
  | 33 => ⟨S50000x64, .f32⟩
  | 34 => ⟨S50000x64, .f32⟩
  | 35 => ⟨S50000x64, .f32⟩
  | 36 => ⟨S50000x64, .f32⟩
  | 37 => ⟨S1x64, .f32⟩
  | 38 => ⟨S50000x64, .f32⟩
  | 39 => ⟨S50000x64, .f32⟩
  | 40 => ⟨S_, .f32⟩
  | 41 => ⟨S50000, .f32⟩
  | 42 => ⟨S50000x1, .f32⟩
  | 43 => ⟨S_, .f32⟩
  | 44 => ⟨S50000x1, .f32⟩
  | 45 => ⟨S50000x1, .f32⟩
  | 46 => ⟨S_, .i32⟩
  | 47 => ⟨S_, .f32⟩
  | 48 => ⟨S50000, .f32⟩
  | 49 => ⟨S50000x1, .f32⟩
  | 50 => ⟨S_, .f32⟩
  | 51 => ⟨S50000x1, .f32⟩
  | 52 => ⟨S50000x1, .f32⟩
  | 53 => ⟨S50000x64, .f32⟩
  | 54 => ⟨S50000x64, .f32⟩
  | 55 => ⟨S50000x64, .f32⟩
  | 56 => ⟨S_, .f32⟩
  | 57 => ⟨S_, .f32⟩
  | 58 => ⟨S_, .f32⟩
  | 59 => ⟨S_, .f32⟩
  | 60 => ⟨S50000, .f32⟩
  | 61 => ⟨S50000x1, .f32⟩
  | 62 => ⟨S50000x1, .f32⟩
  | 63 => ⟨S50000x1, .f32⟩
  | 64 => ⟨S_, .f32⟩
  | 65 => ⟨S_, .i1⟩
  | 66 => ⟨S_, .f32⟩
  | 67 => ⟨S_, .f32⟩
  | 68 => ⟨S50000x1, .f32⟩
  | 69 => ⟨S50000x1, .f32⟩
  | 70 => ⟨S50000x64, .f32⟩
  | 71 => ⟨S50000x64, .f32⟩
  | 72 => ⟨S_, .f32⟩
  | 73 => ⟨S50000x1, .f32⟩
  | 74 => ⟨S50000x1, .f32⟩
  | 75 => ⟨S50000x1, .f32⟩
  | 76 => ⟨S50000x64, .f32⟩
  | 77 => ⟨S50000x64, .f32⟩
  | 78 => ⟨S1x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | 84 => ⟨S800000x64, .f32⟩
  | 85 => ⟨S1x64, .f32⟩
  | 86 => ⟨S800000x64, .f32⟩
  | 87 => ⟨S800000x64, .f32⟩
  | 88 => ⟨S800000x64, .f32⟩
  | 89 => ⟨S800000x64, .f32⟩
  | 90 => ⟨S_, .f32⟩
  | 91 => ⟨S800000x64, .f32⟩
  | 92 => ⟨S800000x64, .f32⟩
  | 93 => ⟨S_, .f32⟩
  | 94 => ⟨S800000x64, .f32⟩
  | 95 => ⟨S800000x64, .f32⟩
  | 96 => ⟨S800000x64, .f32⟩
  | 97 => ⟨S800000x1, .f32⟩
  | 98 => ⟨S1x1, .f32⟩
  | 99 => ⟨S800000x1, .f32⟩
  | 100 => ⟨S800000x1, .f32⟩
  | 101 => ⟨S800000x1, .f32⟩
  | 102 => ⟨S800000x3, .f32⟩
  | 103 => ⟨S800000x3, .f32⟩
  | 104 => ⟨S_, .f32⟩
  | 105 => ⟨S50000x3, .f32⟩
  | 106 => ⟨S800000x1, .i32⟩
  | 107 => ⟨S50000x3, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_c_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_c_2 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v5 : Ref sig .tc := ⟨.hbm, 38, rfl⟩
abbrev main_c_3 : Ref sig .tc := ⟨.hbm, 39, rfl⟩
abbrev main_v6 : Ref sig .tc := ⟨.hbm, 40, rfl⟩
abbrev main_v7 : Ref sig .tc := ⟨.hbm, 41, rfl⟩
abbrev main_c_4 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_c_5 : Ref sig .tc := ⟨.hbm, 48, rfl⟩
abbrev main_v13 : Ref sig .tc := ⟨.hbm, 49, rfl⟩
abbrev main_v14 : Ref sig .tc := ⟨.hbm, 50, rfl⟩
abbrev main_c_6 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst : Ref sig .tc := ⟨.hbm, 58, rfl⟩
abbrev main_v21 : Ref sig .tc := ⟨.hbm, 59, rfl⟩
abbrev main_v22 : Ref sig .tc := ⟨.hbm, 60, rfl⟩
abbrev main_call2_v0 : Ref sig .tc := ⟨.hbm, 61, rfl⟩
abbrev main_call2_cst : Ref sig .tc := ⟨.hbm, 62, rfl⟩
abbrev main_call2_v1 : Ref sig .tc := ⟨.hbm, 63, rfl⟩
abbrev main_call2_v2 : Ref sig .tc := ⟨.hbm, 64, rfl⟩
abbrev main_v23 : Ref sig .tc := ⟨.hbm, 65, rfl⟩
abbrev main_c_7 : Ref sig .tc := ⟨.hbm, 66, rfl⟩
abbrev main_v24 : Ref sig .tc := ⟨.hbm, 67, rfl⟩
abbrev main_v25 : Ref sig .tc := ⟨.hbm, 68, rfl⟩
abbrev main_c_8 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_c_9 : Ref sig .tc := ⟨.hbm, 75, rfl⟩
abbrev main_v31 : Ref sig .tc := ⟨.hbm, 76, rfl⟩
abbrev main_v32 : Ref sig .tc := ⟨.hbm, 77, rfl⟩
abbrev main_c_10 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_call3_v0 : Ref sig .tc := ⟨.hbm, 89, rfl⟩
abbrev main_call3_v1 : Ref sig .tc := ⟨.hbm, 90, rfl⟩
abbrev main_call3_cst : Ref sig .tc := ⟨.hbm, 91, rfl⟩
abbrev main_call3_v2 : Ref sig .tc := ⟨.hbm, 92, rfl⟩
abbrev main_call3_v3 : Ref sig .tc := ⟨.hbm, 93, rfl⟩
abbrev main_call3_cst_0 : Ref sig .tc := ⟨.hbm, 94, rfl⟩
abbrev main_call3_v4 : Ref sig .tc := ⟨.hbm, 95, rfl⟩
abbrev main_call3_v5 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_cst_11 : Ref sig .tc := ⟨.hbm, 102, rfl⟩
abbrev main_v48 : Ref sig .tc := ⟨.hbm, 103, rfl⟩
abbrev main_v49 : Ref sig .tc := ⟨.hbm, 104, rfl⟩
abbrev main_cst_12 : Ref sig .tc := ⟨.hbm, 105, rfl⟩
abbrev main_v50 : Ref sig .tc := ⟨.hbm, 106, rfl⟩
abbrev main_v51 : Ref sig .tc := ⟨.hbm, 107, rfl⟩
abbrev main_c_13 : Ref sig .tc := ⟨.hbm, 108, rfl⟩
abbrev main_call4_cst : Ref sig .tc := ⟨.hbm, 109, rfl⟩
abbrev main_call4_v0 : Ref sig .tc := ⟨.hbm, 110, rfl⟩
abbrev main_call4_v1 : Ref sig .tc := ⟨.hbm, 111, rfl⟩
abbrev main_call4_cst_0 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_call4_v5 : Ref sig .tc := ⟨.hbm, 116, rfl⟩
abbrev main_call4_v6 : Ref sig .tc := ⟨.hbm, 117, rfl⟩
abbrev main_call4_v7 : Ref sig .tc := ⟨.hbm, 118, rfl⟩
abbrev main_call4_cst_1 : Ref sig .tc := ⟨.hbm, 119, rfl⟩
abbrev main_call4_v8 : Ref sig .tc := ⟨.hbm, 120, rfl⟩
abbrev main_call4_cst_2 : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_call4_v12 : Ref sig .tc := ⟨.hbm, 125, rfl⟩
abbrev main_call4_cst_3 : Ref sig .tc := ⟨.hbm, 126, rfl⟩
abbrev main_call4_v13 : Ref sig .tc := ⟨.hbm, 127, rfl⟩
abbrev main_call4_cst_4 : Ref sig .tc := ⟨.hbm, 128, rfl⟩
abbrev main_call4_call0_v0 : Ref sig .tc := ⟨.hbm, 129, rfl⟩
abbrev main_call4_call0_v1 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_cst_14 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_cst_15 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_call5_v0 : Ref sig .tc := ⟨.hbm, 155, rfl⟩
abbrev main_call5_v1 : Ref sig .tc := ⟨.hbm, 156, rfl⟩
abbrev main_call5_cst : Ref sig .tc := ⟨.hbm, 157, rfl⟩
abbrev main_call5_v2 : Ref sig .tc := ⟨.hbm, 158, rfl⟩
abbrev main_call5_v3 : Ref sig .tc := ⟨.hbm, 159, rfl⟩
abbrev main_call5_cst_0 : Ref sig .tc := ⟨.hbm, 160, rfl⟩
abbrev main_call5_v4 : Ref sig .tc := ⟨.hbm, 161, rfl⟩
abbrev main_call5_v5 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_cst_16 : Ref sig .tc := ⟨.hbm, 168, rfl⟩
abbrev main_v79 : Ref sig .tc := ⟨.hbm, 169, rfl⟩
abbrev main_v80 : Ref sig .tc := ⟨.hbm, 170, rfl⟩
abbrev main_cst_17 : Ref sig .tc := ⟨.hbm, 171, rfl⟩
abbrev main_v81 : Ref sig .tc := ⟨.hbm, 172, rfl⟩
abbrev main_v82 : Ref sig .tc := ⟨.hbm, 173, rfl⟩
abbrev main_c_18 : Ref sig .tc := ⟨.hbm, 174, rfl⟩
abbrev main_call6_cst : Ref sig .tc := ⟨.hbm, 175, rfl⟩
abbrev main_call6_v0 : Ref sig .tc := ⟨.hbm, 176, rfl⟩
abbrev main_call6_v1 : Ref sig .tc := ⟨.hbm, 177, rfl⟩
abbrev main_call6_cst_0 : Ref sig .tc := ⟨.hbm, 178, rfl⟩
abbrev main_call6_v2 : Ref sig .tc := ⟨.hbm, 179, rfl⟩
abbrev main_call6_v3 : Ref sig .tc := ⟨.hbm, 180, rfl⟩
abbrev main_call6_v4 : Ref sig .tc := ⟨.hbm, 181, rfl⟩
abbrev main_call6_v5 : Ref sig .tc := ⟨.hbm, 182, rfl⟩
abbrev main_call6_v6 : Ref sig .tc := ⟨.hbm, 183, rfl⟩
abbrev main_call6_v7 : Ref sig .tc := ⟨.hbm, 184, rfl⟩
abbrev main_call6_cst_1 : Ref sig .tc := ⟨.hbm, 185, rfl⟩
abbrev main_call6_v8 : Ref sig .tc := ⟨.hbm, 186, rfl⟩
abbrev main_call6_cst_2 : Ref sig .tc := ⟨.hbm, 187, rfl⟩
abbrev main_call6_v9 : Ref sig .tc := ⟨.hbm, 188, rfl⟩
abbrev main_call6_v10 : Ref sig .tc := ⟨.hbm, 189, rfl⟩
abbrev main_call6_v11 : Ref sig .tc := ⟨.hbm, 190, rfl⟩
abbrev main_call6_v12 : Ref sig .tc := ⟨.hbm, 191, rfl⟩
abbrev main_call6_cst_3 : Ref sig .tc := ⟨.hbm, 192, rfl⟩
abbrev main_call6_v13 : Ref sig .tc := ⟨.hbm, 193, rfl⟩
abbrev main_call6_cst_4 : Ref sig .tc := ⟨.hbm, 194, rfl⟩
abbrev main_call6_call0_v0 : Ref sig .tc := ⟨.hbm, 195, rfl⟩
abbrev main_call6_call0_v1 : Ref sig .tc := ⟨.hbm, 196, rfl⟩
abbrev main_v83 : Ref sig .tc := ⟨.hbm, 197, rfl⟩
abbrev main_v84 : Ref sig .tc := ⟨.hbm, 198, rfl⟩
abbrev main_v85 : Ref sig .tc := ⟨.hbm, 199, rfl⟩
abbrev main_cst_19 : Ref sig .tc := ⟨.hbm, 200, rfl⟩
abbrev main_v86 : Ref sig .tc := ⟨.hbm, 201, rfl⟩
abbrev main_v87 : Ref sig .tc := ⟨.hbm, 202, rfl⟩
abbrev main_v88 : Ref sig .tc := ⟨.hbm, 203, rfl⟩
abbrev main_v89 : Ref sig .tc := ⟨.hbm, 204, rfl⟩
abbrev main_v90 : Ref sig .tc := ⟨.hbm, 205, rfl⟩
abbrev main_v91 : Ref sig .tc := ⟨.hbm, 206, rfl⟩
abbrev main_v92 : Ref sig .tc := ⟨.hbm, 207, rfl⟩
abbrev main_v93 : Ref sig .tc := ⟨.hbm, 208, rfl⟩
abbrev main_v94 : Ref sig .tc := ⟨.hbm, 209, rfl⟩
abbrev main_v95 : Ref sig .tc := ⟨.hbm, 210, rfl⟩
abbrev main_v96 : Ref sig .tc := ⟨.hbm, 211, rfl⟩
abbrev main_v97 : Ref sig .tc := ⟨.hbm, 212, rfl⟩
abbrev main_v98 : Ref sig .tc := ⟨.hbm, 213, rfl⟩
abbrev main_v99 : Ref sig .tc := ⟨.hbm, 214, rfl⟩
abbrev main_v100 : Ref sig .tc := ⟨.hbm, 215, rfl⟩
abbrev main_call7_v0 : Ref sig .tc := ⟨.hbm, 216, rfl⟩
abbrev main_call7_v1 : Ref sig .tc := ⟨.hbm, 217, rfl⟩
abbrev main_call7_cst : Ref sig .tc := ⟨.hbm, 218, rfl⟩
abbrev main_call7_v2 : Ref sig .tc := ⟨.hbm, 219, rfl⟩
abbrev main_call7_v3 : Ref sig .tc := ⟨.hbm, 220, rfl⟩
abbrev main_call7_cst_0 : Ref sig .tc := ⟨.hbm, 221, rfl⟩
abbrev main_call7_v4 : Ref sig .tc := ⟨.hbm, 222, rfl⟩
abbrev main_call7_v5 : Ref sig .tc := ⟨.hbm, 223, rfl⟩
abbrev main_v101 : Ref sig .tc := ⟨.hbm, 224, rfl⟩
abbrev main_v102 : Ref sig .tc := ⟨.hbm, 225, rfl⟩
abbrev main_v103 : Ref sig .tc := ⟨.hbm, 226, rfl⟩
abbrev main_v104 : Ref sig .tc := ⟨.hbm, 227, rfl⟩
abbrev main_v105 : Ref sig .tc := ⟨.hbm, 228, rfl⟩
abbrev main_v106 : Ref sig .tc := ⟨.hbm, 229, rfl⟩
abbrev main_v107 : Ref sig .tc := ⟨.hbm, 230, rfl⟩
abbrev main_v108 : Ref sig .tc := ⟨.hbm, 231, rfl⟩
abbrev main_cst_20 : Ref sig .tc := ⟨.hbm, 232, rfl⟩
abbrev main_v109 : Ref sig .tc := ⟨.hbm, 233, rfl⟩
abbrev main_v110 : Ref sig .tc := ⟨.hbm, 234, rfl⟩
abbrev main_v111 : Ref sig .tc := ⟨.hbm, 235, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  slices_S2x800000_S1x800000_1_0 : S2x800000.Slices ![1, 0] S1x800000
  bcast_S800000_S800000x1_0 : S800000.BroadcastsInDim S800000x1 (![0] : Fin 1 → Fin S800000x1.rank)
  bcast_S_S800000x3 : S_.BroadcastsInDim S800000x3 (![] : Fin 0 → Fin S800000x3.rank)
  reducesTo_S800000x3_S800000_d1 : S800000x3.ReducesTo [1] S800000
  h_S_ : 0 < S_.numel
  concatenates_S800000x64_S800000x64_S800000x1_S800000x129_d1 : Shape.Concatenates [S800000x64, S800000x64, S800000x1] S800000x129 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  reducesTo_S800000x64_S800000_d1 : S800000x64.ReducesTo [1] S800000
  bcast_S_S800000x1 : S_.BroadcastsInDim S800000x1 (![] : Fin 0 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  gather_S50000x3_S800000x1_S800000x3_1_0_n_n_0_1_13_wf : GatherDims.WF S50000x3 S800000x1 S800000x3 [1] [0] [] [0] [] 1 ![1, 3]
  gather_S50000x64_S800000x1_S800000x64_1_0_n_n_0_1_164_wf : GatherDims.WF S50000x64 S800000x1 S800000x64 [1] [0] [] [0] [] 1 ![1, 64]
  dot_S800000x129_S129x64_S800000x64_1_0_0_1_n_n_wf : DotDims.WF S800000x129 S129x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S800000x64_S64x1_S800000x1_1_0_0_1_n_n_wf : DotDims.WF S800000x64 S64x1 S800000x1 [1] [0] [0] [1] [] []
  scatter_S50000x3_S800000x1_S800000x3_1_0_0_1_wf : ScatterDims.WF S50000x3 S800000x1 S800000x3 [1] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x129_S129x64_S800000x64_1_0_0_1_n_n : DotDims S800000x129 S129x64 S800000x64 where
  lhsContracting := [1]
  rhsContracting := [0]
  lhsNonContracting := [0]
  rhsNonContracting := [1]
  lhsBatch := []
  rhsBatch := []
  wf := dot_S800000x129_S129x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.KRun.lean ====
/-
  The idealized kernel program's run with every buffer named at its end: every weakly fair execution of the whole
  program — the host operations before the first kernel region, the edge region, the host operations between the
  regions, the node region — terminates without a fault, and every buffer that outlives the run holds, at the end,
  the contents the last segment boundary names. From that one statement the two results are read: the updated node
  features are the node region's output array after all its grid points have written back, and the coordinate updates
  are what the host operations between the regions leave (the node region does not touch them).
-/
import proofs.«138794_j50809463111709_2_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and at the end every buffer that is not
    scoped to a region holds the contents of the last segment boundary. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.KValue

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«138794_j50809463111709_2_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibLayers.lean ====
/-
  The layers of a graph autoencoder as functions of whole matrices over the extended reals, entry by entry.

  Three primitives build every layer: the matrix product (entry (p, q) is the sum over k of a (p, k) · w (k, q)), the clamp
  below at zero (entry by entry the larger of the entry and the value of the all-zero float word), and the addition of a
  one-row matrix to every row. A graph-convolution layer is `clamp (adj · s)`; a dense layer is `a · w + row`.

  Each primitive has two spellings that denote it: a vector unit's (a product accumulated into zeros, whatever format its
  operands were narrowed to, since narrowing is the identity on exact values; a maximum against a splat zero; a row repeated
  down the rows) and a host's (a contraction of the second axis with the first; a maximum against a broadcast scalar zero; a
  vector broadcast to one row and then down the rows).

  A band of T consecutive rows of a layer's output is the same layer applied to that band of rows of its left operand:
  the product, the clamp and the row addition all act row by row. This is what lets a kernel that walks a matrix in bands
  of rows be read as one function of the whole matrix.
-/
import proofs.«138794_j50809463111709_2_alg».proof.Proof.LibMatProd

noncomputable section

namespace Cert.Layers

open Idealize.ShloMosaic Idealize.ShloMosaic.ValueIdx Cert.LibPlainDot Cert.LibMatProd

/-- A matrix of extended reals with M rows and N columns. -/
abbrev Mat (M N : ℕ) : Type := (⟨2, ![M, N]⟩ : Shape).Idx → EReal

/-- Entry by entry, the larger of the entry and the value of the all-zero float word. -/
def clamp {M N : ℕ} (a : Mat M N) : Mat M N := fun i => max (a i) (Ideal.ofBits .f32 0x00000000#32)

/-- A one-row matrix added to every row: entry (p, q) is a (p, q) + row (0, q). -/
def addRow {M N : ℕ} (a : Mat M N) (row : Mat 1 N) : Mat M N := fun i => a i + row (ix2 (0 : Fin 1) (i 1))

/-- A dense layer: a · w, plus the one-row matrix on every row. -/
def dense {M K N : ℕ} (a : Mat M K) (w : Mat K N) (row : Mat 1 N) : Mat M N := addRow (matProd a w) row

/-- A graph-convolution layer: the aggregation adj · s clamped below at zero. -/
def conv {M K N : ℕ} (adj : Mat M K) (s : Mat K N) : Mat M N := clamp (matProd adj s)

/-- The decoder: three dense layers, the first two clamped below at zero. -/
def decoder {M A B C D : ℕ} (z : Mat M A) (w1 : Mat A B) (b1 : Mat 1 B) (w2 : Mat B C) (b2 : Mat 1 C) (w3 : Mat C D) (b3 : Mat 1 D) :
    Mat M D :=
  dense (clamp (dense (clamp (dense z w1 b1)) w2 b2)) w3 b3

/-! ## A vector unit's spellings -/

/-- A matrix unit's product accumulated into zeros is the matrix product, whatever the operands' formats. -/
theorem unit_prod {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a : FVec Ideal ⟨2, ![M, K]⟩ φ₁) (w : FVec Ideal ⟨2, ![K, N]⟩ φ₂) :
    matmul d none a w (constant ⟨2, ![M, N]⟩ .f32 0x00000000#32) = matProd (a : Mat M K) (w : Mat K N) := by
  funext j
  obtain ⟨p, q, rfl⟩ : ∃ (p : Fin M) (q : Fin N), j = ix2 p q := ⟨j 0, j 1, eq_ix2 j⟩
  rw [matProd_apply]
  refine (Ideal.matmul_constant_zero_apply d none a w (ix2 p q)).trans ?_
  exact plain_sum d h1 h2 h3 h4 h5 h6 a w p q

/-- A maximum against the splat of the zero word is the clamp. -/
theorem unit_clamp {M N : ℕ} (a : FVec Ideal ⟨2, ![M, N]⟩ .f32) :
    maximumf a (broadcast ⟨2, ![M, N]⟩ (Scalar.ofBits (F := Ideal) .f32 0x00000000#32)) = clamp (a : Mat M N) := rfl

/-- A one-row matrix, through an identity re-lay, repeated down the rows and added: the row addition. -/
theorem unit_addRow {M N : ℕ} (a : FVec Ideal ⟨2, ![M, N]⟩ .f32) (row : FVec Ideal ⟨2, ![1, N]⟩ .f32)
    (h2 : (⟨2, ![1, N]⟩ : Shape).ShapeCasts ⟨2, ![1, N]⟩) (hb : (⟨2, ![1, N]⟩ : Shape).Broadcasts ⟨2, ![M, N]⟩) :
    addf a (broadcastTo ⟨2, ![M, N]⟩ (shapeCast ⟨2, ![1, N]⟩ row h2) hb) = addRow (a : Mat M N) (row : Mat 1 N) := by
  funext j
  obtain ⟨p, q, rfl⟩ : ∃ (p : Fin M) (q : Fin N), j = ix2 p q := ⟨j 0, j 1, eq_ix2 j⟩
  rw [shapeCast_self, addf_apply, broadcastTo_1b_ab_apply]
  rfl

/-! ## A host's spellings -/

/-- A host contraction of the second axis with the first is the matrix product. -/
theorem host_prod {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a : FVec Ideal ⟨2, ![M, K]⟩ .f32) (w : FVec Ideal ⟨2, ![K, N]⟩ .f32) :
    Host.dotGeneral (F := Ideal) d none a w = matProd (a : Mat M K) (w : Mat K N) :=
  host_dot_eq d h1 h2 h3 h4 h5 h6 a w

/-- A maximum against the broadcast scalar zero is the clamp. -/
theorem host_clamp {M N : ℕ} (a : FVec Ideal ⟨2, ![M, N]⟩ .f32) (h0 : (⟨0, ![]⟩ : Shape).BroadcastsInDim ⟨2, ![M, N]⟩ ![]) :
    maximumf a (broadcastInDim ⟨2, ![M, N]⟩ ![] h0 (constant (F := Ideal) ⟨0, ![]⟩ .f32 0x00000000#32)) = clamp (a : Mat M N) := by
  funext j
  have hz : broadcastInDim ⟨2, ![M, N]⟩ ![] h0 (constant (F := Ideal) ⟨0, ![]⟩ .f32 0x00000000#32) j
      = Ideal.ofBits .f32 0x00000000#32 :=
    (broadcastInDim_apply _ h0 _ _ (fun a => a.elim0) (fun ax => ax.elim0)).trans rfl
  rw [maximumf_apply, hz]
  rfl

/-- The one-row matrix that a vector re-laid as one row is: entry (0, q) is the vector's entry q. -/
def rowOf {N : ℕ} (b : (⟨1, ![N]⟩ : Shape).Idx → EReal) : Mat 1 N := fun i => b (ix1 (i 1))

/-- A vector broadcast to one row and then down the rows, added: the row addition of the vector as a row. -/
theorem host_addRow {M N : ℕ} (a : FVec Ideal ⟨2, ![M, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf a (broadcastInDim ⟨2, ![M, N]⟩ ![0, 1] hbc (broadcastInDim ⟨2, ![1, N]⟩ ![1] hr b)) = addRow (a : Mat M N) (rowOf b) := by
  funext j
  obtain ⟨p, q, rfl⟩ : ∃ (p : Fin M) (q : Fin N), j = ix2 p q := ⟨j 0, j 1, eq_ix2 j⟩
  rw [addf_apply, bcast_1b_ab_apply, bcast_a_1a_apply]
  rfl

/-- A vector re-laid as one row by a reshape is the same one-row matrix. -/
theorem reshape_row {N : ℕ} (b : (⟨1, ![N]⟩ : Shape).Idx → EReal) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  exact shapeCast_a_1a_apply b h u q

/-! ## Bands of rows -/

/-- Rows r, …, r + T − 1 of a matrix. -/
def band {M N : ℕ} (T r : ℕ) (h : r + T ≤ M) (a : Mat M N) : Mat T N :=
  fun y => a (ix2 ⟨r + (y 0).val, by have := idx2_lt0 y; omega⟩ (y 1))

theorem band_prod {M K N : ℕ} (T r : ℕ) (h : r + T ≤ M) (a : Mat M K) (w : Mat K N) :
    matProd (band T r h a) w = band T r h (matProd a w) := rfl

theorem band_clamp {M N : ℕ} (T r : ℕ) (h : r + T ≤ M) (a : Mat M N) : clamp (band T r h a) = band T r h (clamp a) := rfl

theorem band_addRow {M N : ℕ} (T r : ℕ) (h : r + T ≤ M) (a : Mat M N) (row : Mat 1 N) :
    addRow (band T r h a) row = band T r h (addRow a row) := rfl

theorem band_conv {M K N : ℕ} (T r : ℕ) (h : r + T ≤ M) (adj : Mat M K) (s : Mat K N) :
    conv (band T r h adj) s = band T r h (conv adj s) := rfl

theorem band_dense {M K N : ℕ} (T r : ℕ) (h : r + T ≤ M) (a : Mat M K) (w : Mat K N) (row : Mat 1 N) :
    dense (band T r h a) w row = band T r h (dense a w row) := rfl

theorem band_decoder {M A B C D : ℕ} (T r : ℕ) (h : r + T ≤ M) (z : Mat M A) (w1 : Mat A B) (b1 : Mat 1 B) (w2 : Mat B C)
    (b2 : Mat 1 C) (w3 : Mat C D) (b3 : Mat 1 D) :
    decoder (band T r h z) w1 b1 w2 b2 w3 b3 = band T r h (decoder z w1 b1 w2 b2 w3 b3) := rfl

/-- The band's entry at y is the matrix's entry at the index whose row is r plus y's row and whose column is y's. -/
theorem band_apply {M N : ℕ} (T r : ℕ) (h : r + T ≤ M) (a : Mat M N) (y : (⟨2, ![T, N]⟩ : Shape).Idx)
    (i : (⟨2, ![M, N]⟩ : Shape).Idx) (hi0 : (i 0).val = r + (y 0).val) (hi1 : (i 1).val = (y 1).val) :
    band T r h a y = a i := by
  refine congrArg a (funext fun d => Fin.ext ?_)
  match d with
  | ⟨0, _⟩ => exact hi0.symm
  | ⟨1, _⟩ => exact hi1.symm

/-- The band of all the rows is the matrix. -/
theorem band_all {M N : ℕ} (h : 0 + M ≤ M) (a : Mat M N) : band M 0 h a = a :=
  funext fun y => band_apply M 0 h a y y (Nat.zero_add _).symm rfl

end Cert.Layers

end
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibNormLayers.lean ====
/-
  Row-wise layers on matrices of extended reals, beyond the matrix product and the row addition: the entrywise
  x · logistic x and logistic x, the entrywise sum of two matrices, the product of every row with a one-row matrix, and
  the normalisation of every row — subtract the row's mean, then divide by the square root of (the mean of the squared
  deviations plus a constant), the means being the row sum divided by a given divisor.

  Each has two spellings that denote it at the exact extended reals. A vector unit sums a row by a lane reduction from
  the neutral accumulator, stands the sums up as a column by a re-lay, divides by a splat constant and spreads the column
  over the lanes. A host sums a row by a reduction from a scalar zero (zero plus the sum is the sum), stands the sums
  up as a column by a broadcast along axis 0, divides by a broadcast scalar and broadcasts the column along both axes.
  The host's logistic is one over (one plus the exponential of the negation).

  All of them act row by row, so a band of consecutive rows of the result is the same layer applied to that band.
-/
import proofs.«138794_j50809463111709_2_alg».proof.Proof.LibLayers
import proofs.«138794_j50809463111709_2_alg».proof.Proof.LibColumn
import proofs.«138794_j50809463111709_2_alg».proof.Proof.LibKeepdims
import Idealize.ShloMosaic.Lib.IdealHost

noncomputable section

namespace Cert.NormLayers

open Idealize.ShloMosaic Idealize.ShloMosaic.ValueIdx Cert.LibPlainDot Cert.LibMatProd Cert.Layers Cert.LibKeepdims

/-! ## The layers -/

/-- Entry by entry, x · logistic x. -/
def silu {M N : ℕ} (a : Mat M N) : Mat M N := fun i => a i * Ideal.logistic (a i)

/-- Entry by entry, logistic x. -/
def sigm {M N : ℕ} (a : Mat M N) : Mat M N := fun i => Ideal.logistic (a i)

/-- Entry by entry, the sum of two matrices. -/
def plus {M N : ℕ} (a b : Mat M N) : Mat M N := fun i => a i + b i

/-- Every row multiplied, entry by entry, with a one-row matrix: entry (p, q) is a (p, q) · row (0, q). -/
def mulRow {M N : ℕ} (a : Mat M N) (row : Mat 1 N) : Mat M N := fun i => a i * row (ix2 (0 : Fin 1) (i 1))

/-- The mean of row p with divisor d: the row's sum divided by d. -/
def rowMean {M N : ℕ} (d : EReal) (a : Mat M N) (p : Fin M) : EReal := Ideal.div (∑ k : Fin N, a (ix2 p k)) d

/-- Every entry minus its row's mean. -/
def centred {M N : ℕ} (d : EReal) (a : Mat M N) : Mat M N := fun i => a i - rowMean d a (i 0)

/-- Every entry times the reciprocal square root of (its row's mean square plus ε). -/
def scaled {M N : ℕ} (d ε : EReal) (c : Mat M N) : Mat M N :=
  fun i => c i * Ideal.rsqrt (rowMean d (fun j => c j * c j) (i 0) + ε)

/-- A row's deviations from its mean over the root of their mean square plus ε. -/
def normed {M N : ℕ} (d ε : EReal) (a : Mat M N) : Mat M N := scaled d ε (centred d a)

/-- Layer normalisation: the normalised rows times a gain row plus an offset row. -/
def lnorm {M N : ℕ} (d ε : EReal) (a : Mat M N) (g be : Mat 1 N) : Mat M N := addRow (mulRow (normed d ε a) g) be

/-! ## Bands of rows -/

theorem band_silu {M N : ℕ} (T r : ℕ) (h : r + T ≤ M) (a : Mat M N) : silu (band T r h a) = band T r h (silu a) := rfl
theorem band_sigm {M N : ℕ} (T r : ℕ) (h : r + T ≤ M) (a : Mat M N) : sigm (band T r h a) = band T r h (sigm a) := rfl
theorem band_plus {M N : ℕ} (T r : ℕ) (h : r + T ≤ M) (a b : Mat M N) :
    plus (band T r h a) (band T r h b) = band T r h (plus a b) := rfl
theorem band_mulRow {M N : ℕ} (T r : ℕ) (h : r + T ≤ M) (a : Mat M N) (row : Mat 1 N) :
    mulRow (band T r h a) row = band T r h (mulRow a row) := rfl
theorem band_centred {M N : ℕ} (T r : ℕ) (h : r + T ≤ M) (d : EReal) (a : Mat M N) :
    centred d (band T r h a) = band T r h (centred d a) := rfl
theorem band_scaled {M N : ℕ} (T r : ℕ) (h : r + T ≤ M) (d ε : EReal) (c : Mat M N) :
    scaled d ε (band T r h c) = band T r h (scaled d ε c) := rfl
theorem band_normed {M N : ℕ} (T r : ℕ) (h : r + T ≤ M) (d ε : EReal) (a : Mat M N) :
    normed d ε (band T r h a) = band T r h (normed d ε a) := rfl
theorem band_lnorm {M N : ℕ} (T r : ℕ) (h : r + T ≤ M) (d ε : EReal) (a : Mat M N) (g be : Mat 1 N) :
    lnorm d ε (band T r h a) g be = band T r h (lnorm d ε a g be) := rfl

/-! ## A vector unit's spellings -/

theorem unit_silu {M N : ℕ} (a : FVec Ideal ⟨2, ![M, N]⟩ .f32) : mulf a (logistic a) = silu (a : Mat M N) := rfl

theorem unit_sigm {M N : ℕ} (a : FVec Ideal ⟨2, ![M, N]⟩ .f32) : logistic a = sigm (a : Mat M N) := rfl

theorem unit_plus {M N : ℕ} (a b : FVec Ideal ⟨2, ![M, N]⟩ .f32) : addf a b = plus (a : Mat M N) (b : Mat M N) := rfl

/-- A vector re-laid as one row, repeated down the rows and added: the row addition of the vector as a row. -/
theorem unit_addVec {M N : ℕ} (a : FVec Ideal ⟨2, ![M, N]⟩ .f32) (b : FVec Ideal ⟨1, ![N]⟩ .f32)
    (h2 : (⟨1, ![N]⟩ : Shape).ShapeCasts ⟨2, ![1, N]⟩) (hb : (⟨2, ![1, N]⟩ : Shape).Broadcasts ⟨2, ![M, N]⟩) :
    addf a (broadcastTo ⟨2, ![M, N]⟩ (shapeCast ⟨2, ![1, N]⟩ b h2) hb) = addRow (a : Mat M N) (rowOf b) := by
  funext j
  obtain ⟨p, q, rfl⟩ : ∃ (p : Fin M) (q : Fin N), j = ix2 p q := ⟨j 0, j 1, eq_ix2 j⟩
  rw [reshape_row, addf_apply, broadcastTo_1b_ab_apply]
  rfl

/-- A vector re-laid as one row, repeated down the rows and multiplied in: the row product with the vector as a row. -/
theorem unit_mulVec {M N : ℕ} (a : FVec Ideal ⟨2, ![M, N]⟩ .f32) (g : FVec Ideal ⟨1, ![N]⟩ .f32)
    (h2 : (⟨1, ![N]⟩ : Shape).ShapeCasts ⟨2, ![1, N]⟩) (hb : (⟨2, ![1, N]⟩ : Shape).Broadcasts ⟨2, ![M, N]⟩) :
    mulf a (broadcastTo ⟨2, ![M, N]⟩ (shapeCast ⟨2, ![1, N]⟩ g h2) hb) = mulRow (a : Mat M N) (rowOf g) := by
  funext j
  obtain ⟨p, q, rfl⟩ : ∃ (p : Fin M) (q : Fin N), j = ix2 p q := ⟨j 0, j 1, eq_ix2 j⟩
  rw [reshape_row, mulf_apply, broadcastTo_1b_ab_apply]
  rfl

/-- A lane sum from the neutral accumulator, stood up as a column and divided by a splat constant, reads the row's mean. -/
theorem unit_mean_col {M N : ℕ} (a : FVec Ideal ⟨2, ![M, N]⟩ .f32) (acc : BitVec FTy.f32.bits)
    (hr : (⟨2, ![M, N]⟩ : Shape).Reduces [1] (⟨1, ![M]⟩ : Shape)) (hφ : FKind.Formats FTy.f32)
    (hacc : acc = FKind.add.neutral .f32 hφ) (hc : (⟨1, ![M]⟩ : Shape).ShapeCasts ⟨2, ![M, 1]⟩) (dw : BitVec 32)
    (p : Fin M) (u : Fin 1) :
    divf (shapeCast ⟨2, ![M, 1]⟩ (multiReduction .add [1] ⟨1, ![M]⟩ a acc hr hφ hacc) hc)
        (broadcast ⟨2, ![M, 1]⟩ (Scalar.ofBits (F := Ideal) .f32 dw)) (ix2 p u)
      = rowMean (Ideal.ofBits .f32 dw) (a : Mat M N) p := by
  rw [divf_apply, Cert.LibColumn.shapeCast_a_a1_apply, sum_last2_apply]
  rfl

/-- Subtracting the column of row means, spread over the lanes: the deviations from the row means. -/
theorem unit_centred {M N : ℕ} (a : FVec Ideal ⟨2, ![M, N]⟩ .f32) (acc : BitVec FTy.f32.bits)
    (hr : (⟨2, ![M, N]⟩ : Shape).Reduces [1] (⟨1, ![M]⟩ : Shape)) (hφ : FKind.Formats FTy.f32)
    (hacc : acc = FKind.add.neutral .f32 hφ) (hc : (⟨1, ![M]⟩ : Shape).ShapeCasts ⟨2, ![M, 1]⟩)
    (hb : (⟨2, ![M, 1]⟩ : Shape).Broadcasts ⟨2, ![M, N]⟩) (dw : BitVec 32) :
    subf a (broadcastTo ⟨2, ![M, N]⟩ (divf (shapeCast ⟨2, ![M, 1]⟩ (multiReduction .add [1] ⟨1, ![M]⟩ a acc hr hφ hacc) hc)
        (broadcast ⟨2, ![M, 1]⟩ (Scalar.ofBits (F := Ideal) .f32 dw))) hb)
      = centred (Ideal.ofBits .f32 dw) (a : Mat M N) := by
  funext j
  obtain ⟨p, q, rfl⟩ : ∃ (p : Fin M) (q : Fin N), j = ix2 p q := ⟨j 0, j 1, eq_ix2 j⟩
  rw [subf_apply, Cert.LibColumn.broadcastTo_a1_ab_apply, unit_mean_col]
  rfl

/-- Multiplying by the column of reciprocal roots of (mean square plus a splat constant), spread over the lanes. -/
theorem unit_scaled {M N : ℕ} (c : FVec Ideal ⟨2, ![M, N]⟩ .f32) (acc : BitVec FTy.f32.bits)
    (hr : (⟨2, ![M, N]⟩ : Shape).Reduces [1] (⟨1, ![M]⟩ : Shape)) (hφ : FKind.Formats FTy.f32)
    (hacc : acc = FKind.add.neutral .f32 hφ) (hc : (⟨1, ![M]⟩ : Shape).ShapeCasts ⟨2, ![M, 1]⟩)
    (hb : (⟨2, ![M, 1]⟩ : Shape).Broadcasts ⟨2, ![M, N]⟩) (dw εw : BitVec 32) :
    mulf c (broadcastTo ⟨2, ![M, N]⟩ (rsqrt (addf
        (divf (shapeCast ⟨2, ![M, 1]⟩ (multiReduction .add [1] ⟨1, ![M]⟩ (mulf c c) acc hr hφ hacc) hc)
          (broadcast ⟨2, ![M, 1]⟩ (Scalar.ofBits (F := Ideal) .f32 dw)))
        (broadcast ⟨2, ![M, 1]⟩ (Scalar.ofBits (F := Ideal) .f32 εw)))) hb)
      = scaled (Ideal.ofBits .f32 dw) (Ideal.ofBits .f32 εw) (c : Mat M N) := by
  funext j
  obtain ⟨p, q, rfl⟩ : ∃ (p : Fin M) (q : Fin N), j = ix2 p q := ⟨j 0, j 1, eq_ix2 j⟩
  rw [mulf_apply, Cert.LibColumn.broadcastTo_a1_ab_apply]
  have hm := unit_mean_col (mulf c c) acc hr hφ hacc hc dw p (0 : Fin 1)
  refine congrArg (fun z => c (ix2 p q) * Ideal.rsqrt (z + Ideal.ofBits .f32 εw)) hm

/-! ## A host's spellings -/

/-- The host's x · (1 / (1 + e^(−x))) with broadcast ones is x · logistic x. -/
theorem host_silu {M N : ℕ} (a : FVec Ideal ⟨2, ![M, N]⟩ .f32) (h0 : (⟨0, ![]⟩ : Shape).BroadcastsInDim ⟨2, ![M, N]⟩ ![]) :
    mulf a (Host.divf (F := Ideal) (broadcastInDim ⟨2, ![M, N]⟩ ![] h0 (constant (F := Ideal) ⟨0, ![]⟩ .f32 0x3F800000#32))
        (addf (broadcastInDim ⟨2, ![M, N]⟩ ![] h0 (constant (F := Ideal) ⟨0, ![]⟩ .f32 0x3F800000#32))
          (Host.exp (F := Ideal) (Host.negf (F := Ideal) a))))
      = silu (a : Mat M N) := by
  rw [host_sigmoid_eq]; rfl

/-- The host's 1 / (1 + e^(−x)) with broadcast ones is logistic x. -/
theorem host_sigm {M N : ℕ} (a : FVec Ideal ⟨2, ![M, N]⟩ .f32) (h0 : (⟨0, ![]⟩ : Shape).BroadcastsInDim ⟨2, ![M, N]⟩ ![]) :
    Host.divf (F := Ideal) (broadcastInDim ⟨2, ![M, N]⟩ ![] h0 (constant (F := Ideal) ⟨0, ![]⟩ .f32 0x3F800000#32))
        (addf (broadcastInDim ⟨2, ![M, N]⟩ ![] h0 (constant (F := Ideal) ⟨0, ![]⟩ .f32 0x3F800000#32))
          (Host.exp (F := Ideal) (Host.negf (F := Ideal) a)))
      = sigm (a : Mat M N) := by
  rw [host_sigmoid_eq]; rfl

/-- A vector broadcast to one row and then down the rows, multiplied in. -/
theorem host_mulVec {M N : ℕ} (a : FVec Ideal ⟨2, ![M, N]⟩ .f32) (g : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    mulf a (broadcastInDim ⟨2, ![M, N]⟩ ![0, 1] hbc (broadcastInDim ⟨2, ![1, N]⟩ ![1] hr g)) = mulRow (a : Mat M N) (rowOf g) := by
  funext j
  obtain ⟨p, q, rfl⟩ : ∃ (p : Fin M) (q : Fin N), j = ix2 p q := ⟨j 0, j 1, eq_ix2 j⟩
  rw [mulf_apply, bcast_1b_ab_apply, bcast_a_1a_apply]
  rfl

/-- A column broadcast along both axes reads, at (p, q), the column at (p, 0). -/
theorem bcast_a1_ab_apply {a b : ℕ} (v : (⟨2, ![a, 1]⟩ : Shape).Idx → EReal)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ (ix2 p (0 : Fin 1)) (fun ax => match ax with
    | ⟨0, _⟩ => by
      show p.val = if a = 1 then 0 else p.val
      split
      · have := p.isLt; omega
      · rfl
    | ⟨1, _⟩ => by
      show (0 : ℕ) = if (1 : ℕ) = 1 then 0 else c.val
      rw [if_pos rfl])

/-- A vector stood up as a column by a broadcast along axis 0 reads, at (p, u), the vector at p. -/
theorem bcast_a_a1_apply {a : ℕ} (x : (⟨1, ![a]⟩ : Shape).Idx → EReal)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x _ (ix1 p) (fun ax => match ax with
    | ⟨0, _⟩ => by
      show p.val = if a = 1 then 0 else p.val
      split
      · have := p.isLt; omega
      · rfl)

/-- A host row sum from a scalar zero, stood up as a column and divided by a broadcast scalar, reads the row's mean. -/
theorem host_mean_col {M N : ℕ} (a : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel)
    (h1 : (⟨1, ![M]⟩ : Shape).BroadcastsInDim ⟨2, ![M, 1]⟩ ![0]) (h0 : (⟨0, ![]⟩ : Shape).BroadcastsInDim ⟨2, ![M, 1]⟩ ![])
    (dw : BitVec 32) (p : Fin M) (u : Fin 1) :
    Host.divf (F := Ideal) (broadcastInDim ⟨2, ![M, 1]⟩ ![0] h1
          (Host.reduceAdd a (constant (F := Ideal) ⟨0, ![]⟩ .f32 0x00000000#32) hrt hu))
        (broadcastInDim ⟨2, ![M, 1]⟩ ![] h0 (constant (F := Ideal) ⟨0, ![]⟩ .f32 dw)) (ix2 p u)
      = rowMean (Ideal.ofBits .f32 dw) (a : Mat M N) p := by
  rw [hostDivf_apply, bcast_a_a1_apply, hostReduceAdd_apply, broadcastInDim_scalar_apply,
    Ideal.hostReduceAdd_single hrt hr]
  show Ideal.div (Ideal.ofBits .f32 0x00000000#32 + ∑ k : Fin N, a (hr.lift (ix1 p) k)) (Ideal.ofBits .f32 dw) = _
  rw [Ideal.ofBits_zero_f32, zero_add]
  exact congrArg (fun z => Ideal.div z (Ideal.ofBits .f32 dw))
    (Finset.sum_congr rfl fun k _ => congrArg a (lift_last2 hr p k))

/-- Subtracting the column of row means broadcast along both axes: the deviations from the row means. -/
theorem host_centred {M N : ℕ} (a : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel)
    (h1 : (⟨1, ![M]⟩ : Shape).BroadcastsInDim ⟨2, ![M, 1]⟩ ![0]) (h0 : (⟨0, ![]⟩ : Shape).BroadcastsInDim ⟨2, ![M, 1]⟩ ![])
    (hb : (⟨2, ![M, 1]⟩ : Shape).BroadcastsInDim ⟨2, ![M, N]⟩ ![0, 1]) (dw : BitVec 32) :
    subf a (broadcastInDim ⟨2, ![M, N]⟩ ![0, 1] hb (Host.divf (F := Ideal) (broadcastInDim ⟨2, ![M, 1]⟩ ![0] h1
          (Host.reduceAdd a (constant (F := Ideal) ⟨0, ![]⟩ .f32 0x00000000#32) hrt hu))
        (broadcastInDim ⟨2, ![M, 1]⟩ ![] h0 (constant (F := Ideal) ⟨0, ![]⟩ .f32 dw))))
      = centred (Ideal.ofBits .f32 dw) (a : Mat M N) := by
  funext j
  obtain ⟨p, q, rfl⟩ : ∃ (p : Fin M) (q : Fin N), j = ix2 p q := ⟨j 0, j 1, eq_ix2 j⟩
  rw [subf_apply, bcast_a1_ab_apply, host_mean_col a hrt hr]
  rfl

/-- Multiplying by the column of reciprocal roots of (mean square plus a broadcast scalar), broadcast along both axes. -/
theorem host_scaled {M N : ℕ} (c : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel)
    (h1 : (⟨1, ![M]⟩ : Shape).BroadcastsInDim ⟨2, ![M, 1]⟩ ![0]) (h0 : (⟨0, ![]⟩ : Shape).BroadcastsInDim ⟨2, ![M, 1]⟩ ![])
    (hb : (⟨2, ![M, 1]⟩ : Shape).BroadcastsInDim ⟨2, ![M, N]⟩ ![0, 1]) (dw εw : BitVec 32) :
    mulf c (broadcastInDim ⟨2, ![M, N]⟩ ![0, 1] hb (Host.rsqrt (F := Ideal) (addf
        (Host.divf (F := Ideal) (broadcastInDim ⟨2, ![M, 1]⟩ ![0] h1
            (Host.reduceAdd (mulf c c) (constant (F := Ideal) ⟨0, ![]⟩ .f32 0x00000000#32) hrt hu))
          (broadcastInDim ⟨2, ![M, 1]⟩ ![] h0 (constant (F := Ideal) ⟨0, ![]⟩ .f32 dw)))
        (broadcastInDim ⟨2, ![M, 1]⟩ ![] h0 (constant (F := Ideal) ⟨0, ![]⟩ .f32 εw)))))
      = scaled (Ideal.ofBits .f32 dw) (Ideal.ofBits .f32 εw) (c : Mat M N) := by
  funext j
  obtain ⟨p, q, rfl⟩ : ∃ (p : Fin M) (q : Fin N), j = ix2 p q := ⟨j 0, j 1, eq_ix2 j⟩
  rw [mulf_apply, bcast_a1_ab_apply]
  have hm := host_mean_col (mulf c c) hrt hr hu h1 h0 dw p (0 : Fin 1)
  have he : broadcastInDim ⟨2, ![M, 1]⟩ ![] h0 (constant (F := Ideal) ⟨0, ![]⟩ .f32 εw) (ix2 p (0 : Fin 1))
      = Ideal.ofBits .f32 εw := (broadcastInDim_scalar_apply h0 _ _).trans rfl
  rw [show ∀ (x : FVec Ideal ⟨2, ![M, 1]⟩ .f32) (i : (⟨2, ![M, 1]⟩ : Shape).Idx),
      Host.rsqrt (F := Ideal) x i = Ideal.rsqrt (x i) from fun _ _ => rfl, addf_apply, hm, he]
  rfl

end Cert.NormLayers

end
-- ==== Proof.LibRelGraphNet.lean ====
/-
  A two-layer relational graph network with a spectral read-out, as functions of whole matrices over the extended reals.

  Nodes carry rows of features, edges carry a relation row, a source node and a destination node. Rows are fetched by a
  row selector (`gatherRows`), and edge rows are summed into the row of their destination (`scatterRows`: an edge whose
  destination is no row is dropped). The in- and out-degree of a node count its edges; `invDeg` is one over the degree
  (at least one), `rsqrtDeg` its inverse square root.

  One layer composes each edge's source row with its relation row entry by entry, and then projects, sums over incoming
  edges, scales by `invDeg`, adds the node's own projected row and clamps at zero. The projection is linear, so it may
  be applied per edge before the sum (`upd` over a scattered product) or per node after the sum and the scaling
  (`updLate`). `netK` does the second layer the late way, projects the relation rows before fetching them, and scales the
  second layer's rows by the source normalisation before fetching them; `netR` does each of these the other way round.
-/
import proofs.«138794_j50809463111709_2_alg».proof.Proof.LibLayers

noncomputable section

namespace Cert.CompGcn

open scoped BigOperators
open Idealize.ShloMosaic Idealize.ShloMosaic.ValueIdx Cert.LibMatProd Cert.Layers

/-- The value of the all-zero float word. -/
abbrev Z : EReal := Ideal.ofBits .f32 0x00000000#32
/-- The value of the float word of one. -/
abbrev ONE : EReal := Ideal.ofBits .f32 0x3F800000#32

variable {M N K J C E V R H O : ℕ}

/-- Entry by entry product. -/
def had (a b : Mat M N) : Mat M N := fun i => a i * b i

/-- Every row scaled by its entry of a one-column matrix. -/
def rowScale (a : Mat M N) (s : Mat M 1) : Mat M N := fun i => a i * s (ix2 (i 0) (0 : Fin 1))

/-- The composed rows projected: (a ∘ b) · w. -/
def proj (a b : Mat M K) (w : Mat K N) : Mat M N := matProd (had a b) w

/-- A node update from an aggregate already projected: clamp (agg scaled row by row + h · w). -/
def upd (agg : Mat M N) (h : Mat M K) (w : Mat K N) (s : Mat M 1) : Mat M N :=
  clamp (fun i => rowScale agg s i + matProd h w i)

/-- A node update that projects the scaled aggregate itself: clamp ((agg scaled row by row) · wm + h · ws). -/
def updLate (agg : Mat M J) (h : Mat M K) (wm : Mat J N) (ws : Mat K N) (s : Mat M 1) : Mat M N :=
  clamp (fun i => matProd (rowScale agg s) wm i + matProd h ws i)

/-- The spectral read-out: clamp ((agg scaled row by row) · w). -/
def spectral (agg : Mat M K) (s : Mat M 1) (w : Mat K N) : Mat M N := clamp (matProd (rowScale agg s) w)

/-- Row `e` of the result is row `sel e` of `x`. -/
def gatherRows (x : Mat N C) (sel : Fin E → Fin N) : Mat E C := fun i => x (ix2 (sel (i 0)) (i 1))

/-- Row `n` of the result is the sum of the rows `e` of `u` whose target is `n`, from zero. -/
def scatterAt (tgt : Fin E → Option (Fin N)) (u : Mat E C) (n : Fin N) (f : Fin C) : EReal :=
  Z + ∑ e ∈ Finset.univ.filter (fun e : Fin E => tgt e = some n), u (ix2 e f)

/-- The scattered sum as a matrix: entry (n, f) is `scatterAt` there. -/
def scatterRows (tgt : Fin E → Option (Fin N)) (u : Mat E C) : Mat N C :=
  fun i => scatterAt tgt u (i 0) (i 1)

/-- The number of edges whose target is `n`, as a sum of ones from zero. -/
def degree (tgt : Fin E → Option (Fin N)) (n : Fin N) : EReal :=
  Z + ∑ _e ∈ Finset.univ.filter (fun e : Fin E => tgt e = some n), ONE

/-- One over the degree, the degree taken at least one. -/
def invDeg (tgt : Fin E → Option (Fin N)) : Mat N 1 := fun i => Ideal.div ONE (max (degree tgt (i 0)) ONE)

/-- The inverse square root of the degree, the degree taken at least one. -/
def rsqrtDeg (tgt : Fin E → Option (Fin N)) : Mat N 1 := fun i => Ideal.rsqrt (max (degree tgt (i 0)) ONE)

/-- The first layer's node rows, the same in both arrangements. -/
def layer1 (selN : Fin N → Fin V) (selT : Fin E → Fin R) (selS : Fin E → Fin N) (tD : Fin E → Option (Fin N))
    (ent : Mat V H) (rel : Mat R H) (wm1 ws1 : Mat H O) : Mat N O :=
  upd (scatterRows tD (proj (gatherRows (gatherRows ent selN) selS) (gatherRows rel selT) wm1))
    (gatherRows ent selN) ws1 (invDeg tD)

/-- The rest of the network from the first layer's rows, the late arrangement. -/
def tailK (selT : Fin E → Fin R) (selS : Fin E → Fin N) (tD tS : Fin E → Option (Fin N))
    (h1 : Mat N O) (rel : Mat R H) (wr1 : Mat H O) (wm2 ws2 : Mat O H) (wsc : Mat H H) : Mat N H :=
  spectral (scatterRows tD (gatherRows (rowScale
      (updLate (scatterRows tD (had (gatherRows h1 selS) (gatherRows (matProd rel wr1) selT))) h1 wm2 ws2 (invDeg tD))
      (rsqrtDeg tS)) selS))
    (rsqrtDeg tD) wsc

/-- The rest of the network from the first layer's rows, the per-edge arrangement. -/
def tailR (selT : Fin E → Fin R) (selS : Fin E → Fin N) (tD tS : Fin E → Option (Fin N))
    (h1 : Mat N O) (rel : Mat R H) (wr1 : Mat H O) (wm2 ws2 : Mat O H) (wsc : Mat H H) : Mat N H :=
  spectral (scatterRows tD (rowScale
      (gatherRows (upd (scatterRows tD (matProd (had (gatherRows h1 selS) (matProd (gatherRows rel selT) wr1)) wm2))
        h1 ws2 (invDeg tD)) selS)
      (gatherRows (rsqrtDeg tS) selS)))
    (rsqrtDeg tD) wsc

/-- The network, the late arrangement. -/
def netK (selN : Fin N → Fin V) (selT : Fin E → Fin R) (selS : Fin E → Fin N) (tD tS : Fin E → Option (Fin N))
    (ent : Mat V H) (rel : Mat R H) (wm1 ws1 wr1 : Mat H O) (wm2 ws2 : Mat O H) (wsc : Mat H H) : Mat N H :=
  tailK selT selS tD tS (layer1 selN selT selS tD ent rel wm1 ws1) rel wr1 wm2 ws2 wsc

/-- The network, the per-edge arrangement. -/
def netR (selN : Fin N → Fin V) (selT : Fin E → Fin R) (selS : Fin E → Fin N) (tD tS : Fin E → Option (Fin N))
    (ent : Mat V H) (rel : Mat R H) (wm1 ws1 wr1 : Mat H O) (wm2 ws2 : Mat O H) (wsc : Mat H H) : Mat N H :=
  tailR selT selS tD tS (layer1 selN selT selS tD ent rel wm1 ws1) rel wr1 wm2 ws2 wsc

/-! ## Index columns and one-column matrices -/

/-- A vector of row numbers as a column `[M, 1]`, negative numbers first wrapped by adding `n`. -/
def wrapCol {M : ℕ} (n : BitVec 32) (h0 : (⟨0, ![]⟩ : Shape).BroadcastsInDim ⟨1, ![M]⟩ ![])
    (h1 : (⟨1, ![M]⟩ : Shape).BroadcastsInDim ⟨2, ![M, 1]⟩ ![0]) (v : IVec ⟨1, ![M]⟩ 32) : IVec ⟨2, ![M, 1]⟩ 32 :=
  broadcastInDim ⟨2, ![M, 1]⟩ ![0] h1
    (select (cmpi .slt v (broadcastInDim ⟨1, ![M]⟩ ![] h0 (constantI ⟨0, ![]⟩ 32 0#32)))
      (addi v (broadcastInDim ⟨1, ![M]⟩ ![] h0 (constantI ⟨0, ![]⟩ 32 n))) v)

/-- A vector of row numbers as a column `[M, 1]`, as it is. -/
def rawCol {M : ℕ} (h1 : (⟨1, ![M]⟩ : Shape).BroadcastsInDim ⟨2, ![M, 1]⟩ ![0]) (v : IVec ⟨1, ![M]⟩ 32) :
    IVec ⟨2, ![M, 1]⟩ 32 :=
  broadcastInDim ⟨2, ![M, 1]⟩ ![0] h1 v

/-- A vector as a one-column matrix: entry (p, 0) is the vector's entry p. -/
def colOf {M : ℕ} (v : (⟨1, ![M]⟩ : Shape).Idx → EReal) : Mat M 1 := fun i => v (ix1 (i 0))

/-- The degrees as a vector. -/
def degVec (tgt : Fin E → Option (Fin N)) : (⟨1, ![N]⟩ : Shape).Idx → EReal := fun i => degree tgt (i 0)

/-! ## Bands of rows: every row-wise function of a band is the band of the function -/

theorem band_had (T r : ℕ) (h : r + T ≤ M) (a b : Mat M N) : had (band T r h a) (band T r h b) = band T r h (had a b) := rfl

theorem band_rowScale (T r : ℕ) (h : r + T ≤ M) (a : Mat M N) (s : Mat M 1) :
    rowScale (band T r h a) (band T r h s) = band T r h (rowScale a s) := rfl

theorem band_proj (T r : ℕ) (h : r + T ≤ M) (a b : Mat M K) (w : Mat K N) :
    proj (band T r h a) (band T r h b) w = band T r h (proj a b w) := rfl

theorem band_upd (T r : ℕ) (h : r + T ≤ M) (agg : Mat M N) (x : Mat M K) (w : Mat K N) (s : Mat M 1) :
    upd (band T r h agg) (band T r h x) w (band T r h s) = band T r h (upd agg x w s) := rfl

theorem band_updLate (T r : ℕ) (h : r + T ≤ M) (agg : Mat M J) (x : Mat M K) (wm : Mat J N) (ws : Mat K N) (s : Mat M 1) :
    updLate (band T r h agg) (band T r h x) wm ws (band T r h s) = band T r h (updLate agg x wm ws s) := rfl

theorem band_spectral (T r : ℕ) (h : r + T ≤ M) (agg : Mat M K) (s : Mat M 1) (w : Mat K N) :
    spectral (band T r h agg) (band T r h s) w = band T r h (spectral agg s w) := rfl

end Cert.CompGcn

end
-- ==== Proof.LibEgnnLayers.lean ====
/-
  The pieces of one message-passing layer of an equivariant graph network, as whole-matrix functions over the extended
  reals, generic in the number of rows.

  For an edge with gathered feature rows hr, hc and relative position rel: the length dist, the square root of the sum
  over the three coordinates of (rel + tiny)²; the first layer hr · Wa + hc · Wb + dist · wc + b1, where Wa, Wb, wc are
  rows 0–63, rows 64–127 and row 128 of one 129-row weight (the product of the row [hr | hc | dist] with that weight, its
  sum over the 129 columns cut at 64 and at 128); the edge message, layer normalisation of the second dense layer of
  x · logistic x of the first; the coordinate coefficient tanh( silu( msg · X1 + xb1 ) · X2 + xb2 ), one number per edge;
  and the node update, layer normalisation of a dense layer of x · logistic x of a dense layer.

  Every piece acts row by row, so a band of consecutive rows of its result is the piece applied to the bands.
-/
import proofs.«138794_j50809463111709_2_alg».proof.Proof.LibNormLayers
import proofs.«138794_j50809463111709_2_alg».proof.Proof.LibRelGraphNet

noncomputable section

namespace Cert.Egnn

open scoped BigOperators
open Idealize.ShloMosaic Idealize.ShloMosaic.ValueIdx Cert.LibMatProd Cert.Layers Cert.NormLayers Cert.CompGcn

/-- The divisor of the means: the value of the float word of 64. -/
abbrev D64 : EReal := Ideal.ofBits .f32 0x42800000#32
/-- The constant under the normalisation's root. -/
abbrev EPS : EReal := Ideal.ofBits .f32 0x3727C5AC#32
/-- The constant added to every coordinate of a relative position before its length is taken. -/
abbrev TINY : EReal := Ideal.ofBits .f32 0x322BCC77#32

/-- A vector of extended reals. -/
abbrev Vect (N : ℕ) : Type := (⟨1, ![N]⟩ : Shape).Idx → EReal

variable {M : ℕ}

/-- Entry by entry difference. -/
def minus {N : ℕ} (a b : Mat M N) : Mat M N := fun i => a i - b i

/-- The length of every row of three coordinates, each shifted by the tiny constant: a one-column matrix. -/
def dist (rel : Mat M 3) : Mat M 1 :=
  fun i => Ideal.sqrt (∑ k : Fin 3, (rel (ix2 (i 0) k) + TINY) * (rel (ix2 (i 0) k) + TINY))

/-- A one-column matrix times a one-row matrix: entry (p, q) is d (p, 0) · w (0, q). -/
def outer {N : ℕ} (d : Mat M 1) (w : Mat 1 N) : Mat M N := fun i => d (ix2 (i 0) (0 : Fin 1)) * w (ix2 (0 : Fin 1) (i 1))

/-- Entry by entry hyperbolic tangent. -/
def tanhM {N : ℕ} (a : Mat M N) : Mat M N := fun i => Ideal.tanh (a i)

/-- The first edge layer before its activation: the two gathered feature rows against their 64-row bands of the
    weight, the length against the last row, and the offset row. -/
def edgePre (hr hc : Mat M 64) (d : Mat M 1) (w1 : Mat 129 64) (b1 : Mat 1 64) : Mat M 64 :=
  addRow (plus (plus (matProd hr (band 64 0 (by omega) w1)) (matProd hc (band 64 64 (by omega) w1)))
    (outer d (band 1 128 (by omega) w1))) b1

/-- The edge messages from the gathered rows, the relative positions and the weights. -/
def edgeMsg (hr hc : Mat M 64) (rel : Mat M 3) (w1 : Mat 129 64) (b1 : Mat 1 64) (w2 : Mat 64 64) (b2 g be : Mat 1 64) :
    Mat M 64 :=
  lnorm D64 EPS (dense (silu (edgePre hr hc (dist rel) w1 b1)) w2 b2) g be

/-- The coordinate coefficient of every edge, a one-column matrix. -/
def posCoef (msg : Mat M 64) (x1 : Mat 64 64) (xb1 : Mat 1 64) (x2 : Mat 64 1) (xb2 : Mat 1 1) : Mat M 1 :=
  tanhM (dense (silu (dense msg x1 xb1)) x2 xb2)

/-- The node update from the node rows and the summed messages. -/
def nodeUpd (x : Mat M 64) (w1 : Mat 64 64) (b1 : Mat 1 64) (w2 : Mat 64 64) (b2 g be : Mat 1 64) : Mat M 64 :=
  lnorm D64 EPS (dense (silu (dense x w1 b1)) w2 b2) g be

/-- The first edge layer before its activation, with the three parts of the weight given separately. -/
def edgePre3 (hr hc : Mat M 64) (d : Mat M 1) (wa wb : Mat 64 64) (wc b1 : Mat 1 64) : Mat M 64 :=
  addRow (plus (plus (matProd hr wa) (matProd hc wb)) (outer d wc)) b1

/-- The edge messages, with the three parts of the first weight given separately. -/
def edgeMsg3 (hr hc : Mat M 64) (rel : Mat M 3) (wa wb : Mat 64 64) (wc b1 : Mat 1 64) (w2 : Mat 64 64) (b2 g be : Mat 1 64) :
    Mat M 64 :=
  lnorm D64 EPS (dense (silu (edgePre3 hr hc (dist rel) wa wb wc b1)) w2 b2) g be

theorem edgeMsg_eq3 (hr hc : Mat M 64) (rel : Mat M 3) (w1 : Mat 129 64) (b1 : Mat 1 64) (w2 : Mat 64 64) (b2 g be : Mat 1 64) :
    edgeMsg hr hc rel w1 b1 w2 b2 g be
      = edgeMsg3 hr hc rel (band 64 0 (by omega) w1) (band 64 64 (by omega) w1) (band 1 128 (by omega) w1) b1 w2 b2 g be := rfl

theorem band_edgeMsg3 (T r : ℕ) (hh : r + T ≤ M) (hr hc : Mat M 64) (rel : Mat M 3) (wa wb : Mat 64 64) (wc b1 : Mat 1 64)
    (w2 : Mat 64 64) (b2 g be : Mat 1 64) :
    edgeMsg3 (band T r hh hr) (band T r hh hc) (band T r hh rel) wa wb wc b1 w2 b2 g be
      = band T r hh (edgeMsg3 hr hc rel wa wb wc b1 w2 b2 g be) := rfl

theorem band_rowScale' {N : ℕ} (T r : ℕ) (hh : r + T ≤ M) (a : Mat M N) (s : Mat M 1) :
    rowScale (band T r hh a) (band T r hh s) = band T r hh (rowScale a s) := rfl

/-! ## Bands of rows -/

theorem band_minus {N : ℕ} (T r : ℕ) (hh : r + T ≤ M) (a b : Mat M N) :
    minus (band T r hh a) (band T r hh b) = band T r hh (minus a b) := rfl
theorem band_dist (T r : ℕ) (hh : r + T ≤ M) (rel : Mat M 3) : dist (band T r hh rel) = band T r hh (dist rel) := rfl
theorem band_outer {N : ℕ} (T r : ℕ) (hh : r + T ≤ M) (d : Mat M 1) (w : Mat 1 N) :
    outer (band T r hh d) w = band T r hh (outer d w) := rfl
theorem band_tanhM {N : ℕ} (T r : ℕ) (hh : r + T ≤ M) (a : Mat M N) : tanhM (band T r hh a) = band T r hh (tanhM a) := rfl
theorem band_edgePre (T r : ℕ) (hh : r + T ≤ M) (hr hc : Mat M 64) (d : Mat M 1) (w1 : Mat 129 64) (b1 : Mat 1 64) :
    edgePre (band T r hh hr) (band T r hh hc) (band T r hh d) w1 b1 = band T r hh (edgePre hr hc d w1 b1) := rfl
theorem band_edgeMsg (T r : ℕ) (hh : r + T ≤ M) (hr hc : Mat M 64) (rel : Mat M 3) (w1 : Mat 129 64) (b1 : Mat 1 64)
    (w2 : Mat 64 64) (b2 g be : Mat 1 64) :
    edgeMsg (band T r hh hr) (band T r hh hc) (band T r hh rel) w1 b1 w2 b2 g be
      = band T r hh (edgeMsg hr hc rel w1 b1 w2 b2 g be) := rfl
theorem band_posCoef (T r : ℕ) (hh : r + T ≤ M) (msg : Mat M 64) (x1 : Mat 64 64) (xb1 : Mat 1 64) (x2 : Mat 64 1)
    (xb2 : Mat 1 1) : posCoef (band T r hh msg) x1 xb1 x2 xb2 = band T r hh (posCoef msg x1 xb1 x2 xb2) := rfl
theorem band_nodeUpd (T r : ℕ) (hh : r + T ≤ M) (x : Mat M 64) (w1 : Mat 64 64) (b1 : Mat 1 64) (w2 : Mat 64 64)
    (b2 g be : Mat 1 64) : nodeUpd (band T r hh x) w1 b1 w2 b2 g be = band T r hh (nodeUpd x w1 b1 w2 b2 g be) := rfl

end Cert.Egnn

end
-- ==== Proof.LibGatherRows.lean ====
/-
  Row gathers read at an index: `stablehlo.gather` of a rank-1 or rank-2 operand along its first axis at a column
  `[M, 1]` of start indices (what `x[idx]` lowers to) is the operand's row at the start index, read signed and clamped
  into `[0, N − 1]`; with it, the pieces the index column is built from, each read at an index: the broadcast of a
  vector to a column, the wrap of negative indices, and the concatenation of edge endpoints with the self-loop iota.
-/
import Idealize.ShloMosaic.Lib.ValueIdx
import Idealize.ShloMosaic.Lib.Pipeline.Value
import Idealize.ShloMosaic.Lib.IdealHost
import Idealize.ShloMosaic.PureOps.ShapeOps
import Idealize.ShloMosaic.PureOps.Dims

noncomputable section

open Idealize.ShloMosaic Idealize.ShloMosaic.ValueIdx

namespace Idealize.ShloMosaic.GatherRows

variable {α : Type}

/-! ## The two row gathers -/

/-- The dimension numbers of a row gather from a flat operand `[N]` at start indices `[M, 1]` with result `[M]`:
    the one operand axis is collapsed and indexed, the index vector lies on axis 1. -/
abbrev rowGather1 (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The dimension numbers of a row gather from an operand `[N, C]` at start indices `[M, 1]` with result `[M, C]`:
    axis 0 is collapsed and indexed, axis 1 is taken whole as the result's offset axis. -/
abbrev rowGather2 (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row that entry `e` of the index column selects: the entry read as a signed integer and clamped into
    `[0, N − 1]`. -/
def src {N M w : Nat} (hN : 0 < N) (idx : IVec ⟨2, ![M, 1]⟩ w) (e : Fin M) : Fin N :=
  ⟨min (idx (ix2 e 0)).toInt.toNat (N - 1), by omega⟩

/-- The value of the selected row number is the clamped signed reading of the index entry. -/
theorem src_val {N M w : Nat} (hN : 0 < N) (idx : IVec ⟨2, ![M, 1]⟩ w) (e : Fin M) :
    (src hN idx e).val = min (idx (ix2 e 0)).toInt.toNat (N - 1) := rfl

/-- The start-indices position that result position `e` of a flat row gather reads is `(e, 0)`. -/
theorem rowGather1_siIdx {N M : Nat} (wf : GatherDims.WF ⟨1, ![N]⟩ ⟨2, ![M, 1]⟩ ⟨1, ![M]⟩ [] [0] [] [0] [] 1 ![1])
    (e : Fin M) (c : Fin (rowGather1 N M wf).startIndexMap.length) :
    (rowGather1 N M wf).siIdx (ix1 e) c = ix2 e 0 := by
  obtain rfl : c = ⟨0, Nat.one_pos⟩ := Fin.ext (Nat.lt_one_iff.mp c.isLt)
  funext b; refine Fin.ext ?_
  match b with
  | ⟨0, _⟩ => rfl
  | ⟨1, _⟩ => rfl

/-- A flat row gather read at `e`: the operand at the row the index column's entry `e` selects. -/
theorem gather_row1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (rowGather1 N M wf) x idx (ix1 e) = x (ix1 (src hN idx e)) := by
  unfold Host.gather
  congr 1
  funext a
  obtain rfl : a = 0 := Subsingleton.elim _ _
  refine Fin.ext ?_
  show (rowGather1 N M wf).start (ix1 e) idx 0 + (rowGather1 N M wf).batchCoord (ix1 e) 0
      + (rowGather1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather1 N M wf).startIndexMap from List.mem_singleton.mpr rfl)]
  rw [rowGather1_siIdx]
  rfl

/-- The start-indices position that result position `(e, f)` of a row gather reads is `(e, 0)`. -/
theorem rowGather2_siIdx {N M C : Nat}
    (wf : GatherDims.WF ⟨2, ![N, C]⟩ ⟨2, ![M, 1]⟩ ⟨2, ![M, C]⟩ [1] [0] [] [0] [] 1 ![1, C])
    (e : Fin M) (f : Fin C) (c : Fin (rowGather2 N M C wf).startIndexMap.length) :
    (rowGather2 N M C wf).siIdx (ix2 e f) c = ix2 e 0 := by
  obtain rfl : c = ⟨0, Nat.one_pos⟩ := Fin.ext (Nat.lt_one_iff.mp c.isLt)
  funext b; refine Fin.ext ?_
  match b with
  | ⟨0, _⟩ => rfl
  | ⟨1, _⟩ => rfl

/-- The row coordinate that result position `(e, f)` of a row gather reads: the clamped start index alone. -/
theorem rowGather2_coord0 {N M C w : Nat} (hN : 0 < N)
    (wf : GatherDims.WF ⟨2, ![N, C]⟩ ⟨2, ![M, 1]⟩ ⟨2, ![M, C]⟩ [1] [0] [] [0] [] 1 ![1, C])
    (idx : IVec ⟨2, ![M, 1]⟩ w) (e : Fin M) (f : Fin C) :
    (rowGather2 N M C wf).start (ix2 e f) idx 0 + (rowGather2 N M C wf).batchCoord (ix2 e f) 0
      + (rowGather2 N M C wf).offCoord (ix2 e f) 0 = (src hN idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather2 N M C wf).startIndexMap from List.mem_singleton.mpr rfl)]
  rw [rowGather2_siIdx]
  rfl

/-- The column coordinate that result position `(e, f)` of a row gather reads: the offset `f` alone. -/
theorem rowGather2_coord1 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (f : Fin C) :
    (rowGather2 N M C wf).start (ix2 e f) idx 1 + (rowGather2 N M C wf).batchCoord (ix2 e f) 1
      + (rowGather2 N M C wf).offCoord (ix2 e f) 1 = f.val := by
  rw [GatherDims.batchCoord_eq_zero _ _ _ List.not_mem_nil]
  have hs : (rowGather2 N M C wf).start (ix2 e f) idx 1 = 0 := by
    unfold GatherDims.start
    rw [dif_neg (fun h => absurd (List.mem_singleton.mp h) (show ¬ (1 : Fin 2) = 0 by decide))]
  have hmem : (1 : Fin 2) ∈ (rowGather2 N M C wf).sKept :=
    (GatherDims.mem_sKept _ _).mpr ⟨fun h => absurd (List.mem_singleton.mp h) (show ¬ (1 : Fin 2) = 0 by decide), List.not_mem_nil⟩
  rw [hs]
  unfold GatherDims.offCoord
  rw [dif_pos hmem]
  simp only [Nat.zero_add, Nat.add_zero]
  rfl

/-- A row gather read at `(e, f)`: the operand's entry `f` of the row the index column's entry `e` selects. -/
theorem gather_row2_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGather2 N M C wf) x idx (ix2 e f) = x (ix2 (src hN idx e) f) := by
  unfold Host.gather
  congr 1
  funext a
  refine Fin.ext ?_
  match a with
  | ⟨0, _⟩ => exact rowGather2_coord0 hN wf idx e f
  | ⟨1, _⟩ => exact rowGather2_coord1 wf idx e f

/-! ## The index column: a vector broadcast to `[M, 1]` -/

/-- The column of a vector read at `(e, 0)` is the vector's entry `e`. -/
theorem column_apply {M : Nat} (hb : (⟨1, ![M]⟩ : Shape).BroadcastsInDim ⟨2, ![M, 1]⟩ ![0])
    (v : (⟨1, ![M]⟩ : Shape).Idx → α) (e : Fin M) :
    broadcastInDim ⟨2, ![M, 1]⟩ ![0] hb v (ix2 e 0) = v (ix1 e) := by
  refine broadcastInDim_apply _ hb v _ (ix1 e) (fun a => ?_)
  obtain rfl : a = 0 := Subsingleton.elim _ _
  show e.val = if M = 1 then 0 else e.val
  split
  · next h => have := e.isLt; omega
  · rfl

/-! ## The wrap of negative indices leaves an in-range index alone -/

/-- A 32-bit word whose signed reading is not negative is not signed-less-than zero. -/
theorem cmpi_slt_zero_of_nonneg (x : BitVec 32) (h : 0 ≤ x.toInt) : IntOp.cmpi .slt x 0#32 = 0#1 := by
  have hf : x.slt 0#32 = false := by
    rw [Bool.eq_false_iff]
    intro hlt
    have h2 := BitVec.slt_iff_toInt_lt.mp hlt
    simp at h2
    omega
  show BitVec.ofBool (x.slt 0#32) = 0#1
  rw [hf]; rfl

/-- The wrapped index `select (v < 0) (v + n) v` read at `j` is `v`'s entry there when that entry is not negative. -/
theorem wrap_apply_of_nonneg {s : Shape} (v zs ns : IVec s 32) (hz : ∀ j, zs j = 0#32) (j : s.Idx)
    (h : 0 ≤ (v j).toInt) : select (cmpi .slt v zs) (addi v ns) v j = v j := by
  show Scalar.select (IntOp.cmpi .slt (v j) (zs j)) (IntOp.addi (v j) (ns j)) (v j) = v j
  rw [hz, cmpi_slt_zero_of_nonneg _ h, select_zero]

/-- An index entry whose signed reading is a row number `i < N` selects row `i` after the wrap of negative
    indices and the clamp: it is not negative, so the wrap keeps it, and it is at most `N − 1`, so the clamp does. -/
theorem src_wrap_of_inrange {N M : Nat} (hN : 0 < N)
    (hb : (⟨1, ![M]⟩ : Shape).BroadcastsInDim ⟨2, ![M, 1]⟩ ![0])
    (v zs ns : IVec ⟨1, ![M]⟩ 32) (hz : ∀ j, zs j = 0#32) (e : Fin M) (i : Fin N)
    (h : (v (ix1 e)).toInt = (i.val : Int)) :
    src hN (broadcastInDim ⟨2, ![M, 1]⟩ ![0] hb (select (cmpi .slt v zs) (addi v ns) v)) e = i := by
  apply Fin.ext
  rw [src_val, column_apply, wrap_apply_of_nonneg v zs ns hz _ (by rw [h]; exact Int.natCast_nonneg _), h,
    Int.toNat_natCast]
  have := i.isLt
  omega

/-! ## The self-loop part of the index vector -/

/-- A natural number below `2³¹` as a 32-bit word reads back, signed, as itself. -/
theorem toInt_ofNat_of_lt (n : Nat) (h : n < 2 ^ 31) : (BitVec.ofNat 32 n).toInt = (n : Int) := by
  rw [BitVec.toInt_eq_toNat_cond]
  simp only [BitVec.toNat_ofNat]
  have hm : n % 2 ^ 32 = n := Nat.mod_eq_of_lt (by omega)
  rw [hm, if_pos (by omega)]

/-- The concatenation of `E` edge endpoints with the iota over the `N` nodes, read at position `E + i`, is `i`. -/
theorem selfloop_apply {E N M : Nat} (a : IVec ⟨1, ![E]⟩ 32)
    (hc : Shape.Concatenates [(⟨1, ![E]⟩ : Shape), ⟨1, ![N]⟩] ⟨1, ![M]⟩ 0) (hM : M = E + N) (i : Fin N) :
    concatenate ⟨1, ![M]⟩ 0 [⟨⟨1, ![E]⟩, a⟩, ⟨⟨1, ![N]⟩, iotaInDim ⟨1, ![N]⟩ 32 0⟩] hc
      (ix1 ⟨E + i.val, by have := i.isLt; omega⟩) = BitVec.ofNat 32 i.val := by
  rw [concatenate_pair_apply_right 0 a (iotaInDim ⟨1, ![N]⟩ 32 0) hc (ix1 ⟨E + i.val, by have := i.isLt; omega⟩)
    rfl rfl (ix1 i) (fun b hb => absurd (Subsingleton.elim _ _) hb) (by show i.val + E = E + i.val; omega)]
  rfl

/-- Read signed, that entry is the node number `i`, while the node count is below `2³¹`. -/
theorem selfloop_toInt {E N M : Nat} (a : IVec ⟨1, ![E]⟩ 32)
    (hc : Shape.Concatenates [(⟨1, ![E]⟩ : Shape), ⟨1, ![N]⟩] ⟨1, ![M]⟩ 0) (hM : M = E + N) (hN32 : N < 2 ^ 31)
    (i : Fin N) :
    (concatenate ⟨1, ![M]⟩ 0 [⟨⟨1, ![E]⟩, a⟩, ⟨⟨1, ![N]⟩, iotaInDim ⟨1, ![N]⟩ 32 0⟩] hc
      (ix1 ⟨E + i.val, by have := i.isLt; omega⟩)).toInt = (i.val : Int) := by
  rw [selfloop_apply a hc hM i]
  exact toInt_ofNat_of_lt _ (by have := i.isLt; omega)

/-! ## Further readings of the same pieces -/

/-- A concatenation of two flat vectors of lengths `E` and `N`, read at a position `e < E`, is the first vector's
    entry `e`. -/
theorem concat_left_apply {E N M : Nat} (a : (⟨1, ![E]⟩ : Shape).Idx → α) (b : (⟨1, ![N]⟩ : Shape).Idx → α)
    (hc : Shape.Concatenates [(⟨1, ![E]⟩ : Shape), ⟨1, ![N]⟩] ⟨1, ![M]⟩ 0) (hM : M = E + N) (e : Fin E) :
    concatenate ⟨1, ![M]⟩ 0 [⟨⟨1, ![E]⟩, a⟩, ⟨⟨1, ![N]⟩, b⟩] hc (ix1 ⟨e.val, by have := e.isLt; omega⟩) = a (ix1 e) := by
  refine concatenate_pair_apply_left 0 a b hc _ rfl (ix1 e) (fun c => ?_)
  obtain rfl : c = 0 := Subsingleton.elim _ _
  rfl

/-- A concatenation of two flat vectors of lengths `E` and `N`, read at position `E + i` with `i < N`, is the second
    vector's entry `i`. -/
theorem concat_right_apply {E N M : Nat} (a : (⟨1, ![E]⟩ : Shape).Idx → α) (b : (⟨1, ![N]⟩ : Shape).Idx → α)
    (hc : Shape.Concatenates [(⟨1, ![E]⟩ : Shape), ⟨1, ![N]⟩] ⟨1, ![M]⟩ 0) (hM : M = E + N) (i : Fin N) :
    concatenate ⟨1, ![M]⟩ 0 [⟨⟨1, ![E]⟩, a⟩, ⟨⟨1, ![N]⟩, b⟩] hc (ix1 ⟨E + i.val, by have := i.isLt; omega⟩) = b (ix1 i) :=
  concatenate_pair_apply_right 0 a b hc (ix1 ⟨E + i.val, by have := i.isLt; omega⟩) rfl rfl (ix1 i)
    (fun c hc' => absurd (Subsingleton.elim _ _) hc') (by show i.val + E = E + i.val; omega)

/-- An index entry whose signed reading lies in `[0, N)` selects, after the wrap of negative indices and the clamp,
    the row whose number is that reading. -/
theorem src_wrap_val_of_inrange {N M : Nat} (hN : 0 < N)
    (hb : (⟨1, ![M]⟩ : Shape).BroadcastsInDim ⟨2, ![M, 1]⟩ ![0])
    (v zs ns : IVec ⟨1, ![M]⟩ 32) (hz : ∀ j, zs j = 0#32) (e : Fin M)
    (h0 : 0 ≤ (v (ix1 e)).toInt) (h1 : (v (ix1 e)).toInt < (N : Int)) :
    (src hN (broadcastInDim ⟨2, ![M, 1]⟩ ![0] hb (select (cmpi .slt v zs) (addi v ns) v)) e).val
      = (v (ix1 e)).toInt.toNat := by
  rw [src_val, column_apply, wrap_apply_of_nonneg v zs ns hz _ h0]
  omega

end Idealize.ShloMosaic.GatherRows

end
-- ==== Proof.LibScatterRows.lean ====
/-
  ROW SCATTERS AND SUMS ON THE EXTENDED REALS.

  A scatter whose body is an addition, with one row number per update row, adds to each operand row the sum of the
  update rows whose row number is that row; rows whose number is out of range are dropped. The first part states this
  for a flat operand and for an operand of rows of a fixed width, on generic extents. The second part collects the
  distributive laws of finite sums on the extended reals that hold without a finiteness hypothesis: a constant summed
  is the count times the constant, a nonnegative real factor moves through a sum, and the node law that rewrites
  "each incoming edge contributes the node's own row plus a normalised source row" as "in-degree times the own row plus
  the node's factor times the sum of the pre-scaled source rows".
-/
import Idealize.ShloMosaic.Lib.ValueIdx
import Idealize.ShloMosaic.PureOps.Ideal
import Idealize.ShloMosaic.PureOps.Ideal.Laws
import Idealize.ShloMosaic.PureOps.Dims
import Mathlib.Data.EReal.Operations

noncomputable section

open scoped BigOperators
open Idealize.ShloMosaic Idealize.ShloMosaic.ValueIdx

namespace Idealize.ShloMosaic.ScatterRows

/-! ## Row scatters -/

section Rows

/-- An update lands at operand index `i` exactly when, on every operand axis, its start plus its window coordinate
    is that axis's coordinate of `i`. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := h a
      simp only []
      omega
    · intro hi
      funext a
      apply Fin.ext
      have := hi a
      simp only []
      omega
  · constructor
    · intro h'; cases h'
    · intro hi
      refine absurd (fun a => ?_) h
      have := hi a
      have := (i a).isLt
      omega

/-- The dimension numbers of a scatter of `M` scalars into a flat operand of `N` elements, one row number per
    update. -/
abbrev rowScatter1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The dimension numbers of a scatter of `M` rows of width `C` into an operand of `N` rows of width `C`, one row
    number per update row. -/
abbrev rowScatter2 (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The operand row an edge's row number names: the number read signed, when it lies in `[0, N)`; none otherwise. -/
def tgt {N M w : Nat} (idx : IVec ⟨2, ![M, 1]⟩ w) (e : Fin M) : Option (Fin N) :=
  if h : 0 ≤ (idx (ix2 e 0)).toInt ∧ (idx (ix2 e 0)).toInt < N then
    some ⟨(idx (ix2 e 0)).toInt.toNat, by omega⟩
  else none

/-- An edge's target is row `i` exactly when its row number, read signed, is `i`. -/
theorem tgt_eq_some_iff {N M w : Nat} (idx : IVec ⟨2, ![M, 1]⟩ w) (e : Fin M) (i : Fin N) :
    tgt idx e = some i ↔ (idx (ix2 e 0)).toInt = (i.val : Int) := by
  unfold tgt
  split_ifs with h
  · rw [Option.some.injEq, Fin.ext_iff]
    simp only []
    omega
  · constructor
    · intro h'; cases h'
    · intro hi
      have := i.isLt
      exact absurd ⟨by omega, by omega⟩ h

end Rows

section Rows1
variable {N M w : Nat} (wf : ScatterDims.WF ⟨1, ![N]⟩ ⟨2, ![M, 1]⟩ ⟨1, ![M]⟩ [] [0] [0] 1)

/-- In the flat row scatter, update `j` reads its start on the one operand axis at the scatter-indices entry
    `[j, 0]`, signed. -/
theorem rowScatter1_start (j : (⟨1, ![M]⟩ : Shape).Idx) (idx : IVec ⟨2, ![M, 1]⟩ w) :
    (rowScatter1 N M wf).start j idx 0 = (idx (ix2 (n0 := M) (j 0) 0)).toInt := by
  unfold ScatterDims.start
  rw [dif_pos (show (0 : Fin 1) ∈ (rowScatter1 N M wf).scatterDimsToOperandDims from List.mem_singleton.mpr rfl)]
  have hsi : (rowScatter1 N M wf).siIdx j ⟨List.idxOf (0 : Fin 1) (rowScatter1 N M wf).scatterDimsToOperandDims,
      List.idxOf_lt_length_iff.2 (List.mem_singleton.mpr rfl)⟩ = ix2 (n0 := M) (j 0) 0 := by
    funext b; refine Fin.ext ?_
    match b with
    | ⟨0, _⟩ => rfl
    | ⟨1, _⟩ => rfl
  rw [hsi]

/-- In the flat row scatter the one operand axis is inserted, so the window coordinate on it is zero. -/
theorem rowScatter1_window (j : (⟨1, ![M]⟩ : Shape).Idx) : (rowScatter1 N M wf).window j 0 = 0 := by
  unfold ScatterDims.window
  rw [dif_neg]
  intro h
  simp [ScatterDims.sKept, Shape.kept] at h

/-- In the flat row scatter, update `j` lands at operand index `i` exactly when edge `j`'s target is row `i`. -/
theorem rowScatter1_resultIdx? (idx : IVec ⟨2, ![M, 1]⟩ w) (j : (⟨1, ![M]⟩ : Shape).Idx)
    (i : (⟨1, ![N]⟩ : Shape).Idx) :
    (rowScatter1 N M wf).resultIdx? j idx = some i ↔ tgt idx (j 0) = some (i 0) := by
  refine (resultIdx?_eq_some_iff _ j idx i).trans (Iff.trans ?_ (tgt_eq_some_iff idx (j 0) (i 0)).symm)
  constructor
  · intro h
    have h0 := h 0
    rw [rowScatter1_start, rowScatter1_window, Nat.cast_zero, add_zero] at h0
    exact h0
  · intro h a
    obtain rfl : a = 0 := Subsingleton.elim _ _
    rw [rowScatter1_start, rowScatter1_window, Nat.cast_zero, add_zero]
    exact h

end Rows1

section Rows2
variable {N M C w : Nat} (wf : ScatterDims.WF ⟨2, ![N, C]⟩ ⟨2, ![M, 1]⟩ ⟨2, ![M, C]⟩ [1] [0] [0] 1)

/-- In the scatter of rows, update `j` reads its start on the row axis at the scatter-indices entry `[j₀, 0]`,
    signed. -/
theorem rowScatter2_start0 (j : (⟨2, ![M, C]⟩ : Shape).Idx) (idx : IVec ⟨2, ![M, 1]⟩ w) :
    (rowScatter2 N M C wf).start j idx 0 = (idx (ix2 (n0 := M) (j 0) 0)).toInt := by
  unfold ScatterDims.start
  rw [dif_pos (show (0 : Fin 2) ∈ (rowScatter2 N M C wf).scatterDimsToOperandDims from List.mem_singleton.mpr rfl)]
  have hsi : (rowScatter2 N M C wf).siIdx j ⟨List.idxOf (0 : Fin 2) (rowScatter2 N M C wf).scatterDimsToOperandDims,
      List.idxOf_lt_length_iff.2 (List.mem_singleton.mpr rfl)⟩ = ix2 (n0 := M) (j 0) 0 := by
    funext b; refine Fin.ext ?_
    match b with
    | ⟨0, _⟩ => rfl
    | ⟨1, _⟩ => rfl
  rw [hsi]

/-- In the scatter of rows the start on the column axis is zero: the row numbers name no column. -/
theorem rowScatter2_start1 (j : (⟨2, ![M, C]⟩ : Shape).Idx) (idx : IVec ⟨2, ![M, 1]⟩ w) :
    (rowScatter2 N M C wf).start j idx 1 = 0 := by
  unfold ScatterDims.start
  rw [dif_neg]
  intro h
  simp at h

/-- In the scatter of rows the row axis is inserted, so the window coordinate on it is zero. -/
theorem rowScatter2_window0 (j : (⟨2, ![M, C]⟩ : Shape).Idx) : (rowScatter2 N M C wf).window j 0 = 0 := by
  unfold ScatterDims.window
  rw [dif_neg]
  intro h
  simp [ScatterDims.sKept, Shape.kept] at h

/-- In the scatter of rows the window coordinate on the column axis is the update's column. -/
theorem rowScatter2_window1 (j : (⟨2, ![M, C]⟩ : Shape).Idx) : (rowScatter2 N M C wf).window j 1 = (j 1).val := by
  unfold ScatterDims.window
  have h1 : (1 : Fin 2) ∈ (rowScatter2 N M C wf).sKept := by
    simp [ScatterDims.sKept, Shape.kept]
  rw [dif_pos h1]
  rfl

/-- In the scatter of rows, update `j` lands at operand index `i` exactly when edge `j₀`'s target is row `i₀` and
    the columns agree. -/
theorem rowScatter2_resultIdx? (idx : IVec ⟨2, ![M, 1]⟩ w) (j : (⟨2, ![M, C]⟩ : Shape).Idx)
    (i : (⟨2, ![N, C]⟩ : Shape).Idx) :
    (rowScatter2 N M C wf).resultIdx? j idx = some i ↔ tgt idx (j 0) = some (i 0) ∧ (j 1).val = (i 1).val := by
  refine (resultIdx?_eq_some_iff _ j idx i).trans
    (Iff.trans ?_ (and_congr_left' (tgt_eq_some_iff idx (j 0) (i 0))).symm)
  constructor
  · intro h
    have h0 := h 0
    have h1 := h 1
    rw [rowScatter2_start0, rowScatter2_window0, Nat.cast_zero, add_zero] at h0
    rw [rowScatter2_start1, rowScatter2_window1, zero_add] at h1
    exact ⟨h0, by exact_mod_cast h1⟩
  · rintro ⟨h0, h1⟩ a
    match a with
    | ⟨0, _⟩ =>
      show (rowScatter2 N M C wf).start j idx 0 + ((rowScatter2 N M C wf).window j 0 : Int) = ((i 0).val : Int)
      rw [rowScatter2_start0, rowScatter2_window0, Nat.cast_zero, add_zero]
      exact h0
    | ⟨1, _⟩ =>
      show (rowScatter2 N M C wf).start j idx 1 + ((rowScatter2 N M C wf).window j 1 : Int) = ((i 1).val : Int)
      rw [rowScatter2_start1, rowScatter2_window1, zero_add]
      exact_mod_cast h1

end Rows2

section RowSums
variable {N M w : Nat}

/-- THE FLAT ROW SCATTER READ AT ROW `i`: the operand there plus the sum of the updates of the edges whose target is
    row `i`. -/
theorem hostScatterAdd_row1 (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (i : Fin N) :
    Ideal.hostScatterAdd (rowScatter1 N M wf) x idx upd (ix1 i)
      = x (ix1 i) + ∑ e ∈ Finset.univ.filter (fun e : Fin M => tgt idx e = some i), upd (ix1 e) := by
  unfold Ideal.hostScatterAdd
  congr 1
  symm
  refine Finset.sum_bij (fun e _ => ix1 e) ?_ ?_ ?_ ?_
  · intro e he
    simp only [Finset.mem_filter, Finset.mem_univ, true_and] at he ⊢
    exact (rowScatter1_resultIdx? wf idx (ix1 e) (ix1 i)).mpr he
  · intro a _ b _ h
    exact congrFun h 0
  · intro j hj
    simp only [Finset.mem_filter, Finset.mem_univ, true_and] at hj
    exact ⟨j 0, Finset.mem_filter.mpr ⟨Finset.mem_univ _, (rowScatter1_resultIdx? wf idx j (ix1 i)).mp hj⟩,
      (eq_ix1 j).symm⟩
  · intro e _
    rfl

/-- THE SCATTER OF ROWS READ AT ROW `i`, COLUMN `f`: the operand there plus the sum, over the edges whose target is
    row `i`, of their update rows' column `f`. -/
theorem hostScatterAdd_row2 {C : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (i : Fin N) (f : Fin C) :
    Ideal.hostScatterAdd (rowScatter2 N M C wf) x idx upd (ix2 i f)
      = x (ix2 i f) + ∑ e ∈ Finset.univ.filter (fun e : Fin M => tgt idx e = some i), upd (ix2 e f) := by
  unfold Ideal.hostScatterAdd
  congr 1
  symm
  refine Finset.sum_bij (fun e _ => ix2 e f) ?_ ?_ ?_ ?_
  · intro e he
    simp only [Finset.mem_filter, Finset.mem_univ, true_and] at he ⊢
    exact (rowScatter2_resultIdx? wf idx (ix2 e f) (ix2 i f)).mpr ⟨he, rfl⟩
  · intro a _ b _ h
    exact congrFun h 0
  · intro j hj
    simp only [Finset.mem_filter, Finset.mem_univ, true_and] at hj
    obtain ⟨h0, h1⟩ := (rowScatter2_resultIdx? wf idx j (ix2 i f)).mp hj
    refine ⟨j 0, Finset.mem_filter.mpr ⟨Finset.mem_univ _, h0⟩, ?_⟩
    funext a
    match a with
    | ⟨0, _⟩ => rfl
    | ⟨1, _⟩ => exact (Fin.ext h1).symm
  · intro e _
    rfl

end RowSums

/-! ## Finite sums on the extended reals -/

section Sums
variable {ι : Type} [DecidableEq ι]

/-- A sum of ones over a finite set is nonnegative. -/
theorem sum_one_nonneg (S : Finset ι) : (0 : EReal) ≤ ∑ _e ∈ S, (1 : EReal) :=
  Finset.sum_nonneg fun _ _ => zero_le_one

/-- A constant summed over a finite set is the number of its elements, as a sum of ones, times the constant. -/
theorem sum_const_eq (S : Finset ι) (a : EReal) : ∑ _e ∈ S, a = (∑ _e ∈ S, (1 : EReal)) * a := by
  induction S using Finset.induction_on with
  | empty => simp
  | insert i S hi ih =>
    rw [Finset.sum_insert hi, Finset.sum_insert hi, ih,
      EReal.right_distrib_of_nonneg zero_le_one (sum_one_nonneg S), one_mul]

/-- A nonnegative real factor distributes over a finite sum of extended reals. -/
theorem coe_mul_sum (d : ℝ) (hd : 0 ≤ d) (S : Finset ι) (x : ι → EReal) :
    (d : EReal) * ∑ e ∈ S, x e = ∑ e ∈ S, (d : EReal) * x e := by
  induction S using Finset.induction_on with
  | empty => simp
  | insert i S hi ih =>
    rw [Finset.sum_insert hi, Finset.sum_insert hi,
      EReal.left_distrib_of_nonneg_of_ne_top (EReal.coe_nonneg.mpr hd) (EReal.coe_ne_top d), ih]

/-- THE NODE LAW: summing, over a node's incoming edges, the node's own row plus the edge's weight times the node's
    nonnegative real factor times the edge's source row gives the in-degree times the own row plus the node's factor
    times the sum of the source rows each scaled by its edge's weight. -/
theorem node_law (S : Finset ι) (a : EReal) (d : ℝ) (hd : 0 ≤ d) (q b : ι → EReal) :
    ∑ e ∈ S, (a + (q e * (d : EReal)) * b e)
      = (∑ _e ∈ S, (1 : EReal)) * a + (d : EReal) * ∑ e ∈ S, b e * q e := by
  rw [Finset.sum_add_distrib, sum_const_eq S a, coe_mul_sum d hd S]
  congr 1
  refine Finset.sum_congr rfl fun e _ => ?_
  rw [mul_comm (q e) (d : EReal), mul_assoc, mul_comm (q e) (b e)]

end Sums

end Idealize.ShloMosaic.ScatterRows

end
-- ==== Proof.Spec.lean ====
/-
  One message-passing layer of an equivariant graph network on a graph of 50000 nodes and 800000 edges.

  For every edge e with endpoints r(e) and c(e): the relative position rel(e) = pos(r(e)) − pos(c(e)) and the edge message
  msg(e) of the gathered feature rows h(r(e)), h(c(e)) and rel(e). Every node n sums what its incoming edges carry (the
  edges whose target number is n): the messages, and the relative positions scaled by the edges' coordinate
  coefficients. The node update is the layer's update of (h + summed messages).

  The endpoints come in as three columns of 32-bit row numbers: two that the gathers read (signed, clamped to the
  table) and one that names the scatter's target rows.
-/
import proofs.«138794_j50809463111709_2_alg».proof.Proof.LibEgnnLayers
import proofs.«138794_j50809463111709_2_alg».proof.Proof.LibGatherRows
import proofs.«138794_j50809463111709_2_alg».proof.Proof.LibScatterRows

noncomputable section

namespace Cert.Egnn

open scoped BigOperators
open Idealize.ShloMosaic Idealize.ShloMosaic.ValueIdx Cert.LibMatProd Cert.Layers Cert.NormLayers Cert.CompGcn

/-! ## The layer on the whole graph -/

section Graph

variable (gr gc sc : IVec ⟨2, ![800000, 1]⟩ 32) (h : Mat 50000 64) (pos : Mat 50000 3)
  (w1 : Mat 129 64) (b1 : Vect 64) (w2 : Mat 64 64) (b2 g be : Vect 64)
  (hw1 : Mat 64 64) (hb1 : Vect 64) (hw2 : Mat 64 64) (hb2 hg hbe : Vect 64)
  (x1 : Mat 64 64) (xb1 : Vect 64) (x2 : Mat 64 1) (xb2 : Vect 1)

/-- The row of a 50000-row table that entry e of an index column selects. -/
abbrev sel (col : IVec ⟨2, ![800000, 1]⟩ 32) : Fin 800000 → Fin 50000 := GatherRows.src (N := 50000) (by decide) col

/-- Relative positions of the edges. -/
def relPos : Mat 800000 3 := minus (gatherRows pos (sel gr)) (gatherRows pos (sel gc))

/-- The messages of all edges. -/
def messages : Mat 800000 64 :=
  edgeMsg (gatherRows h (sel gr)) (gatherRows h (sel gc)) (relPos gr gc pos) w1 (rowOf b1) w2 (rowOf b2) (rowOf g) (rowOf be)

/-- The relative positions scaled by the coefficients. -/
def shifts : Mat 800000 3 :=
  rowScale (relPos gr gc pos) (posCoef (messages gr gc h pos w1 b1 w2 b2 g be) x1 (rowOf xb1) x2 (rowOf xb2))

/-- The updated node features. -/
def hUpd : Mat 50000 64 :=
  nodeUpd (plus h (scatterRows (ScatterRows.tgt sc) (messages gr gc h pos w1 b1 w2 b2 g be)))
    hw1 (rowOf hb1) hw2 (rowOf hb2) (rowOf hg) (rowOf hbe)

/-- The coordinate updates of the nodes. -/
def posUpd : Mat 50000 3 :=
  scatterRows (ScatterRows.tgt sc) (shifts gr gc h pos w1 b1 w2 b2 g be x1 xb1 x2 xb2)

end Graph

end Cert.Egnn

end
-- ==== Proof.KHost.lean ====
/-
  The host operations before the edge region, read off: what each of the edge region's fifteen input arrays holds when
  the region is entered, as a term of the argument arrays. The two endpoint rows of the edge table are clamped into the
  node range and, for the gathers, wrapped and stood up as index columns; node features (rounded to a narrower format,
  which changes no exact value) and positions are gathered at them; the first edge weight is cut into its two 64-row
  bands and its last row; offset and gain vectors are re-laid as one-row matrices.
-/
import proofs.«138794_j50809463111709_2_alg».proof.Proof.Gen.KernelIdeal.Frame
import proofs.«138794_j50809463111709_2_alg».proof.Proof.Spec

set_option maxRecDepth 16384

noncomputable section

namespace Cert.KernelIdeal.KValue

open Idealize.ShloMosaic Idealize.ShloMosaic.TcCoe Idealize.ShloMosaic.Tactic Idealize.ShloMosaic.ValueIdx Idealize.SL.Sem
open Cert.LibMatProd Cert.Layers Cert.NormLayers Cert.CompGcn Cert.Egnn Cert.KernelIdeal Cert.KernelIdeal.Gen

/-- Row r of the edge table as a vector, every entry clamped into [0, 49999]. -/
def clipRow (r : ℕ) (hs : S2x800000.Slices ![r, 0] S1x800000) (ei : IVec S2x800000 32) : IVec S800000 32 :=
  minsi (broadcastInDim S800000 ![] bcast_S_S800000 (id (constantI S_ 32 49999#32)))
    (maxsi (broadcastInDim S800000 ![] bcast_S_S800000 (id (constantI S_ 32 0#32)))
      (fun i => shapeCast S800000 (extractStridedSlice S1x800000 ![r, 0] ei hs) shapeCasts_S1x800000_S800000 i))

/-- The index column the gathers of the source rows read. -/
def grK (ei : IVec S2x800000 32) : IVec S800000x1 32 :=
  wrapCol 50000#32 bcast_S_S800000 bcast_S800000_S800000x1_0 (clipRow 0 slices_S2x800000_S1x800000_0_0 ei)

/-- The index column the gathers of the target rows read. -/
def gcK (ei : IVec S2x800000 32) : IVec S800000x1 32 :=
  wrapCol 50000#32 bcast_S_S800000 bcast_S800000_S800000x1_0 (clipRow 1 slices_S2x800000_S1x800000_1_0 ei)

/-- The index column that names the scatter's target rows. -/
def scK (ei : IVec S2x800000 32) : IVec S800000x1 32 :=
  rawCol bcast_S800000_S800000x1_0 (clipRow 1 slices_S2x800000_S1x800000_1_0 ei)

variable (m : (ℓ : Loc nD τ sig) → Buf (Elt Ideal) ℓ) (ρ : Dev nD → PrngReg)

set_option maxHeartbeats 16000000 in
theorem v1_13 (c : Dev nD) : (V1 m ρ c main_call0_v13 : S800000x64.Idx → EReal) = Host.gather gather_S50000x64_S800000x1_S800000x64_1_0_n_n_0_1_164 (truncf (F := Ideal) .bf16 (m ((c : Thread nD τ).loc main_arg0) : S50000x64.Idx → EReal) bitsLt_bf16_f32) (grK (m ((c : Thread nD τ).loc main_arg2) : IVec S2x800000 32)) := by
  show StableHlo.after hostOps0 (W0 m ρ c) (Proc.devRef .tc main_call0_v13) = _
  after_results_simp
  unfold grK wrapCol clipRow
  rfl

set_option maxHeartbeats 16000000 in
theorem v1_20 (c : Dev nD) : (V1 m ρ c main_call0_v20 : S800000x64.Idx → EReal) = Host.gather gather_S50000x64_S800000x1_S800000x64_1_0_n_n_0_1_164 (truncf (F := Ideal) .bf16 (m ((c : Thread nD τ).loc main_arg0) : S50000x64.Idx → EReal) bitsLt_bf16_f32) (gcK (m ((c : Thread nD τ).loc main_arg2) : IVec S2x800000 32)) := by
  show StableHlo.after hostOps0 (W0 m ρ c) (Proc.devRef .tc main_call0_v20) = _
  after_results_simp
  unfold gcK wrapCol clipRow
  rfl

set_option maxHeartbeats 16000000 in
theorem v1_35 (c : Dev nD) : (V1 m ρ c main_call0_v35 : S800000x3.Idx → EReal) = subf (F := Ideal) (φ := .f32) (Host.gather gather_S50000x3_S800000x1_S800000x3_1_0_n_n_0_1_13 (m ((c : Thread nD τ).loc main_arg1) : S50000x3.Idx → EReal) (grK (m ((c : Thread nD τ).loc main_arg2) : IVec S2x800000 32))) (Host.gather gather_S50000x3_S800000x1_S800000x3_1_0_n_n_0_1_13 (m ((c : Thread nD τ).loc main_arg1) : S50000x3.Idx → EReal) (gcK (m ((c : Thread nD τ).loc main_arg2) : IVec S2x800000 32))) := by
  show StableHlo.after hostOps0 (W0 m ρ c) (Proc.devRef .tc main_call0_v35) = _
  after_results_simp
  unfold grK gcK wrapCol clipRow
  rfl

theorem v1_37 (c : Dev nD) : (V1 m ρ c main_call0_v37 : S64x64.Idx → EReal) = truncf (F := Ideal) .bf16 (extractStridedSlice S64x64 ![0, 0] (m ((c : Thread nD τ).loc main_arg3) : S129x64.Idx → EReal) slices_S129x64_S64x64_0_0) bitsLt_bf16_f32 := by
  show StableHlo.after hostOps0 (W0 m ρ c) (Proc.devRef .tc main_call0_v37) = _
  after_results_simp
  rfl

theorem v1_39 (c : Dev nD) : (V1 m ρ c main_call0_v39 : S64x64.Idx → EReal) = truncf (F := Ideal) .bf16 (extractStridedSlice S64x64 ![64, 0] (m ((c : Thread nD τ).loc main_arg3) : S129x64.Idx → EReal) slices_S129x64_S64x64_64_0) bitsLt_bf16_f32 := by
  show StableHlo.after hostOps0 (W0 m ρ c) (Proc.devRef .tc main_call0_v39) = _
  after_results_simp
  rfl

theorem v1_40 (c : Dev nD) : (V1 m ρ c main_call0_v40 : S1x64.Idx → EReal) = extractStridedSlice S1x64 ![128, 0] (m ((c : Thread nD τ).loc main_arg3) : S129x64.Idx → EReal) slices_S129x64_S1x64_128_0 := by
  show StableHlo.after hostOps0 (W0 m ρ c) (Proc.devRef .tc main_call0_v40) = _
  after_results_simp
  rfl

theorem v1_41 (c : Dev nD) : (V1 m ρ c main_call0_v41 : S1x64.Idx → EReal) = shapeCast S1x64 (m ((c : Thread nD τ).loc main_arg4) : S64.Idx → EReal) shapeCasts_S64_S1x64 := by
  show StableHlo.after hostOps0 (W0 m ρ c) (Proc.devRef .tc main_call0_v41) = _
  after_results_simp
  rfl

theorem v1_42 (c : Dev nD) : (V1 m ρ c main_call0_v42 : S64x64.Idx → EReal) = truncf (F := Ideal) .bf16 (m ((c : Thread nD τ).loc main_arg5) : S64x64.Idx → EReal) bitsLt_bf16_f32 := by
  show StableHlo.after hostOps0 (W0 m ρ c) (Proc.devRef .tc main_call0_v42) = _
  after_results_simp
  rfl

theorem v1_43 (c : Dev nD) : (V1 m ρ c main_call0_v43 : S1x64.Idx → EReal) = shapeCast S1x64 (m ((c : Thread nD τ).loc main_arg6) : S64.Idx → EReal) shapeCasts_S64_S1x64 := by
  show StableHlo.after hostOps0 (W0 m ρ c) (Proc.devRef .tc main_call0_v43) = _
  after_results_simp
  rfl

theorem v1_44 (c : Dev nD) : (V1 m ρ c main_call0_v44 : S1x64.Idx → EReal) = shapeCast S1x64 (m ((c : Thread nD τ).loc main_arg7) : S64.Idx → EReal) shapeCasts_S64_S1x64 := by
  show StableHlo.after hostOps0 (W0 m ρ c) (Proc.devRef .tc main_call0_v44) = _
  after_results_simp
  rfl

theorem v1_45 (c : Dev nD) : (V1 m ρ c main_call0_v45 : S1x64.Idx → EReal) = shapeCast S1x64 (m ((c : Thread nD τ).loc main_arg8) : S64.Idx → EReal) shapeCasts_S64_S1x64 := by
  show StableHlo.after hostOps0 (W0 m ρ c) (Proc.devRef .tc main_call0_v45) = _
  after_results_simp
  rfl

theorem v1_46 (c : Dev nD) : (V1 m ρ c main_call0_v46 : S64x64.Idx → EReal) = truncf (F := Ideal) .bf16 (m ((c : Thread nD τ).loc main_arg15) : S64x64.Idx → EReal) bitsLt_bf16_f32 := by
  show StableHlo.after hostOps0 (W0 m ρ c) (Proc.devRef .tc main_call0_v46) = _
  after_results_simp
  rfl

theorem v1_47 (c : Dev nD) : (V1 m ρ c main_call0_v47 : S1x64.Idx → EReal) = shapeCast S1x64 (m ((c : Thread nD τ).loc main_arg16) : S64.Idx → EReal) shapeCasts_S64_S1x64 := by
  show StableHlo.after hostOps0 (W0 m ρ c) (Proc.devRef .tc main_call0_v47) = _
  after_results_simp
  rfl

theorem v1_48 (c : Dev nD) : (V1 m ρ c main_call0_v48 : S64x1.Idx → EReal) = truncf (F := Ideal) .bf16 (m ((c : Thread nD τ).loc main_arg17) : S64x1.Idx → EReal) bitsLt_bf16_f32 := by
  show StableHlo.after hostOps0 (W0 m ρ c) (Proc.devRef .tc main_call0_v48) = _
  after_results_simp
  rfl

theorem v1_49 (c : Dev nD) : (V1 m ρ c main_call0_v49 : S1x1.Idx → EReal) = shapeCast S1x1 (m ((c : Thread nD τ).loc main_arg18) : S1.Idx → EReal) shapeCasts_S1_S1x1 := by
  show StableHlo.after hostOps0 (W0 m ρ c) (Proc.devRef .tc main_call0_v49) = _
  after_results_simp
  rfl

end Cert.KernelIdeal.KValue

end
-- ==== Proof.LibEgnnUnit.lean ====
/-
  A vector unit's spellings of the extra pieces of the message-passing layer, each equal at the exact extended reals
  to the whole-matrix function it denotes: a row multiplied into every row; a column times a row, each spread over the
  other's axis; the lengths of the rows of three shifted coordinates (a lane sum of squares stood up as a column, then
  the square root); a column through the hyperbolic tangent multiplied into every row; and a rounding to a narrower float
  format, which changes no exact value.
-/
import proofs.«138794_j50809463111709_2_alg».proof.Proof.LibEgnnLayers

noncomputable section

namespace Cert.Egnn

open scoped BigOperators
open Idealize.ShloMosaic Idealize.ShloMosaic.ValueIdx Cert.LibPlainDot Cert.LibMatProd Cert.Layers Cert.NormLayers
  Cert.LibKeepdims Cert.CompGcn

/-- Rounding to a narrower format is the identity on exact values. -/
theorem trunc_id {s : Shape} {φ ψ : FTy} (x : FVec Ideal s φ) (hb : ψ.bits < φ.bits) :
    (truncf ψ x hb : s.Idx → EReal) = (x : s.Idx → EReal) := rfl

/-- A one-row matrix, through an identity re-lay, repeated down the rows and multiplied in. -/
theorem unit_mulRow {M N : ℕ} (a : FVec Ideal ⟨2, ![M, N]⟩ .f32) (row : FVec Ideal ⟨2, ![1, N]⟩ .f32)
    (h2 : (⟨2, ![1, N]⟩ : Shape).ShapeCasts ⟨2, ![1, N]⟩) (hb : (⟨2, ![1, N]⟩ : Shape).Broadcasts ⟨2, ![M, N]⟩) :
    mulf a (broadcastTo ⟨2, ![M, N]⟩ (shapeCast ⟨2, ![1, N]⟩ row h2) hb) = mulRow (a : Mat M N) (row : Mat 1 N) := by
  funext j
  obtain ⟨p, q, rfl⟩ : ∃ (p : Fin M) (q : Fin N), j = ix2 p q := ⟨j 0, j 1, eq_ix2 j⟩
  rw [shapeCast_self, mulf_apply, broadcastTo_1b_ab_apply]
  rfl

/-- A column spread over the lanes times a one-row matrix repeated down the rows: the column times the row. -/
theorem unit_outer {M N : ℕ} (d : FVec Ideal ⟨2, ![M, 1]⟩ .f32) (row : FVec Ideal ⟨2, ![1, N]⟩ .f32)
    (h2 : (⟨2, ![1, N]⟩ : Shape).ShapeCasts ⟨2, ![1, N]⟩) (hbd : (⟨2, ![M, 1]⟩ : Shape).Broadcasts ⟨2, ![M, N]⟩)
    (hb : (⟨2, ![1, N]⟩ : Shape).Broadcasts ⟨2, ![M, N]⟩) :
    mulf (broadcastTo ⟨2, ![M, N]⟩ d hbd) (broadcastTo ⟨2, ![M, N]⟩ (shapeCast ⟨2, ![1, N]⟩ row h2) hb)
      = outer (d : Mat M 1) (row : Mat 1 N) := by
  funext j
  obtain ⟨p, q, rfl⟩ : ∃ (p : Fin M) (q : Fin N), j = ix2 p q := ⟨j 0, j 1, eq_ix2 j⟩
  rw [shapeCast_self, mulf_apply, broadcastTo_1b_ab_apply, Cert.LibColumn.broadcastTo_a1_ab_apply]
  rfl

/-- The lane sum of the squared shifted coordinates, stood up as a column, through the square root: the lengths. -/
theorem unit_dist {M : ℕ} (rel : FVec Ideal ⟨2, ![M, 3]⟩ .f32) (acc : BitVec FTy.f32.bits)
    (hr : (⟨2, ![M, 3]⟩ : Shape).Reduces [1] (⟨1, ![M]⟩ : Shape)) (hφ : FKind.Formats FTy.f32)
    (hacc : acc = FKind.add.neutral .f32 hφ) (hc : (⟨1, ![M]⟩ : Shape).ShapeCasts ⟨2, ![M, 1]⟩)
    (h2 : (⟨2, ![M, 3]⟩ : Shape).ShapeCasts ⟨2, ![M, 3]⟩) :
    sqrt (shapeCast ⟨2, ![M, 1]⟩ (multiReduction .add [1] ⟨1, ![M]⟩
        (mulf (addf (shapeCast ⟨2, ![M, 3]⟩ rel h2) (broadcast ⟨2, ![M, 3]⟩ (Scalar.ofBits (F := Ideal) .f32 0x322BCC77#32)))
          (addf (shapeCast ⟨2, ![M, 3]⟩ rel h2) (broadcast ⟨2, ![M, 3]⟩ (Scalar.ofBits (F := Ideal) .f32 0x322BCC77#32))))
        acc hr hφ hacc) hc)
      = dist (rel : Mat M 3) := by
  funext j
  obtain ⟨p, u, rfl⟩ : ∃ (p : Fin M) (u : Fin 1), j = ix2 p u := ⟨j 0, j 1, eq_ix2 j⟩
  rw [shapeCast_self]
  show Ideal.sqrt (shapeCast ⟨2, ![M, 1]⟩ (multiReduction (F := Ideal) (φ := .f32) .add [1] ⟨1, ![M]⟩ _ acc hr hφ hacc) hc (ix2 p u)) = _
  rw [Cert.LibColumn.shapeCast_a_a1_apply, sum_last2_apply]
  rfl

/-- A column through the hyperbolic tangent, spread over the lanes and multiplied in: every row scaled by its
    coefficient. -/
theorem unit_tanhScale {M N : ℕ} (rel : FVec Ideal ⟨2, ![M, N]⟩ .f32) (x : FVec Ideal ⟨2, ![M, 1]⟩ .f32)
    (hb : (⟨2, ![M, 1]⟩ : Shape).Broadcasts ⟨2, ![M, N]⟩) :
    mulf rel (broadcastTo ⟨2, ![M, N]⟩ (tanh x) hb) = rowScale (rel : Mat M N) (tanhM (x : Mat M 1)) := by
  funext j
  obtain ⟨p, q, rfl⟩ : ∃ (p : Fin M) (q : Fin N), j = ix2 p q := ⟨j 0, j 1, eq_ix2 j⟩
  rw [mulf_apply, Cert.LibColumn.broadcastTo_a1_ab_apply]
  rfl

end Cert.Egnn

end
-- ==== Proof.LibSideBySide.lean ====
/-
  The messages and the scaled relative positions side by side: a 67-column matrix whose columns 0–63 are the message
  and whose columns 64–66 are the shift. Summing rows of the wide matrix at their targets and then cutting the columns
  apart is the same as summing the two narrow matrices separately, because a scattered sum works column by column.
-/
import proofs.«138794_j50809463111709_2_alg».proof.Proof.LibEgnnLayers

noncomputable section

namespace Cert.Egnn

open scoped BigOperators
open Idealize.ShloMosaic Idealize.ShloMosaic.ValueIdx Cert.LibMatProd Cert.Layers Cert.NormLayers Cert.CompGcn

variable {M : ℕ}

/-- Two matrices side by side: columns 0–63 from the first, columns 64–66 from the second. -/
def comb (a : Mat M 64) (b : Mat M 3) : Mat M 67 := fun i =>
  if h : (i 1).val < 64 then a (ix2 (i 0) ⟨(i 1).val, h⟩)
  else b (ix2 (i 0) ⟨(i 1).val - 64, by have := idx2_lt1 i; omega⟩)

/-- Columns 0–63 of a 67-column matrix. -/
def colsL (u : Mat M 67) : Mat M 64 := fun i => u (ix2 (i 0) ⟨(i 1).val, by have := idx2_lt1 i; omega⟩)

/-- Columns 64–66 of a 67-column matrix. -/
def colsR (u : Mat M 67) : Mat M 3 := fun i => u (ix2 (i 0) ⟨64 + (i 1).val, by have := idx2_lt1 i; omega⟩)

theorem comb_left (a : Mat M 64) (b : Mat M 3) (p : Fin M) (q : Fin 64) :
    comb a b (ix2 p ⟨q.val, by omega⟩) = a (ix2 p q) := by
  unfold comb
  rw [dif_pos (show ((ix2 p (⟨q.val, by omega⟩ : Fin 67)) 1).val < 64 from q.isLt)]
  rfl

theorem comb_right (a : Mat M 64) (b : Mat M 3) (p : Fin M) (q : Fin 3) :
    comb a b (ix2 p ⟨64 + q.val, by omega⟩) = b (ix2 p q) := by
  unfold comb
  rw [dif_neg (show ¬ ((ix2 p (⟨64 + q.val, by omega⟩ : Fin 67)) 1).val < 64 from by
    show ¬ 64 + q.val < 64; omega)]
  refine congrArg b (funext fun d => Fin.ext ?_)
  match d with
  | ⟨0, _⟩ => rfl
  | ⟨1, _⟩ => show 64 + q.val - 64 = q.val; omega

theorem colsL_comb (a : Mat M 64) (b : Mat M 3) : colsL (comb a b) = a := by
  funext j
  obtain ⟨p, q, rfl⟩ : ∃ (p : Fin M) (q : Fin 64), j = ix2 p q := ⟨j 0, j 1, eq_ix2 j⟩
  exact comb_left a b p q

theorem colsR_comb (a : Mat M 64) (b : Mat M 3) : colsR (comb a b) = b := by
  funext j
  obtain ⟨p, q, rfl⟩ : ∃ (p : Fin M) (q : Fin 3), j = ix2 p q := ⟨j 0, j 1, eq_ix2 j⟩
  exact comb_right a b p q

/-- A band of rows of the side-by-side matrix is the bands side by side. -/
theorem band_comb (T r : ℕ) (hh : r + T ≤ M) (a : Mat M 64) (b : Mat M 3) :
    comb (band T r hh a) (band T r hh b) = band T r hh (comb a b) := rfl

variable {E N : ℕ}

/-- Columns 0–63 of the scattered sum of a wide matrix are the scattered sum of its columns 0–63. -/
theorem colsL_scatter (tg : Fin E → Option (Fin N)) (u : Mat E 67) :
    colsL (scatterRows tg u) = scatterRows tg (colsL u) := rfl

/-- Columns 64–66 of the scattered sum of a wide matrix are the scattered sum of its columns 64–66. -/
theorem colsR_scatter (tg : Fin E → Option (Fin N)) (u : Mat E 67) :
    colsR (scatterRows tg u) = scatterRows tg (colsR u) := rfl

end Cert.Egnn

end
-- ==== Proof.KEdgePay.lean ====
/-
  The edge kernel's arithmetic on one band of edges, piece by piece: the first layer with x · logistic x (the two
  gathered feature bands against their square weights, the lengths against a weight row, an offset row), the second
  layer with layer normalisation (the edge messages), the coefficient branch (a dense layer with x · logistic x, a
  64-to-1 dense layer, the hyperbolic tangent) and the relative positions scaled by the coefficients. Roundings to a
  narrower float format on the way into the matrix unit change no exact value.
-/
import proofs.«138794_j50809463111709_2_alg».proof.Proof.Gen.KernelIdeal.Skeleton
import proofs.«138794_j50809463111709_2_alg».proof.Proof.LibEgnnUnit
import proofs.«138794_j50809463111709_2_alg».proof.Proof.LibSideBySide

set_option maxRecDepth 16384

noncomputable section

namespace Cert.KernelIdeal.KValue

open Idealize.ShloMosaic Idealize.ShloMosaic.ValueIdx Cert.LibPlainDot Cert.LibMatProd Cert.Layers Cert.NormLayers
  Cert.LibKeepdims Cert.CompGcn Cert.Egnn Cert.KernelIdeal Cert.KernelIdeal.Gen

/-- The first layer with its activation. -/
theorem edge_e1 (x0 x1 : FVec Ideal S4000x64 .bf16) (x2 : FVec Ideal S4000x3 .f32) (x3 x4 : FVec Ideal S64x64 .bf16)
    (x5 x6 : FVec Ideal S1x64 .f32) :
    (k0_pay5 (F := Ideal) x0 x1 x2 x3 x4 x5 x6 : S4000x64.Idx → EReal)
      = silu (edgePre3 (x0 : Mat 4000 64) (x1 : Mat 4000 64) (dist (x2 : Mat 4000 3)) (x3 : Mat 64 64) (x4 : Mat 64 64)
          (x5 : Mat 1 64) (x6 : Mat 1 64)) := by
  unfold k0_pay5 k0_pay2
  dsimp only
  refine (trunc_id (φ := .f32) (ψ := .bf16) _ _).trans ?_
  refine (unit_silu _).trans ?_
  refine congrArg silu ?_
  refine (unit_addRow _ _ _ _).trans ?_
  refine congrArg (fun z => addRow z (x6 : Mat 1 64)) ?_
  refine (unit_plus _ _).trans ?_
  refine congrArg₂ plus ?_ ?_
  · refine (unit_plus _ _).trans ?_
    refine congrArg₂ plus ?_ ?_
    · refine (unit_prod _ rfl rfl rfl rfl rfl rfl _ _).trans ?_
      exact congrArg₂ matProd (shapeCast_self _ _) (shapeCast_self _ _)
    · refine (unit_prod _ rfl rfl rfl rfl rfl rfl _ _).trans ?_
      exact congrArg₂ matProd (shapeCast_self _ _) (shapeCast_self _ _)
  · refine (unit_outer _ _ _ _ _).trans ?_
    refine congrArg (fun z => outer z (x5 : Mat 1 64)) ?_
    exact unit_dist x2 _ _ _ _ _ _

/-- The second layer and the layer normalisation, from any first-layer output. -/
theorem edge_msg (x7 : FVec Ideal S64x64 .bf16) (x8 : FVec Ideal S1x64 .f32) (e1 : FVec Ideal S4000x64 .bf16)
    (x9 x10 : FVec Ideal S1x64 .f32) :
    (k0_pay6 (F := Ideal) (k0_pay3 x7) (k0_pay4 x8) e1 (constant S4000x64 .f32 0x00000000#32) x9 x10 : S4000x64.Idx → EReal)
      = lnorm D64 EPS (dense (e1 : Mat 4000 64) (x7 : Mat 64 64) (x8 : Mat 1 64)) (x9 : Mat 1 64) (x10 : Mat 1 64) := by
  unfold k0_pay6 k0_pay3 k0_pay4
  dsimp only
  refine (unit_addRow _ _ _ _).trans ?_
  refine congrArg (fun z => addRow z (x10 : Mat 1 64)) ?_
  refine (unit_mulRow _ _ _ _).trans ?_
  refine congrArg (fun z => mulRow z (x9 : Mat 1 64)) ?_
  refine (unit_scaled _ _ _ _ _ _ _ _ _).trans ?_
  refine congrArg (scaled D64 EPS) ?_
  refine (unit_centred _ _ _ _ _ _ _ _).trans ?_
  refine congrArg (centred D64) ?_
  refine (unit_addRow _ _ _ _).trans ?_
  refine congrArg (fun z => addRow z (x8 : Mat 1 64)) ?_
  refine (unit_prod _ rfl rfl rfl rfl rfl rfl _ _).trans ?_
  exact congrArg (fun z => matProd (e1 : Mat 4000 64) z) (shapeCast_self _ _)

/-- The coefficient branch's first layer with its activation, from any first-layer output. -/
theorem edge_t1 (x7 : FVec Ideal S64x64 .bf16) (x8 : FVec Ideal S1x64 .f32) (e1 : FVec Ideal S4000x64 .bf16)
    (x9 x10 : FVec Ideal S1x64 .f32) (x11 : FVec Ideal S64x64 .bf16) (x12 : FVec Ideal S1x64 .f32) :
    (k0_pay9 (F := Ideal) (k0_pay3 x7) (k0_pay4 x8) e1 (constant S4000x64 .f32 0x00000000#32) x9 x10 x11 x12 :
        S4000x64.Idx → EReal)
      = silu (dense (lnorm D64 EPS (dense (e1 : Mat 4000 64) (x7 : Mat 64 64) (x8 : Mat 1 64)) (x9 : Mat 1 64) (x10 : Mat 1 64))
          (x11 : Mat 64 64) (x12 : Mat 1 64)) := by
  unfold k0_pay9
  dsimp only
  refine (trunc_id (φ := .f32) (ψ := .bf16) _ _).trans ?_
  refine (unit_silu _).trans ?_
  refine congrArg silu ?_
  refine (unit_addRow _ _ _ _).trans ?_
  refine congrArg (fun z => addRow z (x12 : Mat 1 64)) ?_
  refine (unit_prod _ rfl rfl rfl rfl rfl rfl _ _).trans ?_
  refine congrArg₂ matProd ?_ (shapeCast_self _ _)
  exact (trunc_id (φ := .f32) (ψ := .bf16) _ _).trans (edge_msg x7 x8 e1 x9 x10)

/-- The relative positions scaled by the coefficients, from any output of the coefficient branch's first layer. -/
theorem edge_delta (x2 : FVec Ideal S4000x3 .f32) (x13 : FVec Ideal S64x1 .bf16) (x14 : FVec Ideal S1x1 .f32)
    (t1 : FVec Ideal S4000x64 .bf16) :
    (k0_pay1 (F := Ideal) (k0_pay2 x2) (k0_pay7 x13) (k0_pay8 x14) t1 : S4000x3.Idx → EReal)
      = rowScale (x2 : Mat 4000 3) (tanhM (dense (t1 : Mat 4000 64) (x13 : Mat 64 1) (x14 : Mat 1 1))) := by
  unfold k0_pay1 k0_pay2 k0_pay7 k0_pay8
  dsimp only
  refine (unit_tanhScale _ _ _).trans ?_
  refine congrArg₂ rowScale (shapeCast_self _ _) ?_
  refine congrArg tanhM ?_
  refine (unit_addRow _ _ _ _).trans ?_
  refine congrArg (fun z => addRow z (x14 : Mat 1 1)) ?_
  refine (unit_prod _ rfl rfl rfl rfl rfl rfl _ _).trans ?_
  exact congrArg (fun z => matProd (t1 : Mat 4000 64) z) (shapeCast_self _ _)

end Cert.KernelIdeal.KValue

end
-- ==== Proof.KEdgeBlock.lean ====
/-
  What the edge kernel computes on one band of edges, as one function of the band's blocks: the edge messages in
  columns 0–63 beside the relative positions scaled by their coefficients in columns 64–66. The same function of whole
  arrays restricts to bands: a band of its rows is the function of the bands.
-/
import proofs.«138794_j50809463111709_2_alg».proof.Proof.KEdgePay

set_option maxRecDepth 16384

noncomputable section

namespace Cert.Egnn

open Idealize.ShloMosaic Idealize.ShloMosaic.ValueIdx Cert.LibMatProd Cert.Layers Cert.NormLayers Cert.CompGcn

variable {M : ℕ}

/-- Messages beside shifts, from the gathered rows, the relative positions and the fifteen weight pieces. -/
def edgeBlock (x0 : Mat M 64) (x1 : Mat M 64) (x2 : Mat M 3) (x3 : Mat 64 64) (x4 : Mat 64 64) (x5 : Mat 1 64) (x6 : Mat 1 64) (x7 : Mat 64 64) (x8 : Mat 1 64) (x9 : Mat 1 64) (x10 : Mat 1 64) (x11 : Mat 64 64) (x12 : Mat 1 64) (x13 : Mat 64 1) (x14 : Mat 1 1) : Mat M 67 :=
  comb (edgeMsg3 x0 x1 x2 x3 x4 x5 x6 x7 x8 x9 x10)
    (rowScale x2 (posCoef (edgeMsg3 x0 x1 x2 x3 x4 x5 x6 x7 x8 x9 x10) x11 x12 x13 x14))

theorem band_edgeBlock (T r : ℕ) (hh : r + T ≤ M) (x0 : Mat M 64) (x1 : Mat M 64) (x2 : Mat M 3) (x3 : Mat 64 64) (x4 : Mat 64 64) (x5 : Mat 1 64) (x6 : Mat 1 64) (x7 : Mat 64 64) (x8 : Mat 1 64) (x9 : Mat 1 64) (x10 : Mat 1 64) (x11 : Mat 64 64) (x12 : Mat 1 64) (x13 : Mat 64 1) (x14 : Mat 1 1) :
    edgeBlock (band T r hh x0) (band T r hh x1) (band T r hh x2) x3 x4 x5 x6 x7 x8 x9 x10 x11 x12 x13 x14
      = band T r hh (edgeBlock x0 x1 x2 x3 x4 x5 x6 x7 x8 x9 x10 x11 x12 x13 x14) := rfl

end Cert.Egnn

namespace Cert.KernelIdeal.KValue

open Idealize.ShloMosaic Idealize.ShloMosaic.ValueIdx Cert.LibPlainDot Cert.LibMatProd Cert.Layers Cert.NormLayers
  Cert.LibKeepdims Cert.CompGcn Cert.Egnn Cert.KernelIdeal Cert.KernelIdeal.Gen

/-- The stored message block is the edge message of the point's blocks. -/
theorem msg_eq (x0 : FVec Ideal S4000x64 .bf16) (x1 : FVec Ideal S4000x64 .bf16) (x2 : FVec Ideal S4000x3 .f32) (x3 : FVec Ideal S64x64 .bf16) (x4 : FVec Ideal S64x64 .bf16) (x5 : FVec Ideal S1x64 .f32) (x6 : FVec Ideal S1x64 .f32) (x7 : FVec Ideal S64x64 .bf16) (x8 : FVec Ideal S1x64 .f32) (x9 : FVec Ideal S1x64 .f32) (x10 : FVec Ideal S1x64 .f32) :
    (k0_pay6 (F := Ideal) (k0_pay3 x7) (k0_pay4 x8) (k0_pay5 x0 x1 x2 x3 x4 x5 x6) (constant S4000x64 .f32 0x00000000#32) x9 x10 :
        S4000x64.Idx → EReal)
      = edgeMsg3 (x0 : Mat 4000 64) (x1 : Mat 4000 64) (x2 : Mat 4000 3) (x3 : Mat 64 64) (x4 : Mat 64 64) (x5 : Mat 1 64)
          (x6 : Mat 1 64) (x7 : Mat 64 64) (x8 : Mat 1 64) (x9 : Mat 1 64) (x10 : Mat 1 64) :=
  (edge_msg x7 x8 _ x9 x10).trans
    (congrArg (fun e : Mat 4000 64 => lnorm D64 EPS (dense e (x7 : Mat 64 64) (x8 : Mat 1 64)) (x9 : Mat 1 64) (x10 : Mat 1 64))
      (edge_e1 x0 x1 x2 x3 x4 x5 x6))

/-- The coefficient branch's first layer on the edge message of the point's blocks. -/
theorem t1_eq (x0 : FVec Ideal S4000x64 .bf16) (x1 : FVec Ideal S4000x64 .bf16) (x2 : FVec Ideal S4000x3 .f32) (x3 : FVec Ideal S64x64 .bf16) (x4 : FVec Ideal S64x64 .bf16) (x5 : FVec Ideal S1x64 .f32) (x6 : FVec Ideal S1x64 .f32) (x7 : FVec Ideal S64x64 .bf16) (x8 : FVec Ideal S1x64 .f32) (x9 : FVec Ideal S1x64 .f32) (x10 : FVec Ideal S1x64 .f32) (x11 : FVec Ideal S64x64 .bf16) (x12 : FVec Ideal S1x64 .f32) :
    (k0_pay9 (F := Ideal) (k0_pay3 x7) (k0_pay4 x8) (k0_pay5 x0 x1 x2 x3 x4 x5 x6) (constant S4000x64 .f32 0x00000000#32) x9 x10 x11 x12 :
        S4000x64.Idx → EReal)
      = silu (dense (edgeMsg3 (x0 : Mat 4000 64) (x1 : Mat 4000 64) (x2 : Mat 4000 3) (x3 : Mat 64 64) (x4 : Mat 64 64)
          (x5 : Mat 1 64) (x6 : Mat 1 64) (x7 : Mat 64 64) (x8 : Mat 1 64) (x9 : Mat 1 64) (x10 : Mat 1 64))
          (x11 : Mat 64 64) (x12 : Mat 1 64)) :=
  (edge_t1 x7 x8 _ x9 x10 x11 x12).trans
    (congrArg (fun e : Mat 4000 64 => silu (dense (lnorm D64 EPS (dense e (x7 : Mat 64 64) (x8 : Mat 1 64)) (x9 : Mat 1 64)
      (x10 : Mat 1 64)) (x11 : Mat 64 64) (x12 : Mat 1 64))) (edge_e1 x0 x1 x2 x3 x4 x5 x6))

/-- The stored shift block is the relative positions scaled by the coefficients of the point's blocks. -/
theorem delta_eq (x0 : FVec Ideal S4000x64 .bf16) (x1 : FVec Ideal S4000x64 .bf16) (x2 : FVec Ideal S4000x3 .f32) (x3 : FVec Ideal S64x64 .bf16) (x4 : FVec Ideal S64x64 .bf16) (x5 : FVec Ideal S1x64 .f32) (x6 : FVec Ideal S1x64 .f32) (x7 : FVec Ideal S64x64 .bf16) (x8 : FVec Ideal S1x64 .f32) (x9 : FVec Ideal S1x64 .f32) (x10 : FVec Ideal S1x64 .f32) (x11 : FVec Ideal S64x64 .bf16) (x12 : FVec Ideal S1x64 .f32) (x13 : FVec Ideal S64x1 .bf16) (x14 : FVec Ideal S1x1 .f32) :
    (k0_pay1 (F := Ideal) (k0_pay2 x2) (k0_pay7 x13) (k0_pay8 x14)
        (k0_pay9 (k0_pay3 x7) (k0_pay4 x8) (k0_pay5 x0 x1 x2 x3 x4 x5 x6) (constant S4000x64 .f32 0x00000000#32) x9 x10 x11 x12) :
        S4000x3.Idx → EReal)
      = rowScale (x2 : Mat 4000 3) (posCoef (edgeMsg3 (x0 : Mat 4000 64) (x1 : Mat 4000 64) (x2 : Mat 4000 3) (x3 : Mat 64 64)
          (x4 : Mat 64 64) (x5 : Mat 1 64) (x6 : Mat 1 64) (x7 : Mat 64 64) (x8 : Mat 1 64) (x9 : Mat 1 64) (x10 : Mat 1 64))
          (x11 : Mat 64 64) (x12 : Mat 1 64) (x13 : Mat 64 1) (x14 : Mat 1 1)) :=
  (edge_delta x2 x13 x14 _).trans
    (congrArg (fun T : Mat 4000 64 => rowScale (x2 : Mat 4000 3) (tanhM (dense T (x13 : Mat 64 1) (x14 : Mat 1 1))))
      (t1_eq x0 x1 x2 x3 x4 x5 x6 x7 x8 x9 x10 x11 x12))

end Cert.KernelIdeal.KValue

end
-- ==== Proof.KEdge.lean ====
/-
  The edge region read as one function. Its grid has 200 points; point t fetches rows 4000·t … 4000·t + 3999 of the two
  gathered feature arrays and of the relative positions, the twelve weight arrays whole, and writes back the same band of
  rows of the 67-column result with two stores: the messages into columns 0–63 and the scaled relative positions into
  columns 64–66. The two stores together fill the block with "messages beside shifts" of the point's blocks; that
  function acts row by row, and the 200 bands tile the result.
-/
import proofs.«138794_j50809463111709_2_alg».proof.Proof.Gen.KernelIdeal.Frame
import proofs.«138794_j50809463111709_2_alg».proof.Proof.KEdgeBlock

set_option maxRecDepth 16384

noncomputable section

namespace Cert.KernelIdeal.KValue

open Idealize.ShloMosaic Idealize.ShloMosaic.TcCoe Idealize.ShloMosaic.Tactic Idealize.ShloMosaic.ValueIdx Idealize.SL.Sem
open Cert.LibMatProd Cert.Layers Cert.NormLayers Cert.CompGcn Cert.Egnn Cert.KernelIdeal Cert.KernelIdeal.Gen
open Idealize.ShloMosaic.Pipeline (Dat Cfg Window)

variable (V : (c : Dev nD) → (b : Ref sig .tc) → Buf (Elt Ideal) ((c : Thread nD τ).loc b))

theorem zero2' : (![0, 0] : Fin 2 → Nat) = fun _ => 0 := funext fun a => by fin_cases a <;> rfl

theorem tlt0 (t : Fin cfg0.N) : t.val < 200 := lt_of_lt_of_eq t.isLt N_0

/-- The store into columns 64–66 lands, for the local index (p, q), at (p, 64 + q). -/
theorem emb_shift (p : Fin 4000) (q : Fin 3) :
    (Rect.unit (s := S4000x67) ![0, 64] S4000x3.size inb_S4000x67_S4000x3_0_64).emb (ix2 p q)
      = ix2 p (⟨64 + q.val, by omega⟩ : Fin 67) := by
  funext a; apply Fin.ext
  match a with
  | ⟨0, _⟩ => show 0 + 1 * p.val = p.val; omega
  | ⟨1, _⟩ => show 64 + 1 * q.val = 64 + q.val; omega

/-- The store into columns 0–63 lands, for the local index (p, q), at (p, q). -/
theorem emb_msg (p : Fin 4000) (q : Fin 64) :
    (Rect.unit (s := S4000x67) ![0, 0] S4000x64.size inb_S4000x67_S4000x64_0_0).emb (ix2 p q)
      = ix2 p (⟨q.val, by omega⟩ : Fin 67) := by
  funext a; apply Fin.ext
  match a with
  | ⟨0, _⟩ => show 0 + 1 * p.val = p.val; omega
  | ⟨1, _⟩ => show 0 + 1 * q.val = q.val; omega

/-- What the body's two stores leave in the output window's buffer: messages beside shifts of its input blocks. -/
theorem edge_out (c : Dev nD) (i : grid0.Coords) (arg1 : Memref sig .tc .vmem S4000x64 .bf16) (harg1 : arg1.IsWhole) (arg2 : Memref sig .tc .vmem S4000x64 .bf16) (harg2 : arg2.IsWhole) (arg3 : Memref sig .tc .vmem S4000x3 .f32) (harg3 : arg3.IsWhole) (arg4 : Memref sig .tc .vmem S64x64 .bf16) (harg4 : arg4.IsWhole) (arg5 : Memref sig .tc .vmem S64x64 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .bf16) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .bf16) (harg12 : arg12.IsWhole) (arg13 : Memref sig .tc .vmem S1x64 .f32) (harg13 : arg13.IsWhole) (arg14 : Memref sig .tc .vmem S64x1 .bf16) (harg14 : arg14.IsWhole) (arg15 : Memref sig .tc .vmem S1x1 .f32) (harg15 : arg15.IsWhole) (arg16 : Memref sig .tc .vmem S4000x67 .f32) (harg16 : arg16.IsWhole)
    (x0 : Vec Ideal S4000x64 .bf16) (x1 : Vec Ideal S4000x64 .bf16) (x2 : Vec Ideal S4000x3 .f32) (x3 : Vec Ideal S64x64 .bf16) (x4 : Vec Ideal S64x64 .bf16) (x5 : Vec Ideal S1x64 .f32) (x6 : Vec Ideal S1x64 .f32) (x7 : Vec Ideal S64x64 .bf16) (x8 : Vec Ideal S1x64 .f32) (x9 : Vec Ideal S1x64 .f32) (x10 : Vec Ideal S1x64 .f32) (x11 : Vec Ideal S64x64 .bf16) (x12 : Vec Ideal S1x64 .f32) (x13 : Vec Ideal S64x1 .bf16) (x14 : Vec Ideal S1x1 .f32) :
    (out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 : S4000x67.Idx → EReal)
      = edgeBlock (x0 : Mat 4000 64) (x1 : Mat 4000 64) (x2 : Mat 4000 3) (x3 : Mat 64 64) (x4 : Mat 64 64) (x5 : Mat 1 64) (x6 : Mat 1 64) (x7 : Mat 64 64) (x8 : Mat 1 64) (x9 : Mat 1 64) (x10 : Mat 1 64) (x11 : Mat 64 64) (x12 : Mat 1 64) (x13 : Mat 64 1) (x14 : Mat 1 1) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14)]
  funext y
  refine View.canon_apply_of_pieces (edgeBlock (x0 : Mat 4000 64) (x1 : Mat 4000 64) (x2 : Mat 4000 3) (x3 : Mat 64 64) (x4 : Mat 64 64) (x5 : Mat 1 64) (x6 : Mat 1 64) (x7 : Mat 64 64) (x8 : Mat 1 64) (x9 : Mat 1 64) (x10 : Mat 1 64) (x11 : Mat 64 64) (x12 : Mat 1 64) (x13 : Mat 64 1) (x14 : Mat 1 1)) _ ?_ y
    (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread,
    View.ld_unit_zero (S := S4000x64) zero2', View.ld_unit_zero (S := S4000x3) zero2', View.ld_unit_zero (S := S64x64) zero2',
    View.ld_unit_zero (S := S1x64) zero2', View.ld_unit_zero (S := S64x1) zero2', View.ld_unit_zero (S := S1x1) zero2']
  intro p hp x
  rcases List.mem_cons.mp hp with rfl | hp
  · obtain ⟨a, b, rfl⟩ : ∃ (a : Fin 4000) (b : Fin 3), x = ix2 a b := ⟨x 0, x 1, eq_ix2 x⟩
    refine (congrFun (delta_eq x0 x1 x2 x3 x4 x5 x6 x7 x8 x9 x10 x11 x12 x13 x14) (ix2 a b)).trans ?_
    show _ = edgeBlock (x0 : Mat 4000 64) (x1 : Mat 4000 64) (x2 : Mat 4000 3) (x3 : Mat 64 64) (x4 : Mat 64 64) (x5 : Mat 1 64) (x6 : Mat 1 64) (x7 : Mat 64 64) (x8 : Mat 1 64) (x9 : Mat 1 64) (x10 : Mat 1 64) (x11 : Mat 64 64) (x12 : Mat 1 64) (x13 : Mat 64 1) (x14 : Mat 1 1)
      ((Rect.unit (s := S4000x67) ![0, 64] S4000x3.size inb_S4000x67_S4000x3_0_64).emb (ix2 a b))
    rw [emb_shift a b]
    exact (comb_right _ _ a b).symm
  · rcases List.mem_cons.mp hp with rfl | hp
    · obtain ⟨a, b, rfl⟩ : ∃ (a : Fin 4000) (b : Fin 64), x = ix2 a b := ⟨x 0, x 1, eq_ix2 x⟩
      refine (congrFun (msg_eq x0 x1 x2 x3 x4 x5 x6 x7 x8 x9 x10) (ix2 a b)).trans ?_
      show _ = edgeBlock (x0 : Mat 4000 64) (x1 : Mat 4000 64) (x2 : Mat 4000 3) (x3 : Mat 64 64) (x4 : Mat 64 64) (x5 : Mat 1 64) (x6 : Mat 1 64) (x7 : Mat 64 64) (x8 : Mat 1 64) (x9 : Mat 1 64) (x10 : Mat 1 64) (x11 : Mat 64 64) (x12 : Mat 1 64) (x13 : Mat 64 1) (x14 : Mat 1 1)
        ((Rect.unit (s := S4000x67) ![0, 0] S4000x64.size inb_S4000x67_S4000x64_0_0).emb (ix2 a b))
      rw [emb_msg a b]
      exact (comb_left _ _ a b).symm
    · exact absurd hp List.not_mem_nil

/-- The printed index maps over the 200 grid points: the four row-banded windows sit at block (t, 0), the twelve
    weight windows at block (0, 0). -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = t.val
    ∧ win0_15.index t (1 : Fin 2) = 0 :=
  (by decide +kernel : ∀ t : Fin grid0.N, _)

/-- Input window 0's block at point t is the band of 4000 rows from row 4000·t of its array. -/
theorem edge_blk0 (c : Dev nD) (t : Fin cfg0.N) :
    (iblk0 V c 0 t : S4000x64.Idx → EReal) = band 4000 (t.val * 4000) (by have := tlt0 t; omega) (V c main_call0_v13 : Mat 800000 64) := by
  funext y
  show (V c main_call0_v13 : S800000x64.Idx → EReal) (((cfg0.win 0).blk t).view.emb y) = _
  refine congrArg (V c main_call0_v13 : S800000x64.Idx → EReal) (funext fun a => Fin.ext ?_)
  match a with
  | ⟨0, _⟩ =>
    show win0_0.index t (0 : Fin 2) * 4000 + 1 * (y 0).val = t.val * 4000 + (y 0).val
    rw [(idx0 t).1]; omega
  | ⟨1, _⟩ =>
    show win0_0.index t (1 : Fin 2) * 64 + 1 * (y 1).val = (y 1).val
    rw [(idx0 t).2.1]; omega

/-- Input window 1's block at point t is the band of 4000 rows from row 4000·t of its array. -/
theorem edge_blk1 (c : Dev nD) (t : Fin cfg0.N) :
    (iblk0 V c 1 t : S4000x64.Idx → EReal) = band 4000 (t.val * 4000) (by have := tlt0 t; omega) (V c main_call0_v20 : Mat 800000 64) := by
  funext y
  show (V c main_call0_v20 : S800000x64.Idx → EReal) (((cfg0.win 1).blk t).view.emb y) = _
  refine congrArg (V c main_call0_v20 : S800000x64.Idx → EReal) (funext fun a => Fin.ext ?_)
  match a with
  | ⟨0, _⟩ =>
    show win0_1.index t (0 : Fin 2) * 4000 + 1 * (y 0).val = t.val * 4000 + (y 0).val
    rw [(idx0 t).2.2.1]; omega
  | ⟨1, _⟩ =>
    show win0_1.index t (1 : Fin 2) * 64 + 1 * (y 1).val = (y 1).val
    rw [(idx0 t).2.2.2.1]; omega

/-- Input window 2's block at point t is the band of 4000 rows from row 4000·t of its array. -/
theorem edge_blk2 (c : Dev nD) (t : Fin cfg0.N) :
    (iblk0 V c 2 t : S4000x3.Idx → EReal) = band 4000 (t.val * 4000) (by have := tlt0 t; omega) (V c main_call0_v35 : Mat 800000 3) := by
  funext y
  show (V c main_call0_v35 : S800000x3.Idx → EReal) (((cfg0.win 2).blk t).view.emb y) = _
  refine congrArg (V c main_call0_v35 : S800000x3.Idx → EReal) (funext fun a => Fin.ext ?_)
  match a with
  | ⟨0, _⟩ =>
    show win0_2.index t (0 : Fin 2) * 4000 + 1 * (y 0).val = t.val * 4000 + (y 0).val
    rw [(idx0 t).2.2.2.2.1]; omega
  | ⟨1, _⟩ =>
    show win0_2.index t (1 : Fin 2) * 3 + 1 * (y 1).val = (y 1).val
    rw [(idx0 t).2.2.2.2.2.1]; omega

/-- Input window 3's block at every point is its whole array. -/
theorem edge_blk3 (c : Dev nD) (t : Fin cfg0.N) : (iblk0 V c 3 t : S64x64.Idx → EReal) = (V c main_call0_v37 : Mat 64 64) := by
  funext y
  show (V c main_call0_v37 : S64x64.Idx → EReal) (((cfg0.win 3).blk t).view.emb y) = _
  refine congrArg (V c main_call0_v37 : S64x64.Idx → EReal) (funext fun a => Fin.ext ?_)
  match a with
  | ⟨0, _⟩ =>
    show win0_3.index t (0 : Fin 2) * 64 + 1 * (y 0).val = (y 0).val
    rw [(idx0 t).2.2.2.2.2.2.1]; omega
  | ⟨1, _⟩ =>
    show win0_3.index t (1 : Fin 2) * 64 + 1 * (y 1).val = (y 1).val
    rw [(idx0 t).2.2.2.2.2.2.2.1]; omega

/-- Input window 4's block at every point is its whole array. -/
theorem edge_blk4 (c : Dev nD) (t : Fin cfg0.N) : (iblk0 V c 4 t : S64x64.Idx → EReal) = (V c main_call0_v39 : Mat 64 64) := by
  funext y
  show (V c main_call0_v39 : S64x64.Idx → EReal) (((cfg0.win 4).blk t).view.emb y) = _
  refine congrArg (V c main_call0_v39 : S64x64.Idx → EReal) (funext fun a => Fin.ext ?_)
  match a with
  | ⟨0, _⟩ =>
    show win0_4.index t (0 : Fin 2) * 64 + 1 * (y 0).val = (y 0).val
    rw [(idx0 t).2.2.2.2.2.2.2.2.1]; omega
  | ⟨1, _⟩ =>
    show win0_4.index t (1 : Fin 2) * 64 + 1 * (y 1).val = (y 1).val
    rw [(idx0 t).2.2.2.2.2.2.2.2.2.1]; omega

/-- Input window 5's block at every point is its whole array. -/
theorem edge_blk5 (c : Dev nD) (t : Fin cfg0.N) : (iblk0 V c 5 t : S1x64.Idx → EReal) = (V c main_call0_v40 : Mat 1 64) := by
  funext y
  show (V c main_call0_v40 : S1x64.Idx → EReal) (((cfg0.win 5).blk t).view.emb y) = _
  refine congrArg (V c main_call0_v40 : S1x64.Idx → EReal) (funext fun a => Fin.ext ?_)
  match a with
  | ⟨0, _⟩ =>
    show win0_5.index t (0 : Fin 2) * 1 + 1 * (y 0).val = (y 0).val
    rw [(idx0 t).2.2.2.2.2.2.2.2.2.2.1]; omega
  | ⟨1, _⟩ =>
    show win0_5.index t (1 : Fin 2) * 64 + 1 * (y 1).val = (y 1).val
    rw [(idx0 t).2.2.2.2.2.2.2.2.2.2.2.1]; omega

/-- Input window 6's block at every point is its whole array. -/
theorem edge_blk6 (c : Dev nD) (t : Fin cfg0.N) : (iblk0 V c 6 t : S1x64.Idx → EReal) = (V c main_call0_v41 : Mat 1 64) := by
  funext y
  show (V c main_call0_v41 : S1x64.Idx → EReal) (((cfg0.win 6).blk t).view.emb y) = _
  refine congrArg (V c main_call0_v41 : S1x64.Idx → EReal) (funext fun a => Fin.ext ?_)
  match a with
  | ⟨0, _⟩ =>
    show win0_6.index t (0 : Fin 2) * 1 + 1 * (y 0).val = (y 0).val
    rw [(idx0 t).2.2.2.2.2.2.2.2.2.2.2.2.1]; omega
  | ⟨1, _⟩ =>
    show win0_6.index t (1 : Fin 2) * 64 + 1 * (y 1).val = (y 1).val
    rw [(idx0 t).2.2.2.2.2.2.2.2.2.2.2.2.2.1]; omega

/-- Input window 7's block at every point is its whole array. -/
theorem edge_blk7 (c : Dev nD) (t : Fin cfg0.N) : (iblk0 V c 7 t : S64x64.Idx → EReal) = (V c main_call0_v42 : Mat 64 64) := by
  funext y
  show (V c main_call0_v42 : S64x64.Idx → EReal) (((cfg0.win 7).blk t).view.emb y) = _
  refine congrArg (V c main_call0_v42 : S64x64.Idx → EReal) (funext fun a => Fin.ext ?_)
  match a with
  | ⟨0, _⟩ =>
    show win0_7.index t (0 : Fin 2) * 64 + 1 * (y 0).val = (y 0).val
    rw [(idx0 t).2.2.2.2.2.2.2.2.2.2.2.2.2.2.1]; omega
  | ⟨1, _⟩ =>
    show win0_7.index t (1 : Fin 2) * 64 + 1 * (y 1).val = (y 1).val
    rw [(idx0 t).2.2.2.2.2.2.2.2.2.2.2.2.2.2.2.1]; omega

/-- Input window 8's block at every point is its whole array. -/
theorem edge_blk8 (c : Dev nD) (t : Fin cfg0.N) : (iblk0 V c 8 t : S1x64.Idx → EReal) = (V c main_call0_v43 : Mat 1 64) := by
  funext y
  show (V c main_call0_v43 : S1x64.Idx → EReal) (((cfg0.win 8).blk t).view.emb y) = _
  refine congrArg (V c main_call0_v43 : S1x64.Idx → EReal) (funext fun a => Fin.ext ?_)
  match a with
  | ⟨0, _⟩ =>
    show win0_8.index t (0 : Fin 2) * 1 + 1 * (y 0).val = (y 0).val
    rw [(idx0 t).2.2.2.2.2.2.2.2.2.2.2.2.2.2.2.2.1]; omega
  | ⟨1, _⟩ =>
    show win0_8.index t (1 : Fin 2) * 64 + 1 * (y 1).val = (y 1).val
    rw [(idx0 t).2.2.2.2.2.2.2.2.2.2.2.2.2.2.2.2.2.1]; omega

/-- Input window 9's block at every point is its whole array. -/
theorem edge_blk9 (c : Dev nD) (t : Fin cfg0.N) : (iblk0 V c 9 t : S1x64.Idx → EReal) = (V c main_call0_v44 : Mat 1 64) := by
  funext y
  show (V c main_call0_v44 : S1x64.Idx → EReal) (((cfg0.win 9).blk t).view.emb y) = _
  refine congrArg (V c main_call0_v44 : S1x64.Idx → EReal) (funext fun a => Fin.ext ?_)
  match a with
  | ⟨0, _⟩ =>
    show win0_9.index t (0 : Fin 2) * 1 + 1 * (y 0).val = (y 0).val
    rw [(idx0 t).2.2.2.2.2.2.2.2.2.2.2.2.2.2.2.2.2.2.1]; omega
  | ⟨1, _⟩ =>
    show win0_9.index t (1 : Fin 2) * 64 + 1 * (y 1).val = (y 1).val
    rw [(idx0 t).2.2.2.2.2.2.2.2.2.2.2.2.2.2.2.2.2.2.2.1]; omega

/-- Input window 10's block at every point is its whole array. -/
theorem edge_blk10 (c : Dev nD) (t : Fin cfg0.N) : (iblk0 V c 10 t : S1x64.Idx → EReal) = (V c main_call0_v45 : Mat 1 64) := by
  funext y
  show (V c main_call0_v45 : S1x64.Idx → EReal) (((cfg0.win 10).blk t).view.emb y) = _
  refine congrArg (V c main_call0_v45 : S1x64.Idx → EReal) (funext fun a => Fin.ext ?_)
  match a with
  | ⟨0, _⟩ =>
    show win0_10.index t (0 : Fin 2) * 1 + 1 * (y 0).val = (y 0).val
    rw [(idx0 t).2.2.2.2.2.2.2.2.2.2.2.2.2.2.2.2.2.2.2.2.1]; omega
  | ⟨1, _⟩ =>
    show win0_10.index t (1 : Fin 2) * 64 + 1 * (y 1).val = (y 1).val
    rw [(idx0 t).2.2.2.2.2.2.2.2.2.2.2.2.2.2.2.2.2.2.2.2.2.1]; omega

/-- Input window 11's block at every point is its whole array. -/
theorem edge_blk11 (c : Dev nD) (t : Fin cfg0.N) : (iblk0 V c 11 t : S64x64.Idx → EReal) = (V c main_call0_v46 : Mat 64 64) := by
  funext y
  show (V c main_call0_v46 : S64x64.Idx → EReal) (((cfg0.win 11).blk t).view.emb y) = _
  refine congrArg (V c main_call0_v46 : S64x64.Idx → EReal) (funext fun a => Fin.ext ?_)
  match a with
  | ⟨0, _⟩ =>
    show win0_11.index t (0 : Fin 2) * 64 + 1 * (y 0).val = (y 0).val
    rw [(idx0 t).2.2.2.2.2.2.2.2.2.2.2.2.2.2.2.2.2.2.2.2.2.2.1]; omega
  | ⟨1, _⟩ =>
    show win0_11.index t (1 : Fin 2) * 64 + 1 * (y 1).val = (y 1).val
    rw [(idx0 t).2.2.2.2.2.2.2.2.2.2.2.2.2.2.2.2.2.2.2.2.2.2.2.1]; omega

/-- Input window 12's block at every point is its whole array. -/
theorem edge_blk12 (c : Dev nD) (t : Fin cfg0.N) : (iblk0 V c 12 t : S1x64.Idx → EReal) = (V c main_call0_v47 : Mat 1 64) := by
  funext y
  show (V c main_call0_v47 : S1x64.Idx → EReal) (((cfg0.win 12).blk t).view.emb y) = _
  refine congrArg (V c main_call0_v47 : S1x64.Idx → EReal) (funext fun a => Fin.ext ?_)
  match a with
  | ⟨0, _⟩ =>
    show win0_12.index t (0 : Fin 2) * 1 + 1 * (y 0).val = (y 0).val
    rw [(idx0 t).2.2.2.2.2.2.2.2.2.2.2.2.2.2.2.2.2.2.2.2.2.2.2.2.1]; omega
  | ⟨1, _⟩ =>
    show win0_12.index t (1 : Fin 2) * 64 + 1 * (y 1).val = (y 1).val
    rw [(idx0 t).2.2.2.2.2.2.2.2.2.2.2.2.2.2.2.2.2.2.2.2.2.2.2.2.2.1]; omega

/-- Input window 13's block at every point is its whole array. -/
theorem edge_blk13 (c : Dev nD) (t : Fin cfg0.N) : (iblk0 V c 13 t : S64x1.Idx → EReal) = (V c main_call0_v48 : Mat 64 1) := by
  funext y
  show (V c main_call0_v48 : S64x1.Idx → EReal) (((cfg0.win 13).blk t).view.emb y) = _
  refine congrArg (V c main_call0_v48 : S64x1.Idx → EReal) (funext fun a => Fin.ext ?_)
  match a with
  | ⟨0, _⟩ =>
    show win0_13.index t (0 : Fin 2) * 64 + 1 * (y 0).val = (y 0).val
    rw [(idx0 t).2.2.2.2.2.2.2.2.2.2.2.2.2.2.2.2.2.2.2.2.2.2.2.2.2.2.1]; omega
  | ⟨1, _⟩ =>
    show win0_13.index t (1 : Fin 2) * 1 + 1 * (y 1).val = (y 1).val
    rw [(idx0 t).2.2.2.2.2.2.2.2.2.2.2.2.2.2.2.2.2.2.2.2.2.2.2.2.2.2.2.1]; omega

/-- Input window 14's block at every point is its whole array. -/
theorem edge_blk14 (c : Dev nD) (t : Fin cfg0.N) : (iblk0 V c 14 t : S1x1.Idx → EReal) = (V c main_call0_v49 : Mat 1 1) := by
  funext y
  show (V c main_call0_v49 : S1x1.Idx → EReal) (((cfg0.win 14).blk t).view.emb y) = _
  refine congrArg (V c main_call0_v49 : S1x1.Idx → EReal) (funext fun a => Fin.ext ?_)
  match a with
  | ⟨0, _⟩ =>
    show win0_14.index t (0 : Fin 2) * 1 + 1 * (y 0).val = (y 0).val
    rw [(idx0 t).2.2.2.2.2.2.2.2.2.2.2.2.2.2.2.2.2.2.2.2.2.2.2.2.2.2.2.2.1]; omega
  | ⟨1, _⟩ =>
    show win0_14.index t (1 : Fin 2) * 1 + 1 * (y 1).val = (y 1).val
    rw [(idx0 t).2.2.2.2.2.2.2.2.2.2.2.2.2.2.2.2.2.2.2.2.2.2.2.2.2.2.2.2.2.1]; omega

/-- The output window's block at point t, read off any array, is the band of 4000 rows from row 4000·t. -/
theorem edge_blk15 (t : Fin cfg0.N) (G : Mat 800000 67) :
    ((cfg0.win 15).blk t).view.read (Elt Ideal) (G : S800000x67.Idx → EReal)
      = band 4000 (t.val * 4000) (by have := tlt0 t; omega) G := by
  funext y
  show G (((cfg0.win 15).blk t).view.emb y) = _
  refine congrArg G (funext fun a => Fin.ext ?_)
  match a with
  | ⟨0, _⟩ =>
    show win0_15.index t (0 : Fin 2) * 4000 + 1 * (y 0).val = t.val * 4000 + (y 0).val
    rw [(idx0 t).2.2.2.2.2.2.2.2.2.2.2.2.2.2.2.2.2.2.2.2.2.2.2.2.2.2.2.2.2.2.1]; omega
  | ⟨1, _⟩ =>
    show win0_15.index t (1 : Fin 2) * 67 + 1 * (y 1).val = (y 1).val
    rw [(idx0 t).2.2.2.2.2.2.2.2.2.2.2.2.2.2.2.2.2.2.2.2.2.2.2.2.2.2.2.2.2.2.2]; omega

/-- Messages beside shifts of the arrays the region finds. -/
def edgeG (c : Dev nD) : Mat 800000 67 :=
  edgeBlock (V c main_call0_v13 : Mat 800000 64) (V c main_call0_v20 : Mat 800000 64) (V c main_call0_v35 : Mat 800000 3) (V c main_call0_v37 : Mat 64 64) (V c main_call0_v39 : Mat 64 64) (V c main_call0_v40 : Mat 1 64) (V c main_call0_v41 : Mat 1 64) (V c main_call0_v42 : Mat 64 64) (V c main_call0_v43 : Mat 1 64) (V c main_call0_v44 : Mat 1 64) (V c main_call0_v45 : Mat 1 64) (V c main_call0_v46 : Mat 64 64) (V c main_call0_v47 : Mat 1 64) (V c main_call0_v48 : Mat 64 1) (V c main_call0_v49 : Mat 1 1)

/-- What point t writes back is its band of rows of that matrix. -/
theorem edge_flushed (c : Dev nD) (t : Fin cfg0.N) :
    (dat0 V c).flushed 15 t = ((cfg0.win 15).blk t).view.read (Elt Ideal) (edgeG V c : S800000x67.Idx → EReal) := by
  show (cfg0.win 15).cut (grid0.coords t) ((dat0 V c).after 15 t) = _
  rw [after0_15]
  unfold outsAt0
  refine (edge_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)).trans ?_
  rw [edge_blk0 V c t, edge_blk1 V c t, edge_blk2 V c t, edge_blk3 V c t, edge_blk4 V c t, edge_blk5 V c t, edge_blk6 V c t, edge_blk7 V c t, edge_blk8 V c t, edge_blk9 V c t, edge_blk10 V c t, edge_blk11 V c t, edge_blk12 V c t, edge_blk13 V c t, edge_blk14 V c t, edge_blk15 t (edgeG V c)]
  rfl

/-- After the region the result array holds messages beside shifts of the arrays the region found. -/
theorem edge_final (c : Dev nD) : (dat0 V c).arrAt 15 cfg0.N = (edgeG V c : S800000x67.Idx → EReal) :=
  (dat0 V c).arrAt_eq_of_cover 15 (edgeG V c : S800000x67.Idx → EReal) (fun t _ => edge_flushed V c t) fun i => by
    have hi0 : (i 0).val < 800000 := (i 0).isLt
    have hi1 : (i 1).val < 67 := (i 1).isLt
    let t : Fin cfg0.N := ⟨(i 0).val / 4000, lt_of_lt_of_eq (show (i 0).val / 4000 < 200 by omega) N_0.symm⟩
    refine ⟨t, flush0_15 t, ?_⟩
    show i ∈ ((View.whole main_call0_v50).slice (win0_15.rect t)).set
    rw [View.set_slice_whole, Rect.mem_set_unit]
    intro a
    have ht : t.val = (i 0).val / 4000 := rfl
    match a with
    | ⟨0, _⟩ =>
      show win0_15.index t (0 : Fin 2) * 4000 ≤ (i 0).val ∧ (i 0).val < win0_15.index t (0 : Fin 2) * 4000 + 4000
      rw [(idx0 t).2.2.2.2.2.2.2.2.2.2.2.2.2.2.2.2.2.2.2.2.2.2.2.2.2.2.2.2.2.2.1]; omega
    | ⟨1, _⟩ =>
      show win0_15.index t (1 : Fin 2) * 67 ≤ (i 1).val ∧ (i 1).val < win0_15.index t (1 : Fin 2) * 67 + 67
      rw [(idx0 t).2.2.2.2.2.2.2.2.2.2.2.2.2.2.2.2.2.2.2.2.2.2.2.2.2.2.2.2.2.2.2]; omega

end Cert.KernelIdeal.KValue

end
-- ==== Proof.KCast.lean ====
/-
  A typed reference to a buffer carries the buffer's contents along the equation between the buffer's recorded type
  and the value's type; when that equation holds by computation the transport is the identity. These are the few
  instances the host stretch between the two regions needs, so that its term can be compared piece by piece.
-/
import proofs.«138794_j50809463111709_2_alg».proof.Proof.Gen.KernelIdeal.Frame
import Idealize.ShloMosaic.PureOps.Ideal

noncomputable section

namespace Cert.KernelIdeal.KValue

open Idealize.ShloMosaic Cert.KernelIdeal

/-- Transport to the buffer's type and back is the identity. -/
theorem ofBuf_toBuf {Val : EltTy → Type} {T : BufTy} (x : StableHlo.TRef sig T) (v : T.Contents Val) :
    x.ofBuf (x.toBuf v) = v := by
  obtain ⟨r, h, h2, h3⟩ := x
  subst h
  rfl

theorem ofBuf_v50 (h1 h2 h3) (v : main_call0_v50.ty.Contents (Elt Ideal)) :
    (StableHlo.TRef.of (T := ⟨S800000x67, .f32⟩) main_call0_v50 h1 h2 h3).ofBuf v = v := rfl

theorem ofBuf_v5 (h1 h2 h3) (v : main_call0_v5.ty.Contents (Elt Ideal)) :
    (StableHlo.TRef.of (T := ⟨S800000, .i32⟩) main_call0_v5 h1 h2 h3).ofBuf v = v := rfl

theorem toBuf_v54 (h1 h2 h3) (v : (⟨S50000x64, .f32⟩ : BufTy).Contents (Elt Ideal)) :
    (StableHlo.TRef.of (T := ⟨S50000x64, .f32⟩) main_call0_v54 h1 h2 h3).toBuf v = v := rfl

theorem toBuf_out1 (h1 h2 h3) (v : (⟨S50000x3, .f32⟩ : BufTy).Contents (Elt Ideal)) :
    (StableHlo.TRef.of (T := ⟨S50000x3, .f32⟩) main_v0_1 h1 h2 h3).toBuf v = v := rfl

end Cert.KernelIdeal.KValue

end
-- ==== Proof.KHost2.lean ====
/-
  The host operations between the two regions, read off: the 67-column matrix the edge region left is summed, row by
  row, at the clamped target row of every edge into a matrix of zeros; the node region's summed messages are columns
  0–63 of that sum, and the program's second result, the coordinate updates, its columns 64–66; the node weights are
  rounded to a narrower format (which changes no exact value) and the node offset and gain vectors re-laid as rows.
-/
import proofs.«138794_j50809463111709_2_alg».proof.Proof.Gen.KernelIdeal.Frame
import proofs.«138794_j50809463111709_2_alg».proof.Proof.KHost
import proofs.«138794_j50809463111709_2_alg».proof.Proof.KEdge
import proofs.«138794_j50809463111709_2_alg».proof.Proof.KCast

set_option maxRecDepth 16384

noncomputable section

namespace Cert.KernelIdeal.KValue

open Idealize.ShloMosaic Idealize.ShloMosaic.TcCoe Idealize.ShloMosaic.Tactic Idealize.ShloMosaic.ValueIdx Idealize.SL.Sem
open Cert.LibMatProd Cert.Layers Cert.NormLayers Cert.CompGcn Cert.Egnn Cert.KernelIdeal Cert.KernelIdeal.Gen

variable (m : (ℓ : Loc nD τ sig) → Buf (Elt Ideal) ℓ) (ρ : Dev nD → PrngReg)

/-- The scattered sum of the edge region's result, as the host computes it from the buffers at the edge region's exit. -/
def scat (c : Dev nD) : S50000x67.Idx → EReal :=
  Host.scatterAdd (F := Ideal) scatter_S50000x67_S800000x1_S800000x67_1_0_0_1
    (broadcastInDim S50000x67 ![] bcast_S_S50000x67 (constant (F := Ideal) S_ .f32 0x00000000#32))
    (broadcastInDim S800000x1 ![0] bcast_S800000_S800000x1_0 (W2 m ρ c (Proc.devRef .tc main_call0_v5) : IVec S800000 32))
    (W2 m ρ c (Proc.devRef .tc main_call0_v50) : S800000x67.Idx → EReal)

theorem v3_54 (c : Dev nD) : (V3 m ρ c main_call0_v54 : S50000x64.Idx → EReal) = extractStridedSlice S50000x64 ![0, 0] (scat m ρ c) slices_S50000x67_S50000x64_0_0 := by
  show StableHlo.after hostOps1 (W2 m ρ c) (Proc.devRef .tc main_call0_v54) = _
  after_results_simp
  unfold scat
  generalize W2 m ρ c = W
  simp only [ofBuf_toBuf, ofBuf_v50, ofBuf_v5, toBuf_v54]

theorem v3_out1 (c : Dev nD) : (V3 m ρ c main_v0_1 : S50000x3.Idx → EReal) = extractStridedSlice S50000x3 ![0, 64] (scat m ρ c) slices_S50000x67_S50000x3_0_64 := by
  show StableHlo.after hostOps1 (W2 m ρ c) (Proc.devRef .tc main_v0_1) = _
  after_results_simp
  unfold scat
  generalize W2 m ρ c = W
  simp only [ofBuf_toBuf, ofBuf_v50, ofBuf_v5, toBuf_out1]

theorem v3_56 (c : Dev nD) : (V3 m ρ c main_call0_v56 : S64x64.Idx → EReal) = truncf (F := Ideal) .bf16 (W2 m ρ c (Proc.devRef .tc main_arg9) : S64x64.Idx → EReal) bitsLt_bf16_f32 := by
  show StableHlo.after hostOps1 (W2 m ρ c) (Proc.devRef .tc main_call0_v56) = _
  after_results_simp
  generalize W2 m ρ c = W
  try rfl

theorem v3_57 (c : Dev nD) : (V3 m ρ c main_call0_v57 : S1x64.Idx → EReal) = shapeCast S1x64 (W2 m ρ c (Proc.devRef .tc main_arg10) : S64.Idx → EReal) shapeCasts_S64_S1x64 := by
  show StableHlo.after hostOps1 (W2 m ρ c) (Proc.devRef .tc main_call0_v57) = _
  after_results_simp
  generalize W2 m ρ c = W
  try rfl

theorem v3_58 (c : Dev nD) : (V3 m ρ c main_call0_v58 : S64x64.Idx → EReal) = truncf (F := Ideal) .bf16 (W2 m ρ c (Proc.devRef .tc main_arg11) : S64x64.Idx → EReal) bitsLt_bf16_f32 := by
  show StableHlo.after hostOps1 (W2 m ρ c) (Proc.devRef .tc main_call0_v58) = _
  after_results_simp
  generalize W2 m ρ c = W
  try rfl

theorem v3_59 (c : Dev nD) : (V3 m ρ c main_call0_v59 : S1x64.Idx → EReal) = shapeCast S1x64 (W2 m ρ c (Proc.devRef .tc main_arg12) : S64.Idx → EReal) shapeCasts_S64_S1x64 := by
  show StableHlo.after hostOps1 (W2 m ρ c) (Proc.devRef .tc main_call0_v59) = _
  after_results_simp
  generalize W2 m ρ c = W
  try rfl

theorem v3_60 (c : Dev nD) : (V3 m ρ c main_call0_v60 : S1x64.Idx → EReal) = shapeCast S1x64 (W2 m ρ c (Proc.devRef .tc main_arg13) : S64.Idx → EReal) shapeCasts_S64_S1x64 := by
  show StableHlo.after hostOps1 (W2 m ρ c) (Proc.devRef .tc main_call0_v60) = _
  after_results_simp
  generalize W2 m ρ c = W
  try rfl

theorem v3_61 (c : Dev nD) : (V3 m ρ c main_call0_v61 : S1x64.Idx → EReal) = shapeCast S1x64 (W2 m ρ c (Proc.devRef .tc main_arg14) : S64.Idx → EReal) shapeCasts_S64_S1x64 := by
  show StableHlo.after hostOps1 (W2 m ρ c) (Proc.devRef .tc main_call0_v61) = _
  after_results_simp
  generalize W2 m ρ c = W
  try rfl

theorem v3_arg0 (c : Dev nD) : (V3 m ρ c main_arg0 : S50000x64.Idx → EReal) = (W2 m ρ c (Proc.devRef .tc main_arg0) : S50000x64.Idx → EReal) := by
  show StableHlo.after hostOps1 (W2 m ρ c) (Proc.devRef .tc main_arg0) = _
  after_results_simp

theorem w1_arg0 (c : Dev nD) : W1 m ρ c (Proc.devRef .tc main_arg0) = m ((c : Thread nD τ).loc main_arg0) := by
  show StableHlo.after hostOps0 (W0 m ρ c) (Proc.devRef .tc main_arg0) = _
  after_results_simp
  try rfl
theorem w2_arg0 (c : Dev nD) : W2 m ρ c (Proc.devRef .tc main_arg0) = m ((c : Thread nD τ).loc main_arg0) :=
  (W2_of_ne m ρ c main_arg0 (by decide)).trans (w1_arg0 m ρ c)

theorem w1_arg9 (c : Dev nD) : W1 m ρ c (Proc.devRef .tc main_arg9) = m ((c : Thread nD τ).loc main_arg9) := by
  show StableHlo.after hostOps0 (W0 m ρ c) (Proc.devRef .tc main_arg9) = _
  after_results_simp
  try rfl
theorem w2_arg9 (c : Dev nD) : W2 m ρ c (Proc.devRef .tc main_arg9) = m ((c : Thread nD τ).loc main_arg9) :=
  (W2_of_ne m ρ c main_arg9 (by decide)).trans (w1_arg9 m ρ c)

theorem w1_arg10 (c : Dev nD) : W1 m ρ c (Proc.devRef .tc main_arg10) = m ((c : Thread nD τ).loc main_arg10) := by
  show StableHlo.after hostOps0 (W0 m ρ c) (Proc.devRef .tc main_arg10) = _
  after_results_simp
  try rfl
theorem w2_arg10 (c : Dev nD) : W2 m ρ c (Proc.devRef .tc main_arg10) = m ((c : Thread nD τ).loc main_arg10) :=
  (W2_of_ne m ρ c main_arg10 (by decide)).trans (w1_arg10 m ρ c)

theorem w1_arg11 (c : Dev nD) : W1 m ρ c (Proc.devRef .tc main_arg11) = m ((c : Thread nD τ).loc main_arg11) := by
  show StableHlo.after hostOps0 (W0 m ρ c) (Proc.devRef .tc main_arg11) = _
  after_results_simp
  try rfl
theorem w2_arg11 (c : Dev nD) : W2 m ρ c (Proc.devRef .tc main_arg11) = m ((c : Thread nD τ).loc main_arg11) :=
  (W2_of_ne m ρ c main_arg11 (by decide)).trans (w1_arg11 m ρ c)

theorem w1_arg12 (c : Dev nD) : W1 m ρ c (Proc.devRef .tc main_arg12) = m ((c : Thread nD τ).loc main_arg12) := by
  show StableHlo.after hostOps0 (W0 m ρ c) (Proc.devRef .tc main_arg12) = _
  after_results_simp
  try rfl
theorem w2_arg12 (c : Dev nD) : W2 m ρ c (Proc.devRef .tc main_arg12) = m ((c : Thread nD τ).loc main_arg12) :=
  (W2_of_ne m ρ c main_arg12 (by decide)).trans (w1_arg12 m ρ c)

theorem w1_arg13 (c : Dev nD) : W1 m ρ c (Proc.devRef .tc main_arg13) = m ((c : Thread nD τ).loc main_arg13) := by
  show StableHlo.after hostOps0 (W0 m ρ c) (Proc.devRef .tc main_arg13) = _
  after_results_simp
  try rfl
theorem w2_arg13 (c : Dev nD) : W2 m ρ c (Proc.devRef .tc main_arg13) = m ((c : Thread nD τ).loc main_arg13) :=
  (W2_of_ne m ρ c main_arg13 (by decide)).trans (w1_arg13 m ρ c)

theorem w1_arg14 (c : Dev nD) : W1 m ρ c (Proc.devRef .tc main_arg14) = m ((c : Thread nD τ).loc main_arg14) := by
  show StableHlo.after hostOps0 (W0 m ρ c) (Proc.devRef .tc main_arg14) = _
  after_results_simp
  try rfl
theorem w2_arg14 (c : Dev nD) : W2 m ρ c (Proc.devRef .tc main_arg14) = m ((c : Thread nD τ).loc main_arg14) :=
  (W2_of_ne m ρ c main_arg14 (by decide)).trans (w1_arg14 m ρ c)

/-- The clamped target rows are still, at the edge region's exit, what the first host stretch computed. -/
theorem w2_v5 (c : Dev nD) : (W2 m ρ c (Proc.devRef .tc main_call0_v5) : IVec S800000 32)
    = clipRow 1 slices_S2x800000_S1x800000_1_0 (m ((c : Thread nD τ).loc main_arg2) : IVec S2x800000 32) :=
  (W2_of_ne m ρ c main_call0_v5 (by decide)).trans (by
    show StableHlo.after hostOps0 (W0 m ρ c) (Proc.devRef .tc main_call0_v5) = _
    after_results_simp
    unfold clipRow
    rfl)

/-- At the edge region's exit its result array holds messages beside shifts of the arrays it found. -/
theorem w2_v50 (c : Dev nD) : (W2 m ρ c (Proc.devRef .tc main_call0_v50) : S800000x67.Idx → EReal) = (edgeG (V1 m ρ) c : S800000x67.Idx → EReal) :=
  (W2_arr m ρ c 15).trans (edge_final (V1 m ρ) c)

end Cert.KernelIdeal.KValue

end
-- ==== Proof.KNodePay.lean ====
/-
  The node kernel's arithmetic on one band of rows, as one function: the band of node rows plus the band of summed
  messages goes through a dense layer, x · logistic x, a second dense layer, and layer normalisation with a gain row
  and an offset row. Roundings to a narrower float format on the way into the matrix unit change no exact value.
-/
import proofs.«138794_j50809463111709_2_alg».proof.Proof.Gen.KernelIdeal.Skeleton
import proofs.«138794_j50809463111709_2_alg».proof.Proof.LibEgnnUnit

set_option maxRecDepth 16384

noncomputable section

namespace Cert.KernelIdeal.KValue

open Idealize.ShloMosaic Idealize.ShloMosaic.ValueIdx Cert.LibPlainDot Cert.LibMatProd Cert.Layers Cert.NormLayers
  Cert.LibKeepdims Cert.CompGcn Cert.Egnn Cert.KernelIdeal Cert.KernelIdeal.Gen

/-- The deviations of the second dense layer's rows from their means. -/
theorem node_centred (x0 x1 : FVec Ideal S5000x64 .f32) (x2 : FVec Ideal S64x64 .bf16) (x3 : FVec Ideal S1x64 .f32)
    (x4 : FVec Ideal S64x64 .bf16) (x5 : FVec Ideal S1x64 .f32) :
    k1_pay4 (F := Ideal) x0 x1 x2 x3 x4 x5
      = centred D64 (dense (silu (dense (plus (x0 : Mat 5000 64) (x1 : Mat 5000 64)) (x2 : Mat 64 64) (x3 : Mat 1 64)))
          (x4 : Mat 64 64) (x5 : Mat 1 64)) := by
  unfold k1_pay4
  dsimp only
  refine (unit_centred _ _ _ _ _ _ _ _).trans ?_
  refine congrArg (centred D64) ?_
  refine (unit_addRow _ _ _ _).trans ?_
  refine congrArg (fun z => addRow z (x5 : Mat 1 64)) ?_
  refine (unit_prod _ rfl rfl rfl rfl rfl rfl _ _).trans ?_
  refine congrArg₂ matProd ?_ (shapeCast_self _ _)
  refine (unit_silu _).trans ?_
  refine congrArg silu ?_
  refine (unit_addRow _ _ _ _).trans ?_
  refine congrArg (fun z => addRow z (x3 : Mat 1 64)) ?_
  refine (unit_prod _ rfl rfl rfl rfl rfl rfl _ _).trans ?_
  refine congrArg₂ matProd ?_ (shapeCast_self _ _)
  exact congrArg (fun z => plus (x0 : Mat 5000 64) z) (shapeCast_self _ _)

/-- The whole arithmetic of the node kernel on a band: the node update of the band of node rows plus the band of
    summed messages. -/
theorem node_pay (x0 x1 : FVec Ideal S5000x64 .f32) (x2 : FVec Ideal S64x64 .bf16) (x3 : FVec Ideal S1x64 .f32)
    (x4 : FVec Ideal S64x64 .bf16) (x5 x6 x7 : FVec Ideal S1x64 .f32) :
    k1_pay1 (F := Ideal) (k1_pay2 x6) (k1_pay3 x7) (k1_pay4 x0 x1 x2 x3 x4 x5) (k1_pay5 x0 x1 x2 x3 x4 x5)
      = nodeUpd (plus (x0 : Mat 5000 64) (x1 : Mat 5000 64)) (x2 : Mat 64 64) (x3 : Mat 1 64) (x4 : Mat 64 64)
          (x5 : Mat 1 64) (x6 : Mat 1 64) (x7 : Mat 1 64) := by
  unfold k1_pay1 k1_pay5 k1_pay2 k1_pay3
  dsimp only
  refine (unit_addRow _ _ _ _).trans ?_
  refine congrArg (fun z => addRow z (x7 : Mat 1 64)) ?_
  refine (unit_mulRow _ _ _ _).trans ?_
  refine congrArg (fun z => mulRow z (x6 : Mat 1 64)) ?_
  refine (unit_scaled _ _ _ _ _ _ _ _ _).trans ?_
  exact congrArg (scaled D64 EPS) (node_centred x0 x1 x2 x3 x4 x5)

end Cert.KernelIdeal.KValue

end
-- ==== Proof.KNode.lean ====
/-
  The node region read as one function. Its grid has ten points; point t fetches rows 5000·t … 5000·t + 4999 of the node
  features and of the summed messages, the six weight arrays whole, and writes back the same band of rows of the result.
  The kernel's arithmetic acts row by row, so the band it writes is the band of the node update of the whole arrays, and
  the ten bands tile the result: after the region the result array holds the node update of the arrays the region found.
-/
import proofs.«138794_j50809463111709_2_alg».proof.Proof.Gen.KernelIdeal.Frame
import proofs.«138794_j50809463111709_2_alg».proof.Proof.KNodePay

set_option maxRecDepth 16384

noncomputable section

namespace Cert.KernelIdeal.KValue

open Idealize.ShloMosaic Idealize.ShloMosaic.TcCoe Idealize.ShloMosaic.ValueIdx Idealize.SL.Sem
open Cert.LibMatProd Cert.Layers Cert.NormLayers Cert.CompGcn Cert.Egnn Cert.KernelIdeal Cert.KernelIdeal.Gen
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

theorem tlt1 (t : Fin cfg1.N) : t.val < 10 := lt_of_lt_of_eq t.isLt N_1

/-- What the body leaves in the output window's buffer is the node update of its input blocks. -/
theorem node_out (x0 x1 : Vec Ideal S5000x64 .f32) (x2 : Vec Ideal S64x64 .bf16) (x3 : Vec Ideal S1x64 .f32)
    (x4 : Vec Ideal S64x64 .bf16) (x5 x6 x7 : Vec Ideal S1x64 .f32) :
    (out1_8 (F := Ideal) x0 x1 x2 x3 x4 x5 x6 x7 : S5000x64.Idx → EReal)
      = nodeUpd (plus (x0 : Mat 5000 64) (x1 : Mat 5000 64)) (x2 : Mat 64 64) (x3 : Mat 1 64) (x4 : Mat 64 64)
          (x5 : Mat 1 64) (x6 : Mat 1 64) (x7 : Mat 1 64) := by
  unfold out1_8
  rw [View.canon_unit_zero zero2]
  simp only [View.ld_unit_zero (S := S5000x64) zero2, View.ld_unit_zero (S := S64x64) zero2,
    View.ld_unit_zero (S := S1x64) zero2]
  exact node_pay x0 x1 x2 x3 x4 x5 x6 x7

/-- The printed index maps over the ten grid points: the three row-banded windows sit at block (t, 0), the six
    weight windows at block (0, 0). -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = t.val
    ∧ win1_8.index t (1 : Fin 2) = 0 :=
  (by decide +kernel : ∀ t : Fin grid1.N, _)

/-- Input window 0's block at point t is the band of 5000 rows from row 5000·t of its array. -/
theorem node_blk0 (c : Dev nD) (t : Fin cfg1.N) :
    (iblk1 V c 0 t : S5000x64.Idx → EReal) = band 5000 (t.val * 5000) (by have := tlt1 t; omega) (V c main_arg0 : Mat 50000 64) := by
  funext y
  show (V c main_arg0 : S50000x64.Idx → EReal) (((cfg1.win 0).blk t).view.emb y) = _
  refine congrArg (V c main_arg0 : S50000x64.Idx → EReal) (funext fun a => Fin.ext ?_)
  match a with
  | ⟨0, _⟩ =>
    show win1_0.index t (0 : Fin 2) * 5000 + 1 * (y 0).val = t.val * 5000 + (y 0).val
    rw [(idx1 t).1]; omega
  | ⟨1, _⟩ =>
    show win1_0.index t (1 : Fin 2) * 64 + 1 * (y 1).val = (y 1).val
    rw [(idx1 t).2.1]; omega

/-- Input window 1's block at point t is the band of 5000 rows from row 5000·t of its array. -/
theorem node_blk1 (c : Dev nD) (t : Fin cfg1.N) :
    (iblk1 V c 1 t : S5000x64.Idx → EReal) = band 5000 (t.val * 5000) (by have := tlt1 t; omega) (V c main_call0_v54 : Mat 50000 64) := by
  funext y
  show (V c main_call0_v54 : S50000x64.Idx → EReal) (((cfg1.win 1).blk t).view.emb y) = _
  refine congrArg (V c main_call0_v54 : S50000x64.Idx → EReal) (funext fun a => Fin.ext ?_)
  match a with
  | ⟨0, _⟩ =>
    show win1_1.index t (0 : Fin 2) * 5000 + 1 * (y 0).val = t.val * 5000 + (y 0).val
    rw [(idx1 t).2.2.1]; omega
  | ⟨1, _⟩ =>
    show win1_1.index t (1 : Fin 2) * 64 + 1 * (y 1).val = (y 1).val
    rw [(idx1 t).2.2.2.1]; omega

/-- Input window 2's block at every point is its whole array. -/
theorem node_blk2 (c : Dev nD) (t : Fin cfg1.N) : (iblk1 V c 2 t : S64x64.Idx → EReal) = (V c main_call0_v56 : Mat 64 64) := by
  funext y
  show (V c main_call0_v56 : S64x64.Idx → EReal) (((cfg1.win 2).blk t).view.emb y) = _
  refine congrArg (V c main_call0_v56 : S64x64.Idx → EReal) (funext fun a => Fin.ext ?_)
  match a with
  | ⟨0, _⟩ =>
    show win1_2.index t (0 : Fin 2) * 64 + 1 * (y 0).val = (y 0).val
    rw [(idx1 t).2.2.2.2.1]; omega
  | ⟨1, _⟩ =>
    show win1_2.index t (1 : Fin 2) * 64 + 1 * (y 1).val = (y 1).val
    rw [(idx1 t).2.2.2.2.2.1]; omega

/-- Input window 3's block at every point is its whole array. -/
theorem node_blk3 (c : Dev nD) (t : Fin cfg1.N) : (iblk1 V c 3 t : S1x64.Idx → EReal) = (V c main_call0_v57 : Mat 1 64) := by
  funext y
  show (V c main_call0_v57 : S1x64.Idx → EReal) (((cfg1.win 3).blk t).view.emb y) = _
  refine congrArg (V c main_call0_v57 : S1x64.Idx → EReal) (funext fun a => Fin.ext ?_)
  match a with
  | ⟨0, _⟩ =>
    show win1_3.index t (0 : Fin 2) * 1 + 1 * (y 0).val = (y 0).val
    rw [(idx1 t).2.2.2.2.2.2.1]; omega
  | ⟨1, _⟩ =>
    show win1_3.index t (1 : Fin 2) * 64 + 1 * (y 1).val = (y 1).val
    rw [(idx1 t).2.2.2.2.2.2.2.1]; omega

/-- Input window 4's block at every point is its whole array. -/
theorem node_blk4 (c : Dev nD) (t : Fin cfg1.N) : (iblk1 V c 4 t : S64x64.Idx → EReal) = (V c main_call0_v58 : Mat 64 64) := by
  funext y
  show (V c main_call0_v58 : S64x64.Idx → EReal) (((cfg1.win 4).blk t).view.emb y) = _
  refine congrArg (V c main_call0_v58 : S64x64.Idx → EReal) (funext fun a => Fin.ext ?_)
  match a with
  | ⟨0, _⟩ =>
    show win1_4.index t (0 : Fin 2) * 64 + 1 * (y 0).val = (y 0).val
    rw [(idx1 t).2.2.2.2.2.2.2.2.1]; omega
  | ⟨1, _⟩ =>
    show win1_4.index t (1 : Fin 2) * 64 + 1 * (y 1).val = (y 1).val
    rw [(idx1 t).2.2.2.2.2.2.2.2.2.1]; omega

/-- Input window 5's block at every point is its whole array. -/
theorem node_blk5 (c : Dev nD) (t : Fin cfg1.N) : (iblk1 V c 5 t : S1x64.Idx → EReal) = (V c main_call0_v59 : Mat 1 64) := by
  funext y
  show (V c main_call0_v59 : S1x64.Idx → EReal) (((cfg1.win 5).blk t).view.emb y) = _
  refine congrArg (V c main_call0_v59 : S1x64.Idx → EReal) (funext fun a => Fin.ext ?_)
  match a with
  | ⟨0, _⟩ =>
    show win1_5.index t (0 : Fin 2) * 1 + 1 * (y 0).val = (y 0).val
    rw [(idx1 t).2.2.2.2.2.2.2.2.2.2.1]; omega
  | ⟨1, _⟩ =>
    show win1_5.index t (1 : Fin 2) * 64 + 1 * (y 1).val = (y 1).val
    rw [(idx1 t).2.2.2.2.2.2.2.2.2.2.2.1]; omega

/-- Input window 6's block at every point is its whole array. -/
theorem node_blk6 (c : Dev nD) (t : Fin cfg1.N) : (iblk1 V c 6 t : S1x64.Idx → EReal) = (V c main_call0_v60 : Mat 1 64) := by
  funext y
  show (V c main_call0_v60 : S1x64.Idx → EReal) (((cfg1.win 6).blk t).view.emb y) = _
  refine congrArg (V c main_call0_v60 : S1x64.Idx → EReal) (funext fun a => Fin.ext ?_)
  match a with
  | ⟨0, _⟩ =>
    show win1_6.index t (0 : Fin 2) * 1 + 1 * (y 0).val = (y 0).val
    rw [(idx1 t).2.2.2.2.2.2.2.2.2.2.2.2.1]; omega
  | ⟨1, _⟩ =>
    show win1_6.index t (1 : Fin 2) * 64 + 1 * (y 1).val = (y 1).val
    rw [(idx1 t).2.2.2.2.2.2.2.2.2.2.2.2.2.1]; omega

/-- Input window 7's block at every point is its whole array. -/
theorem node_blk7 (c : Dev nD) (t : Fin cfg1.N) : (iblk1 V c 7 t : S1x64.Idx → EReal) = (V c main_call0_v61 : Mat 1 64) := by
  funext y
  show (V c main_call0_v61 : S1x64.Idx → EReal) (((cfg1.win 7).blk t).view.emb y) = _
  refine congrArg (V c main_call0_v61 : S1x64.Idx → EReal) (funext fun a => Fin.ext ?_)
  match a with
  | ⟨0, _⟩ =>
    show win1_7.index t (0 : Fin 2) * 1 + 1 * (y 0).val = (y 0).val
    rw [(idx1 t).2.2.2.2.2.2.2.2.2.2.2.2.2.2.1]; omega
  | ⟨1, _⟩ =>
    show win1_7.index t (1 : Fin 2) * 64 + 1 * (y 1).val = (y 1).val
    rw [(idx1 t).2.2.2.2.2.2.2.2.2.2.2.2.2.2.2.1]; omega

/-- The output window's block at point t, read off any array, is the band of 5000 rows from row 5000·t. -/
theorem node_blk8 (t : Fin cfg1.N) (G : Mat 50000 64) :
    ((cfg1.win 8).blk t).view.read (Elt Ideal) (G : S50000x64.Idx → EReal)
      = band 5000 (t.val * 5000) (by have := tlt1 t; omega) G := by
  funext y
  show G (((cfg1.win 8).blk t).view.emb y) = _
  refine congrArg G (funext fun a => Fin.ext ?_)
  match a with
  | ⟨0, _⟩ =>
    show win1_8.index t (0 : Fin 2) * 5000 + 1 * (y 0).val = t.val * 5000 + (y 0).val
    rw [(idx1 t).2.2.2.2.2.2.2.2.2.2.2.2.2.2.2.2.1]; omega
  | ⟨1, _⟩ =>
    show win1_8.index t (1 : Fin 2) * 64 + 1 * (y 1).val = (y 1).val
    rw [(idx1 t).2.2.2.2.2.2.2.2.2.2.2.2.2.2.2.2.2]; omega

/-- The node update of the arrays the region finds. -/
def nodeG (c : Dev nD) : Mat 50000 64 :=
  nodeUpd (plus (V c main_arg0 : Mat 50000 64) (V c main_call0_v54 : Mat 50000 64)) (V c main_call0_v56 : Mat 64 64)
    (V c main_call0_v57 : Mat 1 64) (V c main_call0_v58 : Mat 64 64) (V c main_call0_v59 : Mat 1 64)
    (V c main_call0_v60 : Mat 1 64) (V c main_call0_v61 : Mat 1 64)

/-- What point t writes back is its band of rows of the node update. -/
theorem node_flushed (c : Dev nD) (t : Fin cfg1.N) :
    (dat1 V c).flushed 8 t = ((cfg1.win 8).blk t).view.read (Elt Ideal) (nodeG V c : S50000x64.Idx → EReal) := by
  show (cfg1.win 8).cut (grid1.coords t) ((dat1 V c).after 8 t) = _
  rw [after1_8]
  refine (node_out (iblk1 V c 0 t) (iblk1 V c 1 t) (iblk1 V c 2 t) (iblk1 V c 3 t) (iblk1 V c 4 t) (iblk1 V c 5 t)
    (iblk1 V c 6 t) (iblk1 V c 7 t)).trans ?_
  rw [node_blk0 V c t, node_blk1 V c t, node_blk2 V c t, node_blk3 V c t, node_blk4 V c t, node_blk5 V c t,
    node_blk6 V c t, node_blk7 V c t, node_blk8 t (nodeG V c)]
  rfl

/-- After the region the result array holds the node update of the arrays the region found. -/
theorem node_final (c : Dev nD) : (dat1 V c).arrAt 8 cfg1.N = (nodeG V c : S50000x64.Idx → EReal) :=
  (dat1 V c).arrAt_eq_of_cover 8 (nodeG V c : S50000x64.Idx → EReal) (fun t _ => node_flushed V c t) fun i => by
    have hi0 : (i 0).val < 50000 := (i 0).isLt
    have hi1 : (i 1).val < 64 := (i 1).isLt
    let t : Fin cfg1.N := ⟨(i 0).val / 5000, lt_of_lt_of_eq (show (i 0).val / 5000 < 10 by omega) N_1.symm⟩
    refine ⟨t, flush1_8 t, ?_⟩
    show i ∈ ((View.whole main_v0_0).slice (win1_8.rect t)).set
    rw [View.set_slice_whole, Rect.mem_set_unit]
    intro a
    have ht : t.val = (i 0).val / 5000 := rfl
    match a with
    | ⟨0, _⟩ =>
      show win1_8.index t (0 : Fin 2) * 5000 ≤ (i 0).val ∧ (i 0).val < win1_8.index t (0 : Fin 2) * 5000 + 5000
      rw [(idx1 t).2.2.2.2.2.2.2.2.2.2.2.2.2.2.2.2.1]; omega
    | ⟨1, _⟩ =>
      show win1_8.index t (1 : Fin 2) * 64 ≤ (i 1).val ∧ (i 1).val < win1_8.index t (1 : Fin 2) * 64 + 64
      rw [(idx1 t).2.2.2.2.2.2.2.2.2.2.2.2.2.2.2.2.2]; omega

end Cert.KernelIdeal.KValue

end
-- ==== Proof.LibCuts.lean ====
/-
  Host cuts of a matrix read as whole-matrix functions: a cut of consecutive rows is the band of those rows; the cuts
  of a 67-column matrix at column 0 (64 wide) and at column 64 (3 wide) are its two column groups.
-/
import proofs.«138794_j50809463111709_2_alg».proof.Proof.LibSideBySide

noncomputable section

namespace Cert.Egnn

open Idealize.ShloMosaic Idealize.ShloMosaic.ValueIdx Cert.LibMatProd Cert.Layers Cert.NormLayers Cert.CompGcn

/-- A cut of T rows from row r of a matrix is the band of those rows. -/
theorem slice_rows {K N T : ℕ} (r : ℕ) (h : (⟨2, ![K, N]⟩ : Shape).Slices ![r, 0] ⟨2, ![T, N]⟩) (hh : r + T ≤ K)
    (w : Mat K N) : extractStridedSlice ⟨2, ![T, N]⟩ ![r, 0] w h = band T r hh w := by
  funext j
  obtain ⟨p, q, rfl⟩ : ∃ (p : Fin T) (q : Fin N), j = ix2 p q := ⟨j 0, j 1, eq_ix2 j⟩
  refine (extractStridedSlice_apply _ w h _ (ix2 ⟨r + p.val, by have := p.isLt; omega⟩ q) (fun a => ?_)).trans rfl
  match a with
  | ⟨0, _⟩ => rfl
  | ⟨1, _⟩ => exact (Nat.zero_add _).symm

/-- The cut of columns 0–63 of a 67-column matrix. -/
theorem slice_colsL {M : ℕ} (h : (⟨2, ![M, 67]⟩ : Shape).Slices ![0, 0] ⟨2, ![M, 64]⟩) (u : Mat M 67) :
    extractStridedSlice ⟨2, ![M, 64]⟩ ![0, 0] u h = colsL u := by
  funext j
  obtain ⟨p, q, rfl⟩ : ∃ (p : Fin M) (q : Fin 64), j = ix2 p q := ⟨j 0, j 1, eq_ix2 j⟩
  refine (extractStridedSlice_apply _ u h _ (ix2 p (⟨q.val, by omega⟩ : Fin 67)) (fun a => ?_)).trans rfl
  match a with
  | ⟨0, _⟩ => exact (Nat.zero_add _).symm
  | ⟨1, _⟩ => exact (Nat.zero_add _).symm

/-- The cut of columns 64–66 of a 67-column matrix. -/
theorem slice_colsR {M : ℕ} (h : (⟨2, ![M, 67]⟩ : Shape).Slices ![0, 64] ⟨2, ![M, 3]⟩) (u : Mat M 67) :
    extractStridedSlice ⟨2, ![M, 3]⟩ ![0, 64] u h = colsR u := by
  funext j
  obtain ⟨p, q, rfl⟩ : ∃ (p : Fin M) (q : Fin 3), j = ix2 p q := ⟨j 0, j 1, eq_ix2 j⟩
  refine (extractStridedSlice_apply _ u h _ (ix2 p (⟨64 + q.val, by omega⟩ : Fin 67)) (fun a => ?_)).trans rfl
  match a with
  | ⟨0, _⟩ => exact (Nat.zero_add _).symm
  | ⟨1, _⟩ => rfl

end Cert.Egnn

end
-- ==== Proof.LibRelGraphHost.lean ====
/-
  The host's spellings of the network's pieces, each as the whole-matrix function it denotes over the extended reals.

  A gather of rows at a column of row numbers is `gatherRows` at the selector the column names; a scatter with an
  addition body into zeros is `scatterRows` at the targets the column names, and of ones into zeros it is the vector
  of degrees. One over, and the inverse square root of, the degree taken at least one are `invDeg` and `rsqrtDeg`
  once the vector is read as a one-column matrix. A vector broadcast or reshaped to a column is that one-column matrix.
  A product with a column broadcast along the rows is `rowScale`; a contraction of an entry-by-entry product is `proj`;
  the clamped sums and products of these are `upd` and `spectral`.
-/
import proofs.«138794_j50809463111709_2_alg».proof.Proof.LibRelGraphNet
import proofs.«138794_j50809463111709_2_alg».proof.Proof.LibGatherRows
import proofs.«138794_j50809463111709_2_alg».proof.Proof.LibScatterRows
import proofs.«138794_j50809463111709_2_alg».proof.Proof.LibLayers

noncomputable section

namespace Cert.CompGcn.HostForms

open scoped BigOperators
open Idealize.ShloMosaic Idealize.ShloMosaic.ValueIdx Cert.Layers Cert.LibMatProd Cert.CompGcn
open Idealize.ShloMosaic.GatherRows Idealize.ShloMosaic.ScatterRows

variable {N M C K : ℕ}

/-! ## Gathers of rows -/

/-- A gather of rows of a matrix at a column of row numbers fetches the rows the column selects. -/
theorem gather2_eq (hN : 0 < N)
    (wf : GatherDims.WF ⟨2, ![N, C]⟩ ⟨2, ![M, 1]⟩ ⟨2, ![M, C]⟩ [1] [0] [] [0] [] 1 ![1, C])
    (x : Mat N C) (col : IVec ⟨2, ![M, 1]⟩ 32) :
    Host.gather (rowGather2 N M C wf) x col = gatherRows x (GatherRows.src hN col) := by
  funext j
  obtain ⟨p, q, rfl⟩ : ∃ (p : Fin M) (q : Fin C), j = ix2 p q := ⟨j 0, j 1, eq_ix2 j⟩
  exact gather_row2_apply hN wf x col p q

/-- A gather of entries of a vector at a column of row numbers, as a one-column matrix, fetches the rows of the
    vector's one-column matrix. -/
theorem gather1_eq (hN : 0 < N)
    (wf : GatherDims.WF ⟨1, ![N]⟩ ⟨2, ![M, 1]⟩ ⟨1, ![M]⟩ [] [0] [] [0] [] 1 ![1])
    (v : (⟨1, ![N]⟩ : Shape).Idx → EReal) (col : IVec ⟨2, ![M, 1]⟩ 32) :
    colOf (Host.gather (rowGather1 N M wf) v col) = gatherRows (colOf v) (GatherRows.src hN col) := by
  funext j
  obtain ⟨p, q, rfl⟩ : ∃ (p : Fin M) (q : Fin 1), j = ix2 p q := ⟨j 0, j 1, eq_ix2 j⟩
  exact gather_row1_apply hN wf v col p

/-! ## Scatters into zeros -/

/-- A scatter of rows with an addition body into a matrix of zeros sums the rows at their targets. -/
theorem scatter2_eq (wf : ScatterDims.WF ⟨2, ![N, C]⟩ ⟨2, ![M, 1]⟩ ⟨2, ![M, C]⟩ [1] [0] [0] 1)
    (h0 : (⟨0, ![]⟩ : Shape).BroadcastsInDim ⟨2, ![N, C]⟩ ![]) (col : IVec ⟨2, ![M, 1]⟩ 32) (u : Mat M C) :
    Host.scatterAdd (F := Ideal) (rowScatter2 N M C wf)
      (broadcastInDim ⟨2, ![N, C]⟩ ![] h0 (constant (F := Ideal) ⟨0, ![]⟩ .f32 0x00000000#32)) col u
      = scatterRows (ScatterRows.tgt col) u := by
  funext j
  obtain ⟨p, q, rfl⟩ : ∃ (p : Fin N) (q : Fin C), j = ix2 p q := ⟨j 0, j 1, eq_ix2 j⟩
  refine (hostScatterAdd_row2 wf _ col u p q).trans ?_
  rw [broadcastInDim_scalar_apply]
  rfl

/-- A scatter of ones with an addition body into a vector of zeros counts the edges at each target. -/
theorem scatter1_ones_eq (wf : ScatterDims.WF ⟨1, ![N]⟩ ⟨2, ![M, 1]⟩ ⟨1, ![M]⟩ [] [0] [0] 1)
    (h0N : (⟨0, ![]⟩ : Shape).BroadcastsInDim ⟨1, ![N]⟩ ![]) (h0M : (⟨0, ![]⟩ : Shape).BroadcastsInDim ⟨1, ![M]⟩ ![])
    (col : IVec ⟨2, ![M, 1]⟩ 32) :
    Host.scatterAdd (F := Ideal) (rowScatter1 N M wf)
      (broadcastInDim ⟨1, ![N]⟩ ![] h0N (constant (F := Ideal) ⟨0, ![]⟩ .f32 0x00000000#32)) col
      (broadcastInDim ⟨1, ![M]⟩ ![] h0M (constant (F := Ideal) ⟨0, ![]⟩ .f32 0x3F800000#32))
      = degVec (ScatterRows.tgt col) := by
  funext j
  obtain ⟨p, rfl⟩ : ∃ p : Fin N, j = ix1 p := ⟨j 0, eq_ix1 j⟩
  refine (hostScatterAdd_row1 wf _ col _ p).trans ?_
  rw [broadcastInDim_scalar_apply]
  simp only [broadcastInDim_scalar_apply]
  rfl

/-! ## The degree normalisations -/

/-- One over the degree vector taken at least one, as a one-column matrix. -/
theorem invDeg_vec (h0 : (⟨0, ![]⟩ : Shape).BroadcastsInDim ⟨1, ![N]⟩ ![]) (tgt : Fin M → Option (Fin N)) :
    colOf (Host.divf (F := Ideal) (broadcastInDim ⟨1, ![N]⟩ ![] h0 (constant (F := Ideal) ⟨0, ![]⟩ .f32 0x3F800000#32))
      (maximumf (degVec tgt) (broadcastInDim ⟨1, ![N]⟩ ![] h0 (constant (F := Ideal) ⟨0, ![]⟩ .f32 0x3F800000#32))))
      = invDeg tgt := by
  funext j
  show Ideal.div (broadcastInDim ⟨1, ![N]⟩ ![] h0 (constant (F := Ideal) ⟨0, ![]⟩ .f32 0x3F800000#32) (ix1 (j 0)))
      (max (degVec tgt (ix1 (j 0)))
        (broadcastInDim ⟨1, ![N]⟩ ![] h0 (constant (F := Ideal) ⟨0, ![]⟩ .f32 0x3F800000#32) (ix1 (j 0)))) = _
  rw [broadcastInDim_scalar_apply]
  rfl

/-- The inverse square root of the degree vector taken at least one, as a one-column matrix. -/
theorem rsqrtDeg_vec (h0 : (⟨0, ![]⟩ : Shape).BroadcastsInDim ⟨1, ![N]⟩ ![]) (tgt : Fin M → Option (Fin N)) :
    colOf (Host.rsqrt (F := Ideal)
      (maximumf (degVec tgt) (broadcastInDim ⟨1, ![N]⟩ ![] h0 (constant (F := Ideal) ⟨0, ![]⟩ .f32 0x3F800000#32))))
      = rsqrtDeg tgt := by
  funext j
  show Ideal.rsqrt (max (degVec tgt (ix1 (j 0)))
        (broadcastInDim ⟨1, ![N]⟩ ![] h0 (constant (F := Ideal) ⟨0, ![]⟩ .f32 0x3F800000#32) (ix1 (j 0)))) = _
  rw [broadcastInDim_scalar_apply]
  rfl

/-! ## A vector as a column -/

/-- A vector broadcast to a column is its one-column matrix. -/
theorem col_bcast (h1 : (⟨1, ![M]⟩ : Shape).BroadcastsInDim ⟨2, ![M, 1]⟩ ![0]) (v : (⟨1, ![M]⟩ : Shape).Idx → EReal) :
    broadcastInDim ⟨2, ![M, 1]⟩ ![0] h1 v = colOf v := by
  funext j
  obtain ⟨p, q, rfl⟩ : ∃ (p : Fin M) (q : Fin 1), j = ix2 p q := ⟨j 0, j 1, eq_ix2 j⟩
  obtain rfl : q = 0 := Subsingleton.elim _ _
  exact column_apply h1 v p

/-- A vector reshaped to a column is its one-column matrix. -/
theorem col_reshape (h : (⟨1, ![M]⟩ : Shape).ShapeCasts ⟨2, ![M, 1]⟩) (v : (⟨1, ![M]⟩ : Shape).Idx → EReal) :
    shapeCast ⟨2, ![M, 1]⟩ v h = colOf v := by
  funext j
  obtain ⟨p, q, rfl⟩ : ∃ (p : Fin M) (q : Fin 1), j = ix2 p q := ⟨j 0, j 1, eq_ix2 j⟩
  refine shapeCast_apply v h _ (ix1 p) ?_
  rw [Shape.rowMajor_val_two, Shape.rowMajor_val_one]
  show p.val = p.val * 1 + q.val
  have := q.isLt
  omega

/-! ## Layers -/

/-- A product with a column broadcast along the rows scales every row by its entry of the column. -/
theorem host_rowScale (hb : (⟨2, ![M, 1]⟩ : Shape).BroadcastsInDim ⟨2, ![M, N]⟩ ![0, 1])
    (a : FVec Ideal ⟨2, ![M, N]⟩ .f32) (s : FVec Ideal ⟨2, ![M, 1]⟩ .f32) :
    mulf a (broadcastInDim ⟨2, ![M, N]⟩ ![0, 1] hb s) = rowScale (a : Mat M N) (s : Mat M 1) := by
  funext j
  obtain ⟨p, q, rfl⟩ : ∃ (p : Fin M) (q : Fin N), j = ix2 p q := ⟨j 0, j 1, eq_ix2 j⟩
  rw [mulf_apply]
  refine congrArg (a (ix2 p q) * ·) ?_
  refine broadcastInDim_apply _ hb s _ (ix2 p (0 : Fin 1)) (fun ax => ?_)
  match ax with
  | ⟨0, _⟩ =>
    show p.val = if M = 1 then 0 else p.val
    split
    · have := p.isLt; omega
    · rfl
  | ⟨1, _⟩ =>
    show (0 : ℕ) = if (1 : ℕ) = 1 then 0 else q.val
    rw [if_pos rfl]

/-- A contraction of an entry-by-entry product with a weight is the projection of the composed rows. -/
theorem host_proj (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a b : FVec Ideal ⟨2, ![M, K]⟩ .f32) (w : FVec Ideal ⟨2, ![K, N]⟩ .f32) :
    Host.dotGeneral (F := Ideal) d none (mulf a b) w = proj (a : Mat M K) (b : Mat M K) (w : Mat K N) :=
  host_dot_eq d h1 h2 h3 h4 h5 h6 (mulf a b) w

/-- The scaled aggregate plus the node's own projected rows, clamped: a node update. -/
theorem host_upd (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h0 : (⟨0, ![]⟩ : Shape).BroadcastsInDim ⟨2, ![M, N]⟩ ![])
    (hb : (⟨2, ![M, 1]⟩ : Shape).BroadcastsInDim ⟨2, ![M, N]⟩ ![0, 1])
    (agg : FVec Ideal ⟨2, ![M, N]⟩ .f32) (h : FVec Ideal ⟨2, ![M, K]⟩ .f32) (w : FVec Ideal ⟨2, ![K, N]⟩ .f32)
    (s : FVec Ideal ⟨2, ![M, 1]⟩ .f32) :
    maximumf (addf (mulf agg (broadcastInDim ⟨2, ![M, N]⟩ ![0, 1] hb s)) (Host.dotGeneral (F := Ideal) d none h w))
      (broadcastInDim ⟨2, ![M, N]⟩ ![] h0 (constant (F := Ideal) ⟨0, ![]⟩ .f32 0x00000000#32))
      = upd (agg : Mat M N) (h : Mat M K) (w : Mat K N) (s : Mat M 1) := by
  refine (host_clamp _ h0).trans ?_
  rw [host_rowScale hb, host_dot_eq d h1 h2 h3 h4 h5 h6]
  rfl

/-- The scaled aggregate projected and clamped: the spectral read-out. -/
theorem host_spectral (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h0 : (⟨0, ![]⟩ : Shape).BroadcastsInDim ⟨2, ![M, N]⟩ ![])
    (hb : (⟨2, ![M, 1]⟩ : Shape).BroadcastsInDim ⟨2, ![M, K]⟩ ![0, 1])
    (agg : FVec Ideal ⟨2, ![M, K]⟩ .f32) (s : FVec Ideal ⟨2, ![M, 1]⟩ .f32) (w : FVec Ideal ⟨2, ![K, N]⟩ .f32) :
    maximumf (Host.dotGeneral (F := Ideal) d none (mulf agg (broadcastInDim ⟨2, ![M, K]⟩ ![0, 1] hb s)) w)
      (broadcastInDim ⟨2, ![M, N]⟩ ![] h0 (constant (F := Ideal) ⟨0, ![]⟩ .f32 0x00000000#32))
      = spectral (agg : Mat M K) (s : Mat M 1) (w : Mat K N) := by
  refine (host_clamp _ h0).trans ?_
  rw [host_dot_eq d h1 h2 h3 h4 h5 h6, host_rowScale hb]
  rfl

end Cert.CompGcn.HostForms

end
-- ==== Proof.KHostSem.lean ====
/-
  The host operations of the idealized kernel program as whole-matrix functions of the argument arrays: the gathers
  fetch the rows the index columns select; the relative positions are the difference of two gathered position
  matrices; the cuts of the first edge weight are its bands of rows; re-laid vectors are one-row matrices; the sum at
  target rows of the 67-column matrix, cut into its column groups, is the sum of the messages and the sum of the
  shifts. With the two regions read as functions this gives both results of the program as the layer's node update
  and coordinate update of the argument arrays.
-/
import proofs.«138794_j50809463111709_2_alg».proof.Proof.KHost2
import proofs.«138794_j50809463111709_2_alg».proof.Proof.KNode
import proofs.«138794_j50809463111709_2_alg».proof.Proof.LibCuts
import proofs.«138794_j50809463111709_2_alg».proof.Proof.LibRelGraphHost

set_option maxRecDepth 16384

noncomputable section

namespace Cert.KernelIdeal.KValue

open Idealize.ShloMosaic Idealize.ShloMosaic.TcCoe Idealize.ShloMosaic.ValueIdx Idealize.SL.Sem
open Cert.LibMatProd Cert.Layers Cert.NormLayers Cert.CompGcn Cert.CompGcn.HostForms Cert.Egnn Cert.KernelIdeal Cert.KernelIdeal.Gen
open Idealize.ShloMosaic.GatherRows Idealize.ShloMosaic.ScatterRows

variable (m : (ℓ : Loc nD τ sig) → Buf (Elt Ideal) ℓ) (ρ : Dev nD → PrngReg)

/-! ## The edge region's inputs -/

theorem s1_13 (c : Dev nD) : (V1 m ρ c main_call0_v13 : Mat 800000 64) = gatherRows (m ((c : Thread nD τ).loc main_arg0) : Mat 50000 64) (sel (grK (m ((c : Thread nD τ).loc main_arg2) : IVec S2x800000 32))) :=
  (v1_13 m ρ c).trans (gather2_eq (N := 50000) (M := 800000) (C := 64) (by decide) gather_S50000x64_S800000x1_S800000x64_1_0_n_n_0_1_164_wf (m ((c : Thread nD τ).loc main_arg0) : Mat 50000 64) (grK (m ((c : Thread nD τ).loc main_arg2) : IVec S2x800000 32)))

theorem s1_20 (c : Dev nD) : (V1 m ρ c main_call0_v20 : Mat 800000 64) = gatherRows (m ((c : Thread nD τ).loc main_arg0) : Mat 50000 64) (sel (gcK (m ((c : Thread nD τ).loc main_arg2) : IVec S2x800000 32))) :=
  (v1_20 m ρ c).trans (gather2_eq (N := 50000) (M := 800000) (C := 64) (by decide) gather_S50000x64_S800000x1_S800000x64_1_0_n_n_0_1_164_wf (m ((c : Thread nD τ).loc main_arg0) : Mat 50000 64) (gcK (m ((c : Thread nD τ).loc main_arg2) : IVec S2x800000 32)))

theorem s1_35 (c : Dev nD) : (V1 m ρ c main_call0_v35 : Mat 800000 3) = relPos (grK (m ((c : Thread nD τ).loc main_arg2) : IVec S2x800000 32)) (gcK (m ((c : Thread nD τ).loc main_arg2) : IVec S2x800000 32)) (m ((c : Thread nD τ).loc main_arg1) : Mat 50000 3) :=
  (v1_35 m ρ c).trans (congrArg₂ (fun a b : Mat 800000 3 => minus a b)
    (gather2_eq (N := 50000) (M := 800000) (C := 3) (by decide) gather_S50000x3_S800000x1_S800000x3_1_0_n_n_0_1_13_wf (m ((c : Thread nD τ).loc main_arg1) : Mat 50000 3) (grK (m ((c : Thread nD τ).loc main_arg2) : IVec S2x800000 32)))
    (gather2_eq (N := 50000) (M := 800000) (C := 3) (by decide) gather_S50000x3_S800000x1_S800000x3_1_0_n_n_0_1_13_wf (m ((c : Thread nD τ).loc main_arg1) : Mat 50000 3) (gcK (m ((c : Thread nD τ).loc main_arg2) : IVec S2x800000 32))))

theorem s1_37 (c : Dev nD) : (V1 m ρ c main_call0_v37 : Mat 64 64) = band 64 0 (by omega) (m ((c : Thread nD τ).loc main_arg3) : Mat 129 64) :=
  (v1_37 m ρ c).trans ((trunc_id (φ := .f32) (ψ := .bf16) _ _).trans (slice_rows 0 _ _ _))

theorem s1_39 (c : Dev nD) : (V1 m ρ c main_call0_v39 : Mat 64 64) = band 64 64 (by omega) (m ((c : Thread nD τ).loc main_arg3) : Mat 129 64) :=
  (v1_39 m ρ c).trans ((trunc_id (φ := .f32) (ψ := .bf16) _ _).trans (slice_rows 64 _ _ _))

theorem s1_40 (c : Dev nD) : (V1 m ρ c main_call0_v40 : Mat 1 64) = band 1 128 (by omega) (m ((c : Thread nD τ).loc main_arg3) : Mat 129 64) :=
  (v1_40 m ρ c).trans (slice_rows 128 _ _ _)

theorem s1_41 (c : Dev nD) : (V1 m ρ c main_call0_v41 : Mat 1 64) = rowOf (m ((c : Thread nD τ).loc main_arg4) : Vect 64) :=
  (v1_41 m ρ c).trans (reshape_row _ _)
theorem s1_42 (c : Dev nD) : (V1 m ρ c main_call0_v42 : Mat 64 64) = (m ((c : Thread nD τ).loc main_arg5) : Mat 64 64) :=
  (v1_42 m ρ c).trans (trunc_id (φ := .f32) (ψ := .bf16) _ _)
theorem s1_43 (c : Dev nD) : (V1 m ρ c main_call0_v43 : Mat 1 64) = rowOf (m ((c : Thread nD τ).loc main_arg6) : Vect 64) :=
  (v1_43 m ρ c).trans (reshape_row _ _)
theorem s1_44 (c : Dev nD) : (V1 m ρ c main_call0_v44 : Mat 1 64) = rowOf (m ((c : Thread nD τ).loc main_arg7) : Vect 64) :=
  (v1_44 m ρ c).trans (reshape_row _ _)
theorem s1_45 (c : Dev nD) : (V1 m ρ c main_call0_v45 : Mat 1 64) = rowOf (m ((c : Thread nD τ).loc main_arg8) : Vect 64) :=
  (v1_45 m ρ c).trans (reshape_row _ _)
theorem s1_46 (c : Dev nD) : (V1 m ρ c main_call0_v46 : Mat 64 64) = (m ((c : Thread nD τ).loc main_arg15) : Mat 64 64) :=
  (v1_46 m ρ c).trans (trunc_id (φ := .f32) (ψ := .bf16) _ _)
theorem s1_47 (c : Dev nD) : (V1 m ρ c main_call0_v47 : Mat 1 64) = rowOf (m ((c : Thread nD τ).loc main_arg16) : Vect 64) :=
  (v1_47 m ρ c).trans (reshape_row _ _)
theorem s1_48 (c : Dev nD) : (V1 m ρ c main_call0_v48 : Mat 64 1) = (m ((c : Thread nD τ).loc main_arg17) : Mat 64 1) :=
  (v1_48 m ρ c).trans (trunc_id (φ := .f32) (ψ := .bf16) _ _)
theorem s1_49 (c : Dev nD) : (V1 m ρ c main_call0_v49 : Mat 1 1) = rowOf (m ((c : Thread nD τ).loc main_arg18) : Vect 1) :=
  (v1_49 m ρ c).trans (reshape_row _ _)

/-- What the edge region leaves: the messages of all edges beside their shifts. -/
theorem edgeG_eq (c : Dev nD) : edgeG (V1 m ρ) c = comb (messages (grK (m ((c : Thread nD τ).loc main_arg2) : IVec S2x800000 32)) (gcK (m ((c : Thread nD τ).loc main_arg2) : IVec S2x800000 32)) (m ((c : Thread nD τ).loc main_arg0) : Mat 50000 64) (m ((c : Thread nD τ).loc main_arg1) : Mat 50000 3) (m ((c : Thread nD τ).loc main_arg3) : Mat 129 64) (m ((c : Thread nD τ).loc main_arg4) : Vect 64) (m ((c : Thread nD τ).loc main_arg5) : Mat 64 64) (m ((c : Thread nD τ).loc main_arg6) : Vect 64) (m ((c : Thread nD τ).loc main_arg7) : Vect 64) (m ((c : Thread nD τ).loc main_arg8) : Vect 64)) (shifts (grK (m ((c : Thread nD τ).loc main_arg2) : IVec S2x800000 32)) (gcK (m ((c : Thread nD τ).loc main_arg2) : IVec S2x800000 32)) (m ((c : Thread nD τ).loc main_arg0) : Mat 50000 64) (m ((c : Thread nD τ).loc main_arg1) : Mat 50000 3) (m ((c : Thread nD τ).loc main_arg3) : Mat 129 64) (m ((c : Thread nD τ).loc main_arg4) : Vect 64) (m ((c : Thread nD τ).loc main_arg5) : Mat 64 64) (m ((c : Thread nD τ).loc main_arg6) : Vect 64) (m ((c : Thread nD τ).loc main_arg7) : Vect 64) (m ((c : Thread nD τ).loc main_arg8) : Vect 64) (m ((c : Thread nD τ).loc main_arg15) : Mat 64 64) (m ((c : Thread nD τ).loc main_arg16) : Vect 64) (m ((c : Thread nD τ).loc main_arg17) : Mat 64 1) (m ((c : Thread nD τ).loc main_arg18) : Vect 1)) := by
  unfold edgeG
  rw [s1_13 m ρ c, s1_20 m ρ c, s1_35 m ρ c, s1_37 m ρ c, s1_39 m ρ c, s1_40 m ρ c, s1_41 m ρ c, s1_42 m ρ c, s1_43 m ρ c,
    s1_44 m ρ c, s1_45 m ρ c, s1_46 m ρ c, s1_47 m ρ c, s1_48 m ρ c, s1_49 m ρ c]
  rfl

/-! ## Between the regions -/

/-- The scattered sum is the sum at target rows of messages beside shifts. -/
theorem scat_eq (c : Dev nD) : (scat m ρ c : Mat 50000 67) = scatterRows (ScatterRows.tgt (scK (m ((c : Thread nD τ).loc main_arg2) : IVec S2x800000 32))) (comb (messages (grK (m ((c : Thread nD τ).loc main_arg2) : IVec S2x800000 32)) (gcK (m ((c : Thread nD τ).loc main_arg2) : IVec S2x800000 32)) (m ((c : Thread nD τ).loc main_arg0) : Mat 50000 64) (m ((c : Thread nD τ).loc main_arg1) : Mat 50000 3) (m ((c : Thread nD τ).loc main_arg3) : Mat 129 64) (m ((c : Thread nD τ).loc main_arg4) : Vect 64) (m ((c : Thread nD τ).loc main_arg5) : Mat 64 64) (m ((c : Thread nD τ).loc main_arg6) : Vect 64) (m ((c : Thread nD τ).loc main_arg7) : Vect 64) (m ((c : Thread nD τ).loc main_arg8) : Vect 64)) (shifts (grK (m ((c : Thread nD τ).loc main_arg2) : IVec S2x800000 32)) (gcK (m ((c : Thread nD τ).loc main_arg2) : IVec S2x800000 32)) (m ((c : Thread nD τ).loc main_arg0) : Mat 50000 64) (m ((c : Thread nD τ).loc main_arg1) : Mat 50000 3) (m ((c : Thread nD τ).loc main_arg3) : Mat 129 64) (m ((c : Thread nD τ).loc main_arg4) : Vect 64) (m ((c : Thread nD τ).loc main_arg5) : Mat 64 64) (m ((c : Thread nD τ).loc main_arg6) : Vect 64) (m ((c : Thread nD τ).loc main_arg7) : Vect 64) (m ((c : Thread nD τ).loc main_arg8) : Vect 64) (m ((c : Thread nD τ).loc main_arg15) : Mat 64 64) (m ((c : Thread nD τ).loc main_arg16) : Vect 64) (m ((c : Thread nD τ).loc main_arg17) : Mat 64 1) (m ((c : Thread nD τ).loc main_arg18) : Vect 1))) := by
  unfold scat
  rw [w2_v5 m ρ c, w2_v50 m ρ c, edgeG_eq m ρ c]
  exact scatter2_eq (N := 50000) (M := 800000) (C := 67) scatter_S50000x67_S800000x1_S800000x67_1_0_0_1_wf bcast_S_S50000x67 (scK (m ((c : Thread nD τ).loc main_arg2) : IVec S2x800000 32)) _

theorem s3_54 (c : Dev nD) : (V3 m ρ c main_call0_v54 : Mat 50000 64) = scatterRows (ScatterRows.tgt (scK (m ((c : Thread nD τ).loc main_arg2) : IVec S2x800000 32))) (messages (grK (m ((c : Thread nD τ).loc main_arg2) : IVec S2x800000 32)) (gcK (m ((c : Thread nD τ).loc main_arg2) : IVec S2x800000 32)) (m ((c : Thread nD τ).loc main_arg0) : Mat 50000 64) (m ((c : Thread nD τ).loc main_arg1) : Mat 50000 3) (m ((c : Thread nD τ).loc main_arg3) : Mat 129 64) (m ((c : Thread nD τ).loc main_arg4) : Vect 64) (m ((c : Thread nD τ).loc main_arg5) : Mat 64 64) (m ((c : Thread nD τ).loc main_arg6) : Vect 64) (m ((c : Thread nD τ).loc main_arg7) : Vect 64) (m ((c : Thread nD τ).loc main_arg8) : Vect 64)) :=
  (v3_54 m ρ c).trans ((slice_colsL _ _).trans (by rw [scat_eq m ρ c, colsL_scatter, colsL_comb]))

theorem s3_out1 (c : Dev nD) : (V3 m ρ c main_v0_1 : Mat 50000 3) = posUpd (grK (m ((c : Thread nD τ).loc main_arg2) : IVec S2x800000 32)) (gcK (m ((c : Thread nD τ).loc main_arg2) : IVec S2x800000 32)) (scK (m ((c : Thread nD τ).loc main_arg2) : IVec S2x800000 32)) (m ((c : Thread nD τ).loc main_arg0) : Mat 50000 64) (m ((c : Thread nD τ).loc main_arg1) : Mat 50000 3) (m ((c : Thread nD τ).loc main_arg3) : Mat 129 64) (m ((c : Thread nD τ).loc main_arg4) : Vect 64) (m ((c : Thread nD τ).loc main_arg5) : Mat 64 64) (m ((c : Thread nD τ).loc main_arg6) : Vect 64) (m ((c : Thread nD τ).loc main_arg7) : Vect 64) (m ((c : Thread nD τ).loc main_arg8) : Vect 64) (m ((c : Thread nD τ).loc main_arg15) : Mat 64 64) (m ((c : Thread nD τ).loc main_arg16) : Vect 64) (m ((c : Thread nD τ).loc main_arg17) : Mat 64 1) (m ((c : Thread nD τ).loc main_arg18) : Vect 1) :=
  (v3_out1 m ρ c).trans ((slice_colsR _ _).trans (by rw [scat_eq m ρ c, colsR_scatter, colsR_comb]; rfl))

theorem s3_arg0 (c : Dev nD) : (V3 m ρ c main_arg0 : Mat 50000 64) = (m ((c : Thread nD τ).loc main_arg0) : Mat 50000 64) := (v3_arg0 m ρ c).trans (w2_arg0 m ρ c)
theorem s3_56 (c : Dev nD) : (V3 m ρ c main_call0_v56 : Mat 64 64) = (m ((c : Thread nD τ).loc main_arg9) : Mat 64 64) :=
  (v3_56 m ρ c).trans ((trunc_id (φ := .f32) (ψ := .bf16) _ _).trans (w2_arg9 m ρ c))
theorem s3_57 (c : Dev nD) : (V3 m ρ c main_call0_v57 : Mat 1 64) = rowOf (m ((c : Thread nD τ).loc main_arg10) : Vect 64) :=
  (v3_57 m ρ c).trans ((reshape_row _ _).trans (congrArg rowOf (w2_arg10 m ρ c)))
theorem s3_58 (c : Dev nD) : (V3 m ρ c main_call0_v58 : Mat 64 64) = (m ((c : Thread nD τ).loc main_arg11) : Mat 64 64) :=
  (v3_58 m ρ c).trans ((trunc_id (φ := .f32) (ψ := .bf16) _ _).trans (w2_arg11 m ρ c))
theorem s3_59 (c : Dev nD) : (V3 m ρ c main_call0_v59 : Mat 1 64) = rowOf (m ((c : Thread nD τ).loc main_arg12) : Vect 64) :=
  (v3_59 m ρ c).trans ((reshape_row _ _).trans (congrArg rowOf (w2_arg12 m ρ c)))
theorem s3_60 (c : Dev nD) : (V3 m ρ c main_call0_v60 : Mat 1 64) = rowOf (m ((c : Thread nD τ).loc main_arg13) : Vect 64) :=
  (v3_60 m ρ c).trans ((reshape_row _ _).trans (congrArg rowOf (w2_arg13 m ρ c)))
theorem s3_61 (c : Dev nD) : (V3 m ρ c main_call0_v61 : Mat 1 64) = rowOf (m ((c : Thread nD τ).loc main_arg14) : Vect 64) :=
  (v3_61 m ρ c).trans ((reshape_row _ _).trans (congrArg rowOf (w2_arg14 m ρ c)))

/-- What the node region leaves: the node update of the argument arrays. -/
theorem nodeG_eq (c : Dev nD) : nodeG (V3 m ρ) c = hUpd (grK (m ((c : Thread nD τ).loc main_arg2) : IVec S2x800000 32)) (gcK (m ((c : Thread nD τ).loc main_arg2) : IVec S2x800000 32)) (scK (m ((c : Thread nD τ).loc main_arg2) : IVec S2x800000 32)) (m ((c : Thread nD τ).loc main_arg0) : Mat 50000 64) (m ((c : Thread nD τ).loc main_arg1) : Mat 50000 3) (m ((c : Thread nD τ).loc main_arg3) : Mat 129 64) (m ((c : Thread nD τ).loc main_arg4) : Vect 64) (m ((c : Thread nD τ).loc main_arg5) : Mat 64 64) (m ((c : Thread nD τ).loc main_arg6) : Vect 64) (m ((c : Thread nD τ).loc main_arg7) : Vect 64) (m ((c : Thread nD τ).loc main_arg8) : Vect 64) (m ((c : Thread nD τ).loc main_arg9) : Mat 64 64) (m ((c : Thread nD τ).loc main_arg10) : Vect 64) (m ((c : Thread nD τ).loc main_arg11) : Mat 64 64) (m ((c : Thread nD τ).loc main_arg12) : Vect 64) (m ((c : Thread nD τ).loc main_arg13) : Vect 64) (m ((c : Thread nD τ).loc main_arg14) : Vect 64) := by
  unfold nodeG
  rw [s3_arg0 m ρ c, s3_54 m ρ c, s3_56 m ρ c, s3_57 m ρ c, s3_58 m ρ c, s3_59 m ρ c, s3_60 m ρ c, s3_61 m ρ c]
  rfl

/-! ## The two results at the end of the run -/

theorem w4_out0 (c : Dev nD) : (W4 m ρ c (Proc.devRef .tc main_v0_0) : S50000x64.Idx → EReal) = hUpd (grK (m ((c : Thread nD τ).loc main_arg2) : IVec S2x800000 32)) (gcK (m ((c : Thread nD τ).loc main_arg2) : IVec S2x800000 32)) (scK (m ((c : Thread nD τ).loc main_arg2) : IVec S2x800000 32)) (m ((c : Thread nD τ).loc main_arg0) : Mat 50000 64) (m ((c : Thread nD τ).loc main_arg1) : Mat 50000 3) (m ((c : Thread nD τ).loc main_arg3) : Mat 129 64) (m ((c : Thread nD τ).loc main_arg4) : Vect 64) (m ((c : Thread nD τ).loc main_arg5) : Mat 64 64) (m ((c : Thread nD τ).loc main_arg6) : Vect 64) (m ((c : Thread nD τ).loc main_arg7) : Vect 64) (m ((c : Thread nD τ).loc main_arg8) : Vect 64) (m ((c : Thread nD τ).loc main_arg9) : Mat 64 64) (m ((c : Thread nD τ).loc main_arg10) : Vect 64) (m ((c : Thread nD τ).loc main_arg11) : Mat 64 64) (m ((c : Thread nD τ).loc main_arg12) : Vect 64) (m ((c : Thread nD τ).loc main_arg13) : Vect 64) (m ((c : Thread nD τ).loc main_arg14) : Vect 64) :=
  (W4_arr m ρ c 8).trans ((node_final (V3 m ρ) c).trans (nodeG_eq m ρ c))

theorem w4_out1 (c : Dev nD) : (W4 m ρ c (Proc.devRef .tc main_v0_1) : S50000x3.Idx → EReal) = posUpd (grK (m ((c : Thread nD τ).loc main_arg2) : IVec S2x800000 32)) (gcK (m ((c : Thread nD τ).loc main_arg2) : IVec S2x800000 32)) (scK (m ((c : Thread nD τ).loc main_arg2) : IVec S2x800000 32)) (m ((c : Thread nD τ).loc main_arg0) : Mat 50000 64) (m ((c : Thread nD τ).loc main_arg1) : Mat 50000 3) (m ((c : Thread nD τ).loc main_arg3) : Mat 129 64) (m ((c : Thread nD τ).loc main_arg4) : Vect 64) (m ((c : Thread nD τ).loc main_arg5) : Mat 64 64) (m ((c : Thread nD τ).loc main_arg6) : Vect 64) (m ((c : Thread nD τ).loc main_arg7) : Vect 64) (m ((c : Thread nD τ).loc main_arg8) : Vect 64) (m ((c : Thread nD τ).loc main_arg15) : Mat 64 64) (m ((c : Thread nD τ).loc main_arg16) : Vect 64) (m ((c : Thread nD τ).loc main_arg17) : Mat 64 1) (m ((c : Thread nD τ).loc main_arg18) : Vect 1) :=
  (W4_of_ne m ρ c main_v0_1 (by decide)).trans (s3_out1 m ρ c)

end Cert.KernelIdeal.KValue

end
-- ==== Proof.KFinal.lean ====
/-
  The idealized kernel program's run with its two results named: every weakly fair execution terminates without a
  fault; the first result is the layer's node update and the second its coordinate update of the argument arrays; the
  argument arrays end unchanged.
-/
import proofs.«138794_j50809463111709_2_alg».proof.Proof.KRun
import proofs.«138794_j50809463111709_2_alg».proof.Proof.KHostSem

set_option maxRecDepth 16384

noncomputable section

namespace Cert.KernelIdeal.KValue

open Idealize.ShloMosaic Idealize.ShloMosaic.TcCoe Idealize.ShloMosaic.ValueIdx Idealize.SL.Sem
open Cert.LibMatProd Cert.Layers Cert.NormLayers Cert.CompGcn Cert.Egnn Cert.KernelIdeal Cert.KernelIdeal.Gen

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c : Thread nD τ).loc main_v0_0) = hUpd (grK (m ((c : Thread nD τ).loc main_arg2) : IVec S2x800000 32)) (gcK (m ((c : Thread nD τ).loc main_arg2) : IVec S2x800000 32)) (scK (m ((c : Thread nD τ).loc main_arg2) : IVec S2x800000 32)) (m ((c : Thread nD τ).loc main_arg0) : Mat 50000 64) (m ((c : Thread nD τ).loc main_arg1) : Mat 50000 3) (m ((c : Thread nD τ).loc main_arg3) : Mat 129 64) (m ((c : Thread nD τ).loc main_arg4) : Vect 64) (m ((c : Thread nD τ).loc main_arg5) : Mat 64 64) (m ((c : Thread nD τ).loc main_arg6) : Vect 64) (m ((c : Thread nD τ).loc main_arg7) : Vect 64) (m ((c : Thread nD τ).loc main_arg8) : Vect 64) (m ((c : Thread nD τ).loc main_arg9) : Mat 64 64) (m ((c : Thread nD τ).loc main_arg10) : Vect 64) (m ((c : Thread nD τ).loc main_arg11) : Mat 64 64) (m ((c : Thread nD τ).loc main_arg12) : Vect 64) (m ((c : Thread nD τ).loc main_arg13) : Vect 64) (m ((c : Thread nD τ).loc main_arg14) : Vect 64)
      ∧ r.2.mem ((c : Thread nD τ).loc main_v0_1) = posUpd (grK (m ((c : Thread nD τ).loc main_arg2) : IVec S2x800000 32)) (gcK (m ((c : Thread nD τ).loc main_arg2) : IVec S2x800000 32)) (scK (m ((c : Thread nD τ).loc main_arg2) : IVec S2x800000 32)) (m ((c : Thread nD τ).loc main_arg0) : Mat 50000 64) (m ((c : Thread nD τ).loc main_arg1) : Mat 50000 3) (m ((c : Thread nD τ).loc main_arg3) : Mat 129 64) (m ((c : Thread nD τ).loc main_arg4) : Vect 64) (m ((c : Thread nD τ).loc main_arg5) : Mat 64 64) (m ((c : Thread nD τ).loc main_arg6) : Vect 64) (m ((c : Thread nD τ).loc main_arg7) : Vect 64) (m ((c : Thread nD τ).loc main_arg8) : Vect 64) (m ((c : Thread nD τ).loc main_arg15) : Mat 64 64) (m ((c : Thread nD τ).loc main_arg16) : Vect 64) (m ((c : Thread nD τ).loc main_arg17) : Mat 64 1) (m ((c : Thread nD τ).loc main_arg18) : Vect 1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)) :=
  (θ_run defs _ _).mono (fun r h c =>
    ⟨(h c _ (mem_uc main_v0_0 (by decide))).trans (w4_out0 m ρ c),
     (h c _ (mem_uc main_v0_1 (by decide))).trans (w4_out1 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c),
     (h c _ (mem_uc main_arg17 (by decide))).trans (W4_main_arg17 m ρ c),
     (h c _ (mem_uc main_arg18 (by decide))).trans (W4_main_arg18 m ρ c)⟩)
    (run_boundary m ρ)

end Cert.KernelIdeal.KValue

end
-- ==== Proof.RefOps.lean ====
/-
  The reference program's host operations as a list, in order, every call of a module-local function replaced by that
  function's operations over the call's own buffers; the program is the straight line of that list, and so every weakly
  fair execution ends with each buffer at the fold of the operations' results over the launch contents.
  The list is cut into consecutive stages (index columns, relative positions, lengths, gathered feature rows, the edge
  layers, the normalisations, the sums over incoming edges, the node layers, the coordinate coefficients).
-/
import proofs.«138794_j50809463111709_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Stage 1: operations 1 … 20 of 217. -/
def seg1 : List (HloOp τ sig (Elt F)) :=
  [ StableHlo.unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.nullary main_c (constantI S_ 32 0#32),
    StableHlo.nullary main_c_0 (constantI S_ 32 49999#32),
    StableHlo.TRef.unary (StableHlo.TRef.of main_c : StableHlo.TRef sig ⟨S_, .i32⟩) main_call0.v0 id,
    StableHlo.TRef.unary main_call0.v0 main_call0.v1 (broadcastInDim S800000 ![] bcast_S_S800000),
    StableHlo.TRef.binary main_call0.v1 (StableHlo.TRef.of main_v1 : StableHlo.TRef sig ⟨S800000, .i32⟩) main_call0.v2 maxsi,
    StableHlo.TRef.unary (StableHlo.TRef.of main_c_0 : StableHlo.TRef sig ⟨S_, .i32⟩) main_call0.v3 id,
    StableHlo.TRef.unary main_call0.v3 main_call0.v4 (broadcastInDim S800000 ![] bcast_S_S800000),
    StableHlo.TRef.binary main_call0.v4 main_call0.v2 main_call0.v5 minsi,
    StableHlo.unary main_arg2 main_v3 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v3 main_v4 rfl shapeCasts_S1x800000_S800000,
    StableHlo.nullary main_c_1 (constantI S_ 32 0#32),
    StableHlo.nullary main_c_2 (constantI S_ 32 49999#32),
    StableHlo.TRef.unary (StableHlo.TRef.of main_c_1 : StableHlo.TRef sig ⟨S_, .i32⟩) main_call1.v0 id,
    StableHlo.TRef.unary main_call1.v0 main_call1.v1 (broadcastInDim S800000 ![] bcast_S_S800000),
    StableHlo.TRef.binary main_call1.v1 (StableHlo.TRef.of main_v4 : StableHlo.TRef sig ⟨S800000, .i32⟩) main_call1.v2 maxsi,
    StableHlo.TRef.unary (StableHlo.TRef.of main_c_2 : StableHlo.TRef sig ⟨S_, .i32⟩) main_call1.v3 id,
    StableHlo.TRef.unary main_call1.v3 main_call1.v4 (broadcastInDim S800000 ![] bcast_S_S800000),
    StableHlo.TRef.binary main_call1.v4 main_call1.v2 main_call1.v5 minsi ]

/-- Stage 2: operations 21 … 39 of 217. -/
def seg2 : List (HloOp τ sig (Elt F)) :=
  [ StableHlo.nullary main_c_3 (constantI S_ 32 0#32),
    StableHlo.unary main_c_3 main_v6 (broadcastInDim S800000 ![] bcast_S_S800000 : (⟨S_, .i32⟩ : BufTy).Contents (Elt F) → (⟨S800000, .i32⟩ : BufTy).Contents (Elt F)),
    StableHlo.binary main_v2 main_v6 main_v7 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v8 (broadcastInDim S800000 ![] bcast_S_S800000 : (⟨S_, .i32⟩ : BufTy).Contents (Elt F) → (⟨S800000, .i32⟩ : BufTy).Contents (Elt F)),
    StableHlo.binary main_v2 main_v8 main_v9 (addi : (⟨S800000, .i32⟩ : BufTy).Contents (Elt F) → (⟨S800000, .i32⟩ : BufTy).Contents (Elt F) → (⟨S800000, .i32⟩ : BufTy).Contents (Elt F)),
    StableHlo.ternary main_v7 main_v9 main_v2 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v10 main_v11 (broadcastInDim S800000x1 ![0] bcast_S800000_S800000x1_0 : (⟨S800000, .i32⟩ : BufTy).Contents (Elt F) → (⟨S800000x1, .i32⟩ : BufTy).Contents (Elt F)),
    StableHlo.binary main_arg1 main_v11 main_v12 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    StableHlo.nullary main_c_5 (constantI S_ 32 0#32),
    StableHlo.unary main_c_5 main_v13 (broadcastInDim S800000 ![] bcast_S_S800000 : (⟨S_, .i32⟩ : BufTy).Contents (Elt F) → (⟨S800000, .i32⟩ : BufTy).Contents (Elt F)),
    StableHlo.binary main_v5 main_v13 main_v14 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v15 (broadcastInDim S800000 ![] bcast_S_S800000 : (⟨S_, .i32⟩ : BufTy).Contents (Elt F) → (⟨S800000, .i32⟩ : BufTy).Contents (Elt F)),
    StableHlo.binary main_v5 main_v15 main_v16 (addi : (⟨S800000, .i32⟩ : BufTy).Contents (Elt F) → (⟨S800000, .i32⟩ : BufTy).Contents (Elt F) → (⟨S800000, .i32⟩ : BufTy).Contents (Elt F)),
    StableHlo.ternary main_v14 main_v16 main_v5 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v17 main_v18 (broadcastInDim S800000x1 ![0] bcast_S800000_S800000x1_0 : (⟨S800000, .i32⟩ : BufTy).Contents (Elt F) → (⟨S800000x1, .i32⟩ : BufTy).Contents (Elt F)),
    StableHlo.binary main_arg1 main_v18 main_v19 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F)),
    StableHlo.binary main_v12 main_v19 main_v20 (subf : (⟨S800000x3, .f32⟩ : BufTy).Contents (Elt F) → (⟨S800000x3, .f32⟩ : BufTy).Contents (Elt F) → (⟨S800000x3, .f32⟩ : BufTy).Contents (Elt F)) ]

/-- Stage 3: operations 40 … 47 of 217. -/
def seg3 : List (HloOp τ sig (Elt F)) :=
  [ StableHlo.nullary main_cst (constant S_ .f32 0x322BCC77#32),
    StableHlo.unary main_cst main_v21 (broadcastInDim S800000x3 ![] bcast_S_S800000x3 : (⟨S_, .f32⟩ : BufTy).Contents (Elt F) → (⟨S800000x3, .f32⟩ : BufTy).Contents (Elt F)),
    StableHlo.binary main_v20 main_v21 main_v22 (addf : (⟨S800000x3, .f32⟩ : BufTy).Contents (Elt F) → (⟨S800000x3, .f32⟩ : BufTy).Contents (Elt F) → (⟨S800000x3, .f32⟩ : BufTy).Contents (Elt F)),
    StableHlo.TRef.binary (StableHlo.TRef.of main_v22 : StableHlo.TRef sig ⟨S800000x3, .f32⟩) (StableHlo.TRef.of main_v22 : StableHlo.TRef sig ⟨S800000x3, .f32⟩) main_call2.v0 mulf,
    StableHlo.TRef.nullary main_call2.cst (constant S_ .f32 0x00000000#32),
    StableHlo.TRef.binary main_call2.v0 main_call2.cst main_call2.v1 (fun x v => Host.reduceAdd x v reducesTo_S800000x3_S800000_d1 h_S_),
    StableHlo.TRef.unary main_call2.v1 main_call2.v2 (broadcastInDim S800000x1 ![0] bcast_S800000_S800000x1_0),
    StableHlo.TRef.unary main_call2.v2 main_call2.v3 Host.sqrt ]

/-- Stage 4: operations 48 … 65 of 217. -/
def seg4 : List (HloOp τ sig (Elt F)) :=
  [ StableHlo.nullary main_c_7 (constantI S_ 32 0#32),
    StableHlo.unary main_c_7 main_v24 (broadcastInDim S800000 ![] bcast_S_S800000 : (⟨S_, .i32⟩ : BufTy).Contents (Elt F) → (⟨S800000, .i32⟩ : BufTy).Contents (Elt F)),
    StableHlo.binary main_v2 main_v24 main_v25 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v26 (broadcastInDim S800000 ![] bcast_S_S800000 : (⟨S_, .i32⟩ : BufTy).Contents (Elt F) → (⟨S800000, .i32⟩ : BufTy).Contents (Elt F)),
    StableHlo.binary main_v2 main_v26 main_v27 (addi : (⟨S800000, .i32⟩ : BufTy).Contents (Elt F) → (⟨S800000, .i32⟩ : BufTy).Contents (Elt F) → (⟨S800000, .i32⟩ : BufTy).Contents (Elt F)),
    StableHlo.ternary main_v25 main_v27 main_v2 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v28 main_v29 (broadcastInDim S800000x1 ![0] bcast_S800000_S800000x1_0 : (⟨S800000, .i32⟩ : BufTy).Contents (Elt F) → (⟨S800000x1, .i32⟩ : BufTy).Contents (Elt F)),
    StableHlo.binary main_arg0 main_v29 main_v30 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_9 (constantI S_ 32 0#32),
    StableHlo.unary main_c_9 main_v31 (broadcastInDim S800000 ![] bcast_S_S800000 : (⟨S_, .i32⟩ : BufTy).Contents (Elt F) → (⟨S800000, .i32⟩ : BufTy).Contents (Elt F)),
    StableHlo.binary main_v5 main_v31 main_v32 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v33 (broadcastInDim S800000 ![] bcast_S_S800000 : (⟨S_, .i32⟩ : BufTy).Contents (Elt F) → (⟨S800000, .i32⟩ : BufTy).Contents (Elt F)),
    StableHlo.binary main_v5 main_v33 main_v34 (addi : (⟨S800000, .i32⟩ : BufTy).Contents (Elt F) → (⟨S800000, .i32⟩ : BufTy).Contents (Elt F) → (⟨S800000, .i32⟩ : BufTy).Contents (Elt F)),
    StableHlo.ternary main_v32 main_v34 main_v5 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v35 main_v36 (broadcastInDim S800000x1 ![0] bcast_S800000_S800000x1_0 : (⟨S800000, .i32⟩ : BufTy).Contents (Elt F) → (⟨S800000x1, .i32⟩ : BufTy).Contents (Elt F)),
    StableHlo.binary main_arg0 main_v36 main_v37 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- Stage 5: operations 66 … 79 of 217. -/
def seg5 : List (HloOp τ sig (Elt F)) :=
  [ StableHlo.nary ![main_v30, main_v37, main_v23] main_v38 (fun u => concatenate S800000x129 1 [⟨S800000x64, u 0⟩, ⟨S800000x64, u 1⟩, ⟨S800000x1, u 2⟩] concatenates_S800000x64_S800000x64_S800000x1_S800000x129_d1),
    StableHlo.binary main_v38 main_arg3 main_v39 ((fun l r => Host.dotGeneral dot_S800000x129_S129x64_S800000x64_1_0_0_1_n_n none l r) : (⟨S800000x129, .f32⟩ : BufTy).Contents (Elt F) → (⟨S129x64, .f32⟩ : BufTy).Contents (Elt F) → (⟨S800000x64, .f32⟩ : BufTy).Contents (Elt F)),
    StableHlo.unary main_arg4 main_v40 (broadcastInDim S1x64 ![1] bcast_S64_S1x64_1 : (⟨S64, .f32⟩ : BufTy).Contents (Elt F) → (⟨S1x64, .f32⟩ : BufTy).Contents (Elt F)),
    StableHlo.unary main_v40 main_v41 (broadcastInDim S800000x64 ![0, 1] bcast_S1x64_S800000x64_0_1 : (⟨S1x64, .f32⟩ : BufTy).Contents (Elt F) → (⟨S800000x64, .f32⟩ : BufTy).Contents (Elt F)),
    StableHlo.binary main_v39 main_v41 main_v42 (addf : (⟨S800000x64, .f32⟩ : BufTy).Contents (Elt F) → (⟨S800000x64, .f32⟩ : BufTy).Contents (Elt F) → (⟨S800000x64, .f32⟩ : BufTy).Contents (Elt F)),
    StableHlo.TRef.unary (StableHlo.TRef.of main_v42 : StableHlo.TRef sig ⟨S800000x64, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S800000x64 ![] bcast_S_S800000x64),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S800000x64 ![] bcast_S_S800000x64),
    StableHlo.TRef.binary main_call3.v4 main_call3.v3 main_call3.v5 Host.divf,
    StableHlo.TRef.binary (StableHlo.TRef.of main_v42 : StableHlo.TRef sig ⟨S800000x64, .f32⟩) main_call3.v5 main_call3.v6 mulf ]

/-- Stage 6: operations 80 … 82 of 217. -/
def seg6 : List (HloOp τ sig (Elt F)) :=
  [ StableHlo.binary main_v43 main_arg5 main_v44 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    StableHlo.unary main_arg6 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S800000x64 ![0, 1] bcast_S1x64_S800000x64_0_1 : (⟨S1x64, .f32⟩ : BufTy).Contents (Elt F) → (⟨S800000x64, .f32⟩ : BufTy).Contents (Elt F)) ]

/-- Stage 7: operations 83 … 83 of 217. -/
def seg7 : List (HloOp τ sig (Elt F)) :=
  [ StableHlo.binary main_v44 main_v46 main_v47 (addf : (⟨S800000x64, .f32⟩ : BufTy).Contents (Elt F) → (⟨S800000x64, .f32⟩ : BufTy).Contents (Elt F) → (⟨S800000x64, .f32⟩ : BufTy).Contents (Elt F)) ]

/-- Stage 8: operations 84 … 89 of 217. -/
def seg8 : List (HloOp τ sig (Elt F)) :=
  [ StableHlo.nullary main_cst_11 (constant S_ .f32 0x00000000#32),
    StableHlo.binary main_v47 main_cst_11 main_v48 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    StableHlo.unary main_v48 main_v49 (broadcastInDim S800000x1 ![0] bcast_S800000_S800000x1_0 : (⟨S800000, .f32⟩ : BufTy).Contents (Elt F) → (⟨S800000x1, .f32⟩ : BufTy).Contents (Elt F)),
    StableHlo.nullary main_cst_12 (constant S_ .f32 0x42800000#32),
    StableHlo.unary main_cst_12 main_v50 (broadcastInDim S800000x1 ![] bcast_S_S800000x1 : (⟨S_, .f32⟩ : BufTy).Contents (Elt F) → (⟨S800000x1, .f32⟩ : BufTy).Contents (Elt F)),
    StableHlo.binary main_v49 main_v50 main_v51 (Host.divf : (⟨S800000x1, .f32⟩ : BufTy).Contents (Elt F) → (⟨S800000x1, .f32⟩ : BufTy).Contents (Elt F) → (⟨S800000x1, .f32⟩ : BufTy).Contents (Elt F)) ]

/-- Stage 9: operations 90 … 113 of 217. -/
def seg9 : List (HloOp τ sig (Elt F)) :=
  [ StableHlo.nullary main_c_13 (constantI S_ 32 0#32),
    StableHlo.TRef.nullary main_call4.cst (constant S_ .f32 0x00000000#32),
    StableHlo.TRef.binary (StableHlo.TRef.of main_v47 : StableHlo.TRef sig ⟨S800000x64, .f32⟩) main_call4.cst main_call4.v0 (fun x v => Host.reduceAdd x v reducesTo_S800000x64_S800000_d1 h_S_),
    StableHlo.TRef.unary main_call4.v0 main_call4.v1 (broadcastInDim S800000x1 ![0] bcast_S800000_S800000x1_0),
    StableHlo.TRef.nullary main_call4.cst_0 (constant S_ .f32 0x42800000#32),
    StableHlo.TRef.unary main_call4.cst_0 main_call4.v2 (broadcastInDim S800000x1 ![] bcast_S_S800000x1),
    StableHlo.TRef.binary main_call4.v1 main_call4.v2 main_call4.v3 Host.divf,
    StableHlo.TRef.unary main_call4.v3 main_call4.v4 (broadcastInDim S800000x64 ![0, 1] bcast_S800000x1_S800000x64_0_1),
    StableHlo.TRef.binary (StableHlo.TRef.of main_v47 : StableHlo.TRef sig ⟨S800000x64, .f32⟩) main_call4.v4 main_call4.v5 subf,
    StableHlo.TRef.binary main_call4.v5 main_call4.v5 main_call4.v6 mulf,
    StableHlo.TRef.unary (StableHlo.TRef.of main_c_13 : StableHlo.TRef sig ⟨S_, .i32⟩) main_call4.v7 (sitofp .f32),
    StableHlo.TRef.nullary main_call4.cst_1 (constant S_ .f32 0x42800000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S800000x64_S800000_d1 h_S_),
    StableHlo.TRef.unary main_call4.v9 main_call4.v10 (broadcastInDim S800000x1 ![0] bcast_S800000_S800000x1_0),
    StableHlo.TRef.unary main_call4.v8 main_call4.v11 (broadcastInDim S800000x1 ![] bcast_S_S800000x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S800000x1 ![] bcast_S_S800000x1),
    StableHlo.TRef.ternary main_call4.v13 main_call4.v12 main_call4.call0.v1 main_call4.call0.v2 (fun p a b => select (broadcastInDim S800000x1 ![] bcast_S_S800000x1 p) a b) ]

/-- Stage 10: operations 114 … 127 of 217. -/
def seg10 : List (HloOp τ sig (Elt F)) :=
  [ StableHlo.unary main_v51 main_v53 (broadcastInDim S800000x64 ![0, 1] bcast_S800000x1_S800000x64_0_1 : (⟨S800000x1, .f32⟩ : BufTy).Contents (Elt F) → (⟨S800000x64, .f32⟩ : BufTy).Contents (Elt F)),
    StableHlo.binary main_v47 main_v53 main_v54 (subf : (⟨S800000x64, .f32⟩ : BufTy).Contents (Elt F) → (⟨S800000x64, .f32⟩ : BufTy).Contents (Elt F) → (⟨S800000x64, .f32⟩ : BufTy).Contents (Elt F)),
    StableHlo.nullary main_cst_14 (constant S_ .f32 0x3727C5AC#32),
    StableHlo.unary main_cst_14 main_v55 (broadcastInDim S800000x1 ![] bcast_S_S800000x1 : (⟨S_, .f32⟩ : BufTy).Contents (Elt F) → (⟨S800000x1, .f32⟩ : BufTy).Contents (Elt F)),
    StableHlo.binary main_v52 main_v55 main_v56 (addf : (⟨S800000x1, .f32⟩ : BufTy).Contents (Elt F) → (⟨S800000x1, .f32⟩ : BufTy).Contents (Elt F) → (⟨S800000x1, .f32⟩ : BufTy).Contents (Elt F)),
    StableHlo.unary main_v56 main_v57 (Host.rsqrt : (⟨S800000x1, .f32⟩ : BufTy).Contents (Elt F) → (⟨S800000x1, .f32⟩ : BufTy).Contents (Elt F)),
    StableHlo.unary main_v57 main_v58 (broadcastInDim S800000x64 ![0, 1] bcast_S800000x1_S800000x64_0_1 : (⟨S800000x1, .f32⟩ : BufTy).Contents (Elt F) → (⟨S800000x64, .f32⟩ : BufTy).Contents (Elt F)),
    StableHlo.binary main_v54 main_v58 main_v59 (mulf : (⟨S800000x64, .f32⟩ : BufTy).Contents (Elt F) → (⟨S800000x64, .f32⟩ : BufTy).Contents (Elt F) → (⟨S800000x64, .f32⟩ : BufTy).Contents (Elt F)),
    StableHlo.unary main_arg7 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S800000x64 ![0, 1] bcast_S1x64_S800000x64_0_1 : (⟨S1x64, .f32⟩ : BufTy).Contents (Elt F) → (⟨S800000x64, .f32⟩ : BufTy).Contents (Elt F)),
    StableHlo.binary main_v59 main_v61 main_v62 (mulf : (⟨S800000x64, .f32⟩ : BufTy).Contents (Elt F) → (⟨S800000x64, .f32⟩ : BufTy).Contents (Elt F) → (⟨S800000x64, .f32⟩ : BufTy).Contents (Elt F)),
    StableHlo.unary main_arg8 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S800000x64 ![0, 1] bcast_S1x64_S800000x64_0_1 : (⟨S1x64, .f32⟩ : BufTy).Contents (Elt F) → (⟨S800000x64, .f32⟩ : BufTy).Contents (Elt F)),
    StableHlo.binary main_v62 main_v64 main_v65 (addf : (⟨S800000x64, .f32⟩ : BufTy).Contents (Elt F) → (⟨S800000x64, .f32⟩ : BufTy).Contents (Elt F) → (⟨S800000x64, .f32⟩ : BufTy).Contents (Elt F)) ]

/-- Stage 11: operations 128 … 136 of 217. -/
def seg11 : List (HloOp τ sig (Elt F)) :=
  [ StableHlo.nullary main_cst_15 (constant S_ .f32 0x00000000#32),
    StableHlo.unary main_cst_15 main_v66 (broadcastInDim S50000x64 ![] bcast_S_S50000x64 : (⟨S_, .f32⟩ : BufTy).Contents (Elt F) → (⟨S50000x64, .f32⟩ : BufTy).Contents (Elt F)),
    StableHlo.unary main_v5 main_v67 (broadcastInDim S800000x1 ![0] bcast_S800000_S800000x1_0 : (⟨S800000, .i32⟩ : BufTy).Contents (Elt F) → (⟨S800000x1, .i32⟩ : BufTy).Contents (Elt F)),
    StableHlo.ternary main_v66 main_v67 main_v65 main_v68 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_arg0 main_v68 main_v69 (addf : (⟨S50000x64, .f32⟩ : BufTy).Contents (Elt F) → (⟨S50000x64, .f32⟩ : BufTy).Contents (Elt F) → (⟨S50000x64, .f32⟩ : BufTy).Contents (Elt F)),
    StableHlo.binary main_v69 main_arg9 main_v70 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg10 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S50000x64 ![0, 1] bcast_S1x64_S50000x64_0_1 : (⟨S1x64, .f32⟩ : BufTy).Contents (Elt F) → (⟨S50000x64, .f32⟩ : BufTy).Contents (Elt F)),
    StableHlo.binary main_v70 main_v72 main_v73 (addf : (⟨S50000x64, .f32⟩ : BufTy).Contents (Elt F) → (⟨S50000x64, .f32⟩ : BufTy).Contents (Elt F) → (⟨S50000x64, .f32⟩ : BufTy).Contents (Elt F)) ]

/-- Stage 12: operations 137 … 149 of 217. -/
def seg12 : List (HloOp τ sig (Elt F)) :=
  [ StableHlo.TRef.unary (StableHlo.TRef.of main_v73 : StableHlo.TRef sig ⟨S50000x64, .f32⟩) main_call5.v0 Host.negf,
    StableHlo.TRef.unary main_call5.v0 main_call5.v1 Host.exp,
    StableHlo.TRef.nullary main_call5.cst (constant S_ .f32 0x3F800000#32),
    StableHlo.TRef.unary main_call5.cst main_call5.v2 (broadcastInDim S50000x64 ![] bcast_S_S50000x64),
    StableHlo.TRef.binary main_call5.v2 main_call5.v1 main_call5.v3 addf,
    StableHlo.TRef.nullary main_call5.cst_0 (constant S_ .f32 0x3F800000#32),
    StableHlo.TRef.unary main_call5.cst_0 main_call5.v4 (broadcastInDim S50000x64 ![] bcast_S_S50000x64),
    StableHlo.TRef.binary main_call5.v4 main_call5.v3 main_call5.v5 Host.divf,
    StableHlo.TRef.binary (StableHlo.TRef.of main_v73 : StableHlo.TRef sig ⟨S50000x64, .f32⟩) main_call5.v5 main_call5.v6 mulf,
    StableHlo.binary main_v74 main_arg11 main_v75 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg12 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S50000x64 ![0, 1] bcast_S1x64_S50000x64_0_1 : (⟨S1x64, .f32⟩ : BufTy).Contents (Elt F) → (⟨S50000x64, .f32⟩ : BufTy).Contents (Elt F)),
    StableHlo.binary main_v75 main_v77 main_v78 (addf : (⟨S50000x64, .f32⟩ : BufTy).Contents (Elt F) → (⟨S50000x64, .f32⟩ : BufTy).Contents (Elt F) → (⟨S50000x64, .f32⟩ : BufTy).Contents (Elt F)) ]

/-- Stage 13: operations 150 … 155 of 217. -/
def seg13 : List (HloOp τ sig (Elt F)) :=
  [ StableHlo.nullary main_cst_16 (constant S_ .f32 0x00000000#32),
    StableHlo.binary main_v78 main_cst_16 main_v79 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v79 main_v80 (broadcastInDim S50000x1 ![0] bcast_S50000_S50000x1_0 : (⟨S50000, .f32⟩ : BufTy).Contents (Elt F) → (⟨S50000x1, .f32⟩ : BufTy).Contents (Elt F)),
    StableHlo.nullary main_cst_17 (constant S_ .f32 0x42800000#32),
    StableHlo.unary main_cst_17 main_v81 (broadcastInDim S50000x1 ![] bcast_S_S50000x1 : (⟨S_, .f32⟩ : BufTy).Contents (Elt F) → (⟨S50000x1, .f32⟩ : BufTy).Contents (Elt F)),
    StableHlo.binary main_v80 main_v81 main_v82 (Host.divf : (⟨S50000x1, .f32⟩ : BufTy).Contents (Elt F) → (⟨S50000x1, .f32⟩ : BufTy).Contents (Elt F) → (⟨S50000x1, .f32⟩ : BufTy).Contents (Elt F)) ]

/-- Stage 14: operations 156 … 179 of 217. -/
def seg14 : List (HloOp τ sig (Elt F)) :=
  [ StableHlo.nullary main_c_18 (constantI S_ 32 0#32),
    StableHlo.TRef.nullary main_call6.cst (constant S_ .f32 0x00000000#32),
    StableHlo.TRef.binary (StableHlo.TRef.of main_v78 : StableHlo.TRef sig ⟨S50000x64, .f32⟩) main_call6.cst main_call6.v0 (fun x v => Host.reduceAdd x v reducesTo_S50000x64_S50000_d1 h_S_),
    StableHlo.TRef.unary main_call6.v0 main_call6.v1 (broadcastInDim S50000x1 ![0] bcast_S50000_S50000x1_0),
    StableHlo.TRef.nullary main_call6.cst_0 (constant S_ .f32 0x42800000#32),
    StableHlo.TRef.unary main_call6.cst_0 main_call6.v2 (broadcastInDim S50000x1 ![] bcast_S_S50000x1),
    StableHlo.TRef.binary main_call6.v1 main_call6.v2 main_call6.v3 Host.divf,
    StableHlo.TRef.unary main_call6.v3 main_call6.v4 (broadcastInDim S50000x64 ![0, 1] bcast_S50000x1_S50000x64_0_1),
    StableHlo.TRef.binary (StableHlo.TRef.of main_v78 : StableHlo.TRef sig ⟨S50000x64, .f32⟩) main_call6.v4 main_call6.v5 subf,
    StableHlo.TRef.binary main_call6.v5 main_call6.v5 main_call6.v6 mulf,
    StableHlo.TRef.unary (StableHlo.TRef.of main_c_18 : StableHlo.TRef sig ⟨S_, .i32⟩) main_call6.v7 (sitofp .f32),
    StableHlo.TRef.nullary main_call6.cst_1 (constant S_ .f32 0x42800000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x64_S50000_d1 h_S_),
    StableHlo.TRef.unary main_call6.v9 main_call6.v10 (broadcastInDim S50000x1 ![0] bcast_S50000_S50000x1_0),
    StableHlo.TRef.unary main_call6.v8 main_call6.v11 (broadcastInDim S50000x1 ![] bcast_S_S50000x1),
    StableHlo.TRef.binary main_call6.v10 main_call6.v11 main_call6.v12 Host.divf,
    StableHlo.TRef.nullary main_call6.cst_3 (constant S_ .f32 0x00000000#32),
    StableHlo.TRef.binary main_call6.v8 main_call6.cst_3 main_call6.v13 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S50000x1 ![] bcast_S_S50000x1),
    StableHlo.TRef.ternary main_call6.v13 main_call6.v12 main_call6.call0.v1 main_call6.call0.v2 (fun p a b => select (broadcastInDim S50000x1 ![] bcast_S_S50000x1 p) a b) ]

/-- Stage 15: operations 180 … 193 of 217. -/
def seg15 : List (HloOp τ sig (Elt F)) :=
  [ StableHlo.unary main_v82 main_v84 (broadcastInDim S50000x64 ![0, 1] bcast_S50000x1_S50000x64_0_1 : (⟨S50000x1, .f32⟩ : BufTy).Contents (Elt F) → (⟨S50000x64, .f32⟩ : BufTy).Contents (Elt F)),
    StableHlo.binary main_v78 main_v84 main_v85 (subf : (⟨S50000x64, .f32⟩ : BufTy).Contents (Elt F) → (⟨S50000x64, .f32⟩ : BufTy).Contents (Elt F) → (⟨S50000x64, .f32⟩ : BufTy).Contents (Elt F)),
    StableHlo.nullary main_cst_19 (constant S_ .f32 0x3727C5AC#32),
    StableHlo.unary main_cst_19 main_v86 (broadcastInDim S50000x1 ![] bcast_S_S50000x1 : (⟨S_, .f32⟩ : BufTy).Contents (Elt F) → (⟨S50000x1, .f32⟩ : BufTy).Contents (Elt F)),
    StableHlo.binary main_v83 main_v86 main_v87 (addf : (⟨S50000x1, .f32⟩ : BufTy).Contents (Elt F) → (⟨S50000x1, .f32⟩ : BufTy).Contents (Elt F) → (⟨S50000x1, .f32⟩ : BufTy).Contents (Elt F)),
    StableHlo.unary main_v87 main_v88 (Host.rsqrt : (⟨S50000x1, .f32⟩ : BufTy).Contents (Elt F) → (⟨S50000x1, .f32⟩ : BufTy).Contents (Elt F)),
    StableHlo.unary main_v88 main_v89 (broadcastInDim S50000x64 ![0, 1] bcast_S50000x1_S50000x64_0_1 : (⟨S50000x1, .f32⟩ : BufTy).Contents (Elt F) → (⟨S50000x64, .f32⟩ : BufTy).Contents (Elt F)),
    StableHlo.binary main_v85 main_v89 main_v90 (mulf : (⟨S50000x64, .f32⟩ : BufTy).Contents (Elt F) → (⟨S50000x64, .f32⟩ : BufTy).Contents (Elt F) → (⟨S50000x64, .f32⟩ : BufTy).Contents (Elt F)),
    StableHlo.unary main_arg13 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S50000x64 ![0, 1] bcast_S1x64_S50000x64_0_1 : (⟨S1x64, .f32⟩ : BufTy).Contents (Elt F) → (⟨S50000x64, .f32⟩ : BufTy).Contents (Elt F)),
    StableHlo.binary main_v90 main_v92 main_v93 (mulf : (⟨S50000x64, .f32⟩ : BufTy).Contents (Elt F) → (⟨S50000x64, .f32⟩ : BufTy).Contents (Elt F) → (⟨S50000x64, .f32⟩ : BufTy).Contents (Elt F)),
    StableHlo.unary main_arg14 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S50000x64 ![0, 1] bcast_S1x64_S50000x64_0_1 : (⟨S1x64, .f32⟩ : BufTy).Contents (Elt F) → (⟨S50000x64, .f32⟩ : BufTy).Contents (Elt F)),
    StableHlo.binary main_v93 main_v95 main_v96 (addf : (⟨S50000x64, .f32⟩ : BufTy).Contents (Elt F) → (⟨S50000x64, .f32⟩ : BufTy).Contents (Elt F) → (⟨S50000x64, .f32⟩ : BufTy).Contents (Elt F)) ]

/-- Stage 16: operations 194 … 194 of 217. -/
def seg16 : List (HloOp τ sig (Elt F)) :=
  [ StableHlo.binary main_v65 main_arg15 main_v97 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)) ]

/-- Stage 17: operations 195 … 211 of 217. -/
def seg17 : List (HloOp τ sig (Elt F)) :=
  [ StableHlo.unary main_arg16 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S800000x64 ![0, 1] bcast_S1x64_S800000x64_0_1 : (⟨S1x64, .f32⟩ : BufTy).Contents (Elt F) → (⟨S800000x64, .f32⟩ : BufTy).Contents (Elt F)),
    StableHlo.binary main_v97 main_v99 main_v100 (addf : (⟨S800000x64, .f32⟩ : BufTy).Contents (Elt F) → (⟨S800000x64, .f32⟩ : BufTy).Contents (Elt F) → (⟨S800000x64, .f32⟩ : BufTy).Contents (Elt F)),
    StableHlo.TRef.unary (StableHlo.TRef.of main_v100 : StableHlo.TRef sig ⟨S800000x64, .f32⟩) main_call7.v0 Host.negf,
    StableHlo.TRef.unary main_call7.v0 main_call7.v1 Host.exp,
    StableHlo.TRef.nullary main_call7.cst (constant S_ .f32 0x3F800000#32),
    StableHlo.TRef.unary main_call7.cst main_call7.v2 (broadcastInDim S800000x64 ![] bcast_S_S800000x64),
    StableHlo.TRef.binary main_call7.v2 main_call7.v1 main_call7.v3 addf,
    StableHlo.TRef.nullary main_call7.cst_0 (constant S_ .f32 0x3F800000#32),
    StableHlo.TRef.unary main_call7.cst_0 main_call7.v4 (broadcastInDim S800000x64 ![] bcast_S_S800000x64),
    StableHlo.TRef.binary main_call7.v4 main_call7.v3 main_call7.v5 Host.divf,
    StableHlo.TRef.binary (StableHlo.TRef.of main_v100 : StableHlo.TRef sig ⟨S800000x64, .f32⟩) main_call7.v5 main_call7.v6 mulf,
    StableHlo.binary main_v101 main_arg17 main_v102 ((fun l r => Host.dotGeneral dot_S800000x64_S64x1_S800000x1_1_0_0_1_n_n none l r) : (⟨S800000x64, .f32⟩ : BufTy).Contents (Elt F) → (⟨S64x1, .f32⟩ : BufTy).Contents (Elt F) → (⟨S800000x1, .f32⟩ : BufTy).Contents (Elt F)),
    StableHlo.unary main_arg18 main_v103 (broadcastInDim S1x1 ![1] bcast_S1_S1x1_1 : (⟨S1, .f32⟩ : BufTy).Contents (Elt F) → (⟨S1x1, .f32⟩ : BufTy).Contents (Elt F)),
    StableHlo.unary main_v103 main_v104 (broadcastInDim S800000x1 ![0, 1] bcast_S1x1_S800000x1_0_1 : (⟨S1x1, .f32⟩ : BufTy).Contents (Elt F) → (⟨S800000x1, .f32⟩ : BufTy).Contents (Elt F)),
    StableHlo.binary main_v102 main_v104 main_v105 (addf : (⟨S800000x1, .f32⟩ : BufTy).Contents (Elt F) → (⟨S800000x1, .f32⟩ : BufTy).Contents (Elt F) → (⟨S800000x1, .f32⟩ : BufTy).Contents (Elt F)),
    StableHlo.unary main_v105 main_v106 (Host.tanh : (⟨S800000x1, .f32⟩ : BufTy).Contents (Elt F) → (⟨S800000x1, .f32⟩ : BufTy).Contents (Elt F)) ]

/-- Stage 18: operations 212 … 217 of 217. -/
def seg18 : List (HloOp τ sig (Elt F)) :=
  [ StableHlo.unary main_v106 main_v107 (broadcastInDim S800000x3 ![0, 1] bcast_S800000x1_S800000x3_0_1 : (⟨S800000x1, .f32⟩ : BufTy).Contents (Elt F) → (⟨S800000x3, .f32⟩ : BufTy).Contents (Elt F)),
    StableHlo.binary main_v20 main_v107 main_v108 (mulf : (⟨S800000x3, .f32⟩ : BufTy).Contents (Elt F) → (⟨S800000x3, .f32⟩ : BufTy).Contents (Elt F) → (⟨S800000x3, .f32⟩ : BufTy).Contents (Elt F)),
    StableHlo.nullary main_cst_20 (constant S_ .f32 0x00000000#32),
    StableHlo.unary main_cst_20 main_v109 (broadcastInDim S50000x3 ![] bcast_S_S50000x3 : (⟨S_, .f32⟩ : BufTy).Contents (Elt F) → (⟨S50000x3, .f32⟩ : BufTy).Contents (Elt F)),
    StableHlo.unary main_v5 main_v110 (broadcastInDim S800000x1 ![0] bcast_S800000_S800000x1_0 : (⟨S800000, .i32⟩ : BufTy).Contents (Elt F) → (⟨S800000x1, .i32⟩ : BufTy).Contents (Elt F)),
    StableHlo.ternary main_v109 main_v110 main_v108 main_v111 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F)) ]

theorem seg1_sub : (seg1 : List (HloOp τ sig (Elt F))).Forall fun op => op.bufs ⊆ tcRefs τ sig :=
  ⟨unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub ..⟩
theorem seg1_fresh : (seg1 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem seg2_sub : (seg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem seg2_fresh : (seg2 : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem seg3_sub : (seg3 : List (HloOp τ sig (Elt F))).Forall fun op => op.bufs ⊆ tcRefs τ sig :=
  ⟨nullary_bufs_sub .., unary_bufs_sub .., binary_bufs_sub .., binary_bufs_sub .., nullary_bufs_sub .., binary_bufs_sub .., unary_bufs_sub .., unary_bufs_sub ..⟩
theorem seg3_fresh : (seg3 : List (HloOp τ sig (Elt F))).Forall fun op => op.fresh = ∅ :=
  ⟨rfl, rfl, rfl, rfl, rfl, rfl, rfl, rfl⟩

theorem seg4_sub : (seg4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem seg4_fresh : (seg4 : List (HloOp τ sig (Elt F))).Forall fun op => op.fresh = ∅ :=
  ⟨rfl, rfl, rfl, rfl, rfl, rfl, rfl, rfl, rfl, rfl, rfl, rfl, rfl, rfl, rfl, rfl, rfl, rfl⟩

theorem seg5_sub : (seg5 : List (HloOp τ sig (Elt F))).Forall fun op => op.bufs ⊆ tcRefs τ sig :=
  ⟨nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem seg5_fresh : (seg5 : List (HloOp τ sig (Elt F))).Forall fun op => op.fresh = ∅ :=
  ⟨rfl, rfl, rfl, rfl, rfl, rfl, rfl, rfl, rfl, rfl, rfl, rfl, rfl, rfl⟩

theorem seg6_sub : (seg6 : List (HloOp τ sig (Elt F))).Forall fun op => op.bufs ⊆ tcRefs τ sig :=
  ⟨binary_bufs_sub .., unary_bufs_sub .., unary_bufs_sub ..⟩
theorem seg6_fresh : (seg6 : List (HloOp τ sig (Elt F))).Forall fun op => op.fresh = ∅ :=
  ⟨rfl, rfl, rfl⟩

theorem seg7_sub : (seg7 : List (HloOp τ sig (Elt F))).Forall fun op => op.bufs ⊆ tcRefs τ sig :=
  binary_bufs_sub ..
theorem seg7_fresh : (seg7 : List (HloOp τ sig (Elt F))).Forall fun op => op.fresh = ∅ :=
  rfl

theorem seg8_sub : (seg8 : List (HloOp τ sig (Elt F))).Forall fun op => op.bufs ⊆ tcRefs τ sig :=
  ⟨nullary_bufs_sub .., binary_bufs_sub .., unary_bufs_sub .., nullary_bufs_sub .., unary_bufs_sub .., binary_bufs_sub ..⟩
theorem seg8_fresh : (seg8 : List (HloOp τ sig (Elt F))).Forall fun op => op.fresh = ∅ :=
  ⟨rfl, rfl, rfl, rfl, rfl, rfl⟩

theorem seg9_sub : (seg9 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem seg9_fresh : (seg9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

theorem seg10_sub : (seg10 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem seg10_fresh : (seg10 : List (HloOp τ sig (Elt F))).Forall fun op => op.fresh = ∅ :=
  ⟨rfl, rfl, rfl, rfl, rfl, rfl, rfl, rfl, rfl, rfl, rfl, rfl, rfl, rfl⟩

theorem seg11_sub : (seg11 : List (HloOp τ sig (Elt F))).Forall fun op => op.bufs ⊆ tcRefs τ sig :=
  ⟨nullary_bufs_sub .., unary_bufs_sub .., unary_bufs_sub .., ternary_bufs_sub .., binary_bufs_sub .., binary_bufs_sub .., unary_bufs_sub .., unary_bufs_sub .., binary_bufs_sub ..⟩
theorem seg11_fresh : (seg11 : List (HloOp τ sig (Elt F))).Forall fun op => op.fresh = ∅ :=
  ⟨rfl, rfl, rfl, rfl, rfl, rfl, rfl, rfl, rfl⟩

theorem seg12_sub : (seg12 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub ..⟩
theorem seg12_fresh : (seg12 : List (HloOp τ sig (Elt F))).Forall fun op => op.fresh = ∅ :=
  ⟨rfl, rfl, rfl, rfl, rfl, rfl, rfl, rfl, rfl, rfl, rfl, rfl, rfl⟩

theorem seg13_sub : (seg13 : List (HloOp τ sig (Elt F))).Forall fun op => op.bufs ⊆ tcRefs τ sig :=
  ⟨nullary_bufs_sub .., binary_bufs_sub .., unary_bufs_sub .., nullary_bufs_sub .., unary_bufs_sub .., binary_bufs_sub ..⟩
theorem seg13_fresh : (seg13 : List (HloOp τ sig (Elt F))).Forall fun op => op.fresh = ∅ :=
  ⟨rfl, rfl, rfl, rfl, rfl, rfl⟩

theorem seg14_sub : (seg14 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem seg14_fresh : (seg14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

theorem seg15_sub : (seg15 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem seg15_fresh : (seg15 : List (HloOp τ sig (Elt F))).Forall fun op => op.fresh = ∅ :=
  ⟨rfl, rfl, rfl, rfl, rfl, rfl, rfl, rfl, rfl, rfl, rfl, rfl, rfl, rfl⟩

theorem seg16_sub : (seg16 : List (HloOp τ sig (Elt F))).Forall fun op => op.bufs ⊆ tcRefs τ sig :=
  binary_bufs_sub ..
theorem seg16_fresh : (seg16 : List (HloOp τ sig (Elt F))).Forall fun op => op.fresh = ∅ :=
  rfl

theorem seg17_sub : (seg17 : List (HloOp τ sig (Elt F))).Forall fun op => op.bufs ⊆ tcRefs τ sig :=
  ⟨unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub ..⟩
theorem seg17_fresh : (seg17 : List (HloOp τ sig (Elt F))).Forall fun op => op.fresh = ∅ :=
  ⟨rfl, rfl, rfl, rfl, rfl, rfl, rfl, rfl, rfl, rfl, rfl, rfl, rfl, rfl, rfl, rfl, rfl⟩

theorem seg18_sub : (seg18 : List (HloOp τ sig (Elt F))).Forall fun op => op.bufs ⊆ tcRefs τ sig :=
  ⟨unary_bufs_sub .., binary_bufs_sub .., nullary_bufs_sub .., unary_bufs_sub .., unary_bufs_sub .., ternary_bufs_sub ..⟩
theorem seg18_fresh : (seg18 : List (HloOp τ sig (Elt F))).Forall fun op => op.fresh = ∅ :=
  ⟨rfl, rfl, rfl, rfl, rfl, rfl⟩

theorem forall_append {α : Type} {p : α → Prop} {l₁ l₂ : List α} (h₁ : l₁.Forall p) (h₂ : l₂.Forall p) : (l₁ ++ l₂).Forall p :=
  List.forall_iff_forall_mem.2 fun x hx => (List.mem_append.1 hx).elim (List.forall_iff_forall_mem.1 h₁ x) (List.forall_iff_forall_mem.1 h₂ x)

/-- The operations of the program's window 0. -/
def part0 : List (HloOp τ sig (Elt F)) := seg1 ++ (seg2 ++ (seg3 ++ (seg4 ++ (seg5 ++ (seg6)))))
theorem part0_sub : (part0 : List (HloOp τ sig (Elt F))).Forall fun op => op.bufs ⊆ tcRefs τ sig := forall_append seg1_sub (forall_append seg2_sub (forall_append seg3_sub (forall_append seg4_sub (forall_append seg5_sub (seg6_sub)))))
theorem part0_fresh : (part0 : List (HloOp τ sig (Elt F))).Forall fun op => op.fresh = ∅ := forall_append seg1_fresh (forall_append seg2_fresh (forall_append seg3_fresh (forall_append seg4_fresh (forall_append seg5_fresh (seg6_fresh)))))

-- the binds of a long straight line are re-associated one statement at a time
set_option maxRecDepth 16384 in
set_option maxHeartbeats 4000000 in
theorem part0_eq (c : Dev nD) : main_part0 (F := F) c = seq part0 := by
  simp only [main_part0, fn_clip.body, fn_norm.body, fn_silu.body, part0, seg1, seg2, seg3, seg4, seg5, seg6,
    List.cons_append, List.nil_append, seq, bind_assoc, pure_bind] <;> rfl

/-- The operations of the program's window 1. -/
def part1 : List (HloOp τ sig (Elt F)) := seg7 ++ (seg8 ++ (seg9 ++ (seg10 ++ (seg11 ++ (seg12 ++ (seg13 ++ (seg14 ++ (seg15 ++ (seg16)))))))))
theorem part1_sub : (part1 : List (HloOp τ sig (Elt F))).Forall fun op => op.bufs ⊆ tcRefs τ sig := forall_append seg7_sub (forall_append seg8_sub (forall_append seg9_sub (forall_append seg10_sub (forall_append seg11_sub (forall_append seg12_sub (forall_append seg13_sub (forall_append seg14_sub (forall_append seg15_sub (seg16_sub)))))))))
theorem part1_fresh : (part1 : List (HloOp τ sig (Elt F))).Forall fun op => op.fresh = ∅ := forall_append seg7_fresh (forall_append seg8_fresh (forall_append seg9_fresh (forall_append seg10_fresh (forall_append seg11_fresh (forall_append seg12_fresh (forall_append seg13_fresh (forall_append seg14_fresh (forall_append seg15_fresh (seg16_fresh)))))))))

-- the binds of a long straight line are re-associated one statement at a time
set_option maxRecDepth 16384 in
set_option maxHeartbeats 4000000 in
theorem part1_eq (c : Dev nD) : main_part1 (F := F) c = seq part1 := by
  simp only [main_part1, fn_var.body, fn_where.body, fn_silu_0.body, fn_var_1.body, fn_where_2.body, part1, seg7, seg8, seg9, seg10, seg11, seg12, seg13, seg14, seg15, seg16,
    List.cons_append, List.nil_append, seq, bind_assoc, pure_bind] <;> rfl

/-- The operations of the program's window 2. -/
def part2 : List (HloOp τ sig (Elt F)) := seg17 ++ (seg18)
theorem part2_sub : (part2 : List (HloOp τ sig (Elt F))).Forall fun op => op.bufs ⊆ tcRefs τ sig := forall_append seg17_sub (seg18_sub)
theorem part2_fresh : (part2 : List (HloOp τ sig (Elt F))).Forall fun op => op.fresh = ∅ := forall_append seg17_fresh (seg18_fresh)

-- the binds of a long straight line are re-associated one statement at a time
set_option maxRecDepth 16384 in
set_option maxHeartbeats 4000000 in
theorem part2_eq (c : Dev nD) : main_part2 (F := F) c = seq part2 := by
  simp only [main_part2, fn_silu.body, part2, seg17, seg18,
    List.cons_append, List.nil_append, seq, bind_assoc, pure_bind] <;> rfl

/-- The whole program's operations. -/
def ops : List (HloOp τ sig (Elt F)) := part0 ++ (part1 ++ part2)

/-- The program is the straight line of its operations. -/
theorem main_eq (c : Dev nD) : main (F := F) c = seq ops := by
  show main (F := F) c = seq (part0 ++ (part1 ++ part2))
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append part0_sub (forall_append part1_sub part2_sub)

theorem ops_fresh : (ops : List (HloOp τ sig (Elt F))).Forall fun op => op.fresh = ∅ :=
  forall_append part0_fresh (forall_append part1_fresh part2_fresh)

/-- From any memory with zero counters every weakly fair execution of the program terminates, and every buffer ends at
    the fold of the operations' results over its device's launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

end Cert.ReferenceIdeal.RefValue

end
-- ==== Proof.RefSegs.lean ====
/-
  Stage by stage, what each stage's result buffers hold once the stage has run: the stage's operations composed, as a
  function of what the buffers it reads held before it; and that a stage leaves every buffer it does not write as it was.
-/
import proofs.«138794_j50809463111709_2_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- An operation that writes one buffer of a list writes inside the list. -/
theorem writes_sub_of_mem {Wl : List (Ref sig .tc)} {op : HloOp τ sig (Elt F)} (y : Ref sig .tc)
    (hw : op.writes = {Proc.devRef .tc y}) (hy : y ∈ Wl) : op.writes ⊆ (Wl.map (Proc.devRef (τ := τ) .tc)).toFinset := by
  rw [hw, Finset.singleton_subset_iff, List.mem_toFinset]
  exact List.mem_map.2 ⟨y, hy, rfl⟩

/-! ## Stage 1 -/

/-- The buffers stage 1 writes. -/
def written1 : List (Ref sig .tc) := [main_v0, main_v1, main_c, main_c_0, main_call0_v0, main_call0_v1, main_call0_v2, main_call0_v3, main_call0_v4, main_v2, main_v3, main_v4, main_c_1, main_c_2, main_call1_v0, main_call1_v1, main_call1_v2, main_call1_v3, main_call1_v4, main_v5]

theorem seg1_keep (W : Valuation τ sig (Elt F)) (r : Ref sig .tc) (hr : r ∉ written1) :
    after seg1 W (no_index (Proc.devRef .tc r)) = W (Proc.devRef .tc r) :=
  after_of_writes_sub seg1 W (W := written1)
    ⟨writes_sub_of_mem main_v0 rfl (by decide),
     writes_sub_of_mem main_v1 rfl (by decide),
     writes_sub_of_mem main_c rfl (by decide),
     writes_sub_of_mem main_c_0 rfl (by decide),
     writes_sub_of_mem main_call0_v0 rfl (by decide),
     writes_sub_of_mem main_call0_v1 rfl (by decide),
     writes_sub_of_mem main_call0_v2 rfl (by decide),
     writes_sub_of_mem main_call0_v3 rfl (by decide),
     writes_sub_of_mem main_call0_v4 rfl (by decide),
     writes_sub_of_mem main_v2 rfl (by decide),
     writes_sub_of_mem main_v3 rfl (by decide),
     writes_sub_of_mem main_v4 rfl (by decide),
     writes_sub_of_mem main_c_1 rfl (by decide),
     writes_sub_of_mem main_c_2 rfl (by decide),
     writes_sub_of_mem main_call1_v0 rfl (by decide),
     writes_sub_of_mem main_call1_v1 rfl (by decide),
     writes_sub_of_mem main_call1_v2 rfl (by decide),
     writes_sub_of_mem main_call1_v3 rfl (by decide),
     writes_sub_of_mem main_call1_v4 rfl (by decide),
     writes_sub_of_mem main_v5 rfl (by decide)⟩ hr

/-- What main_v2 holds after stage 1, from what the stage read. -/
def e2 (a2 : (⟨S2x800000, .i32⟩ : BufTy).Contents (Elt F)) :
    (⟨S800000, .i32⟩ : BufTy).Contents (Elt F) :=
  (minsi ((broadcastInDim S800000 ![] bcast_S_S800000) ((constantI S_ 32 49999#32) : (⟨S_, .i32⟩ : BufTy).Contents (Elt F)) : (⟨S800000, .i32⟩ : BufTy).Contents (Elt F)) (maxsi ((broadcastInDim S800000 ![] bcast_S_S800000) ((constantI S_ 32 0#32) : (⟨S_, .i32⟩ : BufTy).Contents (Elt F)) : (⟨S800000, .i32⟩ : BufTy).Contents (Elt F)) (shapeCast S800000 (extractStridedSlice S1x800000 ![0, 0] a2 slices_S2x800000_S1x800000_0_0 : (⟨S1x800000, .i32⟩ : BufTy).Contents (Elt F)) shapeCasts_S1x800000_S800000 : (⟨S800000, .i32⟩ : BufTy).Contents (Elt F)) : (⟨S800000, .i32⟩ : BufTy).Contents (Elt F)) : (⟨S800000, .i32⟩ : BufTy).Contents (Elt F))

theorem seg1_main_v2 (W : Valuation τ sig (Elt F)) :
    after seg1 W (main_v2 : DevRef τ sig) = e2 (W (main_arg2 : DevRef τ sig)) := by
  unfold seg1
  after_results_simp
  rfl

/-- What main_v5 holds after stage 1, from what the stage read. -/
def e5 (a2 : (⟨S2x800000, .i32⟩ : BufTy).Contents (Elt F)) :
    (⟨S800000, .i32⟩ : BufTy).Contents (Elt F) :=
  (minsi ((broadcastInDim S800000 ![] bcast_S_S800000) ((constantI S_ 32 49999#32) : (⟨S_, .i32⟩ : BufTy).Contents (Elt F)) : (⟨S800000, .i32⟩ : BufTy).Contents (Elt F)) (maxsi ((broadcastInDim S800000 ![] bcast_S_S800000) ((constantI S_ 32 0#32) : (⟨S_, .i32⟩ : BufTy).Contents (Elt F)) : (⟨S800000, .i32⟩ : BufTy).Contents (Elt F)) (shapeCast S800000 (extractStridedSlice S1x800000 ![1, 0] a2 slices_S2x800000_S1x800000_1_0 : (⟨S1x800000, .i32⟩ : BufTy).Contents (Elt F)) shapeCasts_S1x800000_S800000 : (⟨S800000, .i32⟩ : BufTy).Contents (Elt F)) : (⟨S800000, .i32⟩ : BufTy).Contents (Elt F)) : (⟨S800000, .i32⟩ : BufTy).Contents (Elt F))

theorem seg1_main_v5 (W : Valuation τ sig (Elt F)) :
    after seg1 W (main_v5 : DevRef τ sig) = e5 (W (main_arg2 : DevRef τ sig)) := by
  unfold seg1
  after_results_simp
  rfl

/-! ## Stage 2 -/

/-- The buffers stage 2 writes. -/
def written2 : List (Ref sig .tc) := [main_c_3, main_v6, main_v7, main_c_4, main_v8, main_v9, main_v10, main_v11, main_v12, main_c_5, main_v13, main_v14, main_c_6, main_v15, main_v16, main_v17, main_v18, main_v19, main_v20]

theorem seg2_keep (W : Valuation τ sig (Elt F)) (r : Ref sig .tc) (hr : r ∉ written2) :
    after seg2 W (no_index (Proc.devRef .tc r)) = W (Proc.devRef .tc r) :=
  after_of_writes_sub seg2 W (W := written2)
    ⟨writes_sub_of_mem main_c_3 rfl (by decide),
     writes_sub_of_mem main_v6 rfl (by decide),
     writes_sub_of_mem main_v7 rfl (by decide),
     writes_sub_of_mem main_c_4 rfl (by decide),
     writes_sub_of_mem main_v8 rfl (by decide),
     writes_sub_of_mem main_v9 rfl (by decide),
     writes_sub_of_mem main_v10 rfl (by decide),
     writes_sub_of_mem main_v11 rfl (by decide),
     writes_sub_of_mem main_v12 rfl (by decide),
     writes_sub_of_mem main_c_5 rfl (by decide),
     writes_sub_of_mem main_v13 rfl (by decide),
     writes_sub_of_mem main_v14 rfl (by decide),
     writes_sub_of_mem main_c_6 rfl (by decide),
     writes_sub_of_mem main_v15 rfl (by decide),
     writes_sub_of_mem main_v16 rfl (by decide),
     writes_sub_of_mem main_v17 rfl (by decide),
     writes_sub_of_mem main_v18 rfl (by decide),
     writes_sub_of_mem main_v19 rfl (by decide),
     writes_sub_of_mem main_v20 rfl (by decide)⟩ hr

/-- What main_v20 holds after stage 2, from what the stage read. -/
def e20 (a1 : (⟨S50000x3, .f32⟩ : BufTy).Contents (Elt F)) (x2 : (⟨S800000, .i32⟩ : BufTy).Contents (Elt F)) (x5 : (⟨S800000, .i32⟩ : BufTy).Contents (Elt F)) :
    (⟨S800000x3, .f32⟩ : BufTy).Contents (Elt F) :=
  ((subf : (⟨S800000x3, .f32⟩ : BufTy).Contents (Elt F) → (⟨S800000x3, .f32⟩ : BufTy).Contents (Elt F) → (⟨S800000x3, .f32⟩ : BufTy).Contents (Elt F)) (Host.gather gather_S50000x3_S800000x1_S800000x3_1_0_n_n_0_1_13 a1 ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) x2 ((broadcastInDim S800000 ![] bcast_S_S800000 : (⟨S_, .i32⟩ : BufTy).Contents (Elt F) → (⟨S800000, .i32⟩ : BufTy).Contents (Elt F)) ((constantI S_ 32 0#32) : (⟨S_, .i32⟩ : BufTy).Contents (Elt F)) : (⟨S800000, .i32⟩ : BufTy).Contents (Elt F)) : (⟨S800000, .i1⟩ : BufTy).Contents (Elt F)) ((addi : (⟨S800000, .i32⟩ : BufTy).Contents (Elt F) → (⟨S800000, .i32⟩ : BufTy).Contents (Elt F) → (⟨S800000, .i32⟩ : BufTy).Contents (Elt F)) x2 ((broadcastInDim S800000 ![] bcast_S_S800000 : (⟨S_, .i32⟩ : BufTy).Contents (Elt F) → (⟨S800000, .i32⟩ : BufTy).Contents (Elt F)) ((constantI S_ 32 50000#32) : (⟨S_, .i32⟩ : BufTy).Contents (Elt F)) : (⟨S800000, .i32⟩ : BufTy).Contents (Elt F)) : (⟨S800000, .i32⟩ : BufTy).Contents (Elt F)) x2 : (⟨S800000, .i32⟩ : BufTy).Contents (Elt F)) : (⟨S800000x1, .i32⟩ : BufTy).Contents (Elt F)) : (⟨S800000x3, .f32⟩ : BufTy).Contents (Elt F)) (Host.gather gather_S50000x3_S800000x1_S800000x3_1_0_n_n_0_1_13 a1 ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) x5 ((broadcastInDim S800000 ![] bcast_S_S800000 : (⟨S_, .i32⟩ : BufTy).Contents (Elt F) → (⟨S800000, .i32⟩ : BufTy).Contents (Elt F)) ((constantI S_ 32 0#32) : (⟨S_, .i32⟩ : BufTy).Contents (Elt F)) : (⟨S800000, .i32⟩ : BufTy).Contents (Elt F)) : (⟨S800000, .i1⟩ : BufTy).Contents (Elt F)) ((addi : (⟨S800000, .i32⟩ : BufTy).Contents (Elt F) → (⟨S800000, .i32⟩ : BufTy).Contents (Elt F) → (⟨S800000, .i32⟩ : BufTy).Contents (Elt F)) x5 ((broadcastInDim S800000 ![] bcast_S_S800000 : (⟨S_, .i32⟩ : BufTy).Contents (Elt F) → (⟨S800000, .i32⟩ : BufTy).Contents (Elt F)) ((constantI S_ 32 50000#32) : (⟨S_, .i32⟩ : BufTy).Contents (Elt F)) : (⟨S800000, .i32⟩ : BufTy).Contents (Elt F)) : (⟨S800000, .i32⟩ : BufTy).Contents (Elt F)) x5 : (⟨S800000, .i32⟩ : BufTy).Contents (Elt F)) : (⟨S800000x1, .i32⟩ : BufTy).Contents (Elt F)) : (⟨S800000x3, .f32⟩ : BufTy).Contents (Elt F)) : (⟨S800000x3, .f32⟩ : BufTy).Contents (Elt F))

theorem seg2_main_v20 (W : Valuation τ sig (Elt F)) :
    after seg2 W (main_v20 : DevRef τ sig) = e20 (W (main_arg1 : DevRef τ sig)) (W (main_v2 : DevRef τ sig)) (W (main_v5 : DevRef τ sig)) := by
  unfold seg2
  after_results_simp
  rfl

/-! ## Stage 3 -/

/-- The buffers stage 3 writes. -/
def written3 : List (Ref sig .tc) := [main_cst, main_v21, main_v22, main_call2_v0, main_call2_cst, main_call2_v1, main_call2_v2, main_v23]

theorem seg3_keep (W : Valuation τ sig (Elt F)) (r : Ref sig .tc) (hr : r ∉ written3) :
    after seg3 W (no_index (Proc.devRef .tc r)) = W (Proc.devRef .tc r) :=
  after_of_writes_sub seg3 W (W := written3)
    ⟨writes_sub_of_mem main_cst rfl (by decide),
     writes_sub_of_mem main_v21 rfl (by decide),
     writes_sub_of_mem main_v22 rfl (by decide),
     writes_sub_of_mem main_call2_v0 rfl (by decide),
     writes_sub_of_mem main_call2_cst rfl (by decide),
     writes_sub_of_mem main_call2_v1 rfl (by decide),
     writes_sub_of_mem main_call2_v2 rfl (by decide),
     writes_sub_of_mem main_v23 rfl (by decide)⟩ hr

/-- What main_v23 holds after stage 3, from what the stage read. -/
def e23 (x20 : (⟨S800000x3, .f32⟩ : BufTy).Contents (Elt F)) :
    (⟨S800000x1, .f32⟩ : BufTy).Contents (Elt F) :=
  (Host.sqrt ((broadcastInDim S800000x1 ![0] bcast_S800000_S800000x1_0) (Host.reduceAdd (mulf ((addf : (⟨S800000x3, .f32⟩ : BufTy).Contents (Elt F) → (⟨S800000x3, .f32⟩ : BufTy).Contents (Elt F) → (⟨S800000x3, .f32⟩ : BufTy).Contents (Elt F)) x20 ((broadcastInDim S800000x3 ![] bcast_S_S800000x3 : (⟨S_, .f32⟩ : BufTy).Contents (Elt F) → (⟨S800000x3, .f32⟩ : BufTy).Contents (Elt F)) ((constant S_ .f32 0x322BCC77#32) : (⟨S_, .f32⟩ : BufTy).Contents (Elt F)) : (⟨S800000x3, .f32⟩ : BufTy).Contents (Elt F)) : (⟨S800000x3, .f32⟩ : BufTy).Contents (Elt F)) ((addf : (⟨S800000x3, .f32⟩ : BufTy).Contents (Elt F) → (⟨S800000x3, .f32⟩ : BufTy).Contents (Elt F) → (⟨S800000x3, .f32⟩ : BufTy).Contents (Elt F)) x20 ((broadcastInDim S800000x3 ![] bcast_S_S800000x3 : (⟨S_, .f32⟩ : BufTy).Contents (Elt F) → (⟨S800000x3, .f32⟩ : BufTy).Contents (Elt F)) ((constant S_ .f32 0x322BCC77#32) : (⟨S_, .f32⟩ : BufTy).Contents (Elt F)) : (⟨S800000x3, .f32⟩ : BufTy).Contents (Elt F)) : (⟨S800000x3, .f32⟩ : BufTy).Contents (Elt F)) : (⟨S800000x3, .f32⟩ : BufTy).Contents (Elt F)) ((constant S_ .f32 0x00000000#32) : (⟨S_, .f32⟩ : BufTy).Contents (Elt F)) reducesTo_S800000x3_S800000_d1 h_S_ : (⟨S800000, .f32⟩ : BufTy).Contents (Elt F)) : (⟨S800000x1, .f32⟩ : BufTy).Contents (Elt F)) : (⟨S800000x1, .f32⟩ : BufTy).Contents (Elt F))

theorem seg3_main_v23 (W : Valuation τ sig (Elt F)) :
    after seg3 W (main_v23 : DevRef τ sig) = e23 (W (main_v20 : DevRef τ sig)) := by
  unfold seg3
  after_results_simp
  rfl

/-! ## Stage 4 -/

/-- The buffers stage 4 writes. -/
def written4 : List (Ref sig .tc) := [main_c_7, main_v24, main_v25, main_c_8, main_v26, main_v27, main_v28, main_v29, main_v30, main_c_9, main_v31, main_v32, main_c_10, main_v33, main_v34, main_v35, main_v36, main_v37]

theorem seg4_keep (W : Valuation τ sig (Elt F)) (r : Ref sig .tc) (hr : r ∉ written4) :
    after seg4 W (no_index (Proc.devRef .tc r)) = W (Proc.devRef .tc r) :=
  after_of_writes_sub seg4 W (W := written4)
    ⟨writes_sub_of_mem main_c_7 rfl (by decide),
     writes_sub_of_mem main_v24 rfl (by decide),
     writes_sub_of_mem main_v25 rfl (by decide),
     writes_sub_of_mem main_c_8 rfl (by decide),
     writes_sub_of_mem main_v26 rfl (by decide),
     writes_sub_of_mem main_v27 rfl (by decide),
     writes_sub_of_mem main_v28 rfl (by decide),
     writes_sub_of_mem main_v29 rfl (by decide),
     writes_sub_of_mem main_v30 rfl (by decide),
     writes_sub_of_mem main_c_9 rfl (by decide),
     writes_sub_of_mem main_v31 rfl (by decide),
     writes_sub_of_mem main_v32 rfl (by decide),
     writes_sub_of_mem main_c_10 rfl (by decide),
     writes_sub_of_mem main_v33 rfl (by decide),
     writes_sub_of_mem main_v34 rfl (by decide),
     writes_sub_of_mem main_v35 rfl (by decide),
     writes_sub_of_mem main_v36 rfl (by decide),
     writes_sub_of_mem main_v37 rfl (by decide)⟩ hr

/-- What main_v30 holds after stage 4, from what the stage read. -/
def e30 (a0 : (⟨S50000x64, .f32⟩ : BufTy).Contents (Elt F)) (x2 : (⟨S800000, .i32⟩ : BufTy).Contents (Elt F)) :
    (⟨S800000x64, .f32⟩ : BufTy).Contents (Elt F) :=
  (Host.gather gather_S50000x64_S800000x1_S800000x64_1_0_n_n_0_1_164 a0 ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) x2 ((broadcastInDim S800000 ![] bcast_S_S800000 : (⟨S_, .i32⟩ : BufTy).Contents (Elt F) → (⟨S800000, .i32⟩ : BufTy).Contents (Elt F)) ((constantI S_ 32 0#32) : (⟨S_, .i32⟩ : BufTy).Contents (Elt F)) : (⟨S800000, .i32⟩ : BufTy).Contents (Elt F)) : (⟨S800000, .i1⟩ : BufTy).Contents (Elt F)) ((addi : (⟨S800000, .i32⟩ : BufTy).Contents (Elt F) → (⟨S800000, .i32⟩ : BufTy).Contents (Elt F) → (⟨S800000, .i32⟩ : BufTy).Contents (Elt F)) x2 ((broadcastInDim S800000 ![] bcast_S_S800000 : (⟨S_, .i32⟩ : BufTy).Contents (Elt F) → (⟨S800000, .i32⟩ : BufTy).Contents (Elt F)) ((constantI S_ 32 50000#32) : (⟨S_, .i32⟩ : BufTy).Contents (Elt F)) : (⟨S800000, .i32⟩ : BufTy).Contents (Elt F)) : (⟨S800000, .i32⟩ : BufTy).Contents (Elt F)) x2 : (⟨S800000, .i32⟩ : BufTy).Contents (Elt F)) : (⟨S800000x1, .i32⟩ : BufTy).Contents (Elt F)) : (⟨S800000x64, .f32⟩ : BufTy).Contents (Elt F))

theorem seg4_main_v30 (W : Valuation τ sig (Elt F)) :
    after seg4 W (main_v30 : DevRef τ sig) = e30 (W (main_arg0 : DevRef τ sig)) (W (main_v2 : DevRef τ sig)) := by
  unfold seg4
  after_results_simp
  rfl

/-- What main_v37 holds after stage 4, from what the stage read. -/
def e37 (a0 : (⟨S50000x64, .f32⟩ : BufTy).Contents (Elt F)) (x5 : (⟨S800000, .i32⟩ : BufTy).Contents (Elt F)) :
    (⟨S800000x64, .f32⟩ : BufTy).Contents (Elt F) :=
  (Host.gather gather_S50000x64_S800000x1_S800000x64_1_0_n_n_0_1_164 a0 ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) x5 ((broadcastInDim S800000 ![] bcast_S_S800000 : (⟨S_, .i32⟩ : BufTy).Contents (Elt F) → (⟨S800000, .i32⟩ : BufTy).Contents (Elt F)) ((constantI S_ 32 0#32) : (⟨S_, .i32⟩ : BufTy).Contents (Elt F)) : (⟨S800000, .i32⟩ : BufTy).Contents (Elt F)) : (⟨S800000, .i1⟩ : BufTy).Contents (Elt F)) ((addi : (⟨S800000, .i32⟩ : BufTy).Contents (Elt F) → (⟨S800000, .i32⟩ : BufTy).Contents (Elt F) → (⟨S800000, .i32⟩ : BufTy).Contents (Elt F)) x5 ((broadcastInDim S800000 ![] bcast_S_S800000 : (⟨S_, .i32⟩ : BufTy).Contents (Elt F) → (⟨S800000, .i32⟩ : BufTy).Contents (Elt F)) ((constantI S_ 32 50000#32) : (⟨S_, .i32⟩ : BufTy).Contents (Elt F)) : (⟨S800000, .i32⟩ : BufTy).Contents (Elt F)) : (⟨S800000, .i32⟩ : BufTy).Contents (Elt F)) x5 : (⟨S800000, .i32⟩ : BufTy).Contents (Elt F)) : (⟨S800000x1, .i32⟩ : BufTy).Contents (Elt F)) : (⟨S800000x64, .f32⟩ : BufTy).Contents (Elt F))

theorem seg4_main_v37 (W : Valuation τ sig (Elt F)) :
    after seg4 W (main_v37 : DevRef τ sig) = e37 (W (main_arg0 : DevRef τ sig)) (W (main_v5 : DevRef τ sig)) := by
  unfold seg4
  after_results_simp
  rfl

/-! ## Stage 5 -/

/-- The buffers stage 5 writes. -/
def written5 : List (Ref sig .tc) := [main_v38, main_v39, main_v40, main_v41, main_v42, main_call3_v0, main_call3_v1, main_call3_cst, main_call3_v2, main_call3_v3, main_call3_cst_0, main_call3_v4, main_call3_v5, main_v43]

theorem seg5_keep (W : Valuation τ sig (Elt F)) (r : Ref sig .tc) (hr : r ∉ written5) :
    after seg5 W (no_index (Proc.devRef .tc r)) = W (Proc.devRef .tc r) :=
  after_of_writes_sub seg5 W (W := written5)
    ⟨writes_sub_of_mem main_v38 rfl (by decide),
     writes_sub_of_mem main_v39 rfl (by decide),
     writes_sub_of_mem main_v40 rfl (by decide),
     writes_sub_of_mem main_v41 rfl (by decide),
     writes_sub_of_mem main_v42 rfl (by decide),
     writes_sub_of_mem main_call3_v0 rfl (by decide),
     writes_sub_of_mem main_call3_v1 rfl (by decide),
     writes_sub_of_mem main_call3_cst rfl (by decide),
     writes_sub_of_mem main_call3_v2 rfl (by decide),
     writes_sub_of_mem main_call3_v3 rfl (by decide),
     writes_sub_of_mem main_call3_cst_0 rfl (by decide),
     writes_sub_of_mem main_call3_v4 rfl (by decide),
     writes_sub_of_mem main_call3_v5 rfl (by decide),
     writes_sub_of_mem main_v43 rfl (by decide)⟩ hr

/-- What main_v43 holds after stage 5, from what the stage read. -/
def e43 (x30 : (⟨S800000x64, .f32⟩ : BufTy).Contents (Elt F)) (x37 : (⟨S800000x64, .f32⟩ : BufTy).Contents (Elt F)) (x23 : (⟨S800000x1, .f32⟩ : BufTy).Contents (Elt F)) (a3 : (⟨S129x64, .f32⟩ : BufTy).Contents (Elt F)) (a4 : (⟨S64, .f32⟩ : BufTy).Contents (Elt F)) :
    (⟨S800000x64, .f32⟩ : BufTy).Contents (Elt F) :=
  (mulf ((addf : (⟨S800000x64, .f32⟩ : BufTy).Contents (Elt F) → (⟨S800000x64, .f32⟩ : BufTy).Contents (Elt F) → (⟨S800000x64, .f32⟩ : BufTy).Contents (Elt F)) (Host.dotGeneral dot_S800000x129_S129x64_S800000x64_1_0_0_1_n_n none (concatenate S800000x129 1 [⟨S800000x64, x30⟩, ⟨S800000x64, x37⟩, ⟨S800000x1, x23⟩] concatenates_S800000x64_S800000x64_S800000x1_S800000x129_d1 : (⟨S800000x129, .f32⟩ : BufTy).Contents (Elt F)) a3 : (⟨S800000x64, .f32⟩ : BufTy).Contents (Elt F)) ((broadcastInDim S800000x64 ![0, 1] bcast_S1x64_S800000x64_0_1 : (⟨S1x64, .f32⟩ : BufTy).Contents (Elt F) → (⟨S800000x64, .f32⟩ : BufTy).Contents (Elt F)) ((broadcastInDim S1x64 ![1] bcast_S64_S1x64_1 : (⟨S64, .f32⟩ : BufTy).Contents (Elt F) → (⟨S1x64, .f32⟩ : BufTy).Contents (Elt F)) a4 : (⟨S1x64, .f32⟩ : BufTy).Contents (Elt F)) : (⟨S800000x64, .f32⟩ : BufTy).Contents (Elt F)) : (⟨S800000x64, .f32⟩ : BufTy).Contents (Elt F)) (Host.divf ((broadcastInDim S800000x64 ![] bcast_S_S800000x64) ((constant S_ .f32 0x3F800000#32) : (⟨S_, .f32⟩ : BufTy).Contents (Elt F)) : (⟨S800000x64, .f32⟩ : BufTy).Contents (Elt F)) (addf ((broadcastInDim S800000x64 ![] bcast_S_S800000x64) ((constant S_ .f32 0x3F800000#32) : (⟨S_, .f32⟩ : BufTy).Contents (Elt F)) : (⟨S800000x64, .f32⟩ : BufTy).Contents (Elt F)) (Host.exp (Host.negf ((addf : (⟨S800000x64, .f32⟩ : BufTy).Contents (Elt F) → (⟨S800000x64, .f32⟩ : BufTy).Contents (Elt F) → (⟨S800000x64, .f32⟩ : BufTy).Contents (Elt F)) (Host.dotGeneral dot_S800000x129_S129x64_S800000x64_1_0_0_1_n_n none (concatenate S800000x129 1 [⟨S800000x64, x30⟩, ⟨S800000x64, x37⟩, ⟨S800000x1, x23⟩] concatenates_S800000x64_S800000x64_S800000x1_S800000x129_d1 : (⟨S800000x129, .f32⟩ : BufTy).Contents (Elt F)) a3 : (⟨S800000x64, .f32⟩ : BufTy).Contents (Elt F)) ((broadcastInDim S800000x64 ![0, 1] bcast_S1x64_S800000x64_0_1 : (⟨S1x64, .f32⟩ : BufTy).Contents (Elt F) → (⟨S800000x64, .f32⟩ : BufTy).Contents (Elt F)) ((broadcastInDim S1x64 ![1] bcast_S64_S1x64_1 : (⟨S64, .f32⟩ : BufTy).Contents (Elt F) → (⟨S1x64, .f32⟩ : BufTy).Contents (Elt F)) a4 : (⟨S1x64, .f32⟩ : BufTy).Contents (Elt F)) : (⟨S800000x64, .f32⟩ : BufTy).Contents (Elt F)) : (⟨S800000x64, .f32⟩ : BufTy).Contents (Elt F)) : (⟨S800000x64, .f32⟩ : BufTy).Contents (Elt F)) : (⟨S800000x64, .f32⟩ : BufTy).Contents (Elt F)) : (⟨S800000x64, .f32⟩ : BufTy).Contents (Elt F)) : (⟨S800000x64, .f32⟩ : BufTy).Contents (Elt F)) : (⟨S800000x64, .f32⟩ : BufTy).Contents (Elt F))

theorem seg5_main_v43 (W : Valuation τ sig (Elt F)) :
    after seg5 W (main_v43 : DevRef τ sig) = e43 (W (main_v30 : DevRef τ sig)) (W (main_v37 : DevRef τ sig)) (W (main_v23 : DevRef τ sig)) (W (main_arg3 : DevRef τ sig)) (W (main_arg4 : DevRef τ sig)) := by
  unfold seg5
  after_results_simp
  rfl

/-! ## Stage 6 -/

/-- The buffers stage 6 writes. -/
def written6 : List (Ref sig .tc) := [main_v44, main_v45, main_v46]

theorem seg6_keep (W : Valuation τ sig (Elt F)) (r : Ref sig .tc) (hr : r ∉ written6) :
    after seg6 W (no_index (Proc.devRef .tc r)) = W (Proc.devRef .tc r) :=
  after_of_writes_sub seg6 W (W := written6)
    ⟨writes_sub_of_mem main_v44 rfl (by decide),
     writes_sub_of_mem main_v45 rfl (by decide),
     writes_sub_of_mem main_v46 rfl (by decide)⟩ hr

/-- What main_v44 holds after stage 6, from what the stage read. -/
def e44 (x43 : (⟨S800000x64, .f32⟩ : BufTy).Contents (Elt F)) (a5 : (⟨S64x64, .f32⟩ : BufTy).Contents (Elt F)) :
    (⟨S800000x64, .f32⟩ : BufTy).Contents (Elt F) :=
  (Host.dotGeneral dot_S800000x64_S64x64_S800000x64_1_0_0_1_n_n none x43 a5 : (⟨S800000x64, .f32⟩ : BufTy).Contents (Elt F))

theorem seg6_main_v44 (W : Valuation τ sig (Elt F)) :
    after seg6 W (main_v44 : DevRef τ sig) = e44 (W (main_v43 : DevRef τ sig)) (W (main_arg5 : DevRef τ sig)) := by
  unfold seg6
  after_results_simp
  rfl

/-- What main_v46 holds after stage 6, from what the stage read. -/
def e46 (a6 : (⟨S64, .f32⟩ : BufTy).Contents (Elt F)) :
    (⟨S800000x64, .f32⟩ : BufTy).Contents (Elt F) :=
  ((broadcastInDim S800000x64 ![0, 1] bcast_S1x64_S800000x64_0_1 : (⟨S1x64, .f32⟩ : BufTy).Contents (Elt F) → (⟨S800000x64, .f32⟩ : BufTy).Contents (Elt F)) ((broadcastInDim S1x64 ![1] bcast_S64_S1x64_1 : (⟨S64, .f32⟩ : BufTy).Contents (Elt F) → (⟨S1x64, .f32⟩ : BufTy).Contents (Elt F)) a6 : (⟨S1x64, .f32⟩ : BufTy).Contents (Elt F)) : (⟨S800000x64, .f32⟩ : BufTy).Contents (Elt F))

theorem seg6_main_v46 (W : Valuation τ sig (Elt F)) :
    after seg6 W (main_v46 : DevRef τ sig) = e46 (W (main_arg6 : DevRef τ sig)) := by
  unfold seg6
  after_results_simp
  rfl

/-! ## Stage 7 -/

/-- The buffers stage 7 writes. -/
def written7 : List (Ref sig .tc) := [main_v47]

theorem seg7_keep (W : Valuation τ sig (Elt F)) (r : Ref sig .tc) (hr : r ∉ written7) :
    after seg7 W (no_index (Proc.devRef .tc r)) = W (Proc.devRef .tc r) :=
  after_of_writes_sub seg7 W (W := written7)
    (writes_sub_of_mem main_v47 rfl (by decide)) hr

/-- What main_v47 holds after stage 7, from what the stage read. -/
def e47 (x44 : (⟨S800000x64, .f32⟩ : BufTy).Contents (Elt F)) (x46 : (⟨S800000x64, .f32⟩ : BufTy).Contents (Elt F)) :
    (⟨S800000x64, .f32⟩ : BufTy).Contents (Elt F) :=
  ((addf : (⟨S800000x64, .f32⟩ : BufTy).Contents (Elt F) → (⟨S800000x64, .f32⟩ : BufTy).Contents (Elt F) → (⟨S800000x64, .f32⟩ : BufTy).Contents (Elt F)) x44 x46 : (⟨S800000x64, .f32⟩ : BufTy).Contents (Elt F))

theorem seg7_main_v47 (W : Valuation τ sig (Elt F)) :
    after seg7 W (main_v47 : DevRef τ sig) = e47 (W (main_v44 : DevRef τ sig)) (W (main_v46 : DevRef τ sig)) := by
  unfold seg7
  after_results_simp
  rfl

/-! ## Stage 8 -/

/-- The buffers stage 8 writes. -/
def written8 : List (Ref sig .tc) := [main_cst_11, main_v48, main_v49, main_cst_12, main_v50, main_v51]

theorem seg8_keep (W : Valuation τ sig (Elt F)) (r : Ref sig .tc) (hr : r ∉ written8) :
    after seg8 W (no_index (Proc.devRef .tc r)) = W (Proc.devRef .tc r) :=
  after_of_writes_sub seg8 W (W := written8)
    ⟨writes_sub_of_mem main_cst_11 rfl (by decide),
     writes_sub_of_mem main_v48 rfl (by decide),
     writes_sub_of_mem main_v49 rfl (by decide),
     writes_sub_of_mem main_cst_12 rfl (by decide),
     writes_sub_of_mem main_v50 rfl (by decide),
     writes_sub_of_mem main_v51 rfl (by decide)⟩ hr

/-- What main_v51 holds after stage 8, from what the stage read. -/
def e51 (x47 : (⟨S800000x64, .f32⟩ : BufTy).Contents (Elt F)) :
    (⟨S800000x1, .f32⟩ : BufTy).Contents (Elt F) :=
  ((Host.divf : (⟨S800000x1, .f32⟩ : BufTy).Contents (Elt F) → (⟨S800000x1, .f32⟩ : BufTy).Contents (Elt F) → (⟨S800000x1, .f32⟩ : BufTy).Contents (Elt F)) ((broadcastInDim S800000x1 ![0] bcast_S800000_S800000x1_0 : (⟨S800000, .f32⟩ : BufTy).Contents (Elt F) → (⟨S800000x1, .f32⟩ : BufTy).Contents (Elt F)) (Host.reduceAdd x47 ((constant S_ .f32 0x00000000#32) : (⟨S_, .f32⟩ : BufTy).Contents (Elt F)) reducesTo_S800000x64_S800000_d1 h_S_ : (⟨S800000, .f32⟩ : BufTy).Contents (Elt F)) : (⟨S800000x1, .f32⟩ : BufTy).Contents (Elt F)) ((broadcastInDim S800000x1 ![] bcast_S_S800000x1 : (⟨S_, .f32⟩ : BufTy).Contents (Elt F) → (⟨S800000x1, .f32⟩ : BufTy).Contents (Elt F)) ((constant S_ .f32 0x42800000#32) : (⟨S_, .f32⟩ : BufTy).Contents (Elt F)) : (⟨S800000x1, .f32⟩ : BufTy).Contents (Elt F)) : (⟨S800000x1, .f32⟩ : BufTy).Contents (Elt F))

theorem seg8_main_v51 (W : Valuation τ sig (Elt F)) :
    after seg8 W (main_v51 : DevRef τ sig) = e51 (W (main_v47 : DevRef τ sig)) := by
  unfold seg8
  after_results_simp
  rfl

/-! ## Stage 9 -/

/-- The buffers stage 9 writes. -/
def written9 : List (Ref sig .tc) := [main_c_13, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v52]

theorem seg9_keep (W : Valuation τ sig (Elt F)) (r : Ref sig .tc) (hr : r ∉ written9) :
    after seg9 W (no_index (Proc.devRef .tc r)) = W (Proc.devRef .tc r) :=
  after_of_writes_sub seg9 W (W := written9)
    ⟨writes_sub_of_mem main_c_13 rfl (by decide),
     writes_sub_of_mem main_call4_cst rfl (by decide),
     writes_sub_of_mem main_call4_v0 rfl (by decide),
     writes_sub_of_mem main_call4_v1 rfl (by decide),
     writes_sub_of_mem main_call4_cst_0 rfl (by decide),
     writes_sub_of_mem main_call4_v2 rfl (by decide),
     writes_sub_of_mem main_call4_v3 rfl (by decide),
     writes_sub_of_mem main_call4_v4 rfl (by decide),
     writes_sub_of_mem main_call4_v5 rfl (by decide),
     writes_sub_of_mem main_call4_v6 rfl (by decide),
     writes_sub_of_mem main_call4_v7 rfl (by decide),
     writes_sub_of_mem main_call4_cst_1 rfl (by decide),
     writes_sub_of_mem main_call4_v8 rfl (by decide),
     writes_sub_of_mem main_call4_cst_2 rfl (by decide),
     writes_sub_of_mem main_call4_v9 rfl (by decide),
     writes_sub_of_mem main_call4_v10 rfl (by decide),
     writes_sub_of_mem main_call4_v11 rfl (by decide),
     writes_sub_of_mem main_call4_v12 rfl (by decide),
     writes_sub_of_mem main_call4_cst_3 rfl (by decide),
     writes_sub_of_mem main_call4_v13 rfl (by decide),
     writes_sub_of_mem main_call4_cst_4 rfl (by decide),
     writes_sub_of_mem main_call4_call0_v0 rfl (by decide),
     writes_sub_of_mem main_call4_call0_v1 rfl (by decide),
     writes_sub_of_mem main_v52 rfl (by decide)⟩ hr

/-- What main_v52 holds after stage 9, from what the stage read. -/
def e52 (x47 : (⟨S800000x64, .f32⟩ : BufTy).Contents (Elt F)) :
    (⟨S800000x1, .f32⟩ : BufTy).Contents (Elt F) :=
  (select (broadcastInDim S800000x1 ![] bcast_S_S800000x1 ((cmpf .ogt) (subf ((constant S_ .f32 0x42800000#32) : (⟨S_, .f32⟩ : BufTy).Contents (Elt F)) ((sitofp .f32) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F))) (Host.divf ((broadcastInDim S800000x1 ![0] bcast_S800000_S800000x1_0) (Host.reduceAdd (mulf (subf x47 ((broadcastInDim S800000x64 ![0, 1] bcast_S800000x1_S800000x64_0_1) (Host.divf ((broadcastInDim S800000x1 ![0] bcast_S800000_S800000x1_0) (Host.reduceAdd x47 ((constant S_ .f32 0x00000000#32) : (⟨S_, .f32⟩ : BufTy).Contents (Elt F)) reducesTo_S800000x64_S800000_d1 h_S_ : (⟨S800000, .f32⟩ : BufTy).Contents (Elt F)) : (⟨S800000x1, .f32⟩ : BufTy).Contents (Elt F)) ((broadcastInDim S800000x1 ![] bcast_S_S800000x1) ((constant S_ .f32 0x42800000#32) : (⟨S_, .f32⟩ : BufTy).Contents (Elt F)) : (⟨S800000x1, .f32⟩ : BufTy).Contents (Elt F)) : (⟨S800000x1, .f32⟩ : BufTy).Contents (Elt F)) : (⟨S800000x64, .f32⟩ : BufTy).Contents (Elt F)) : (⟨S800000x64, .f32⟩ : BufTy).Contents (Elt F)) (subf x47 ((broadcastInDim S800000x64 ![0, 1] bcast_S800000x1_S800000x64_0_1) (Host.divf ((broadcastInDim S800000x1 ![0] bcast_S800000_S800000x1_0) (Host.reduceAdd x47 ((constant S_ .f32 0x00000000#32) : (⟨S_, .f32⟩ : BufTy).Contents (Elt F)) reducesTo_S800000x64_S800000_d1 h_S_ : (⟨S800000, .f32⟩ : BufTy).Contents (Elt F)) : (⟨S800000x1, .f32⟩ : BufTy).Contents (Elt F)) ((broadcastInDim S800000x1 ![] bcast_S_S800000x1) ((constant S_ .f32 0x42800000#32) : (⟨S_, .f32⟩ : BufTy).Contents (Elt F)) : (⟨S800000x1, .f32⟩ : BufTy).Contents (Elt F)) : (⟨S800000x1, .f32⟩ : BufTy).Contents (Elt F)) : (⟨S800000x64, .f32⟩ : BufTy).Contents (Elt F)) : (⟨S800000x64, .f32⟩ : BufTy).Contents (Elt F)) : (⟨S800000x64, .f32⟩ : BufTy).Contents (Elt F)) ((constant S_ .f32 0x00000000#32) : (⟨S_, .f32⟩ : BufTy).Contents (Elt F)) reducesTo_S800000x64_S800000_d1 h_S_ : (⟨S800000, .f32⟩ : BufTy).Contents (Elt F)) : (⟨S800000x1, .f32⟩ : BufTy).Contents (Elt F)) ((broadcastInDim S800000x1 ![] bcast_S_S800000x1) (subf ((constant S_ .f32 0x42800000#32) : (⟨S_, .f32⟩ : BufTy).Contents (Elt F)) ((sitofp .f32) ((constantI S_ 32 0#32) : (⟨S_, .i32⟩ : BufTy).Contents (Elt F)) : (⟨S_, .f32⟩ : BufTy).Contents (Elt F)) : (⟨S_, .f32⟩ : BufTy).Contents (Elt F)) : (⟨S800000x1, .f32⟩ : BufTy).Contents (Elt F)) : (⟨S800000x1, .f32⟩ : BufTy).Contents (Elt F)) ((broadcastInDim S800000x1 ![] bcast_S_S800000x1) ((constant S_ .f32 0x7FC00000#32) : (⟨S_, .f32⟩ : BufTy).Contents (Elt F)) : (⟨S800000x1, .f32⟩ : BufTy).Contents (Elt F)) : (⟨S800000x1, .f32⟩ : BufTy).Contents (Elt F))

theorem seg9_main_v52 (W : Valuation τ sig (Elt F)) :
    after seg9 W (main_v52 : DevRef τ sig) = e52 (W (main_v47 : DevRef τ sig)) := by
  unfold seg9
  after_results_simp
  rfl

/-! ## Stage 10 -/

/-- The buffers stage 10 writes. -/
def written10 : List (Ref sig .tc) := [main_v53, main_v54, main_cst_14, main_v55, main_v56, main_v57, main_v58, main_v59, main_v60, main_v61, main_v62, main_v63, main_v64, main_v65]

theorem seg10_keep (W : Valuation τ sig (Elt F)) (r : Ref sig .tc) (hr : r ∉ written10) :
    after seg10 W (no_index (Proc.devRef .tc r)) = W (Proc.devRef .tc r) :=
  after_of_writes_sub seg10 W (W := written10)
    ⟨writes_sub_of_mem main_v53 rfl (by decide),
     writes_sub_of_mem main_v54 rfl (by decide),
     writes_sub_of_mem main_cst_14 rfl (by decide),
     writes_sub_of_mem main_v55 rfl (by decide),
     writes_sub_of_mem main_v56 rfl (by decide),
     writes_sub_of_mem main_v57 rfl (by decide),
     writes_sub_of_mem main_v58 rfl (by decide),
     writes_sub_of_mem main_v59 rfl (by decide),
     writes_sub_of_mem main_v60 rfl (by decide),
     writes_sub_of_mem main_v61 rfl (by decide),
     writes_sub_of_mem main_v62 rfl (by decide),
     writes_sub_of_mem main_v63 rfl (by decide),
     writes_sub_of_mem main_v64 rfl (by decide),
     writes_sub_of_mem main_v65 rfl (by decide)⟩ hr

/-- What main_v65 holds after stage 10, from what the stage read. -/
def e65 (x47 : (⟨S800000x64, .f32⟩ : BufTy).Contents (Elt F)) (x51 : (⟨S800000x1, .f32⟩ : BufTy).Contents (Elt F)) (x52 : (⟨S800000x1, .f32⟩ : BufTy).Contents (Elt F)) (a7 : (⟨S64, .f32⟩ : BufTy).Contents (Elt F)) (a8 : (⟨S64, .f32⟩ : BufTy).Contents (Elt F)) :
    (⟨S800000x64, .f32⟩ : BufTy).Contents (Elt F) :=
  ((addf : (⟨S800000x64, .f32⟩ : BufTy).Contents (Elt F) → (⟨S800000x64, .f32⟩ : BufTy).Contents (Elt F) → (⟨S800000x64, .f32⟩ : BufTy).Contents (Elt F)) ((mulf : (⟨S800000x64, .f32⟩ : BufTy).Contents (Elt F) → (⟨S800000x64, .f32⟩ : BufTy).Contents (Elt F) → (⟨S800000x64, .f32⟩ : BufTy).Contents (Elt F)) ((mulf : (⟨S800000x64, .f32⟩ : BufTy).Contents (Elt F) → (⟨S800000x64, .f32⟩ : BufTy).Contents (Elt F) → (⟨S800000x64, .f32⟩ : BufTy).Contents (Elt F)) ((subf : (⟨S800000x64, .f32⟩ : BufTy).Contents (Elt F) → (⟨S800000x64, .f32⟩ : BufTy).Contents (Elt F) → (⟨S800000x64, .f32⟩ : BufTy).Contents (Elt F)) x47 ((broadcastInDim S800000x64 ![0, 1] bcast_S800000x1_S800000x64_0_1 : (⟨S800000x1, .f32⟩ : BufTy).Contents (Elt F) → (⟨S800000x64, .f32⟩ : BufTy).Contents (Elt F)) x51 : (⟨S800000x64, .f32⟩ : BufTy).Contents (Elt F)) : (⟨S800000x64, .f32⟩ : BufTy).Contents (Elt F)) ((broadcastInDim S800000x64 ![0, 1] bcast_S800000x1_S800000x64_0_1 : (⟨S800000x1, .f32⟩ : BufTy).Contents (Elt F) → (⟨S800000x64, .f32⟩ : BufTy).Contents (Elt F)) ((Host.rsqrt : (⟨S800000x1, .f32⟩ : BufTy).Contents (Elt F) → (⟨S800000x1, .f32⟩ : BufTy).Contents (Elt F)) ((addf : (⟨S800000x1, .f32⟩ : BufTy).Contents (Elt F) → (⟨S800000x1, .f32⟩ : BufTy).Contents (Elt F) → (⟨S800000x1, .f32⟩ : BufTy).Contents (Elt F)) x52 ((broadcastInDim S800000x1 ![] bcast_S_S800000x1 : (⟨S_, .f32⟩ : BufTy).Contents (Elt F) → (⟨S800000x1, .f32⟩ : BufTy).Contents (Elt F)) ((constant S_ .f32 0x3727C5AC#32) : (⟨S_, .f32⟩ : BufTy).Contents (Elt F)) : (⟨S800000x1, .f32⟩ : BufTy).Contents (Elt F)) : (⟨S800000x1, .f32⟩ : BufTy).Contents (Elt F)) : (⟨S800000x1, .f32⟩ : BufTy).Contents (Elt F)) : (⟨S800000x64, .f32⟩ : BufTy).Contents (Elt F)) : (⟨S800000x64, .f32⟩ : BufTy).Contents (Elt F)) ((broadcastInDim S800000x64 ![0, 1] bcast_S1x64_S800000x64_0_1 : (⟨S1x64, .f32⟩ : BufTy).Contents (Elt F) → (⟨S800000x64, .f32⟩ : BufTy).Contents (Elt F)) ((broadcastInDim S1x64 ![1] bcast_S64_S1x64_1 : (⟨S64, .f32⟩ : BufTy).Contents (Elt F) → (⟨S1x64, .f32⟩ : BufTy).Contents (Elt F)) a7 : (⟨S1x64, .f32⟩ : BufTy).Contents (Elt F)) : (⟨S800000x64, .f32⟩ : BufTy).Contents (Elt F)) : (⟨S800000x64, .f32⟩ : BufTy).Contents (Elt F)) ((broadcastInDim S800000x64 ![0, 1] bcast_S1x64_S800000x64_0_1 : (⟨S1x64, .f32⟩ : BufTy).Contents (Elt F) → (⟨S800000x64, .f32⟩ : BufTy).Contents (Elt F)) ((broadcastInDim S1x64 ![1] bcast_S64_S1x64_1 : (⟨S64, .f32⟩ : BufTy).Contents (Elt F) → (⟨S1x64, .f32⟩ : BufTy).Contents (Elt F)) a8 : (⟨S1x64, .f32⟩ : BufTy).Contents (Elt F)) : (⟨S800000x64, .f32⟩ : BufTy).Contents (Elt F)) : (⟨S800000x64, .f32⟩ : BufTy).Contents (Elt F))

theorem seg10_main_v65 (W : Valuation τ sig (Elt F)) :
    after seg10 W (main_v65 : DevRef τ sig) = e65 (W (main_v47 : DevRef τ sig)) (W (main_v51 : DevRef τ sig)) (W (main_v52 : DevRef τ sig)) (W (main_arg7 : DevRef τ sig)) (W (main_arg8 : DevRef τ sig)) := by
  unfold seg10
  after_results_simp
  rfl

/-! ## Stage 11 -/

/-- The buffers stage 11 writes. -/
def written11 : List (Ref sig .tc) := [main_cst_15, main_v66, main_v67, main_v68, main_v69, main_v70, main_v71, main_v72, main_v73]

theorem seg11_keep (W : Valuation τ sig (Elt F)) (r : Ref sig .tc) (hr : r ∉ written11) :
    after seg11 W (no_index (Proc.devRef .tc r)) = W (Proc.devRef .tc r) :=
  after_of_writes_sub seg11 W (W := written11)
    ⟨writes_sub_of_mem main_cst_15 rfl (by decide),
     writes_sub_of_mem main_v66 rfl (by decide),
     writes_sub_of_mem main_v67 rfl (by decide),
     writes_sub_of_mem main_v68 rfl (by decide),
     writes_sub_of_mem main_v69 rfl (by decide),
     writes_sub_of_mem main_v70 rfl (by decide),
     writes_sub_of_mem main_v71 rfl (by decide),
     writes_sub_of_mem main_v72 rfl (by decide),
     writes_sub_of_mem main_v73 rfl (by decide)⟩ hr

/-- What main_v73 holds after stage 11, from what the stage read. -/
def e73 (a0 : (⟨S50000x64, .f32⟩ : BufTy).Contents (Elt F)) (x5 : (⟨S800000, .i32⟩ : BufTy).Contents (Elt F)) (x65 : (⟨S800000x64, .f32⟩ : BufTy).Contents (Elt F)) (a9 : (⟨S64x64, .f32⟩ : BufTy).Contents (Elt F)) (a10 : (⟨S64, .f32⟩ : BufTy).Contents (Elt F)) :
    (⟨S50000x64, .f32⟩ : BufTy).Contents (Elt F) :=
  ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none ((addf : (⟨S50000x64, .f32⟩ : BufTy).Contents (Elt F) → (⟨S50000x64, .f32⟩ : BufTy).Contents (Elt F) → (⟨S50000x64, .f32⟩ : BufTy).Contents (Elt F)) a0 (Host.scatterAdd scatter_S50000x64_S800000x1_S800000x64_1_0_0_1 ((broadcastInDim S50000x64 ![] bcast_S_S50000x64 : (⟨S_, .f32⟩ : BufTy).Contents (Elt F) → (⟨S50000x64, .f32⟩ : BufTy).Contents (Elt F)) ((constant S_ .f32 0x00000000#32) : (⟨S_, .f32⟩ : BufTy).Contents (Elt F)) : (⟨S50000x64, .f32⟩ : BufTy).Contents (Elt F)) ((broadcastInDim S800000x1 ![0] bcast_S800000_S800000x1_0 : (⟨S800000, .i32⟩ : BufTy).Contents (Elt F) → (⟨S800000x1, .i32⟩ : BufTy).Contents (Elt F)) x5 : (⟨S800000x1, .i32⟩ : BufTy).Contents (Elt F)) x65 : (⟨S50000x64, .f32⟩ : BufTy).Contents (Elt F)) : (⟨S50000x64, .f32⟩ : BufTy).Contents (Elt F)) a9 : (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) a10 : (⟨S1x64, .f32⟩ : BufTy).Contents (Elt F)) : (⟨S50000x64, .f32⟩ : BufTy).Contents (Elt F)) : (⟨S50000x64, .f32⟩ : BufTy).Contents (Elt F))

theorem seg11_main_v73 (W : Valuation τ sig (Elt F)) :
    after seg11 W (main_v73 : DevRef τ sig) = e73 (W (main_arg0 : DevRef τ sig)) (W (main_v5 : DevRef τ sig)) (W (main_v65 : DevRef τ sig)) (W (main_arg9 : DevRef τ sig)) (W (main_arg10 : DevRef τ sig)) := by
  unfold seg11
  after_results_simp
  rfl

/-! ## Stage 12 -/

/-- The buffers stage 12 writes. -/
def written12 : List (Ref sig .tc) := [main_call5_v0, main_call5_v1, main_call5_cst, main_call5_v2, main_call5_v3, main_call5_cst_0, main_call5_v4, main_call5_v5, main_v74, main_v75, main_v76, main_v77, main_v78]

theorem seg12_keep (W : Valuation τ sig (Elt F)) (r : Ref sig .tc) (hr : r ∉ written12) :
    after seg12 W (no_index (Proc.devRef .tc r)) = W (Proc.devRef .tc r) :=
  after_of_writes_sub seg12 W (W := written12)
    ⟨writes_sub_of_mem main_call5_v0 rfl (by decide),
     writes_sub_of_mem main_call5_v1 rfl (by decide),
     writes_sub_of_mem main_call5_cst rfl (by decide),
     writes_sub_of_mem main_call5_v2 rfl (by decide),
     writes_sub_of_mem main_call5_v3 rfl (by decide),
     writes_sub_of_mem main_call5_cst_0 rfl (by decide),
     writes_sub_of_mem main_call5_v4 rfl (by decide),
     writes_sub_of_mem main_call5_v5 rfl (by decide),
     writes_sub_of_mem main_v74 rfl (by decide),
     writes_sub_of_mem main_v75 rfl (by decide),
     writes_sub_of_mem main_v76 rfl (by decide),
     writes_sub_of_mem main_v77 rfl (by decide),
     writes_sub_of_mem main_v78 rfl (by decide)⟩ hr

/-- What main_v78 holds after stage 12, from what the stage read. -/
def e78 (x73 : (⟨S50000x64, .f32⟩ : BufTy).Contents (Elt F)) (a11 : (⟨S64x64, .f32⟩ : BufTy).Contents (Elt F)) (a12 : (⟨S64, .f32⟩ : BufTy).Contents (Elt F)) :
    (⟨S50000x64, .f32⟩ : BufTy).Contents (Elt F) :=
  ((addf : (⟨S50000x64, .f32⟩ : BufTy).Contents (Elt F) → (⟨S50000x64, .f32⟩ : BufTy).Contents (Elt F) → (⟨S50000x64, .f32⟩ : BufTy).Contents (Elt F)) (Host.dotGeneral dot_S50000x64_S64x64_S50000x64_1_0_0_1_n_n none (mulf x73 (Host.divf ((broadcastInDim S50000x64 ![] bcast_S_S50000x64) ((constant S_ .f32 0x3F800000#32) : (⟨S_, .f32⟩ : BufTy).Contents (Elt F)) : (⟨S50000x64, .f32⟩ : BufTy).Contents (Elt F)) (addf ((broadcastInDim S50000x64 ![] bcast_S_S50000x64) ((constant S_ .f32 0x3F800000#32) : (⟨S_, .f32⟩ : BufTy).Contents (Elt F)) : (⟨S50000x64, .f32⟩ : BufTy).Contents (Elt F)) (Host.exp (Host.negf x73 : (⟨S50000x64, .f32⟩ : BufTy).Contents (Elt F)) : (⟨S50000x64, .f32⟩ : BufTy).Contents (Elt F)) : (⟨S50000x64, .f32⟩ : BufTy).Contents (Elt F)) : (⟨S50000x64, .f32⟩ : BufTy).Contents (Elt F)) : (⟨S50000x64, .f32⟩ : BufTy).Contents (Elt F)) a11 : (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) a12 : (⟨S1x64, .f32⟩ : BufTy).Contents (Elt F)) : (⟨S50000x64, .f32⟩ : BufTy).Contents (Elt F)) : (⟨S50000x64, .f32⟩ : BufTy).Contents (Elt F))

theorem seg12_main_v78 (W : Valuation τ sig (Elt F)) :
    after seg12 W (main_v78 : DevRef τ sig) = e78 (W (main_v73 : DevRef τ sig)) (W (main_arg11 : DevRef τ sig)) (W (main_arg12 : DevRef τ sig)) := by
  unfold seg12
  after_results_simp
  rfl

/-! ## Stage 13 -/

/-- The buffers stage 13 writes. -/
def written13 : List (Ref sig .tc) := [main_cst_16, main_v79, main_v80, main_cst_17, main_v81, main_v82]

theorem seg13_keep (W : Valuation τ sig (Elt F)) (r : Ref sig .tc) (hr : r ∉ written13) :
    after seg13 W (no_index (Proc.devRef .tc r)) = W (Proc.devRef .tc r) :=
  after_of_writes_sub seg13 W (W := written13)
    ⟨writes_sub_of_mem main_cst_16 rfl (by decide),
     writes_sub_of_mem main_v79 rfl (by decide),
     writes_sub_of_mem main_v80 rfl (by decide),
     writes_sub_of_mem main_cst_17 rfl (by decide),
     writes_sub_of_mem main_v81 rfl (by decide),
     writes_sub_of_mem main_v82 rfl (by decide)⟩ hr

/-- What main_v82 holds after stage 13, from what the stage read. -/
def e82 (x78 : (⟨S50000x64, .f32⟩ : BufTy).Contents (Elt F)) :
    (⟨S50000x1, .f32⟩ : BufTy).Contents (Elt F) :=
  ((Host.divf : (⟨S50000x1, .f32⟩ : BufTy).Contents (Elt F) → (⟨S50000x1, .f32⟩ : BufTy).Contents (Elt F) → (⟨S50000x1, .f32⟩ : BufTy).Contents (Elt F)) ((broadcastInDim S50000x1 ![0] bcast_S50000_S50000x1_0 : (⟨S50000, .f32⟩ : BufTy).Contents (Elt F) → (⟨S50000x1, .f32⟩ : BufTy).Contents (Elt F)) (Host.reduceAdd x78 ((constant S_ .f32 0x00000000#32) : (⟨S_, .f32⟩ : BufTy).Contents (Elt F)) reducesTo_S50000x64_S50000_d1 h_S_ : (⟨S50000, .f32⟩ : BufTy).Contents (Elt F)) : (⟨S50000x1, .f32⟩ : BufTy).Contents (Elt F)) ((broadcastInDim S50000x1 ![] bcast_S_S50000x1 : (⟨S_, .f32⟩ : BufTy).Contents (Elt F) → (⟨S50000x1, .f32⟩ : BufTy).Contents (Elt F)) ((constant S_ .f32 0x42800000#32) : (⟨S_, .f32⟩ : BufTy).Contents (Elt F)) : (⟨S50000x1, .f32⟩ : BufTy).Contents (Elt F)) : (⟨S50000x1, .f32⟩ : BufTy).Contents (Elt F))

theorem seg13_main_v82 (W : Valuation τ sig (Elt F)) :
    after seg13 W (main_v82 : DevRef τ sig) = e82 (W (main_v78 : DevRef τ sig)) := by
  unfold seg13
  after_results_simp
  rfl

/-! ## Stage 14 -/

/-- The buffers stage 14 writes. -/
def written14 : List (Ref sig .tc) := [main_c_18, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v83]

theorem seg14_keep (W : Valuation τ sig (Elt F)) (r : Ref sig .tc) (hr : r ∉ written14) :
    after seg14 W (no_index (Proc.devRef .tc r)) = W (Proc.devRef .tc r) :=
  after_of_writes_sub seg14 W (W := written14)
    ⟨writes_sub_of_mem main_c_18 rfl (by decide),
     writes_sub_of_mem main_call6_cst rfl (by decide),
     writes_sub_of_mem main_call6_v0 rfl (by decide),
     writes_sub_of_mem main_call6_v1 rfl (by decide),
     writes_sub_of_mem main_call6_cst_0 rfl (by decide),
     writes_sub_of_mem main_call6_v2 rfl (by decide),
     writes_sub_of_mem main_call6_v3 rfl (by decide),
     writes_sub_of_mem main_call6_v4 rfl (by decide),
     writes_sub_of_mem main_call6_v5 rfl (by decide),
     writes_sub_of_mem main_call6_v6 rfl (by decide),
     writes_sub_of_mem main_call6_v7 rfl (by decide),
     writes_sub_of_mem main_call6_cst_1 rfl (by decide),
     writes_sub_of_mem main_call6_v8 rfl (by decide),
     writes_sub_of_mem main_call6_cst_2 rfl (by decide),
     writes_sub_of_mem main_call6_v9 rfl (by decide),
     writes_sub_of_mem main_call6_v10 rfl (by decide),
     writes_sub_of_mem main_call6_v11 rfl (by decide),
     writes_sub_of_mem main_call6_v12 rfl (by decide),
     writes_sub_of_mem main_call6_cst_3 rfl (by decide),
     writes_sub_of_mem main_call6_v13 rfl (by decide),
     writes_sub_of_mem main_call6_cst_4 rfl (by decide),
     writes_sub_of_mem main_call6_call0_v0 rfl (by decide),
     writes_sub_of_mem main_call6_call0_v1 rfl (by decide),
     writes_sub_of_mem main_v83 rfl (by decide)⟩ hr

/-- What main_v83 holds after stage 14, from what the stage read. -/
def e83 (x78 : (⟨S50000x64, .f32⟩ : BufTy).Contents (Elt F)) :
    (⟨S50000x1, .f32⟩ : BufTy).Contents (Elt F) :=
  (select (broadcastInDim S50000x1 ![] bcast_S_S50000x1 ((cmpf .ogt) (subf ((constant S_ .f32 0x42800000#32) : (⟨S_, .f32⟩ : BufTy).Contents (Elt F)) ((sitofp .f32) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F))) (Host.divf ((broadcastInDim S50000x1 ![0] bcast_S50000_S50000x1_0) (Host.reduceAdd (mulf (subf x78 ((broadcastInDim S50000x64 ![0, 1] bcast_S50000x1_S50000x64_0_1) (Host.divf ((broadcastInDim S50000x1 ![0] bcast_S50000_S50000x1_0) (Host.reduceAdd x78 ((constant S_ .f32 0x00000000#32) : (⟨S_, .f32⟩ : BufTy).Contents (Elt F)) reducesTo_S50000x64_S50000_d1 h_S_ : (⟨S50000, .f32⟩ : BufTy).Contents (Elt F)) : (⟨S50000x1, .f32⟩ : BufTy).Contents (Elt F)) ((broadcastInDim S50000x1 ![] bcast_S_S50000x1) ((constant S_ .f32 0x42800000#32) : (⟨S_, .f32⟩ : BufTy).Contents (Elt F)) : (⟨S50000x1, .f32⟩ : BufTy).Contents (Elt F)) : (⟨S50000x1, .f32⟩ : BufTy).Contents (Elt F)) : (⟨S50000x64, .f32⟩ : BufTy).Contents (Elt F)) : (⟨S50000x64, .f32⟩ : BufTy).Contents (Elt F)) (subf x78 ((broadcastInDim S50000x64 ![0, 1] bcast_S50000x1_S50000x64_0_1) (Host.divf ((broadcastInDim S50000x1 ![0] bcast_S50000_S50000x1_0) (Host.reduceAdd x78 ((constant S_ .f32 0x00000000#32) : (⟨S_, .f32⟩ : BufTy).Contents (Elt F)) reducesTo_S50000x64_S50000_d1 h_S_ : (⟨S50000, .f32⟩ : BufTy).Contents (Elt F)) : (⟨S50000x1, .f32⟩ : BufTy).Contents (Elt F)) ((broadcastInDim S50000x1 ![] bcast_S_S50000x1) ((constant S_ .f32 0x42800000#32) : (⟨S_, .f32⟩ : BufTy).Contents (Elt F)) : (⟨S50000x1, .f32⟩ : BufTy).Contents (Elt F)) : (⟨S50000x1, .f32⟩ : BufTy).Contents (Elt F)) : (⟨S50000x64, .f32⟩ : BufTy).Contents (Elt F)) : (⟨S50000x64, .f32⟩ : BufTy).Contents (Elt F)) : (⟨S50000x64, .f32⟩ : BufTy).Contents (Elt F)) ((constant S_ .f32 0x00000000#32) : (⟨S_, .f32⟩ : BufTy).Contents (Elt F)) reducesTo_S50000x64_S50000_d1 h_S_ : (⟨S50000, .f32⟩ : BufTy).Contents (Elt F)) : (⟨S50000x1, .f32⟩ : BufTy).Contents (Elt F)) ((broadcastInDim S50000x1 ![] bcast_S_S50000x1) (subf ((constant S_ .f32 0x42800000#32) : (⟨S_, .f32⟩ : BufTy).Contents (Elt F)) ((sitofp .f32) ((constantI S_ 32 0#32) : (⟨S_, .i32⟩ : BufTy).Contents (Elt F)) : (⟨S_, .f32⟩ : BufTy).Contents (Elt F)) : (⟨S_, .f32⟩ : BufTy).Contents (Elt F)) : (⟨S50000x1, .f32⟩ : BufTy).Contents (Elt F)) : (⟨S50000x1, .f32⟩ : BufTy).Contents (Elt F)) ((broadcastInDim S50000x1 ![] bcast_S_S50000x1) ((constant S_ .f32 0x7FC00000#32) : (⟨S_, .f32⟩ : BufTy).Contents (Elt F)) : (⟨S50000x1, .f32⟩ : BufTy).Contents (Elt F)) : (⟨S50000x1, .f32⟩ : BufTy).Contents (Elt F))

theorem seg14_main_v83 (W : Valuation τ sig (Elt F)) :
    after seg14 W (main_v83 : DevRef τ sig) = e83 (W (main_v78 : DevRef τ sig)) := by
  unfold seg14
  after_results_simp
  rfl

/-! ## Stage 15 -/

/-- The buffers stage 15 writes. -/
def written15 : List (Ref sig .tc) := [main_v84, main_v85, main_cst_19, main_v86, main_v87, main_v88, main_v89, main_v90, main_v91, main_v92, main_v93, main_v94, main_v95, main_v96]

theorem seg15_keep (W : Valuation τ sig (Elt F)) (r : Ref sig .tc) (hr : r ∉ written15) :
    after seg15 W (no_index (Proc.devRef .tc r)) = W (Proc.devRef .tc r) :=
  after_of_writes_sub seg15 W (W := written15)
    ⟨writes_sub_of_mem main_v84 rfl (by decide),
     writes_sub_of_mem main_v85 rfl (by decide),
     writes_sub_of_mem main_cst_19 rfl (by decide),
     writes_sub_of_mem main_v86 rfl (by decide),
     writes_sub_of_mem main_v87 rfl (by decide),
     writes_sub_of_mem main_v88 rfl (by decide),
     writes_sub_of_mem main_v89 rfl (by decide),
     writes_sub_of_mem main_v90 rfl (by decide),
     writes_sub_of_mem main_v91 rfl (by decide),
     writes_sub_of_mem main_v92 rfl (by decide),
     writes_sub_of_mem main_v93 rfl (by decide),
     writes_sub_of_mem main_v94 rfl (by decide),
     writes_sub_of_mem main_v95 rfl (by decide),
     writes_sub_of_mem main_v96 rfl (by decide)⟩ hr

/-- What main_v96 holds after stage 15, from what the stage read. -/
def e96 (x78 : (⟨S50000x64, .f32⟩ : BufTy).Contents (Elt F)) (x82 : (⟨S50000x1, .f32⟩ : BufTy).Contents (Elt F)) (x83 : (⟨S50000x1, .f32⟩ : BufTy).Contents (Elt F)) (a13 : (⟨S64, .f32⟩ : BufTy).Contents (Elt F)) (a14 : (⟨S64, .f32⟩ : BufTy).Contents (Elt F)) :
    (⟨S50000x64, .f32⟩ : BufTy).Contents (Elt F) :=
  ((addf : (⟨S50000x64, .f32⟩ : BufTy).Contents (Elt F) → (⟨S50000x64, .f32⟩ : BufTy).Contents (Elt F) → (⟨S50000x64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((subf : (⟨S50000x64, .f32⟩ : BufTy).Contents (Elt F) → (⟨S50000x64, .f32⟩ : BufTy).Contents (Elt F) → (⟨S50000x64, .f32⟩ : BufTy).Contents (Elt F)) x78 ((broadcastInDim S50000x64 ![0, 1] bcast_S50000x1_S50000x64_0_1 : (⟨S50000x1, .f32⟩ : BufTy).Contents (Elt F) → (⟨S50000x64, .f32⟩ : BufTy).Contents (Elt F)) x82 : (⟨S50000x64, .f32⟩ : BufTy).Contents (Elt F)) : (⟨S50000x64, .f32⟩ : BufTy).Contents (Elt F)) ((broadcastInDim S50000x64 ![0, 1] bcast_S50000x1_S50000x64_0_1 : (⟨S50000x1, .f32⟩ : BufTy).Contents (Elt F) → (⟨S50000x64, .f32⟩ : BufTy).Contents (Elt F)) ((Host.rsqrt : (⟨S50000x1, .f32⟩ : BufTy).Contents (Elt F) → (⟨S50000x1, .f32⟩ : BufTy).Contents (Elt F)) ((addf : (⟨S50000x1, .f32⟩ : BufTy).Contents (Elt F) → (⟨S50000x1, .f32⟩ : BufTy).Contents (Elt F) → (⟨S50000x1, .f32⟩ : BufTy).Contents (Elt F)) x83 ((broadcastInDim S50000x1 ![] bcast_S_S50000x1 : (⟨S_, .f32⟩ : BufTy).Contents (Elt F) → (⟨S50000x1, .f32⟩ : BufTy).Contents (Elt F)) ((constant S_ .f32 0x3727C5AC#32) : (⟨S_, .f32⟩ : BufTy).Contents (Elt F)) : (⟨S50000x1, .f32⟩ : BufTy).Contents (Elt F)) : (⟨S50000x1, .f32⟩ : BufTy).Contents (Elt F)) : (⟨S50000x1, .f32⟩ : BufTy).Contents (Elt F)) : (⟨S50000x64, .f32⟩ : BufTy).Contents (Elt F)) : (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) a13 : (⟨S1x64, .f32⟩ : BufTy).Contents (Elt F)) : (⟨S50000x64, .f32⟩ : BufTy).Contents (Elt F)) : (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) a14 : (⟨S1x64, .f32⟩ : BufTy).Contents (Elt F)) : (⟨S50000x64, .f32⟩ : BufTy).Contents (Elt F)) : (⟨S50000x64, .f32⟩ : BufTy).Contents (Elt F))

theorem seg15_main_v96 (W : Valuation τ sig (Elt F)) :
    after seg15 W (main_v96 : DevRef τ sig) = e96 (W (main_v78 : DevRef τ sig)) (W (main_v82 : DevRef τ sig)) (W (main_v83 : DevRef τ sig)) (W (main_arg13 : DevRef τ sig)) (W (main_arg14 : DevRef τ sig)) := by
  unfold seg15
  after_results_simp
  rfl

/-! ## Stage 16 -/

/-- The buffers stage 16 writes. -/
def written16 : List (Ref sig .tc) := [main_v97]

theorem seg16_keep (W : Valuation τ sig (Elt F)) (r : Ref sig .tc) (hr : r ∉ written16) :
    after seg16 W (no_index (Proc.devRef .tc r)) = W (Proc.devRef .tc r) :=
  after_of_writes_sub seg16 W (W := written16)
    (writes_sub_of_mem main_v97 rfl (by decide)) hr

/-- What main_v97 holds after stage 16, from what the stage read. -/
def e97 (x65 : (⟨S800000x64, .f32⟩ : BufTy).Contents (Elt F)) (a15 : (⟨S64x64, .f32⟩ : BufTy).Contents (Elt F)) :
    (⟨S800000x64, .f32⟩ : BufTy).Contents (Elt F) :=
  (Host.dotGeneral dot_S800000x64_S64x64_S800000x64_1_0_0_1_n_n none x65 a15 : (⟨S800000x64, .f32⟩ : BufTy).Contents (Elt F))

theorem seg16_main_v97 (W : Valuation τ sig (Elt F)) :
    after seg16 W (main_v97 : DevRef τ sig) = e97 (W (main_v65 : DevRef τ sig)) (W (main_arg15 : DevRef τ sig)) := by
  unfold seg16
  after_results_simp
  rfl

/-! ## Stage 17 -/

/-- The buffers stage 17 writes. -/
def written17 : List (Ref sig .tc) := [main_v98, main_v99, main_v100, main_call7_v0, main_call7_v1, main_call7_cst, main_call7_v2, main_call7_v3, main_call7_cst_0, main_call7_v4, main_call7_v5, main_v101, main_v102, main_v103, main_v104, main_v105, main_v106]

theorem seg17_keep (W : Valuation τ sig (Elt F)) (r : Ref sig .tc) (hr : r ∉ written17) :
    after seg17 W (no_index (Proc.devRef .tc r)) = W (Proc.devRef .tc r) :=
  after_of_writes_sub seg17 W (W := written17)
    ⟨writes_sub_of_mem main_v98 rfl (by decide),
     writes_sub_of_mem main_v99 rfl (by decide),
     writes_sub_of_mem main_v100 rfl (by decide),
     writes_sub_of_mem main_call7_v0 rfl (by decide),
     writes_sub_of_mem main_call7_v1 rfl (by decide),
     writes_sub_of_mem main_call7_cst rfl (by decide),
     writes_sub_of_mem main_call7_v2 rfl (by decide),
     writes_sub_of_mem main_call7_v3 rfl (by decide),
     writes_sub_of_mem main_call7_cst_0 rfl (by decide),
     writes_sub_of_mem main_call7_v4 rfl (by decide),
     writes_sub_of_mem main_call7_v5 rfl (by decide),
     writes_sub_of_mem main_v101 rfl (by decide),
     writes_sub_of_mem main_v102 rfl (by decide),
     writes_sub_of_mem main_v103 rfl (by decide),
     writes_sub_of_mem main_v104 rfl (by decide),
     writes_sub_of_mem main_v105 rfl (by decide),
     writes_sub_of_mem main_v106 rfl (by decide)⟩ hr

/-- What main_v106 holds after stage 17, from what the stage read. -/
def e106 (x97 : (⟨S800000x64, .f32⟩ : BufTy).Contents (Elt F)) (a16 : (⟨S64, .f32⟩ : BufTy).Contents (Elt F)) (a17 : (⟨S64x1, .f32⟩ : BufTy).Contents (Elt F)) (a18 : (⟨S1, .f32⟩ : BufTy).Contents (Elt F)) :
    (⟨S800000x1, .f32⟩ : BufTy).Contents (Elt F) :=
  ((Host.tanh : (⟨S800000x1, .f32⟩ : BufTy).Contents (Elt F) → (⟨S800000x1, .f32⟩ : BufTy).Contents (Elt F)) ((addf : (⟨S800000x1, .f32⟩ : BufTy).Contents (Elt F) → (⟨S800000x1, .f32⟩ : BufTy).Contents (Elt F) → (⟨S800000x1, .f32⟩ : BufTy).Contents (Elt F)) (Host.dotGeneral dot_S800000x64_S64x1_S800000x1_1_0_0_1_n_n none (mulf ((addf : (⟨S800000x64, .f32⟩ : BufTy).Contents (Elt F) → (⟨S800000x64, .f32⟩ : BufTy).Contents (Elt F) → (⟨S800000x64, .f32⟩ : BufTy).Contents (Elt F)) x97 ((broadcastInDim S800000x64 ![0, 1] bcast_S1x64_S800000x64_0_1 : (⟨S1x64, .f32⟩ : BufTy).Contents (Elt F) → (⟨S800000x64, .f32⟩ : BufTy).Contents (Elt F)) ((broadcastInDim S1x64 ![1] bcast_S64_S1x64_1 : (⟨S64, .f32⟩ : BufTy).Contents (Elt F) → (⟨S1x64, .f32⟩ : BufTy).Contents (Elt F)) a16 : (⟨S1x64, .f32⟩ : BufTy).Contents (Elt F)) : (⟨S800000x64, .f32⟩ : BufTy).Contents (Elt F)) : (⟨S800000x64, .f32⟩ : BufTy).Contents (Elt F)) (Host.divf ((broadcastInDim S800000x64 ![] bcast_S_S800000x64) ((constant S_ .f32 0x3F800000#32) : (⟨S_, .f32⟩ : BufTy).Contents (Elt F)) : (⟨S800000x64, .f32⟩ : BufTy).Contents (Elt F)) (addf ((broadcastInDim S800000x64 ![] bcast_S_S800000x64) ((constant S_ .f32 0x3F800000#32) : (⟨S_, .f32⟩ : BufTy).Contents (Elt F)) : (⟨S800000x64, .f32⟩ : BufTy).Contents (Elt F)) (Host.exp (Host.negf ((addf : (⟨S800000x64, .f32⟩ : BufTy).Contents (Elt F) → (⟨S800000x64, .f32⟩ : BufTy).Contents (Elt F) → (⟨S800000x64, .f32⟩ : BufTy).Contents (Elt F)) x97 ((broadcastInDim S800000x64 ![0, 1] bcast_S1x64_S800000x64_0_1 : (⟨S1x64, .f32⟩ : BufTy).Contents (Elt F) → (⟨S800000x64, .f32⟩ : BufTy).Contents (Elt F)) ((broadcastInDim S1x64 ![1] bcast_S64_S1x64_1 : (⟨S64, .f32⟩ : BufTy).Contents (Elt F) → (⟨S1x64, .f32⟩ : BufTy).Contents (Elt F)) a16 : (⟨S1x64, .f32⟩ : BufTy).Contents (Elt F)) : (⟨S800000x64, .f32⟩ : BufTy).Contents (Elt F)) : (⟨S800000x64, .f32⟩ : BufTy).Contents (Elt F)) : (⟨S800000x64, .f32⟩ : BufTy).Contents (Elt F)) : (⟨S800000x64, .f32⟩ : BufTy).Contents (Elt F)) : (⟨S800000x64, .f32⟩ : BufTy).Contents (Elt F)) : (⟨S800000x64, .f32⟩ : BufTy).Contents (Elt F)) : (⟨S800000x64, .f32⟩ : BufTy).Contents (Elt F)) a17 : (⟨S800000x1, .f32⟩ : BufTy).Contents (Elt F)) ((broadcastInDim S800000x1 ![0, 1] bcast_S1x1_S800000x1_0_1 : (⟨S1x1, .f32⟩ : BufTy).Contents (Elt F) → (⟨S800000x1, .f32⟩ : BufTy).Contents (Elt F)) ((broadcastInDim S1x1 ![1] bcast_S1_S1x1_1 : (⟨S1, .f32⟩ : BufTy).Contents (Elt F) → (⟨S1x1, .f32⟩ : BufTy).Contents (Elt F)) a18 : (⟨S1x1, .f32⟩ : BufTy).Contents (Elt F)) : (⟨S800000x1, .f32⟩ : BufTy).Contents (Elt F)) : (⟨S800000x1, .f32⟩ : BufTy).Contents (Elt F)) : (⟨S800000x1, .f32⟩ : BufTy).Contents (Elt F))

theorem seg17_main_v106 (W : Valuation τ sig (Elt F)) :
    after seg17 W (main_v106 : DevRef τ sig) = e106 (W (main_v97 : DevRef τ sig)) (W (main_arg16 : DevRef τ sig)) (W (main_arg17 : DevRef τ sig)) (W (main_arg18 : DevRef τ sig)) := by
  unfold seg17
  after_results_simp
  rfl

/-! ## Stage 18 -/

/-- The buffers stage 18 writes. -/
def written18 : List (Ref sig .tc) := [main_v107, main_v108, main_cst_20, main_v109, main_v110, main_v111]

theorem seg18_keep (W : Valuation τ sig (Elt F)) (r : Ref sig .tc) (hr : r ∉ written18) :
    after seg18 W (no_index (Proc.devRef .tc r)) = W (Proc.devRef .tc r) :=
  after_of_writes_sub seg18 W (W := written18)
    ⟨writes_sub_of_mem main_v107 rfl (by decide),
     writes_sub_of_mem main_v108 rfl (by decide),
     writes_sub_of_mem main_cst_20 rfl (by decide),
     writes_sub_of_mem main_v109 rfl (by decide),
     writes_sub_of_mem main_v110 rfl (by decide),
     writes_sub_of_mem main_v111 rfl (by decide)⟩ hr

/-- What main_v111 holds after stage 18, from what the stage read. -/
def e111 (x5 : (⟨S800000, .i32⟩ : BufTy).Contents (Elt F)) (x20 : (⟨S800000x3, .f32⟩ : BufTy).Contents (Elt F)) (x106 : (⟨S800000x1, .f32⟩ : BufTy).Contents (Elt F)) :
    (⟨S50000x3, .f32⟩ : BufTy).Contents (Elt F) :=
  (Host.scatterAdd scatter_S50000x3_S800000x1_S800000x3_1_0_0_1 ((broadcastInDim S50000x3 ![] bcast_S_S50000x3 : (⟨S_, .f32⟩ : BufTy).Contents (Elt F) → (⟨S50000x3, .f32⟩ : BufTy).Contents (Elt F)) ((constant S_ .f32 0x00000000#32) : (⟨S_, .f32⟩ : BufTy).Contents (Elt F)) : (⟨S50000x3, .f32⟩ : BufTy).Contents (Elt F)) ((broadcastInDim S800000x1 ![0] bcast_S800000_S800000x1_0 : (⟨S800000, .i32⟩ : BufTy).Contents (Elt F) → (⟨S800000x1, .i32⟩ : BufTy).Contents (Elt F)) x5 : (⟨S800000x1, .i32⟩ : BufTy).Contents (Elt F)) ((mulf : (⟨S800000x3, .f32⟩ : BufTy).Contents (Elt F) → (⟨S800000x3, .f32⟩ : BufTy).Contents (Elt F) → (⟨S800000x3, .f32⟩ : BufTy).Contents (Elt F)) x20 ((broadcastInDim S800000x3 ![0, 1] bcast_S800000x1_S800000x3_0_1 : (⟨S800000x1, .f32⟩ : BufTy).Contents (Elt F) → (⟨S800000x3, .f32⟩ : BufTy).Contents (Elt F)) x106 : (⟨S800000x3, .f32⟩ : BufTy).Contents (Elt F)) : (⟨S800000x3, .f32⟩ : BufTy).Contents (Elt F)) : (⟨S50000x3, .f32⟩ : BufTy).Contents (Elt F))

theorem seg18_main_v111 (W : Valuation τ sig (Elt F)) :
    after seg18 W (main_v111 : DevRef τ sig) = e111 (W (main_v5 : DevRef τ sig)) (W (main_v20 : DevRef τ sig)) (W (main_v106 : DevRef τ sig)) := by
  unfold seg18
  after_results_simp
  rfl

end Cert.ReferenceIdeal.RefValue

end
-- ==== Proof.RefChain.lean ====
/-
  The stages chained: what the two result buffers hold once the whole program has run, as a tower of the stages' functions
  over the arguments' launch contents, and that the program leaves the arguments as they were.
-/
import proofs.«138794_j50809463111709_2_alg».proof.Proof.RefSegs

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- What main_v2 holds after the program, from the arguments. -/
def R2 (a2 : (⟨S2x800000, .i32⟩ : BufTy).Contents (Elt F)) :
    (⟨S800000, .i32⟩ : BufTy).Contents (Elt F) :=
  e2 a2

/-- What main_v5 holds after the program, from the arguments. -/
def R5 (a2 : (⟨S2x800000, .i32⟩ : BufTy).Contents (Elt F)) :
    (⟨S800000, .i32⟩ : BufTy).Contents (Elt F) :=
  e5 a2

/-- What main_v20 holds after the program, from the arguments. -/
def R20 (a1 : (⟨S50000x3, .f32⟩ : BufTy).Contents (Elt F)) (a2 : (⟨S2x800000, .i32⟩ : BufTy).Contents (Elt F)) :
    (⟨S800000x3, .f32⟩ : BufTy).Contents (Elt F) :=
  e20 a1 (R2 a2) (R5 a2)

/-- What main_v23 holds after the program, from the arguments. -/
def R23 (a1 : (⟨S50000x3, .f32⟩ : BufTy).Contents (Elt F)) (a2 : (⟨S2x800000, .i32⟩ : BufTy).Contents (Elt F)) :
    (⟨S800000x1, .f32⟩ : BufTy).Contents (Elt F) :=
  e23 (R20 a1 a2)

/-- What main_v30 holds after the program, from the arguments. -/
def R30 (a0 : (⟨S50000x64, .f32⟩ : BufTy).Contents (Elt F)) (a2 : (⟨S2x800000, .i32⟩ : BufTy).Contents (Elt F)) :
    (⟨S800000x64, .f32⟩ : BufTy).Contents (Elt F) :=
  e30 a0 (R2 a2)

/-- What main_v37 holds after the program, from the arguments. -/
def R37 (a0 : (⟨S50000x64, .f32⟩ : BufTy).Contents (Elt F)) (a2 : (⟨S2x800000, .i32⟩ : BufTy).Contents (Elt F)) :
    (⟨S800000x64, .f32⟩ : BufTy).Contents (Elt F) :=
  e37 a0 (R5 a2)

/-- What main_v43 holds after the program, from the arguments. -/
def R43 (a0 : (⟨S50000x64, .f32⟩ : BufTy).Contents (Elt F)) (a1 : (⟨S50000x3, .f32⟩ : BufTy).Contents (Elt F)) (a2 : (⟨S2x800000, .i32⟩ : BufTy).Contents (Elt F)) (a3 : (⟨S129x64, .f32⟩ : BufTy).Contents (Elt F)) (a4 : (⟨S64, .f32⟩ : BufTy).Contents (Elt F)) :
    (⟨S800000x64, .f32⟩ : BufTy).Contents (Elt F) :=
  e43 (R30 a0 a2) (R37 a0 a2) (R23 a1 a2) a3 a4

/-- What main_v44 holds after the program, from the arguments. -/
def R44 (a0 : (⟨S50000x64, .f32⟩ : BufTy).Contents (Elt F)) (a1 : (⟨S50000x3, .f32⟩ : BufTy).Contents (Elt F)) (a2 : (⟨S2x800000, .i32⟩ : BufTy).Contents (Elt F)) (a3 : (⟨S129x64, .f32⟩ : BufTy).Contents (Elt F)) (a4 : (⟨S64, .f32⟩ : BufTy).Contents (Elt F)) (a5 : (⟨S64x64, .f32⟩ : BufTy).Contents (Elt F)) :
    (⟨S800000x64, .f32⟩ : BufTy).Contents (Elt F) :=
  e44 (R43 a0 a1 a2 a3 a4) a5

/-- What main_v46 holds after the program, from the arguments. -/
def R46 (a6 : (⟨S64, .f32⟩ : BufTy).Contents (Elt F)) :
    (⟨S800000x64, .f32⟩ : BufTy).Contents (Elt F) :=
  e46 a6

/-- What main_v47 holds after the program, from the arguments. -/
def R47 (a0 : (⟨S50000x64, .f32⟩ : BufTy).Contents (Elt F)) (a1 : (⟨S50000x3, .f32⟩ : BufTy).Contents (Elt F)) (a2 : (⟨S2x800000, .i32⟩ : BufTy).Contents (Elt F)) (a3 : (⟨S129x64, .f32⟩ : BufTy).Contents (Elt F)) (a4 : (⟨S64, .f32⟩ : BufTy).Contents (Elt F)) (a5 : (⟨S64x64, .f32⟩ : BufTy).Contents (Elt F)) (a6 : (⟨S64, .f32⟩ : BufTy).Contents (Elt F)) :
    (⟨S800000x64, .f32⟩ : BufTy).Contents (Elt F) :=
  e47 (R44 a0 a1 a2 a3 a4 a5) (R46 a6)

/-- What main_v51 holds after the program, from the arguments. -/
def R51 (a0 : (⟨S50000x64, .f32⟩ : BufTy).Contents (Elt F)) (a1 : (⟨S50000x3, .f32⟩ : BufTy).Contents (Elt F)) (a2 : (⟨S2x800000, .i32⟩ : BufTy).Contents (Elt F)) (a3 : (⟨S129x64, .f32⟩ : BufTy).Contents (Elt F)) (a4 : (⟨S64, .f32⟩ : BufTy).Contents (Elt F)) (a5 : (⟨S64x64, .f32⟩ : BufTy).Contents (Elt F)) (a6 : (⟨S64, .f32⟩ : BufTy).Contents (Elt F)) :
    (⟨S800000x1, .f32⟩ : BufTy).Contents (Elt F) :=
  e51 (R47 a0 a1 a2 a3 a4 a5 a6)

/-- What main_v52 holds after the program, from the arguments. -/
def R52 (a0 : (⟨S50000x64, .f32⟩ : BufTy).Contents (Elt F)) (a1 : (⟨S50000x3, .f32⟩ : BufTy).Contents (Elt F)) (a2 : (⟨S2x800000, .i32⟩ : BufTy).Contents (Elt F)) (a3 : (⟨S129x64, .f32⟩ : BufTy).Contents (Elt F)) (a4 : (⟨S64, .f32⟩ : BufTy).Contents (Elt F)) (a5 : (⟨S64x64, .f32⟩ : BufTy).Contents (Elt F)) (a6 : (⟨S64, .f32⟩ : BufTy).Contents (Elt F)) :
    (⟨S800000x1, .f32⟩ : BufTy).Contents (Elt F) :=
  e52 (R47 a0 a1 a2 a3 a4 a5 a6)

/-- What main_v65 holds after the program, from the arguments. -/
def R65 (a0 : (⟨S50000x64, .f32⟩ : BufTy).Contents (Elt F)) (a1 : (⟨S50000x3, .f32⟩ : BufTy).Contents (Elt F)) (a2 : (⟨S2x800000, .i32⟩ : BufTy).Contents (Elt F)) (a3 : (⟨S129x64, .f32⟩ : BufTy).Contents (Elt F)) (a4 : (⟨S64, .f32⟩ : BufTy).Contents (Elt F)) (a5 : (⟨S64x64, .f32⟩ : BufTy).Contents (Elt F)) (a6 : (⟨S64, .f32⟩ : BufTy).Contents (Elt F)) (a7 : (⟨S64, .f32⟩ : BufTy).Contents (Elt F)) (a8 : (⟨S64, .f32⟩ : BufTy).Contents (Elt F)) :
    (⟨S800000x64, .f32⟩ : BufTy).Contents (Elt F) :=
  e65 (R47 a0 a1 a2 a3 a4 a5 a6) (R51 a0 a1 a2 a3 a4 a5 a6) (R52 a0 a1 a2 a3 a4 a5 a6) a7 a8

/-- What main_v73 holds after the program, from the arguments. -/
def R73 (a0 : (⟨S50000x64, .f32⟩ : BufTy).Contents (Elt F)) (a1 : (⟨S50000x3, .f32⟩ : BufTy).Contents (Elt F)) (a2 : (⟨S2x800000, .i32⟩ : BufTy).Contents (Elt F)) (a3 : (⟨S129x64, .f32⟩ : BufTy).Contents (Elt F)) (a4 : (⟨S64, .f32⟩ : BufTy).Contents (Elt F)) (a5 : (⟨S64x64, .f32⟩ : BufTy).Contents (Elt F)) (a6 : (⟨S64, .f32⟩ : BufTy).Contents (Elt F)) (a7 : (⟨S64, .f32⟩ : BufTy).Contents (Elt F)) (a8 : (⟨S64, .f32⟩ : BufTy).Contents (Elt F)) (a9 : (⟨S64x64, .f32⟩ : BufTy).Contents (Elt F)) (a10 : (⟨S64, .f32⟩ : BufTy).Contents (Elt F)) :
    (⟨S50000x64, .f32⟩ : BufTy).Contents (Elt F) :=
  e73 a0 (R5 a2) (R65 a0 a1 a2 a3 a4 a5 a6 a7 a8) a9 a10

/-- What main_v78 holds after the program, from the arguments. -/
def R78 (a0 : (⟨S50000x64, .f32⟩ : BufTy).Contents (Elt F)) (a1 : (⟨S50000x3, .f32⟩ : BufTy).Contents (Elt F)) (a2 : (⟨S2x800000, .i32⟩ : BufTy).Contents (Elt F)) (a3 : (⟨S129x64, .f32⟩ : BufTy).Contents (Elt F)) (a4 : (⟨S64, .f32⟩ : BufTy).Contents (Elt F)) (a5 : (⟨S64x64, .f32⟩ : BufTy).Contents (Elt F)) (a6 : (⟨S64, .f32⟩ : BufTy).Contents (Elt F)) (a7 : (⟨S64, .f32⟩ : BufTy).Contents (Elt F)) (a8 : (⟨S64, .f32⟩ : BufTy).Contents (Elt F)) (a9 : (⟨S64x64, .f32⟩ : BufTy).Contents (Elt F)) (a10 : (⟨S64, .f32⟩ : BufTy).Contents (Elt F)) (a11 : (⟨S64x64, .f32⟩ : BufTy).Contents (Elt F)) (a12 : (⟨S64, .f32⟩ : BufTy).Contents (Elt F)) :
    (⟨S50000x64, .f32⟩ : BufTy).Contents (Elt F) :=
  e78 (R73 a0 a1 a2 a3 a4 a5 a6 a7 a8 a9 a10) a11 a12

/-- What main_v82 holds after the program, from the arguments. -/
def R82 (a0 : (⟨S50000x64, .f32⟩ : BufTy).Contents (Elt F)) (a1 : (⟨S50000x3, .f32⟩ : BufTy).Contents (Elt F)) (a2 : (⟨S2x800000, .i32⟩ : BufTy).Contents (Elt F)) (a3 : (⟨S129x64, .f32⟩ : BufTy).Contents (Elt F)) (a4 : (⟨S64, .f32⟩ : BufTy).Contents (Elt F)) (a5 : (⟨S64x64, .f32⟩ : BufTy).Contents (Elt F)) (a6 : (⟨S64, .f32⟩ : BufTy).Contents (Elt F)) (a7 : (⟨S64, .f32⟩ : BufTy).Contents (Elt F)) (a8 : (⟨S64, .f32⟩ : BufTy).Contents (Elt F)) (a9 : (⟨S64x64, .f32⟩ : BufTy).Contents (Elt F)) (a10 : (⟨S64, .f32⟩ : BufTy).Contents (Elt F)) (a11 : (⟨S64x64, .f32⟩ : BufTy).Contents (Elt F)) (a12 : (⟨S64, .f32⟩ : BufTy).Contents (Elt F)) :
    (⟨S50000x1, .f32⟩ : BufTy).Contents (Elt F) :=
  e82 (R78 a0 a1 a2 a3 a4 a5 a6 a7 a8 a9 a10 a11 a12)

/-- What main_v83 holds after the program, from the arguments. -/
def R83 (a0 : (⟨S50000x64, .f32⟩ : BufTy).Contents (Elt F)) (a1 : (⟨S50000x3, .f32⟩ : BufTy).Contents (Elt F)) (a2 : (⟨S2x800000, .i32⟩ : BufTy).Contents (Elt F)) (a3 : (⟨S129x64, .f32⟩ : BufTy).Contents (Elt F)) (a4 : (⟨S64, .f32⟩ : BufTy).Contents (Elt F)) (a5 : (⟨S64x64, .f32⟩ : BufTy).Contents (Elt F)) (a6 : (⟨S64, .f32⟩ : BufTy).Contents (Elt F)) (a7 : (⟨S64, .f32⟩ : BufTy).Contents (Elt F)) (a8 : (⟨S64, .f32⟩ : BufTy).Contents (Elt F)) (a9 : (⟨S64x64, .f32⟩ : BufTy).Contents (Elt F)) (a10 : (⟨S64, .f32⟩ : BufTy).Contents (Elt F)) (a11 : (⟨S64x64, .f32⟩ : BufTy).Contents (Elt F)) (a12 : (⟨S64, .f32⟩ : BufTy).Contents (Elt F)) :
    (⟨S50000x1, .f32⟩ : BufTy).Contents (Elt F) :=
  e83 (R78 a0 a1 a2 a3 a4 a5 a6 a7 a8 a9 a10 a11 a12)

/-- What main_v96 holds after the program, from the arguments. -/
def R96 (a0 : (⟨S50000x64, .f32⟩ : BufTy).Contents (Elt F)) (a1 : (⟨S50000x3, .f32⟩ : BufTy).Contents (Elt F)) (a2 : (⟨S2x800000, .i32⟩ : BufTy).Contents (Elt F)) (a3 : (⟨S129x64, .f32⟩ : BufTy).Contents (Elt F)) (a4 : (⟨S64, .f32⟩ : BufTy).Contents (Elt F)) (a5 : (⟨S64x64, .f32⟩ : BufTy).Contents (Elt F)) (a6 : (⟨S64, .f32⟩ : BufTy).Contents (Elt F)) (a7 : (⟨S64, .f32⟩ : BufTy).Contents (Elt F)) (a8 : (⟨S64, .f32⟩ : BufTy).Contents (Elt F)) (a9 : (⟨S64x64, .f32⟩ : BufTy).Contents (Elt F)) (a10 : (⟨S64, .f32⟩ : BufTy).Contents (Elt F)) (a11 : (⟨S64x64, .f32⟩ : BufTy).Contents (Elt F)) (a12 : (⟨S64, .f32⟩ : BufTy).Contents (Elt F)) (a13 : (⟨S64, .f32⟩ : BufTy).Contents (Elt F)) (a14 : (⟨S64, .f32⟩ : BufTy).Contents (Elt F)) :
    (⟨S50000x64, .f32⟩ : BufTy).Contents (Elt F) :=
  e96 (R78 a0 a1 a2 a3 a4 a5 a6 a7 a8 a9 a10 a11 a12) (R82 a0 a1 a2 a3 a4 a5 a6 a7 a8 a9 a10 a11 a12) (R83 a0 a1 a2 a3 a4 a5 a6 a7 a8 a9 a10 a11 a12) a13 a14

/-- What main_v97 holds after the program, from the arguments. -/
def R97 (a0 : (⟨S50000x64, .f32⟩ : BufTy).Contents (Elt F)) (a1 : (⟨S50000x3, .f32⟩ : BufTy).Contents (Elt F)) (a2 : (⟨S2x800000, .i32⟩ : BufTy).Contents (Elt F)) (a3 : (⟨S129x64, .f32⟩ : BufTy).Contents (Elt F)) (a4 : (⟨S64, .f32⟩ : BufTy).Contents (Elt F)) (a5 : (⟨S64x64, .f32⟩ : BufTy).Contents (Elt F)) (a6 : (⟨S64, .f32⟩ : BufTy).Contents (Elt F)) (a7 : (⟨S64, .f32⟩ : BufTy).Contents (Elt F)) (a8 : (⟨S64, .f32⟩ : BufTy).Contents (Elt F)) (a15 : (⟨S64x64, .f32⟩ : BufTy).Contents (Elt F)) :
    (⟨S800000x64, .f32⟩ : BufTy).Contents (Elt F) :=
  e97 (R65 a0 a1 a2 a3 a4 a5 a6 a7 a8) a15

/-- What main_v106 holds after the program, from the arguments. -/
def R106 (a0 : (⟨S50000x64, .f32⟩ : BufTy).Contents (Elt F)) (a1 : (⟨S50000x3, .f32⟩ : BufTy).Contents (Elt F)) (a2 : (⟨S2x800000, .i32⟩ : BufTy).Contents (Elt F)) (a3 : (⟨S129x64, .f32⟩ : BufTy).Contents (Elt F)) (a4 : (⟨S64, .f32⟩ : BufTy).Contents (Elt F)) (a5 : (⟨S64x64, .f32⟩ : BufTy).Contents (Elt F)) (a6 : (⟨S64, .f32⟩ : BufTy).Contents (Elt F)) (a7 : (⟨S64, .f32⟩ : BufTy).Contents (Elt F)) (a8 : (⟨S64, .f32⟩ : BufTy).Contents (Elt F)) (a15 : (⟨S64x64, .f32⟩ : BufTy).Contents (Elt F)) (a16 : (⟨S64, .f32⟩ : BufTy).Contents (Elt F)) (a17 : (⟨S64x1, .f32⟩ : BufTy).Contents (Elt F)) (a18 : (⟨S1, .f32⟩ : BufTy).Contents (Elt F)) :
    (⟨S800000x1, .f32⟩ : BufTy).Contents (Elt F) :=
  e106 (R97 a0 a1 a2 a3 a4 a5 a6 a7 a8 a15) a16 a17 a18

/-- What main_v111 holds after the program, from the arguments. -/
def R111 (a0 : (⟨S50000x64, .f32⟩ : BufTy).Contents (Elt F)) (a1 : (⟨S50000x3, .f32⟩ : BufTy).Contents (Elt F)) (a2 : (⟨S2x800000, .i32⟩ : BufTy).Contents (Elt F)) (a3 : (⟨S129x64, .f32⟩ : BufTy).Contents (Elt F)) (a4 : (⟨S64, .f32⟩ : BufTy).Contents (Elt F)) (a5 : (⟨S64x64, .f32⟩ : BufTy).Contents (Elt F)) (a6 : (⟨S64, .f32⟩ : BufTy).Contents (Elt F)) (a7 : (⟨S64, .f32⟩ : BufTy).Contents (Elt F)) (a8 : (⟨S64, .f32⟩ : BufTy).Contents (Elt F)) (a15 : (⟨S64x64, .f32⟩ : BufTy).Contents (Elt F)) (a16 : (⟨S64, .f32⟩ : BufTy).Contents (Elt F)) (a17 : (⟨S64x1, .f32⟩ : BufTy).Contents (Elt F)) (a18 : (⟨S1, .f32⟩ : BufTy).Contents (Elt F)) :
    (⟨S50000x3, .f32⟩ : BufTy).Contents (Elt F) :=
  e111 (R5 a2) (R20 a1 a2) (R106 a0 a1 a2 a3 a4 a5 a6 a7 a8 a15 a16 a17 a18)

/-! ## Buffers no stage so far has written keep their launch contents -/

def upTo1 : List (Ref sig .tc) := written1
def upTo2 : List (Ref sig .tc) := upTo1 ++ written2
def upTo3 : List (Ref sig .tc) := upTo2 ++ written3
def upTo4 : List (Ref sig .tc) := upTo3 ++ written4
def upTo5 : List (Ref sig .tc) := upTo4 ++ written5
def upTo6 : List (Ref sig .tc) := upTo5 ++ written6
def upTo7 : List (Ref sig .tc) := upTo6 ++ written7
def upTo8 : List (Ref sig .tc) := upTo7 ++ written8
def upTo9 : List (Ref sig .tc) := upTo8 ++ written9
def upTo10 : List (Ref sig .tc) := upTo9 ++ written10
def upTo11 : List (Ref sig .tc) := upTo10 ++ written11
def upTo12 : List (Ref sig .tc) := upTo11 ++ written12
def upTo13 : List (Ref sig .tc) := upTo12 ++ written13
def upTo14 : List (Ref sig .tc) := upTo13 ++ written14
def upTo15 : List (Ref sig .tc) := upTo14 ++ written15
def upTo16 : List (Ref sig .tc) := upTo15 ++ written16
def upTo17 : List (Ref sig .tc) := upTo16 ++ written17
def upTo18 : List (Ref sig .tc) := upTo17 ++ written18

theorem keepAll1 (V : Valuation τ sig (Elt F)) (r : Ref sig .tc) (h : r ∉ upTo1) :
    (after seg1 V) (Proc.devRef .tc r) = V (Proc.devRef .tc r) :=
  seg1_keep V r h

theorem keepAll2 (V : Valuation τ sig (Elt F)) (r : Ref sig .tc) (h : r ∉ upTo2) :
    (after seg2 (after seg1 V)) (Proc.devRef .tc r) = V (Proc.devRef .tc r) :=
  (seg2_keep _ r fun hm => h (List.mem_append_right _ hm)).trans (keepAll1 V r fun hm => h (List.mem_append_left _ hm))

theorem keepAll3 (V : Valuation τ sig (Elt F)) (r : Ref sig .tc) (h : r ∉ upTo3) :
    (after seg3 (after seg2 (after seg1 V))) (Proc.devRef .tc r) = V (Proc.devRef .tc r) :=
  (seg3_keep _ r fun hm => h (List.mem_append_right _ hm)).trans (keepAll2 V r fun hm => h (List.mem_append_left _ hm))

theorem keepAll4 (V : Valuation τ sig (Elt F)) (r : Ref sig .tc) (h : r ∉ upTo4) :
    (after seg4 (after seg3 (after seg2 (after seg1 V)))) (Proc.devRef .tc r) = V (Proc.devRef .tc r) :=
  (seg4_keep _ r fun hm => h (List.mem_append_right _ hm)).trans (keepAll3 V r fun hm => h (List.mem_append_left _ hm))

theorem keepAll5 (V : Valuation τ sig (Elt F)) (r : Ref sig .tc) (h : r ∉ upTo5) :
    (after seg5 (after seg4 (after seg3 (after seg2 (after seg1 V))))) (Proc.devRef .tc r) = V (Proc.devRef .tc r) :=
  (seg5_keep _ r fun hm => h (List.mem_append_right _ hm)).trans (keepAll4 V r fun hm => h (List.mem_append_left _ hm))

theorem keepAll6 (V : Valuation τ sig (Elt F)) (r : Ref sig .tc) (h : r ∉ upTo6) :
    (after seg6 (after seg5 (after seg4 (after seg3 (after seg2 (after seg1 V)))))) (Proc.devRef .tc r) = V (Proc.devRef .tc r) :=
  (seg6_keep _ r fun hm => h (List.mem_append_right _ hm)).trans (keepAll5 V r fun hm => h (List.mem_append_left _ hm))

theorem keepAll7 (V : Valuation τ sig (Elt F)) (r : Ref sig .tc) (h : r ∉ upTo7) :
    (after seg7 (after seg6 (after seg5 (after seg4 (after seg3 (after seg2 (after seg1 V))))))) (Proc.devRef .tc r) = V (Proc.devRef .tc r) :=
  (seg7_keep _ r fun hm => h (List.mem_append_right _ hm)).trans (keepAll6 V r fun hm => h (List.mem_append_left _ hm))

theorem keepAll8 (V : Valuation τ sig (Elt F)) (r : Ref sig .tc) (h : r ∉ upTo8) :
    (after seg8 (after seg7 (after seg6 (after seg5 (after seg4 (after seg3 (after seg2 (after seg1 V)))))))) (Proc.devRef .tc r) = V (Proc.devRef .tc r) :=
  (seg8_keep _ r fun hm => h (List.mem_append_right _ hm)).trans (keepAll7 V r fun hm => h (List.mem_append_left _ hm))

theorem keepAll9 (V : Valuation τ sig (Elt F)) (r : Ref sig .tc) (h : r ∉ upTo9) :
    (after seg9 (after seg8 (after seg7 (after seg6 (after seg5 (after seg4 (after seg3 (after seg2 (after seg1 V))))))))) (Proc.devRef .tc r) = V (Proc.devRef .tc r) :=
  (seg9_keep _ r fun hm => h (List.mem_append_right _ hm)).trans (keepAll8 V r fun hm => h (List.mem_append_left _ hm))

theorem keepAll10 (V : Valuation τ sig (Elt F)) (r : Ref sig .tc) (h : r ∉ upTo10) :
    (after seg10 (after seg9 (after seg8 (after seg7 (after seg6 (after seg5 (after seg4 (after seg3 (after seg2 (after seg1 V)))))))))) (Proc.devRef .tc r) = V (Proc.devRef .tc r) :=
  (seg10_keep _ r fun hm => h (List.mem_append_right _ hm)).trans (keepAll9 V r fun hm => h (List.mem_append_left _ hm))

theorem keepAll11 (V : Valuation τ sig (Elt F)) (r : Ref sig .tc) (h : r ∉ upTo11) :
    (after seg11 (after seg10 (after seg9 (after seg8 (after seg7 (after seg6 (after seg5 (after seg4 (after seg3 (after seg2 (after seg1 V))))))))))) (Proc.devRef .tc r) = V (Proc.devRef .tc r) :=
  (seg11_keep _ r fun hm => h (List.mem_append_right _ hm)).trans (keepAll10 V r fun hm => h (List.mem_append_left _ hm))

theorem keepAll12 (V : Valuation τ sig (Elt F)) (r : Ref sig .tc) (h : r ∉ upTo12) :
    (after seg12 (after seg11 (after seg10 (after seg9 (after seg8 (after seg7 (after seg6 (after seg5 (after seg4 (after seg3 (after seg2 (after seg1 V)))))))))))) (Proc.devRef .tc r) = V (Proc.devRef .tc r) :=
  (seg12_keep _ r fun hm => h (List.mem_append_right _ hm)).trans (keepAll11 V r fun hm => h (List.mem_append_left _ hm))

theorem keepAll13 (V : Valuation τ sig (Elt F)) (r : Ref sig .tc) (h : r ∉ upTo13) :
    (after seg13 (after seg12 (after seg11 (after seg10 (after seg9 (after seg8 (after seg7 (after seg6 (after seg5 (after seg4 (after seg3 (after seg2 (after seg1 V))))))))))))) (Proc.devRef .tc r) = V (Proc.devRef .tc r) :=
  (seg13_keep _ r fun hm => h (List.mem_append_right _ hm)).trans (keepAll12 V r fun hm => h (List.mem_append_left _ hm))

theorem keepAll14 (V : Valuation τ sig (Elt F)) (r : Ref sig .tc) (h : r ∉ upTo14) :
    (after seg14 (after seg13 (after seg12 (after seg11 (after seg10 (after seg9 (after seg8 (after seg7 (after seg6 (after seg5 (after seg4 (after seg3 (after seg2 (after seg1 V)))))))))))))) (Proc.devRef .tc r) = V (Proc.devRef .tc r) :=
  (seg14_keep _ r fun hm => h (List.mem_append_right _ hm)).trans (keepAll13 V r fun hm => h (List.mem_append_left _ hm))

theorem keepAll15 (V : Valuation τ sig (Elt F)) (r : Ref sig .tc) (h : r ∉ upTo15) :
    (after seg15 (after seg14 (after seg13 (after seg12 (after seg11 (after seg10 (after seg9 (after seg8 (after seg7 (after seg6 (after seg5 (after seg4 (after seg3 (after seg2 (after seg1 V))))))))))))))) (Proc.devRef .tc r) = V (Proc.devRef .tc r) :=
  (seg15_keep _ r fun hm => h (List.mem_append_right _ hm)).trans (keepAll14 V r fun hm => h (List.mem_append_left _ hm))

theorem keepAll16 (V : Valuation τ sig (Elt F)) (r : Ref sig .tc) (h : r ∉ upTo16) :
    (after seg16 (after seg15 (after seg14 (after seg13 (after seg12 (after seg11 (after seg10 (after seg9 (after seg8 (after seg7 (after seg6 (after seg5 (after seg4 (after seg3 (after seg2 (after seg1 V)))))))))))))))) (Proc.devRef .tc r) = V (Proc.devRef .tc r) :=
  (seg16_keep _ r fun hm => h (List.mem_append_right _ hm)).trans (keepAll15 V r fun hm => h (List.mem_append_left _ hm))

theorem keepAll17 (V : Valuation τ sig (Elt F)) (r : Ref sig .tc) (h : r ∉ upTo17) :
    (after seg17 (after seg16 (after seg15 (after seg14 (after seg13 (after seg12 (after seg11 (after seg10 (after seg9 (after seg8 (after seg7 (after seg6 (after seg5 (after seg4 (after seg3 (after seg2 (after seg1 V))))))))))))))))) (Proc.devRef .tc r) = V (Proc.devRef .tc r) :=
  (seg17_keep _ r fun hm => h (List.mem_append_right _ hm)).trans (keepAll16 V r fun hm => h (List.mem_append_left _ hm))

theorem keepAll18 (V : Valuation τ sig (Elt F)) (r : Ref sig .tc) (h : r ∉ upTo18) :
    (after seg18 (after seg17 (after seg16 (after seg15 (after seg14 (after seg13 (after seg12 (after seg11 (after seg10 (after seg9 (after seg8 (after seg7 (after seg6 (after seg5 (after seg4 (after seg3 (after seg2 (after seg1 V)))))))))))))))))) (Proc.devRef .tc r) = V (Proc.devRef .tc r) :=
  (seg18_keep _ r fun hm => h (List.mem_append_right _ hm)).trans (keepAll17 V r fun hm => h (List.mem_append_left _ hm))

/-! ## What each stage's results hold, from the arguments -/

theorem at1_main_v2 (V : Valuation τ sig (Elt F)) :
    (after seg1 V) (main_v2 : DevRef τ sig) = R2 (V (main_arg2 : DevRef τ sig)) := by
  rw [seg1_main_v2] <;> rfl

theorem at1_main_v5 (V : Valuation τ sig (Elt F)) :
    (after seg1 V) (main_v5 : DevRef τ sig) = R5 (V (main_arg2 : DevRef τ sig)) := by
  rw [seg1_main_v5] <;> rfl

theorem at2_main_v20 (V : Valuation τ sig (Elt F)) :
    (after seg2 (after seg1 V)) (main_v20 : DevRef τ sig) = R20 (V (main_arg1 : DevRef τ sig)) (V (main_arg2 : DevRef τ sig)) := by
  rw [seg2_main_v20, keepAll1 V main_arg1 (by decide), at1_main_v2 V, at1_main_v5 V] <;> rfl

theorem at2_main_v2 (V : Valuation τ sig (Elt F)) :
    (after seg2 (after seg1 V)) (main_v2 : DevRef τ sig) = R2 (V (main_arg2 : DevRef τ sig)) :=
  (seg2_keep _ main_v2 (by decide)).trans (at1_main_v2 V)

theorem at2_main_v5 (V : Valuation τ sig (Elt F)) :
    (after seg2 (after seg1 V)) (main_v5 : DevRef τ sig) = R5 (V (main_arg2 : DevRef τ sig)) :=
  (seg2_keep _ main_v5 (by decide)).trans (at1_main_v5 V)

theorem at3_main_v23 (V : Valuation τ sig (Elt F)) :
    (after seg3 (after seg2 (after seg1 V))) (main_v23 : DevRef τ sig) = R23 (V (main_arg1 : DevRef τ sig)) (V (main_arg2 : DevRef τ sig)) := by
  rw [seg3_main_v23, at2_main_v20 V] <;> rfl

theorem at3_main_v2 (V : Valuation τ sig (Elt F)) :
    (after seg3 (after seg2 (after seg1 V))) (main_v2 : DevRef τ sig) = R2 (V (main_arg2 : DevRef τ sig)) :=
  (seg3_keep _ main_v2 (by decide)).trans (at2_main_v2 V)

theorem at3_main_v5 (V : Valuation τ sig (Elt F)) :
    (after seg3 (after seg2 (after seg1 V))) (main_v5 : DevRef τ sig) = R5 (V (main_arg2 : DevRef τ sig)) :=
  (seg3_keep _ main_v5 (by decide)).trans (at2_main_v5 V)

theorem at3_main_v20 (V : Valuation τ sig (Elt F)) :
    (after seg3 (after seg2 (after seg1 V))) (main_v20 : DevRef τ sig) = R20 (V (main_arg1 : DevRef τ sig)) (V (main_arg2 : DevRef τ sig)) :=
  (seg3_keep _ main_v20 (by decide)).trans (at2_main_v20 V)

theorem at4_main_v30 (V : Valuation τ sig (Elt F)) :
    (after seg4 (after seg3 (after seg2 (after seg1 V)))) (main_v30 : DevRef τ sig) = R30 (V (main_arg0 : DevRef τ sig)) (V (main_arg2 : DevRef τ sig)) := by
  rw [seg4_main_v30, keepAll3 V main_arg0 (by decide), at3_main_v2 V] <;> rfl

theorem at4_main_v37 (V : Valuation τ sig (Elt F)) :
    (after seg4 (after seg3 (after seg2 (after seg1 V)))) (main_v37 : DevRef τ sig) = R37 (V (main_arg0 : DevRef τ sig)) (V (main_arg2 : DevRef τ sig)) := by
  rw [seg4_main_v37, keepAll3 V main_arg0 (by decide), at3_main_v5 V] <;> rfl

theorem at4_main_v5 (V : Valuation τ sig (Elt F)) :
    (after seg4 (after seg3 (after seg2 (after seg1 V)))) (main_v5 : DevRef τ sig) = R5 (V (main_arg2 : DevRef τ sig)) :=
  (seg4_keep _ main_v5 (by decide)).trans (at3_main_v5 V)

theorem at4_main_v20 (V : Valuation τ sig (Elt F)) :
    (after seg4 (after seg3 (after seg2 (after seg1 V)))) (main_v20 : DevRef τ sig) = R20 (V (main_arg1 : DevRef τ sig)) (V (main_arg2 : DevRef τ sig)) :=
  (seg4_keep _ main_v20 (by decide)).trans (at3_main_v20 V)

theorem at4_main_v23 (V : Valuation τ sig (Elt F)) :
    (after seg4 (after seg3 (after seg2 (after seg1 V)))) (main_v23 : DevRef τ sig) = R23 (V (main_arg1 : DevRef τ sig)) (V (main_arg2 : DevRef τ sig)) :=
  (seg4_keep _ main_v23 (by decide)).trans (at3_main_v23 V)

theorem at5_main_v43 (V : Valuation τ sig (Elt F)) :
    (after seg5 (after seg4 (after seg3 (after seg2 (after seg1 V))))) (main_v43 : DevRef τ sig) = R43 (V (main_arg0 : DevRef τ sig)) (V (main_arg1 : DevRef τ sig)) (V (main_arg2 : DevRef τ sig)) (V (main_arg3 : DevRef τ sig)) (V (main_arg4 : DevRef τ sig)) := by
  rw [seg5_main_v43, at4_main_v30 V, at4_main_v37 V, at4_main_v23 V, keepAll4 V main_arg3 (by decide), keepAll4 V main_arg4 (by decide)] <;> rfl

theorem at5_main_v5 (V : Valuation τ sig (Elt F)) :
    (after seg5 (after seg4 (after seg3 (after seg2 (after seg1 V))))) (main_v5 : DevRef τ sig) = R5 (V (main_arg2 : DevRef τ sig)) :=
  (seg5_keep _ main_v5 (by decide)).trans (at4_main_v5 V)

theorem at5_main_v20 (V : Valuation τ sig (Elt F)) :
    (after seg5 (after seg4 (after seg3 (after seg2 (after seg1 V))))) (main_v20 : DevRef τ sig) = R20 (V (main_arg1 : DevRef τ sig)) (V (main_arg2 : DevRef τ sig)) :=
  (seg5_keep _ main_v20 (by decide)).trans (at4_main_v20 V)

theorem at6_main_v44 (V : Valuation τ sig (Elt F)) :
    (after seg6 (after seg5 (after seg4 (after seg3 (after seg2 (after seg1 V)))))) (main_v44 : DevRef τ sig) = R44 (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [seg6_main_v44, at5_main_v43 V, keepAll5 V main_arg5 (by decide)] <;> rfl

theorem at6_main_v46 (V : Valuation τ sig (Elt F)) :
    (after seg6 (after seg5 (after seg4 (after seg3 (after seg2 (after seg1 V)))))) (main_v46 : DevRef τ sig) = R46 (V (main_arg6 : DevRef τ sig)) := by
  rw [seg6_main_v46, keepAll5 V main_arg6 (by decide)] <;> rfl

theorem at6_main_v5 (V : Valuation τ sig (Elt F)) :
    (after seg6 (after seg5 (after seg4 (after seg3 (after seg2 (after seg1 V)))))) (main_v5 : DevRef τ sig) = R5 (V (main_arg2 : DevRef τ sig)) :=
  (seg6_keep _ main_v5 (by decide)).trans (at5_main_v5 V)

theorem at6_main_v20 (V : Valuation τ sig (Elt F)) :
    (after seg6 (after seg5 (after seg4 (after seg3 (after seg2 (after seg1 V)))))) (main_v20 : DevRef τ sig) = R20 (V (main_arg1 : DevRef τ sig)) (V (main_arg2 : DevRef τ sig)) :=
  (seg6_keep _ main_v20 (by decide)).trans (at5_main_v20 V)

theorem at7_main_v47 (V : Valuation τ sig (Elt F)) :
    (after seg7 (after seg6 (after seg5 (after seg4 (after seg3 (after seg2 (after seg1 V))))))) (main_v47 : DevRef τ sig) = R47 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  rw [seg7_main_v47, at6_main_v44 V, at6_main_v46 V] <;> rfl

theorem at7_main_v5 (V : Valuation τ sig (Elt F)) :
    (after seg7 (after seg6 (after seg5 (after seg4 (after seg3 (after seg2 (after seg1 V))))))) (main_v5 : DevRef τ sig) = R5 (V (main_arg2 : DevRef τ sig)) :=
  (seg7_keep _ main_v5 (by decide)).trans (at6_main_v5 V)

theorem at7_main_v20 (V : Valuation τ sig (Elt F)) :
    (after seg7 (after seg6 (after seg5 (after seg4 (after seg3 (after seg2 (after seg1 V))))))) (main_v20 : DevRef τ sig) = R20 (V (main_arg1 : DevRef τ sig)) (V (main_arg2 : DevRef τ sig)) :=
  (seg7_keep _ main_v20 (by decide)).trans (at6_main_v20 V)

theorem at8_main_v51 (V : Valuation τ sig (Elt F)) :
    (after seg8 (after seg7 (after seg6 (after seg5 (after seg4 (after seg3 (after seg2 (after seg1 V)))))))) (main_v51 : DevRef τ sig) = R51 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  rw [seg8_main_v51, at7_main_v47 V] <;> rfl

theorem at8_main_v5 (V : Valuation τ sig (Elt F)) :
    (after seg8 (after seg7 (after seg6 (after seg5 (after seg4 (after seg3 (after seg2 (after seg1 V)))))))) (main_v5 : DevRef τ sig) = R5 (V (main_arg2 : DevRef τ sig)) :=
  (seg8_keep _ main_v5 (by decide)).trans (at7_main_v5 V)

theorem at8_main_v20 (V : Valuation τ sig (Elt F)) :
    (after seg8 (after seg7 (after seg6 (after seg5 (after seg4 (after seg3 (after seg2 (after seg1 V)))))))) (main_v20 : DevRef τ sig) = R20 (V (main_arg1 : DevRef τ sig)) (V (main_arg2 : DevRef τ sig)) :=
  (seg8_keep _ main_v20 (by decide)).trans (at7_main_v20 V)

theorem at8_main_v47 (V : Valuation τ sig (Elt F)) :
    (after seg8 (after seg7 (after seg6 (after seg5 (after seg4 (after seg3 (after seg2 (after seg1 V)))))))) (main_v47 : DevRef τ sig) = R47 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) :=
  (seg8_keep _ main_v47 (by decide)).trans (at7_main_v47 V)

theorem at9_main_v52 (V : Valuation τ sig (Elt F)) :
    (after seg9 (after seg8 (after seg7 (after seg6 (after seg5 (after seg4 (after seg3 (after seg2 (after seg1 V))))))))) (main_v52 : DevRef τ sig) = R52 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  rw [seg9_main_v52, at8_main_v47 V] <;> rfl

theorem at9_main_v5 (V : Valuation τ sig (Elt F)) :
    (after seg9 (after seg8 (after seg7 (after seg6 (after seg5 (after seg4 (after seg3 (after seg2 (after seg1 V))))))))) (main_v5 : DevRef τ sig) = R5 (V (main_arg2 : DevRef τ sig)) :=
  (seg9_keep _ main_v5 (by decide)).trans (at8_main_v5 V)

theorem at9_main_v20 (V : Valuation τ sig (Elt F)) :
    (after seg9 (after seg8 (after seg7 (after seg6 (after seg5 (after seg4 (after seg3 (after seg2 (after seg1 V))))))))) (main_v20 : DevRef τ sig) = R20 (V (main_arg1 : DevRef τ sig)) (V (main_arg2 : DevRef τ sig)) :=
  (seg9_keep _ main_v20 (by decide)).trans (at8_main_v20 V)

theorem at9_main_v47 (V : Valuation τ sig (Elt F)) :
    (after seg9 (after seg8 (after seg7 (after seg6 (after seg5 (after seg4 (after seg3 (after seg2 (after seg1 V))))))))) (main_v47 : DevRef τ sig) = R47 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) :=
  (seg9_keep _ main_v47 (by decide)).trans (at8_main_v47 V)

theorem at9_main_v51 (V : Valuation τ sig (Elt F)) :
    (after seg9 (after seg8 (after seg7 (after seg6 (after seg5 (after seg4 (after seg3 (after seg2 (after seg1 V))))))))) (main_v51 : DevRef τ sig) = R51 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) :=
  (seg9_keep _ main_v51 (by decide)).trans (at8_main_v51 V)

theorem at10_main_v65 (V : Valuation τ sig (Elt F)) :
    (after seg10 (after seg9 (after seg8 (after seg7 (after seg6 (after seg5 (after seg4 (after seg3 (after seg2 (after seg1 V)))))))))) (main_v65 : DevRef τ sig) = R65 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [seg10_main_v65, at9_main_v47 V, at9_main_v51 V, at9_main_v52 V, keepAll9 V main_arg7 (by decide), keepAll9 V main_arg8 (by decide)] <;> rfl

theorem at10_main_v5 (V : Valuation τ sig (Elt F)) :
    (after seg10 (after seg9 (after seg8 (after seg7 (after seg6 (after seg5 (after seg4 (after seg3 (after seg2 (after seg1 V)))))))))) (main_v5 : DevRef τ sig) = R5 (V (main_arg2 : DevRef τ sig)) :=
  (seg10_keep _ main_v5 (by decide)).trans (at9_main_v5 V)

theorem at10_main_v20 (V : Valuation τ sig (Elt F)) :
    (after seg10 (after seg9 (after seg8 (after seg7 (after seg6 (after seg5 (after seg4 (after seg3 (after seg2 (after seg1 V)))))))))) (main_v20 : DevRef τ sig) = R20 (V (main_arg1 : DevRef τ sig)) (V (main_arg2 : DevRef τ sig)) :=
  (seg10_keep _ main_v20 (by decide)).trans (at9_main_v20 V)

theorem at11_main_v73 (V : Valuation τ sig (Elt F)) :
    (after seg11 (after seg10 (after seg9 (after seg8 (after seg7 (after seg6 (after seg5 (after seg4 (after seg3 (after seg2 (after seg1 V))))))))))) (main_v73 : DevRef τ sig) = R73 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [seg11_main_v73, keepAll10 V main_arg0 (by decide), at10_main_v5 V, at10_main_v65 V, keepAll10 V main_arg9 (by decide), keepAll10 V main_arg10 (by decide)] <;> rfl

theorem at11_main_v5 (V : Valuation τ sig (Elt F)) :
    (after seg11 (after seg10 (after seg9 (after seg8 (after seg7 (after seg6 (after seg5 (after seg4 (after seg3 (after seg2 (after seg1 V))))))))))) (main_v5 : DevRef τ sig) = R5 (V (main_arg2 : DevRef τ sig)) :=
  (seg11_keep _ main_v5 (by decide)).trans (at10_main_v5 V)

theorem at11_main_v20 (V : Valuation τ sig (Elt F)) :
    (after seg11 (after seg10 (after seg9 (after seg8 (after seg7 (after seg6 (after seg5 (after seg4 (after seg3 (after seg2 (after seg1 V))))))))))) (main_v20 : DevRef τ sig) = R20 (V (main_arg1 : DevRef τ sig)) (V (main_arg2 : DevRef τ sig)) :=
  (seg11_keep _ main_v20 (by decide)).trans (at10_main_v20 V)

theorem at11_main_v65 (V : Valuation τ sig (Elt F)) :
    (after seg11 (after seg10 (after seg9 (after seg8 (after seg7 (after seg6 (after seg5 (after seg4 (after seg3 (after seg2 (after seg1 V))))))))))) (main_v65 : DevRef τ sig) = R65 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) :=
  (seg11_keep _ main_v65 (by decide)).trans (at10_main_v65 V)

theorem at12_main_v78 (V : Valuation τ sig (Elt F)) :
    (after seg12 (after seg11 (after seg10 (after seg9 (after seg8 (after seg7 (after seg6 (after seg5 (after seg4 (after seg3 (after seg2 (after seg1 V)))))))))))) (main_v78 : DevRef τ sig) = R78 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [seg12_main_v78, at11_main_v73 V, keepAll11 V main_arg11 (by decide), keepAll11 V main_arg12 (by decide)] <;> rfl

theorem at12_main_v5 (V : Valuation τ sig (Elt F)) :
    (after seg12 (after seg11 (after seg10 (after seg9 (after seg8 (after seg7 (after seg6 (after seg5 (after seg4 (after seg3 (after seg2 (after seg1 V)))))))))))) (main_v5 : DevRef τ sig) = R5 (V (main_arg2 : DevRef τ sig)) :=
  (seg12_keep _ main_v5 (by decide)).trans (at11_main_v5 V)

theorem at12_main_v20 (V : Valuation τ sig (Elt F)) :
    (after seg12 (after seg11 (after seg10 (after seg9 (after seg8 (after seg7 (after seg6 (after seg5 (after seg4 (after seg3 (after seg2 (after seg1 V)))))))))))) (main_v20 : DevRef τ sig) = R20 (V (main_arg1 : DevRef τ sig)) (V (main_arg2 : DevRef τ sig)) :=
  (seg12_keep _ main_v20 (by decide)).trans (at11_main_v20 V)

theorem at12_main_v65 (V : Valuation τ sig (Elt F)) :
    (after seg12 (after seg11 (after seg10 (after seg9 (after seg8 (after seg7 (after seg6 (after seg5 (after seg4 (after seg3 (after seg2 (after seg1 V)))))))))))) (main_v65 : DevRef τ sig) = R65 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) :=
  (seg12_keep _ main_v65 (by decide)).trans (at11_main_v65 V)

theorem at13_main_v82 (V : Valuation τ sig (Elt F)) :
    (after seg13 (after seg12 (after seg11 (after seg10 (after seg9 (after seg8 (after seg7 (after seg6 (after seg5 (after seg4 (after seg3 (after seg2 (after seg1 V))))))))))))) (main_v82 : DevRef τ sig) = R82 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [seg13_main_v82, at12_main_v78 V] <;> rfl

theorem at13_main_v5 (V : Valuation τ sig (Elt F)) :
    (after seg13 (after seg12 (after seg11 (after seg10 (after seg9 (after seg8 (after seg7 (after seg6 (after seg5 (after seg4 (after seg3 (after seg2 (after seg1 V))))))))))))) (main_v5 : DevRef τ sig) = R5 (V (main_arg2 : DevRef τ sig)) :=
  (seg13_keep _ main_v5 (by decide)).trans (at12_main_v5 V)

theorem at13_main_v20 (V : Valuation τ sig (Elt F)) :
    (after seg13 (after seg12 (after seg11 (after seg10 (after seg9 (after seg8 (after seg7 (after seg6 (after seg5 (after seg4 (after seg3 (after seg2 (after seg1 V))))))))))))) (main_v20 : DevRef τ sig) = R20 (V (main_arg1 : DevRef τ sig)) (V (main_arg2 : DevRef τ sig)) :=
  (seg13_keep _ main_v20 (by decide)).trans (at12_main_v20 V)

theorem at13_main_v65 (V : Valuation τ sig (Elt F)) :
    (after seg13 (after seg12 (after seg11 (after seg10 (after seg9 (after seg8 (after seg7 (after seg6 (after seg5 (after seg4 (after seg3 (after seg2 (after seg1 V))))))))))))) (main_v65 : DevRef τ sig) = R65 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) :=
  (seg13_keep _ main_v65 (by decide)).trans (at12_main_v65 V)

theorem at13_main_v78 (V : Valuation τ sig (Elt F)) :
    (after seg13 (after seg12 (after seg11 (after seg10 (after seg9 (after seg8 (after seg7 (after seg6 (after seg5 (after seg4 (after seg3 (after seg2 (after seg1 V))))))))))))) (main_v78 : DevRef τ sig) = R78 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) :=
  (seg13_keep _ main_v78 (by decide)).trans (at12_main_v78 V)

theorem at14_main_v83 (V : Valuation τ sig (Elt F)) :
    (after seg14 (after seg13 (after seg12 (after seg11 (after seg10 (after seg9 (after seg8 (after seg7 (after seg6 (after seg5 (after seg4 (after seg3 (after seg2 (after seg1 V)))))))))))))) (main_v83 : DevRef τ sig) = R83 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [seg14_main_v83, at13_main_v78 V] <;> rfl

theorem at14_main_v5 (V : Valuation τ sig (Elt F)) :
    (after seg14 (after seg13 (after seg12 (after seg11 (after seg10 (after seg9 (after seg8 (after seg7 (after seg6 (after seg5 (after seg4 (after seg3 (after seg2 (after seg1 V)))))))))))))) (main_v5 : DevRef τ sig) = R5 (V (main_arg2 : DevRef τ sig)) :=
  (seg14_keep _ main_v5 (by decide)).trans (at13_main_v5 V)

theorem at14_main_v20 (V : Valuation τ sig (Elt F)) :
    (after seg14 (after seg13 (after seg12 (after seg11 (after seg10 (after seg9 (after seg8 (after seg7 (after seg6 (after seg5 (after seg4 (after seg3 (after seg2 (after seg1 V)))))))))))))) (main_v20 : DevRef τ sig) = R20 (V (main_arg1 : DevRef τ sig)) (V (main_arg2 : DevRef τ sig)) :=
  (seg14_keep _ main_v20 (by decide)).trans (at13_main_v20 V)

theorem at14_main_v65 (V : Valuation τ sig (Elt F)) :
    (after seg14 (after seg13 (after seg12 (after seg11 (after seg10 (after seg9 (after seg8 (after seg7 (after seg6 (after seg5 (after seg4 (after seg3 (after seg2 (after seg1 V)))))))))))))) (main_v65 : DevRef τ sig) = R65 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) :=
  (seg14_keep _ main_v65 (by decide)).trans (at13_main_v65 V)

theorem at14_main_v78 (V : Valuation τ sig (Elt F)) :
    (after seg14 (after seg13 (after seg12 (after seg11 (after seg10 (after seg9 (after seg8 (after seg7 (after seg6 (after seg5 (after seg4 (after seg3 (after seg2 (after seg1 V)))))))))))))) (main_v78 : DevRef τ sig) = R78 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) :=
  (seg14_keep _ main_v78 (by decide)).trans (at13_main_v78 V)

theorem at14_main_v82 (V : Valuation τ sig (Elt F)) :
    (after seg14 (after seg13 (after seg12 (after seg11 (after seg10 (after seg9 (after seg8 (after seg7 (after seg6 (after seg5 (after seg4 (after seg3 (after seg2 (after seg1 V)))))))))))))) (main_v82 : DevRef τ sig) = R82 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) :=
  (seg14_keep _ main_v82 (by decide)).trans (at13_main_v82 V)

theorem at15_main_v96 (V : Valuation τ sig (Elt F)) :
    (after seg15 (after seg14 (after seg13 (after seg12 (after seg11 (after seg10 (after seg9 (after seg8 (after seg7 (after seg6 (after seg5 (after seg4 (after seg3 (after seg2 (after seg1 V))))))))))))))) (main_v96 : DevRef τ sig) = R96 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [seg15_main_v96, at14_main_v78 V, at14_main_v82 V, at14_main_v83 V, keepAll14 V main_arg13 (by decide), keepAll14 V main_arg14 (by decide)] <;> rfl

theorem at15_main_v5 (V : Valuation τ sig (Elt F)) :
    (after seg15 (after seg14 (after seg13 (after seg12 (after seg11 (after seg10 (after seg9 (after seg8 (after seg7 (after seg6 (after seg5 (after seg4 (after seg3 (after seg2 (after seg1 V))))))))))))))) (main_v5 : DevRef τ sig) = R5 (V (main_arg2 : DevRef τ sig)) :=
  (seg15_keep _ main_v5 (by decide)).trans (at14_main_v5 V)

theorem at15_main_v20 (V : Valuation τ sig (Elt F)) :
    (after seg15 (after seg14 (after seg13 (after seg12 (after seg11 (after seg10 (after seg9 (after seg8 (after seg7 (after seg6 (after seg5 (after seg4 (after seg3 (after seg2 (after seg1 V))))))))))))))) (main_v20 : DevRef τ sig) = R20 (V (main_arg1 : DevRef τ sig)) (V (main_arg2 : DevRef τ sig)) :=
  (seg15_keep _ main_v20 (by decide)).trans (at14_main_v20 V)

theorem at15_main_v65 (V : Valuation τ sig (Elt F)) :
    (after seg15 (after seg14 (after seg13 (after seg12 (after seg11 (after seg10 (after seg9 (after seg8 (after seg7 (after seg6 (after seg5 (after seg4 (after seg3 (after seg2 (after seg1 V))))))))))))))) (main_v65 : DevRef τ sig) = R65 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) :=
  (seg15_keep _ main_v65 (by decide)).trans (at14_main_v65 V)

theorem at16_main_v97 (V : Valuation τ sig (Elt F)) :
    (after seg16 (after seg15 (after seg14 (after seg13 (after seg12 (after seg11 (after seg10 (after seg9 (after seg8 (after seg7 (after seg6 (after seg5 (after seg4 (after seg3 (after seg2 (after seg1 V)))))))))))))))) (main_v97 : DevRef τ sig) = R97 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg15 : DevRef τ sig)) := by
  rw [seg16_main_v97, at15_main_v65 V, keepAll15 V main_arg15 (by decide)] <;> rfl

theorem at16_main_v5 (V : Valuation τ sig (Elt F)) :
    (after seg16 (after seg15 (after seg14 (after seg13 (after seg12 (after seg11 (after seg10 (after seg9 (after seg8 (after seg7 (after seg6 (after seg5 (after seg4 (after seg3 (after seg2 (after seg1 V)))))))))))))))) (main_v5 : DevRef τ sig) = R5 (V (main_arg2 : DevRef τ sig)) :=
  (seg16_keep _ main_v5 (by decide)).trans (at15_main_v5 V)

theorem at16_main_v20 (V : Valuation τ sig (Elt F)) :
    (after seg16 (after seg15 (after seg14 (after seg13 (after seg12 (after seg11 (after seg10 (after seg9 (after seg8 (after seg7 (after seg6 (after seg5 (after seg4 (after seg3 (after seg2 (after seg1 V)))))))))))))))) (main_v20 : DevRef τ sig) = R20 (V (main_arg1 : DevRef τ sig)) (V (main_arg2 : DevRef τ sig)) :=
  (seg16_keep _ main_v20 (by decide)).trans (at15_main_v20 V)

theorem at16_main_v96 (V : Valuation τ sig (Elt F)) :
    (after seg16 (after seg15 (after seg14 (after seg13 (after seg12 (after seg11 (after seg10 (after seg9 (after seg8 (after seg7 (after seg6 (after seg5 (after seg4 (after seg3 (after seg2 (after seg1 V)))))))))))))))) (main_v96 : DevRef τ sig) = R96 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) :=
  (seg16_keep _ main_v96 (by decide)).trans (at15_main_v96 V)

theorem at17_main_v106 (V : Valuation τ sig (Elt F)) :
    (after seg17 (after seg16 (after seg15 (after seg14 (after seg13 (after seg12 (after seg11 (after seg10 (after seg9 (after seg8 (after seg7 (after seg6 (after seg5 (after seg4 (after seg3 (after seg2 (after seg1 V))))))))))))))))) (main_v106 : DevRef τ sig) = R106 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg15 : DevRef τ sig)) (V (main_arg16 : DevRef τ sig)) (V (main_arg17 : DevRef τ sig)) (V (main_arg18 : DevRef τ sig)) := by
  rw [seg17_main_v106, at16_main_v97 V, keepAll16 V main_arg16 (by decide), keepAll16 V main_arg17 (by decide), keepAll16 V main_arg18 (by decide)] <;> rfl

theorem at17_main_v5 (V : Valuation τ sig (Elt F)) :
    (after seg17 (after seg16 (after seg15 (after seg14 (after seg13 (after seg12 (after seg11 (after seg10 (after seg9 (after seg8 (after seg7 (after seg6 (after seg5 (after seg4 (after seg3 (after seg2 (after seg1 V))))))))))))))))) (main_v5 : DevRef τ sig) = R5 (V (main_arg2 : DevRef τ sig)) :=
  (seg17_keep _ main_v5 (by decide)).trans (at16_main_v5 V)

theorem at17_main_v20 (V : Valuation τ sig (Elt F)) :
    (after seg17 (after seg16 (after seg15 (after seg14 (after seg13 (after seg12 (after seg11 (after seg10 (after seg9 (after seg8 (after seg7 (after seg6 (after seg5 (after seg4 (after seg3 (after seg2 (after seg1 V))))))))))))))))) (main_v20 : DevRef τ sig) = R20 (V (main_arg1 : DevRef τ sig)) (V (main_arg2 : DevRef τ sig)) :=
  (seg17_keep _ main_v20 (by decide)).trans (at16_main_v20 V)

theorem at17_main_v96 (V : Valuation τ sig (Elt F)) :
    (after seg17 (after seg16 (after seg15 (after seg14 (after seg13 (after seg12 (after seg11 (after seg10 (after seg9 (after seg8 (after seg7 (after seg6 (after seg5 (after seg4 (after seg3 (after seg2 (after seg1 V))))))))))))))))) (main_v96 : DevRef τ sig) = R96 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) :=
  (seg17_keep _ main_v96 (by decide)).trans (at16_main_v96 V)

theorem at18_main_v111 (V : Valuation τ sig (Elt F)) :
    (after seg18 (after seg17 (after seg16 (after seg15 (after seg14 (after seg13 (after seg12 (after seg11 (after seg10 (after seg9 (after seg8 (after seg7 (after seg6 (after seg5 (after seg4 (after seg3 (after seg2 (after seg1 V)))))))))))))))))) (main_v111 : DevRef τ sig) = R111 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg15 : DevRef τ sig)) (V (main_arg16 : DevRef τ sig)) (V (main_arg17 : DevRef τ sig)) (V (main_arg18 : DevRef τ sig)) := by
  rw [seg18_main_v111, at17_main_v5 V, at17_main_v20 V, at17_main_v106 V] <;> rfl

theorem at18_main_v96 (V : Valuation τ sig (Elt F)) :
    (after seg18 (after seg17 (after seg16 (after seg15 (after seg14 (after seg13 (after seg12 (after seg11 (after seg10 (after seg9 (after seg8 (after seg7 (after seg6 (after seg5 (after seg4 (after seg3 (after seg2 (after seg1 V)))))))))))))))))) (main_v96 : DevRef τ sig) = R96 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) :=
  (seg18_keep _ main_v96 (by decide)).trans (at17_main_v96 V)

/-! ## The whole program -/

theorem after_ops (V : Valuation τ sig (Elt F)) : after ops V = (after seg18 (after seg17 (after seg16 (after seg15 (after seg14 (after seg13 (after seg12 (after seg11 (after seg10 (after seg9 (after seg8 (after seg7 (after seg6 (after seg5 (after seg4 (after seg3 (after seg2 (after seg1 V)))))))))))))))))) := by
  unfold ops part0 part1 part2
  simp only [after_append]

theorem out_main_v96 (V : Valuation τ sig (Elt F)) :
    after ops V (main_v96 : DevRef τ sig) = R96 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [after_ops]
  exact at18_main_v96 V

theorem out_main_v111 (V : Valuation τ sig (Elt F)) :
    after ops V (main_v111 : DevRef τ sig) = R111 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg15 : DevRef τ sig)) (V (main_arg16 : DevRef τ sig)) (V (main_arg17 : DevRef τ sig)) (V (main_arg18 : DevRef τ sig)) := by
  rw [after_ops]
  exact at18_main_v111 V

theorem out_main_arg0 (V : Valuation τ sig (Elt F)) : after ops V (main_arg0 : DevRef τ sig) = V (main_arg0 : DevRef τ sig) := by
  rw [after_ops]
  exact keepAll18 V main_arg0 (by decide)

theorem out_main_arg1 (V : Valuation τ sig (Elt F)) : after ops V (main_arg1 : DevRef τ sig) = V (main_arg1 : DevRef τ sig) := by
  rw [after_ops]
  exact keepAll18 V main_arg1 (by decide)

theorem out_main_arg2 (V : Valuation τ sig (Elt F)) : after ops V (main_arg2 : DevRef τ sig) = V (main_arg2 : DevRef τ sig) := by
  rw [after_ops]
  exact keepAll18 V main_arg2 (by decide)

theorem out_main_arg3 (V : Valuation τ sig (Elt F)) : after ops V (main_arg3 : DevRef τ sig) = V (main_arg3 : DevRef τ sig) := by
  rw [after_ops]
  exact keepAll18 V main_arg3 (by decide)

theorem out_main_arg4 (V : Valuation τ sig (Elt F)) : after ops V (main_arg4 : DevRef τ sig) = V (main_arg4 : DevRef τ sig) := by
  rw [after_ops]
  exact keepAll18 V main_arg4 (by decide)

theorem out_main_arg5 (V : Valuation τ sig (Elt F)) : after ops V (main_arg5 : DevRef τ sig) = V (main_arg5 : DevRef τ sig) := by
  rw [after_ops]
  exact keepAll18 V main_arg5 (by decide)

theorem out_main_arg6 (V : Valuation τ sig (Elt F)) : after ops V (main_arg6 : DevRef τ sig) = V (main_arg6 : DevRef τ sig) := by
  rw [after_ops]
  exact keepAll18 V main_arg6 (by decide)

theorem out_main_arg7 (V : Valuation τ sig (Elt F)) : after ops V (main_arg7 : DevRef τ sig) = V (main_arg7 : DevRef τ sig) := by
  rw [after_ops]
  exact keepAll18 V main_arg7 (by decide)

theorem out_main_arg8 (V : Valuation τ sig (Elt F)) : after ops V (main_arg8 : DevRef τ sig) = V (main_arg8 : DevRef τ sig) := by
  rw [after_ops]
  exact keepAll18 V main_arg8 (by decide)

theorem out_main_arg9 (V : Valuation τ sig (Elt F)) : after ops V (main_arg9 : DevRef τ sig) = V (main_arg9 : DevRef τ sig) := by
  rw [after_ops]
  exact keepAll18 V main_arg9 (by decide)

theorem out_main_arg10 (V : Valuation τ sig (Elt F)) : after ops V (main_arg10 : DevRef τ sig) = V (main_arg10 : DevRef τ sig) := by
  rw [after_ops]
  exact keepAll18 V main_arg10 (by decide)

theorem out_main_arg11 (V : Valuation τ sig (Elt F)) : after ops V (main_arg11 : DevRef τ sig) = V (main_arg11 : DevRef τ sig) := by
  rw [after_ops]
  exact keepAll18 V main_arg11 (by decide)

theorem out_main_arg12 (V : Valuation τ sig (Elt F)) : after ops V (main_arg12 : DevRef τ sig) = V (main_arg12 : DevRef τ sig) := by
  rw [after_ops]
  exact keepAll18 V main_arg12 (by decide)

theorem out_main_arg13 (V : Valuation τ sig (Elt F)) : after ops V (main_arg13 : DevRef τ sig) = V (main_arg13 : DevRef τ sig) := by
  rw [after_ops]
  exact keepAll18 V main_arg13 (by decide)

theorem out_main_arg14 (V : Valuation τ sig (Elt F)) : after ops V (main_arg14 : DevRef τ sig) = V (main_arg14 : DevRef τ sig) := by
  rw [after_ops]
  exact keepAll18 V main_arg14 (by decide)

theorem out_main_arg15 (V : Valuation τ sig (Elt F)) : after ops V (main_arg15 : DevRef τ sig) = V (main_arg15 : DevRef τ sig) := by
  rw [after_ops]
  exact keepAll18 V main_arg15 (by decide)

theorem out_main_arg16 (V : Valuation τ sig (Elt F)) : after ops V (main_arg16 : DevRef τ sig) = V (main_arg16 : DevRef τ sig) := by
  rw [after_ops]
  exact keepAll18 V main_arg16 (by decide)

theorem out_main_arg17 (V : Valuation τ sig (Elt F)) : after ops V (main_arg17 : DevRef τ sig) = V (main_arg17 : DevRef τ sig) := by
  rw [after_ops]
  exact keepAll18 V main_arg17 (by decide)

theorem out_main_arg18 (V : Valuation τ sig (Elt F)) : after ops V (main_arg18 : DevRef τ sig) = V (main_arg18 : DevRef τ sig) := by
  rw [after_ops]
  exact keepAll18 V main_arg18 (by decide)

end Cert.ReferenceIdeal.RefValue

end
-- ==== Proof.LibEgnnHost.lean ====
/-
  Host spellings of a message-passing layer's pieces, each as the whole-matrix function it denotes over the extended reals:
  the length of a row of three shifted coordinates; the contraction of three blocks laid side by side with a weight, as the
  sum of the blocks' products with the weight's bands of rows; a variance whose divisor is a float constant less the
  conversion of the integer zero, guarded by a comparison that holds; and layer normalisation, the mean and the mean square
  each a row sum from zero, stood up as a column, divided by a broadcast scalar.
-/
import proofs.«138794_j50809463111709_2_alg».proof.Proof.LibEgnnLayers
import proofs.«138794_j50809463111709_2_alg».proof.Proof.LibRelGraphHost

noncomputable section

namespace Cert.EgnnHost

open scoped BigOperators
open Idealize.ShloMosaic Idealize.ShloMosaic.ValueIdx Cert.LibPlainDot Cert.LibMatProd Cert.Layers Cert.NormLayers Cert.CompGcn
  Cert.LibKeepdims Cert.Egnn

/-! ## Constants -/

/-- The float word of sixty-four denotes the real sixty-four. -/
theorem ofBits_64 : Ideal.ofBits .f32 0x42800000#32 = ((64 : ℝ) : EReal) := by
  simp [Ideal.ofBits, Ideal.ieee, -EReal.coe_mul]; norm_num

/-- Sixty-four exceeds zero, as the host's ordered comparison reads it. -/
theorem cmp_64_pos : Ideal.cmp .ogt (Ideal.ofBits .f32 0x42800000#32) (Ideal.ofBits .f32 0x00000000#32) = 1#1 := by
  rw [ofBits_64, Ideal.ofBits_zero_f32]
  have h : (0 : EReal) < ((64 : ℝ) : EReal) := by exact_mod_cast (by norm_num : (0 : ℝ) < 64)
  simp [Ideal.cmp, h]

/-- The float constant less the conversion of the integer zero is the constant. -/
theorem const_sub_zero (w : BitVec 32) :
    subf (constant (F := Ideal) ⟨0, ![]⟩ .f32 w) (sitofp .f32 (constantI ⟨0, ![]⟩ 32 0#32)) = constant (F := Ideal) ⟨0, ![]⟩ .f32 w := by
  funext i
  show Ideal.ofBits .f32 w - (((0#32 : BitVec 32).toInt : ℝ) : EReal) = Ideal.ofBits .f32 w
  simp

/-! ## The length of a row of three shifted coordinates -/

/-- The root of a row's sum of squares, the row sum taken from a scalar zero and stood up as a column. -/
theorem host_norm_apply {M : ℕ} (A : FVec Ideal ⟨2, ![M, 3]⟩ .f32)
    (hrt : (⟨2, ![M, 3]⟩ : Shape).ReducesTo [1] (⟨1, ![M]⟩ : Shape)) (hr : (⟨2, ![M, 3]⟩ : Shape).Reduces [1] (⟨1, ![M]⟩ : Shape))
    (hu : 0 < (⟨0, ![]⟩ : Shape).numel) (h1 : (⟨1, ![M]⟩ : Shape).BroadcastsInDim ⟨2, ![M, 1]⟩ ![0]) (p : Fin M) (u : Fin 1) :
    Host.sqrt (F := Ideal) (broadcastInDim ⟨2, ![M, 1]⟩ ![0] h1
      (Host.reduceAdd (mulf A A) (constant (F := Ideal) ⟨0, ![]⟩ .f32 0x00000000#32) hrt hu)) (ix2 p u)
      = Ideal.sqrt (∑ k : Fin 3, A (ix2 p k) * A (ix2 p k)) := by
  have hs : ∀ (v : FVec Ideal ⟨2, ![M, 1]⟩ .f32) (i : (⟨2, ![M, 1]⟩ : Shape).Idx), Host.sqrt (F := Ideal) v i = Ideal.sqrt (v i) :=
    fun _ _ => rfl
  rw [hs, bcast_a_a1_apply, hostReduceAdd_apply, Ideal.hostReduceAdd_single hrt hr]
  show Ideal.sqrt (Ideal.ofBits .f32 0x00000000#32 + ∑ k : Fin 3, mulf A A (hr.lift (ix1 p) k)) = _
  rw [Ideal.ofBits_zero_f32, zero_add]
  exact congrArg Ideal.sqrt (Finset.sum_congr rfl fun k _ => by rw [lift_last2 hr p k, mulf_apply])

theorem host_dist {M : ℕ} (rel : FVec Ideal ⟨2, ![M, 3]⟩ .f32)
    (h0 : (⟨0, ![]⟩ : Shape).BroadcastsInDim ⟨2, ![M, 3]⟩ ![])
    (hrt : (⟨2, ![M, 3]⟩ : Shape).ReducesTo [1] (⟨1, ![M]⟩ : Shape)) (hr : (⟨2, ![M, 3]⟩ : Shape).Reduces [1] (⟨1, ![M]⟩ : Shape))
    (hu : 0 < (⟨0, ![]⟩ : Shape).numel) (h1 : (⟨1, ![M]⟩ : Shape).BroadcastsInDim ⟨2, ![M, 1]⟩ ![0]) :
    Host.sqrt (F := Ideal) (broadcastInDim ⟨2, ![M, 1]⟩ ![0] h1
      (Host.reduceAdd
        (mulf (addf rel (broadcastInDim ⟨2, ![M, 3]⟩ ![] h0 (constant (F := Ideal) ⟨0, ![]⟩ .f32 0x322BCC77#32)))
          (addf rel (broadcastInDim ⟨2, ![M, 3]⟩ ![] h0 (constant (F := Ideal) ⟨0, ![]⟩ .f32 0x322BCC77#32))))
        (constant (F := Ideal) ⟨0, ![]⟩ .f32 0x00000000#32) hrt hu))
      = dist (rel : Mat M 3) := by
  funext j
  obtain ⟨p, u, rfl⟩ : ∃ (p : Fin M) (u : Fin 1), j = ix2 p u := ⟨j 0, j 1, eq_ix2 j⟩
  rw [host_norm_apply _ hrt hr hu h1 p u]
  refine congrArg Ideal.sqrt (Finset.sum_congr rfl fun k _ => ?_)
  rw [addf_apply, broadcastInDim_scalar_apply]
  rfl

/-! ## Three blocks side by side against a weight -/

/-- A sum over 129 indices is the sum over the first 64, plus the sum over the next 64, plus the last term. -/
theorem sum_fin129 (f : Fin 129 → EReal) :
    ∑ k, f k = (∑ k : Fin 64, f ⟨k.val, by omega⟩) + (∑ k : Fin 64, f ⟨64 + k.val, by omega⟩) + f ⟨128, by omega⟩ := by
  rw [show (∑ k : Fin 129, f k) = ∑ k : Fin (128 + 1), f k from rfl, Fin.sum_univ_castSucc,
    show (∑ k : Fin 128, f (Fin.castSucc k)) = ∑ k : Fin (64 + 64), f (Fin.castSucc k) from rfl, Fin.sum_univ_add]
  rfl

section Concat

variable {M : ℕ}
  (hc : Shape.Concatenates [(⟨2, ![M, 64]⟩ : Shape), ⟨2, ![M, 64]⟩, ⟨2, ![M, 1]⟩] ⟨2, ![M, 129]⟩ 1)
  (x y : FVec Ideal ⟨2, ![M, 64]⟩ .f32) (z : FVec Ideal ⟨2, ![M, 1]⟩ .f32)

theorem concat3_first (p : Fin M) (k : Fin 64) :
    concatenate (α := Ideal .f32) ⟨2, ![M, 129]⟩ 1 [⟨⟨2, ![M, 64]⟩, x⟩, ⟨⟨2, ![M, 64]⟩, y⟩, ⟨⟨2, ![M, 1]⟩, z⟩] hc (ix2 p ⟨k.val, by omega⟩)
      = x (ix2 p k) :=
  concatenate_apply_piece (α := Ideal .f32) (t := ⟨2, ![M, 129]⟩) 1 [⟨⟨2, ![M, 64]⟩, x⟩, ⟨⟨2, ![M, 64]⟩, y⟩, ⟨⟨2, ![M, 1]⟩, z⟩] hc _ 0 (by show (0 : ℕ) < 3; omega) ⟨2, ![M, 64]⟩ x rfl rfl 0 rfl (ix2 p k)
    (fun b hb => by
      match b with
      | ⟨0, _⟩ => rfl
      | ⟨1, _⟩ => exact absurd rfl hb)
    (Nat.zero_add _)

theorem concat3_second (p : Fin M) (k : Fin 64) :
    concatenate (α := Ideal .f32) ⟨2, ![M, 129]⟩ 1 [⟨⟨2, ![M, 64]⟩, x⟩, ⟨⟨2, ![M, 64]⟩, y⟩, ⟨⟨2, ![M, 1]⟩, z⟩] hc (ix2 p ⟨64 + k.val, by omega⟩)
      = y (ix2 p k) :=
  concatenate_apply_piece (α := Ideal .f32) (t := ⟨2, ![M, 129]⟩) 1 [⟨⟨2, ![M, 64]⟩, x⟩, ⟨⟨2, ![M, 64]⟩, y⟩, ⟨⟨2, ![M, 1]⟩, z⟩] hc _ 1 (by show (1 : ℕ) < 3; omega) ⟨2, ![M, 64]⟩ y rfl rfl 64 rfl (ix2 p k)
    (fun b hb => by
      match b with
      | ⟨0, _⟩ => rfl
      | ⟨1, _⟩ => exact absurd rfl hb)
    rfl

theorem concat3_third (p : Fin M) :
    concatenate (α := Ideal .f32) ⟨2, ![M, 129]⟩ 1 [⟨⟨2, ![M, 64]⟩, x⟩, ⟨⟨2, ![M, 64]⟩, y⟩, ⟨⟨2, ![M, 1]⟩, z⟩] hc (ix2 p ⟨128, by omega⟩)
      = z (ix2 p (0 : Fin 1)) :=
  concatenate_apply_piece (α := Ideal .f32) (t := ⟨2, ![M, 129]⟩) 1 [⟨⟨2, ![M, 64]⟩, x⟩, ⟨⟨2, ![M, 64]⟩, y⟩, ⟨⟨2, ![M, 1]⟩, z⟩] hc _ 2 (by show (2 : ℕ) < 3; omega) ⟨2, ![M, 1]⟩ z rfl rfl 128 rfl (ix2 p (0 : Fin 1))
    (fun b hb => by
      match b with
      | ⟨0, _⟩ => rfl
      | ⟨1, _⟩ => exact absurd rfl hb)
    rfl

/-- The contraction of [x | y | z] with a 129-row weight: x against rows 0–63, y against rows 64–127, z against row 128. -/
theorem host_edgeDot (d : DotDims ⟨2, ![M, 129]⟩ ⟨2, ![129, 64]⟩ ⟨2, ![M, 64]⟩)
    (h1 : d.lhsContracting = [1]) (h2 : d.rhsContracting = [0]) (h3 : d.lhsNonContracting = [0])
    (h4 : d.rhsNonContracting = [1]) (h5 : d.lhsBatch = []) (h6 : d.rhsBatch = []) (w : FVec Ideal ⟨2, ![129, 64]⟩ .f32) :
    Host.dotGeneral (F := Ideal) d none
        (concatenate (α := Ideal .f32) ⟨2, ![M, 129]⟩ 1 [⟨⟨2, ![M, 64]⟩, x⟩, ⟨⟨2, ![M, 64]⟩, y⟩, ⟨⟨2, ![M, 1]⟩, z⟩] hc) w
      = plus (plus (matProd (x : Mat M 64) (band 64 0 (by omega) (w : Mat 129 64))) (matProd (y : Mat M 64) (band 64 64 (by omega) (w : Mat 129 64))))
          (outer (z : Mat M 1) (band 1 128 (by omega) (w : Mat 129 64))) := by
  rw [host_prod d h1 h2 h3 h4 h5 h6]
  funext j
  obtain ⟨p, q, rfl⟩ : ∃ (p : Fin M) (q : Fin 64), j = ix2 p q := ⟨j 0, j 1, eq_ix2 j⟩
  show matProd _ w (ix2 p q)
      = (matProd x (band 64 0 (by omega) w) (ix2 p q) + matProd y (band 64 64 (by omega) w) (ix2 p q))
        + z (ix2 p (0 : Fin 1)) * band 1 128 (by omega) w (ix2 (0 : Fin 1) q)
  rw [matProd_apply, matProd_apply, matProd_apply, sum_fin129]
  have hA : ∀ k : Fin 64, band 64 0 (by omega) w (ix2 k q) = w (ix2 (⟨k.val, by omega⟩ : Fin 129) q) := fun k =>
    band_apply 64 0 _ w _ _ (Nat.zero_add _).symm rfl
  have hB : ∀ k : Fin 64, band 64 64 (by omega) w (ix2 k q) = w (ix2 (⟨64 + k.val, by omega⟩ : Fin 129) q) := fun k =>
    band_apply 64 64 _ w _ _ rfl rfl
  have hC : band 1 128 (by omega) w (ix2 (0 : Fin 1) q) = w (ix2 (⟨128, by omega⟩ : Fin 129) q) :=
    band_apply 1 128 _ w _ _ rfl rfl
  rw [hC, concat3_third hc x y z p]
  congr 1
  congr 1
  · exact Finset.sum_congr rfl fun k _ => by rw [concat3_first hc x y z p k, hA k]
  · exact Finset.sum_congr rfl fun k _ => by rw [concat3_second hc x y z p k, hB k]

end Concat

/-! ## The variance's guarded quotient -/

/-- The quotient by (the constant sixty-four less the conversion of the integer zero), selected where that divisor exceeds
    zero and a not-a-number elsewhere, is the quotient by sixty-four. -/
theorem host_guarded_div {M : ℕ} (v : FVec Ideal ⟨2, ![M, 1]⟩ .f32)
    (h0 : (⟨0, ![]⟩ : Shape).BroadcastsInDim ⟨2, ![M, 1]⟩ ![]) :
    select (broadcastInDim ⟨2, ![M, 1]⟩ ![] h0
        (cmpf .ogt (subf (constant (F := Ideal) ⟨0, ![]⟩ .f32 0x42800000#32) (sitofp .f32 (constantI ⟨0, ![]⟩ 32 0#32)))
          (constant (F := Ideal) ⟨0, ![]⟩ .f32 0x00000000#32)))
      (Host.divf (F := Ideal) v (broadcastInDim ⟨2, ![M, 1]⟩ ![] h0
        (subf (constant (F := Ideal) ⟨0, ![]⟩ .f32 0x42800000#32) (sitofp .f32 (constantI ⟨0, ![]⟩ 32 0#32)))))
      (broadcastInDim ⟨2, ![M, 1]⟩ ![] h0 (constant (F := Ideal) ⟨0, ![]⟩ .f32 0x7FC00000#32))
      = Host.divf (F := Ideal) v (broadcastInDim ⟨2, ![M, 1]⟩ ![] h0 (constant (F := Ideal) ⟨0, ![]⟩ .f32 0x42800000#32)) := by
  rw [const_sub_zero]
  funext j
  rw [select_apply, broadcastInDim_scalar_apply]
  show Scalar.select (Ideal.cmp .ogt (Ideal.ofBits .f32 0x42800000#32) (Ideal.ofBits .f32 0x00000000#32)) _ _ = _
  rw [cmp_64_pos]
  rfl

/-! ## Layer normalisation -/

/-- The host's layer normalisation: deviations from the row means, times the reciprocal root of (their mean square plus a
    broadcast scalar), times a gain vector as a row, plus an offset vector as a row. -/
theorem host_lnorm {M N : ℕ} (x : FVec Ideal ⟨2, ![M, N]⟩ .f32) (g b : FVec Ideal ⟨1, ![N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel)
    (h1 : (⟨1, ![M]⟩ : Shape).BroadcastsInDim ⟨2, ![M, 1]⟩ ![0]) (h0 : (⟨0, ![]⟩ : Shape).BroadcastsInDim ⟨2, ![M, 1]⟩ ![])
    (hb : (⟨2, ![M, 1]⟩ : Shape).BroadcastsInDim ⟨2, ![M, N]⟩ ![0, 1])
    (hrow : (⟨1, ![N]⟩ : Shape).BroadcastsInDim ⟨2, ![1, N]⟩ ![1])
    (hbc : (⟨2, ![1, N]⟩ : Shape).BroadcastsInDim ⟨2, ![M, N]⟩ ![0, 1]) (dw εw : BitVec 32) :
    addf (mulf (mulf
        (subf x (broadcastInDim ⟨2, ![M, N]⟩ ![0, 1] hb (Host.divf (F := Ideal) (broadcastInDim ⟨2, ![M, 1]⟩ ![0] h1
            (Host.reduceAdd x (constant (F := Ideal) ⟨0, ![]⟩ .f32 0x00000000#32) hrt hu))
          (broadcastInDim ⟨2, ![M, 1]⟩ ![] h0 (constant (F := Ideal) ⟨0, ![]⟩ .f32 dw)))))
        (broadcastInDim ⟨2, ![M, N]⟩ ![0, 1] hb (Host.rsqrt (F := Ideal) (addf
          (Host.divf (F := Ideal) (broadcastInDim ⟨2, ![M, 1]⟩ ![0] h1
              (Host.reduceAdd (mulf
                  (subf x (broadcastInDim ⟨2, ![M, N]⟩ ![0, 1] hb (Host.divf (F := Ideal) (broadcastInDim ⟨2, ![M, 1]⟩ ![0] h1
                      (Host.reduceAdd x (constant (F := Ideal) ⟨0, ![]⟩ .f32 0x00000000#32) hrt hu))
                    (broadcastInDim ⟨2, ![M, 1]⟩ ![] h0 (constant (F := Ideal) ⟨0, ![]⟩ .f32 dw)))))
                  (subf x (broadcastInDim ⟨2, ![M, N]⟩ ![0, 1] hb (Host.divf (F := Ideal) (broadcastInDim ⟨2, ![M, 1]⟩ ![0] h1
                      (Host.reduceAdd x (constant (F := Ideal) ⟨0, ![]⟩ .f32 0x00000000#32) hrt hu))
                    (broadcastInDim ⟨2, ![M, 1]⟩ ![] h0 (constant (F := Ideal) ⟨0, ![]⟩ .f32 dw))))))
                (constant (F := Ideal) ⟨0, ![]⟩ .f32 0x00000000#32) hrt hu))
            (broadcastInDim ⟨2, ![M, 1]⟩ ![] h0 (constant (F := Ideal) ⟨0, ![]⟩ .f32 dw)))
          (broadcastInDim ⟨2, ![M, 1]⟩ ![] h0 (constant (F := Ideal) ⟨0, ![]⟩ .f32 εw))))))
        (broadcastInDim ⟨2, ![M, N]⟩ ![0, 1] hbc (broadcastInDim ⟨2, ![1, N]⟩ ![1] hrow g)))
      (broadcastInDim ⟨2, ![M, N]⟩ ![0, 1] hbc (broadcastInDim ⟨2, ![1, N]⟩ ![1] hrow b))
      = lnorm (Ideal.ofBits .f32 dw) (Ideal.ofBits .f32 εw) (x : Mat M N) (rowOf g) (rowOf b) := by
  rw [host_addRow _ b hrow hbc, host_mulVec _ g hrow hbc, host_scaled _ hrt hr hu h1 h0 hb dw εw,
    host_centred x hrt hr hu h1 h0 hb dw]
  rfl

end Cert.EgnnHost

end
-- ==== Proof.RefStages.lean ====
/-
  Every stage of the reference program as the function of whole matrices it denotes over the extended reals: the gathers fetch rows, the scatters sum rows at their targets,
  the contractions are matrix products, the broadcast offsets row additions, x · (1 / (1 + e^(−x))) is x · logistic x, and
  the two normalisations are layer normalisations with divisor sixty-four.
-/
import proofs.«138794_j50809463111709_2_alg».proof.Proof.RefSegs
import proofs.«138794_j50809463111709_2_alg».proof.Proof.LibEgnnHost
import proofs.«138794_j50809463111709_2_alg».proof.Proof.Spec

noncomputable section

namespace Cert.ReferenceIdeal.RefValue

open scoped BigOperators
open Cert.ReferenceIdeal Cert.ReferenceIdeal.Gen Idealize.ShloMosaic Idealize.ShloMosaic.ValueIdx
open Cert.LibPlainDot Cert.LibMatProd Cert.Layers Cert.NormLayers Cert.CompGcn Cert.CompGcn.HostForms Cert.LibKeepdims Cert.Egnn Cert.EgnnHost

/-! ## The three index columns, as the host operations compute them from the endpoint table -/

/-- The column of row numbers the gathers of the first endpoint read: row 0 of the table, clamped to the node range,
    negative numbers wrapped, stood up as a column. -/
def grOf (a2 : IVec ⟨2, ![2, 800000]⟩ 32) : IVec ⟨2, ![800000, 1]⟩ 32 :=
  ((broadcastInDim S800000x1 ![0] bcast_S800000_S800000x1_0 : IVec S800000 32 → IVec S800000x1 32) ((select : IVec S800000 1 → IVec S800000 32 → IVec S800000 32 → IVec S800000 32) ((cmpi .slt : IVec S800000 32 → IVec S800000 32 → IVec S800000 1) (minsi ((broadcastInDim S800000 ![] bcast_S_S800000) ((constantI S_ 32 49999#32) : IVec S_ 32) : IVec S800000 32) (maxsi ((broadcastInDim S800000 ![] bcast_S_S800000) ((constantI S_ 32 0#32) : IVec S_ 32) : IVec S800000 32) (shapeCast S800000 (extractStridedSlice S1x800000 ![0, 0] a2 slices_S2x800000_S1x800000_0_0 : IVec S1x800000 32) shapeCasts_S1x800000_S800000 : IVec S800000 32) : IVec S800000 32) : IVec S800000 32) ((broadcastInDim S800000 ![] bcast_S_S800000 : IVec S_ 32 → IVec S800000 32) ((constantI S_ 32 0#32) : IVec S_ 32) : IVec S800000 32) : IVec S800000 1) ((addi : IVec S800000 32 → IVec S800000 32 → IVec S800000 32) (minsi ((broadcastInDim S800000 ![] bcast_S_S800000) ((constantI S_ 32 49999#32) : IVec S_ 32) : IVec S800000 32) (maxsi ((broadcastInDim S800000 ![] bcast_S_S800000) ((constantI S_ 32 0#32) : IVec S_ 32) : IVec S800000 32) (shapeCast S800000 (extractStridedSlice S1x800000 ![0, 0] a2 slices_S2x800000_S1x800000_0_0 : IVec S1x800000 32) shapeCasts_S1x800000_S800000 : IVec S800000 32) : IVec S800000 32) : IVec S800000 32) ((broadcastInDim S800000 ![] bcast_S_S800000 : IVec S_ 32 → IVec S800000 32) ((constantI S_ 32 50000#32) : IVec S_ 32) : IVec S800000 32) : IVec S800000 32) (minsi ((broadcastInDim S800000 ![] bcast_S_S800000) ((constantI S_ 32 49999#32) : IVec S_ 32) : IVec S800000 32) (maxsi ((broadcastInDim S800000 ![] bcast_S_S800000) ((constantI S_ 32 0#32) : IVec S_ 32) : IVec S800000 32) (shapeCast S800000 (extractStridedSlice S1x800000 ![0, 0] a2 slices_S2x800000_S1x800000_0_0 : IVec S1x800000 32) shapeCasts_S1x800000_S800000 : IVec S800000 32) : IVec S800000 32) : IVec S800000 32) : IVec S800000 32) : IVec S800000x1 32)

/-- The same from row 1 of the table: the column the gathers of the second endpoint read. -/
def gcOf (a2 : IVec ⟨2, ![2, 800000]⟩ 32) : IVec ⟨2, ![800000, 1]⟩ 32 :=
  ((broadcastInDim S800000x1 ![0] bcast_S800000_S800000x1_0 : IVec S800000 32 → IVec S800000x1 32) ((select : IVec S800000 1 → IVec S800000 32 → IVec S800000 32 → IVec S800000 32) ((cmpi .slt : IVec S800000 32 → IVec S800000 32 → IVec S800000 1) (minsi ((broadcastInDim S800000 ![] bcast_S_S800000) ((constantI S_ 32 49999#32) : IVec S_ 32) : IVec S800000 32) (maxsi ((broadcastInDim S800000 ![] bcast_S_S800000) ((constantI S_ 32 0#32) : IVec S_ 32) : IVec S800000 32) (shapeCast S800000 (extractStridedSlice S1x800000 ![1, 0] a2 slices_S2x800000_S1x800000_1_0 : IVec S1x800000 32) shapeCasts_S1x800000_S800000 : IVec S800000 32) : IVec S800000 32) : IVec S800000 32) ((broadcastInDim S800000 ![] bcast_S_S800000 : IVec S_ 32 → IVec S800000 32) ((constantI S_ 32 0#32) : IVec S_ 32) : IVec S800000 32) : IVec S800000 1) ((addi : IVec S800000 32 → IVec S800000 32 → IVec S800000 32) (minsi ((broadcastInDim S800000 ![] bcast_S_S800000) ((constantI S_ 32 49999#32) : IVec S_ 32) : IVec S800000 32) (maxsi ((broadcastInDim S800000 ![] bcast_S_S800000) ((constantI S_ 32 0#32) : IVec S_ 32) : IVec S800000 32) (shapeCast S800000 (extractStridedSlice S1x800000 ![1, 0] a2 slices_S2x800000_S1x800000_1_0 : IVec S1x800000 32) shapeCasts_S1x800000_S800000 : IVec S800000 32) : IVec S800000 32) : IVec S800000 32) ((broadcastInDim S800000 ![] bcast_S_S800000 : IVec S_ 32 → IVec S800000 32) ((constantI S_ 32 50000#32) : IVec S_ 32) : IVec S800000 32) : IVec S800000 32) (minsi ((broadcastInDim S800000 ![] bcast_S_S800000) ((constantI S_ 32 49999#32) : IVec S_ 32) : IVec S800000 32) (maxsi ((broadcastInDim S800000 ![] bcast_S_S800000) ((constantI S_ 32 0#32) : IVec S_ 32) : IVec S800000 32) (shapeCast S800000 (extractStridedSlice S1x800000 ![1, 0] a2 slices_S2x800000_S1x800000_1_0 : IVec S1x800000 32) shapeCasts_S1x800000_S800000 : IVec S800000 32) : IVec S800000 32) : IVec S800000 32) : IVec S800000 32) : IVec S800000x1 32)

/-- Row 1 of the table, clamped to the node range, stood up as a column: the scatters' target rows. -/
def scOf (a2 : IVec ⟨2, ![2, 800000]⟩ 32) : IVec ⟨2, ![800000, 1]⟩ 32 :=
  ((broadcastInDim S800000x1 ![0] bcast_S800000_S800000x1_0 : IVec S800000 32 → IVec S800000x1 32) (minsi ((broadcastInDim S800000 ![] bcast_S_S800000) ((constantI S_ 32 49999#32) : IVec S_ 32) : IVec S800000 32) (maxsi ((broadcastInDim S800000 ![] bcast_S_S800000) ((constantI S_ 32 0#32) : IVec S_ 32) : IVec S800000 32) (shapeCast S800000 (extractStridedSlice S1x800000 ![1, 0] a2 slices_S2x800000_S1x800000_1_0 : IVec S1x800000 32) shapeCasts_S1x800000_S800000 : IVec S800000 32) : IVec S800000 32) : IVec S800000 32) : IVec S800000x1 32)

/-! ## The stages -/

theorem gather3_eq (a1 : Mat 50000 3) (col : IVec ⟨2, ![800000, 1]⟩ 32) :
    Host.gather gather_S50000x3_S800000x1_S800000x3_1_0_n_n_0_1_13 a1 col = gatherRows (a1 : Mat 50000 3) (sel col) :=
  gather2_eq (by decide) gather_S50000x3_S800000x1_S800000x3_1_0_n_n_0_1_13_wf a1 col

theorem gather64_eq (a0 : Mat 50000 64) (col : IVec ⟨2, ![800000, 1]⟩ 32) :
    Host.gather gather_S50000x64_S800000x1_S800000x64_1_0_n_n_0_1_164 a0 col = gatherRows (a0 : Mat 50000 64) (sel col) :=
  gather2_eq (by decide) gather_S50000x64_S800000x1_S800000x64_1_0_n_n_0_1_164_wf a0 col

theorem scatter64_eq (col : IVec ⟨2, ![800000, 1]⟩ 32) (u : Mat 800000 64) :
    Host.scatterAdd (F := Ideal) scatter_S50000x64_S800000x1_S800000x64_1_0_0_1
        (broadcastInDim S50000x64 ![] bcast_S_S50000x64 (constant (F := Ideal) S_ .f32 0x00000000#32)) col u
      = scatterRows (ScatterRows.tgt col) (u : Mat 800000 64) :=
  scatter2_eq scatter_S50000x64_S800000x1_S800000x64_1_0_0_1_wf bcast_S_S50000x64 col u

theorem scatter3_eq (col : IVec ⟨2, ![800000, 1]⟩ 32) (u : Mat 800000 3) :
    Host.scatterAdd (F := Ideal) scatter_S50000x3_S800000x1_S800000x3_1_0_0_1
        (broadcastInDim S50000x3 ![] bcast_S_S50000x3 (constant (F := Ideal) S_ .f32 0x00000000#32)) col u
      = scatterRows (ScatterRows.tgt col) (u : Mat 800000 3) :=
  scatter2_eq scatter_S50000x3_S800000x1_S800000x3_1_0_0_1_wf bcast_S_S50000x3 col u

/-- The relative positions. -/
theorem e20_eq (a1 : FVec Ideal S50000x3 .f32) (a2 : IVec S2x800000 32) :
    e20 (F := Ideal) a1 (e2 (F := Ideal) a2) (e5 (F := Ideal) a2) = relPos (grOf a2) (gcOf a2) (a1 : Mat 50000 3) := by
  show subf (Host.gather gather_S50000x3_S800000x1_S800000x3_1_0_n_n_0_1_13 a1 (grOf a2))
      (Host.gather gather_S50000x3_S800000x1_S800000x3_1_0_n_n_0_1_13 a1 (gcOf a2)) = _
  rw [gather3_eq, gather3_eq]
  rfl

/-- The lengths. -/
theorem e23_eq (x20 : FVec Ideal S800000x3 .f32) : e23 (F := Ideal) x20 = dist (x20 : Mat 800000 3) :=
  host_dist x20 bcast_S_S800000x3 reducesTo_S800000x3_S800000_d1 (by decide) h_S_ bcast_S800000_S800000x1_0

/-- The gathered feature rows. -/
theorem e30_eq (a0 : FVec Ideal S50000x64 .f32) (a2 : IVec S2x800000 32) :
    e30 (F := Ideal) a0 (e2 (F := Ideal) a2) = gatherRows (a0 : Mat 50000 64) (sel (grOf a2)) :=
  gather64_eq a0 (grOf a2)

theorem e37_eq (a0 : FVec Ideal S50000x64 .f32) (a2 : IVec S2x800000 32) :
    e37 (F := Ideal) a0 (e5 (F := Ideal) a2) = gatherRows (a0 : Mat 50000 64) (sel (gcOf a2)) :=
  gather64_eq a0 (gcOf a2)

/-- The first edge layer with its activation. -/
theorem e43_eq (x30 x37 : FVec Ideal S800000x64 .f32) (x23 : FVec Ideal S800000x1 .f32) (a3 : FVec Ideal S129x64 .f32) (a4 : FVec Ideal S64 .f32) :
    e43 (F := Ideal) x30 x37 x23 a3 a4
      = silu (edgePre (x30 : Mat 800000 64) (x37 : Mat 800000 64) (x23 : Mat 800000 1) (a3 : Mat 129 64) (rowOf a4)) := by
  unfold e43
  rw [host_silu _ bcast_S_S800000x64, host_addRow _ a4 bcast_S64_S1x64_1 bcast_S1x64_S800000x64_0_1,
    host_edgeDot concatenates_S800000x64_S800000x64_S800000x1_S800000x129_d1 x30 x37 x23
      dot_S800000x129_S129x64_S800000x64_1_0_0_1_n_n rfl rfl rfl rfl rfl rfl a3]
  rfl

/-- The second edge layer. -/
theorem e47_eq (x43 : FVec Ideal S800000x64 .f32) (a5 : FVec Ideal S64x64 .f32) (a6 : FVec Ideal S64 .f32) :
    e47 (F := Ideal) (e44 (F := Ideal) x43 a5) (e46 (F := Ideal) a6) = dense (x43 : Mat 800000 64) (a5 : Mat 64 64) (rowOf a6) := by
  unfold e47 e44 e46
  rw [host_prod dot_S800000x64_S64x64_S800000x64_1_0_0_1_n_n rfl rfl rfl rfl rfl rfl,
    host_addRow _ a6 bcast_S64_S1x64_1 bcast_S1x64_S800000x64_0_1]
  rfl

/-- The edge normalisation. -/
theorem e65_eq (x47 : FVec Ideal S800000x64 .f32) (a7 : FVec Ideal S64 .f32) (a8 : FVec Ideal S64 .f32) :
    e65 (F := Ideal) x47 (e51 (F := Ideal) x47) (e52 (F := Ideal) x47) a7 a8
      = lnorm D64 EPS (x47 : Mat 800000 64) (rowOf a7) (rowOf a8) := by
  unfold e65 e51 e52
  rw [host_guarded_div _ bcast_S_S800000x1]
  exact host_lnorm x47 a7 a8 reducesTo_S800000x64_S800000_d1 (by decide) h_S_ bcast_S800000_S800000x1_0 bcast_S_S800000x1
    bcast_S800000x1_S800000x64_0_1 bcast_S64_S1x64_1 bcast_S1x64_S800000x64_0_1 0x42800000#32 0x3727C5AC#32

/-- The summed messages added to the node rows, through the first node layer. -/
theorem e73_eq (a0 : FVec Ideal S50000x64 .f32) (a2 : IVec S2x800000 32) (x65 : FVec Ideal S800000x64 .f32) (a9 : FVec Ideal S64x64 .f32) (a10 : FVec Ideal S64 .f32) :
    e73 (F := Ideal) a0 (e5 (F := Ideal) a2) x65 a9 a10
      = dense (plus (a0 : Mat 50000 64) (scatterRows (ScatterRows.tgt (scOf a2)) (x65 : Mat 800000 64))) (a9 : Mat 64 64) (rowOf a10) := by
  show addf (Host.dotGeneral (F := Ideal) dot_S50000x64_S64x64_S50000x64_1_0_0_1_n_n none
        (addf a0 (Host.scatterAdd (F := Ideal) scatter_S50000x64_S800000x1_S800000x64_1_0_0_1
          (broadcastInDim S50000x64 ![] bcast_S_S50000x64 (constant (F := Ideal) S_ .f32 0x00000000#32)) (scOf a2) x65)) a9)
      (broadcastInDim S50000x64 ![0, 1] bcast_S1x64_S50000x64_0_1 (broadcastInDim S1x64 ![1] bcast_S64_S1x64_1 a10)) = _
  rw [scatter64_eq, host_addRow _ a10 bcast_S64_S1x64_1 bcast_S1x64_S50000x64_0_1,
    host_prod dot_S50000x64_S64x64_S50000x64_1_0_0_1_n_n rfl rfl rfl rfl rfl rfl]
  rfl

/-- The second node layer over the activation of the first. -/
theorem e78_eq (x73 : FVec Ideal S50000x64 .f32) (a11 : FVec Ideal S64x64 .f32) (a12 : FVec Ideal S64 .f32) :
    e78 (F := Ideal) x73 a11 a12 = dense (silu (x73 : Mat 50000 64)) (a11 : Mat 64 64) (rowOf a12) := by
  unfold e78
  rw [host_addRow _ a12 bcast_S64_S1x64_1 bcast_S1x64_S50000x64_0_1,
    host_prod dot_S50000x64_S64x64_S50000x64_1_0_0_1_n_n rfl rfl rfl rfl rfl rfl, host_silu _ bcast_S_S50000x64]
  rfl

/-- The node normalisation. -/
theorem e96_eq (x78 : FVec Ideal S50000x64 .f32) (a13 : FVec Ideal S64 .f32) (a14 : FVec Ideal S64 .f32) :
    e96 (F := Ideal) x78 (e82 (F := Ideal) x78) (e83 (F := Ideal) x78) a13 a14
      = lnorm D64 EPS (x78 : Mat 50000 64) (rowOf a13) (rowOf a14) := by
  unfold e96 e82 e83
  rw [host_guarded_div _ bcast_S_S50000x1]
  exact host_lnorm x78 a13 a14 reducesTo_S50000x64_S50000_d1 (by decide) h_S_ bcast_S50000_S50000x1_0 bcast_S_S50000x1
    bcast_S50000x1_S50000x64_0_1 bcast_S64_S1x64_1 bcast_S1x64_S50000x64_0_1 0x42800000#32 0x3727C5AC#32

/-- The coordinate coefficients. -/
theorem e106_eq (x65 : FVec Ideal S800000x64 .f32) (a15 : FVec Ideal S64x64 .f32) (a16 : FVec Ideal S64 .f32) (a17 : FVec Ideal S64x1 .f32) (a18 : FVec Ideal S1 .f32) :
    e106 (F := Ideal) (e97 (F := Ideal) x65 a15) a16 a17 a18
      = posCoef (x65 : Mat 800000 64) (a15 : Mat 64 64) (rowOf a16) (a17 : Mat 64 1) (rowOf a18) := by
  unfold e106 e97
  rw [host_addRow _ a18 bcast_S1_S1x1_1 bcast_S1x1_S800000x1_0_1,
    host_prod dot_S800000x64_S64x1_S800000x1_1_0_0_1_n_n rfl rfl rfl rfl rfl rfl, host_silu _ bcast_S_S800000x64,
    host_addRow _ a16 bcast_S64_S1x64_1 bcast_S1x64_S800000x64_0_1,
    host_prod dot_S800000x64_S64x64_S800000x64_1_0_0_1_n_n rfl rfl rfl rfl rfl rfl]
  rfl

/-- The scaled relative positions summed at their targets. -/
theorem e111_eq (a2 : IVec S2x800000 32) (x20 : FVec Ideal S800000x3 .f32) (x106 : FVec Ideal S800000x1 .f32) :
    e111 (F := Ideal) (e5 (F := Ideal) a2) x20 x106
      = scatterRows (ScatterRows.tgt (scOf a2)) (rowScale (x20 : Mat 800000 3) (x106 : Mat 800000 1)) := by
  show Host.scatterAdd (F := Ideal) scatter_S50000x3_S800000x1_S800000x3_1_0_0_1
      (broadcastInDim S50000x3 ![] bcast_S_S50000x3 (constant (F := Ideal) S_ .f32 0x00000000#32)) (scOf a2)
      (mulf x20 (broadcastInDim S800000x3 ![0, 1] bcast_S800000x1_S800000x3_0_1 x106)) = _
  rw [scatter3_eq, host_rowScale bcast_S800000x1_S800000x3_0_1]

end Cert.ReferenceIdeal.RefValue

end
-- ==== Proof.RefMath.lean ====
/-
  The two results of the reference program as the layer's two functions of the arguments: the tower of the stages'
  functions, each stage read as the whole-matrix function it denotes.
-/
import proofs.«138794_j50809463111709_2_alg».proof.Proof.RefChain
import proofs.«138794_j50809463111709_2_alg».proof.Proof.RefStages

noncomputable section

namespace Cert.ReferenceIdeal.RefValue

open scoped BigOperators
open Cert.ReferenceIdeal Cert.ReferenceIdeal.Gen Idealize.ShloMosaic Idealize.ShloMosaic.ValueIdx
open Cert.LibPlainDot Cert.LibMatProd Cert.Layers Cert.NormLayers Cert.CompGcn Cert.CompGcn.HostForms Cert.LibKeepdims Cert.Egnn Cert.EgnnHost

/-! ## The two results -/

/-- The updated node features the program leaves are the layer's, at the three index columns the program computes. -/
theorem R96_eq (a0 : FVec Ideal S50000x64 .f32) (a1 : FVec Ideal S50000x3 .f32) (a2 : IVec S2x800000 32) (a3 : FVec Ideal S129x64 .f32) (a4 : FVec Ideal S64 .f32) (a5 : FVec Ideal S64x64 .f32) (a6 : FVec Ideal S64 .f32) (a7 : FVec Ideal S64 .f32) (a8 : FVec Ideal S64 .f32) (a9 : FVec Ideal S64x64 .f32) (a10 : FVec Ideal S64 .f32) (a11 : FVec Ideal S64x64 .f32) (a12 : FVec Ideal S64 .f32) (a13 : FVec Ideal S64 .f32) (a14 : FVec Ideal S64 .f32) :
    R96 (F := Ideal) a0 a1 a2 a3 a4 a5 a6 a7 a8 a9 a10 a11 a12 a13 a14
      = hUpd (grOf a2) (gcOf a2) (scOf a2) (a0 : Mat 50000 64) (a1 : Mat 50000 3) (a3 : Mat 129 64) a4 (a5 : Mat 64 64) a6 a7 a8
          (a9 : Mat 64 64) a10 (a11 : Mat 64 64) a12 a13 a14 := by
  unfold R96 R82 R83 R78 R73 R65 R51 R52 R47 R44 R46 R43 R30 R37 R23 R20 R2 R5
  rw [e96_eq, e78_eq, e73_eq, e65_eq, e47_eq, e43_eq, e30_eq, e37_eq, e23_eq, e20_eq]
  rfl

/-- The coordinate updates the program leaves are the layer's. -/
theorem R111_eq (a0 : FVec Ideal S50000x64 .f32) (a1 : FVec Ideal S50000x3 .f32) (a2 : IVec S2x800000 32) (a3 : FVec Ideal S129x64 .f32) (a4 : FVec Ideal S64 .f32) (a5 : FVec Ideal S64x64 .f32) (a6 : FVec Ideal S64 .f32) (a7 : FVec Ideal S64 .f32) (a8 : FVec Ideal S64 .f32) (a15 : FVec Ideal S64x64 .f32) (a16 : FVec Ideal S64 .f32) (a17 : FVec Ideal S64x1 .f32) (a18 : FVec Ideal S1 .f32) :
    R111 (F := Ideal) a0 a1 a2 a3 a4 a5 a6 a7 a8 a15 a16 a17 a18
      = posUpd (grOf a2) (gcOf a2) (scOf a2) (a0 : Mat 50000 64) (a1 : Mat 50000 3) (a3 : Mat 129 64) a4 (a5 : Mat 64 64) a6 a7 a8
          (a15 : Mat 64 64) a16 (a17 : Mat 64 1) a18 := by
  unfold R111 R106 R97 R65 R51 R52 R47 R44 R46 R43 R30 R37 R23 R20 R2 R5
  rw [e111_eq, e106_eq, e65_eq, e47_eq, e43_eq, e30_eq, e37_eq, e23_eq, e20_eq]
  rfl

end Cert.ReferenceIdeal.RefValue

end
-- ==== Proof.RefRun.lean ====
/-
  The reference program's run, read as the layer: from any memory with zero counters every weakly fair execution
  terminates with the two result buffers at the layer's updated node features and coordinate updates — at the three index
  columns the program computes from the endpoint table — and the arguments as they were.
-/
import proofs.«138794_j50809463111709_2_alg».proof.Proof.RefMath

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Egnn

theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v96)
          = hUpd (grOf (m ((c.tc : Thread nD τ).loc main_arg2))) (gcOf (m ((c.tc : Thread nD τ).loc main_arg2))) (scOf (m ((c.tc : Thread nD τ).loc main_arg2)))
              (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v111)
          = posUpd (grOf (m ((c.tc : Thread nD τ).loc main_arg2))) (gcOf (m ((c.tc : Thread nD τ).loc main_arg2))) (scOf (m ((c.tc : Thread nD τ).loc main_arg2)))
              (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c =>
    ⟨(h c main_v96).trans ((out_main_v96 _).trans (R96_eq _ _ _ _ _ _ _ _ _ _ _ _ _ _ _)),
     (h c main_v111).trans ((out_main_v111 _).trans (R111_eq _ _ _ _ _ _ _ _ _ _ _ _ _)),
     (h c main_arg0).trans (out_main_arg0 _),
     (h c main_arg1).trans (out_main_arg1 _),
     (h c main_arg2).trans (out_main_arg2 _),
     (h c main_arg3).trans (out_main_arg3 _),
     (h c main_arg4).trans (out_main_arg4 _),
     (h c main_arg5).trans (out_main_arg5 _),
     (h c main_arg6).trans (out_main_arg6 _),
     (h c main_arg7).trans (out_main_arg7 _),
     (h c main_arg8).trans (out_main_arg8 _),
     (h c main_arg9).trans (out_main_arg9 _),
     (h c main_arg10).trans (out_main_arg10 _),
     (h c main_arg11).trans (out_main_arg11 _),
     (h c main_arg12).trans (out_main_arg12 _),
     (h c main_arg13).trans (out_main_arg13 _),
     (h c main_arg14).trans (out_main_arg14 _),
     (h c main_arg15).trans (out_main_arg15 _),
     (h c main_arg16).trans (out_main_arg16 _),
     (h c main_arg17).trans (out_main_arg17 _),
     (h c main_arg18).trans (out_main_arg18 _)⟩)
    (run_main m ρ)

end Cert.ReferenceIdeal.RefValue

end
-- ==== Proof.lean ====
/-
  One message-passing layer of an equivariant graph network on 50000 nodes and 800000 edges, computed two ways.

  The reference gathers node features and positions at the clamped edge endpoints, forms for every edge the row
  [h(row) | h(col) | dist] (dist the length of the relative position, every coordinate shifted by a tiny constant), sends it
  through a dense layer with x · logistic x, a second dense layer and layer normalisation to get the edge message, sums the
  messages at the target nodes, and updates every node by two dense layers and layer normalisation of (features + summed
  messages); a second branch turns every message into one coefficient (dense, x · logistic x, dense to one number, tanh),
  scales the relative position by it and sums the scaled positions at the target nodes.

  The kernel program does the gathers on the host, runs the whole per-edge arithmetic in one kernel region that walks
  the edges in bands of 4000 and writes messages and scaled positions side by side into one 67-column array, sums that
  array at the target nodes with one scatter and cuts the sum into its two column groups, and runs the node update in a
  second kernel region that walks the nodes in bands of 5000. It splits the first weight into the two 64-row bands that
  meet h(row) and h(col) and the last row that meets dist.

  At the exact extended reals the two agree: a rounding to a narrower float format changes no value; the product of the
  129-column row with the weight is the sum of the three partial products (a regrouping of one finite sum); the
  per-edge and per-node arithmetic acts row by row, so a band of the result is the result of the band and the bands
  tile the arrays; and a sum at target rows works column by column, so cutting the scattered 67-column sum is the same
  as scattering messages and scaled positions separately. No finiteness of the inputs is used.

  The frames of the two kernel programs are the generated ones; the reference's frame is its run with the results
  dropped; the ideal pass rewrote nothing, so the idealization claim is trivial.
-/
import proofs.«138794_j50809463111709_2_alg».proof.Proof.KFinal
import proofs.«138794_j50809463111709_2_alg».proof.Proof.RefRun
import proofs.«138794_j50809463111709_2_alg».proof.Defs
import proofs.«138794_j50809463111709_2_alg».proof.Proof.Gen.Kernel
import proofs.«138794_j50809463111709_2_alg».proof.Proof.Gen.Kernel.Frame
import proofs.«138794_j50809463111709_2_alg».proof.Proof.Gen.KernelIdeal
import proofs.«138794_j50809463111709_2_alg».proof.Proof.Gen.KernelIdeal.Frame
import proofs.«138794_j50809463111709_2_alg».proof.Proof.Gen.ReferenceIdeal
import proofs.«138794_j50809463111709_2_alg».proof.Proof.Gen.Pre_finite_inputs
import Idealize.ShloMosaic.Adequacy
import Idealize.ShloMosaic.Init

set_option maxRecDepth 16384

noncomputable section

namespace Cert.Proof

open Idealize.ShloMosaic Idealize.SL.Sem

/-- The two programs build the same three index columns from the edge table: the same host operations in the same
    order. -/
theorem gr_eq (x : IVec ⟨2, ![2, 800000]⟩ 32) : Cert.ReferenceIdeal.RefValue.grOf x = Cert.KernelIdeal.KValue.grK x := rfl
theorem gc_eq (x : IVec ⟨2, ![2, 800000]⟩ 32) : Cert.ReferenceIdeal.RefValue.gcOf x = Cert.KernelIdeal.KValue.gcK x := rfl
theorem sc_eq (x : IVec ⟨2, ![2, 800000]⟩ 32) : Cert.ReferenceIdeal.RefValue.scOf x = Cert.KernelIdeal.KValue.scK x := rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.RefValue.run m ρ)

set_option maxHeartbeats 4000000 in
/-- Both idealized programs, run from memories that agree on the arguments, end with the node update and the
    coordinate update of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Egnn.hUpd (Cert.KernelIdeal.KValue.grK (m ((c.tc : Thread Cert.KernelIdeal.nD Cert.KernelIdeal.τ).loc Cert.KernelIdeal.main_arg2))) (Cert.KernelIdeal.KValue.gcK (m ((c.tc : Thread Cert.KernelIdeal.nD Cert.KernelIdeal.τ).loc Cert.KernelIdeal.main_arg2))) (Cert.KernelIdeal.KValue.scK (m ((c.tc : Thread Cert.KernelIdeal.nD Cert.KernelIdeal.τ).loc Cert.KernelIdeal.main_arg2))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.Egnn.posUpd (Cert.KernelIdeal.KValue.grK (m ((c.tc : Thread Cert.KernelIdeal.nD Cert.KernelIdeal.τ).loc Cert.KernelIdeal.main_arg2))) (Cert.KernelIdeal.KValue.gcK (m ((c.tc : Thread Cert.KernelIdeal.nD Cert.KernelIdeal.τ).loc Cert.KernelIdeal.main_arg2))) (Cert.KernelIdeal.KValue.scK (m ((c.tc : Thread Cert.KernelIdeal.nD Cert.KernelIdeal.τ).loc Cert.KernelIdeal.main_arg2))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    Cert.KernelIdeal.KValue.run m ρ, ?_⟩
  refine (θ_run Cert.ReferenceIdeal.defs _ _).mono (fun r h c => ?_) (Cert.ReferenceIdeal.RefValue.run m' ρ')
  obtain ⟨e0, e1, e2, e3, e4, e5, e6, e7, e8, e9, e10, e11, e12, e13, e14, e15, e16, e17, e18⟩ := hagree c
  obtain ⟨h0, h1, hrest⟩ := h c
  refine ⟨h0.trans ?_, h1.trans ?_, hrest⟩
  · rw [e0, e1, e2, e3, e4, e5, e6, e7, e8, e9, e10, e11, e12, e13, e14, gr_eq, gc_eq, sc_eq]
  · rw [e0, e1, e2, e3, e4, e5, e6, e7, e8, e15, e16, e17, e18, gr_eq, gc_eq, sc_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
